-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)) →
    ∃ (v0 : (c : Dev Cert.KernelIdeal.nD) → Buf (Elt Ideal) ((c.tc : Thread Cert.KernelIdeal.nD Cert.KernelIdeal.τ).loc Cert.KernelIdeal.main_v105_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v105_0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v111) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x1500000 : Shape := ⟨2, ![2, 1500000]⟩
abbrev S100000x10 : Shape := ⟨2, ![100000, 10]⟩
abbrev S50000x10 : Shape := ⟨2, ![50000, 10]⟩
abbrev S100000x3x8 : Shape := ⟨3, ![100000, 3, 8]⟩
abbrev S50000x3x8 : Shape := ⟨3, ![50000, 3, 8]⟩
abbrev S100000x128 : Shape := ⟨2, ![100000, 128]⟩
abbrev S50000x128 : Shape := ⟨2, ![50000, 128]⟩
abbrev S5000x128 : Shape := ⟨2, ![5000, 128]⟩
abbrev S8000x128 : Shape := ⟨2, ![8000, 128]⟩
abbrev S30000x64 : Shape := ⟨2, ![30000, 64]⟩
abbrev S320x128 : Shape := ⟨2, ![320, 128]⟩
abbrev S128 : Shape := ⟨1, ![128]⟩
abbrev S256x128 : Shape := ⟨2, ![256, 128]⟩
abbrev S128x128 : Shape := ⟨2, ![128, 128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S50000x128 : S_.BroadcastsInDim S50000x128 (![] : Fin 0 → Fin S50000x128.rank)
  reducesTo_S50000x128_S_d0_1 : S50000x128.ReducesTo [0, 1] S_
  bcast_S_S5000x128 : S_.BroadcastsInDim S5000x128 (![] : Fin 0 → Fin S5000x128.rank)
  reducesTo_S5000x128_S_d0_1 : S5000x128.ReducesTo [0, 1] S_
  bcast_S_S8000x128 : S_.BroadcastsInDim S8000x128 (![] : Fin 0 → Fin S8000x128.rank)
  reducesTo_S8000x128_S_d0_1 : S8000x128.ReducesTo [0, 1] S_
  bcast_S_S30000x64 : S_.BroadcastsInDim S30000x64 (![] : Fin 0 → Fin S30000x64.rank)
  reducesTo_S30000x64_S_d0_1 : S30000x64.ReducesTo [0, 1] S_
  bcast_S_S320x128 : S_.BroadcastsInDim S320x128 (![] : Fin 0 → Fin S320x128.rank)
  reducesTo_S320x128_S_d0_1 : S320x128.ReducesTo [0, 1] S_
  bcast_S_S128 : S_.BroadcastsInDim S128 (![] : Fin 0 → Fin S128.rank)
  reducesTo_S128_S_d0 : S128.ReducesTo [0] S_
  bcast_S_S256x128 : S_.BroadcastsInDim S256x128 (![] : Fin 0 → Fin S256x128.rank)
  reducesTo_S256x128_S_d0_1 : S256x128.ReducesTo [0, 1] S_
  bcast_S_S128x128 : S_.BroadcastsInDim S128x128 (![] : Fin 0 → Fin S128x128.rank)
  reducesTo_S128x128_S_d0_1 : S128x128.ReducesTo [0, 1] S_

variable [Facts]

def fn_part4 {F : FTy → Type} [FloatOps F] (main_arg19 : FVec F S128 .f32) (main_arg20 : FVec F S128x128 .f32) (main_arg21 : FVec F S128 .f32) (main_v63 : IVec S_ 1) (main_v67 : IVec S_ 1) : IVec S_ 1 :=
  let main_v68 : IVec S_ 1 := andi main_v63 main_v67
  let main_v69 : FVec F S128 .f32 := Host.absf main_arg19
  let main_cst_26 : FVec F S_ .f32 := constant S_ .f32 0x7F800000#32
  let main_v70 : FVec F S128 .f32 := broadcastInDim S128 ![] bcast_S_S128 main_cst_26
  let main_v71 : IVec S128 1 := cmpf .olt main_v69 main_v70
  let main_c_27 : IVec S_ 1 := constantI S_ 1 1#1
  let main_v72 : IVec S_ 1 := (fun x v => Host.reduce IntOp.andi x v reducesTo_S128_S_d0 h_S_) main_v71 main_c_27
  let main_v73 : IVec S_ 1 := andi main_v68 main_v72
  let main_v74 : FVec F S128x128 .f32 := Host.absf main_arg20
  let main_cst_28 : FVec F S_ .f32 := constant S_ .f32 0x7F800000#32
  let main_v75 : FVec F S128x128 .f32 := broadcastInDim S128x128 ![] bcast_S_S128x128 main_cst_28
  let main_v76 : IVec S128x128 1 := cmpf .olt main_v74 main_v75
  let main_c_29 : IVec S_ 1 := constantI S_ 1 1#1
  let main_v77 : IVec S_ 1 := (fun x v => Host.reduce IntOp.andi x v reducesTo_S128x128_S_d0_1 h_S_) main_v76 main_c_29
  let main_v78 : IVec S_ 1 := andi main_v73 main_v77
  let main_v79 : FVec F S128 .f32 := Host.absf main_arg21
  let main_cst_30 : FVec F S_ .f32 := constant S_ .f32 0x7F800000#32
  let main_v80 : FVec F S128 .f32 := broadcastInDim S128 ![] bcast_S_S128 main_cst_30
  let main_v81 : IVec S128 1 := cmpf .olt main_v79 main_v80
  let main_c_31 : IVec S_ 1 := constantI S_ 1 1#1
  let main_v82 : IVec S_ 1 := (fun x v => Host.reduce IntOp.andi x v reducesTo_S128_S_d0 h_S_) main_v81 main_c_31
  let main_v83 : IVec S_ 1 := andi main_v78 main_v82
  main_v83

def fn_part3 {F : FTy → Type} [FloatOps F] (main_arg16 : FVec F S256x128 .f32) (main_arg17 : FVec F S128 .f32) (main_arg18 : FVec F S128x128 .f32) (main_arg19 : FVec F S128 .f32) (main_arg20 : FVec F S128x128 .f32) (main_arg21 : FVec F S128 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S256x128 .f32 := Host.absf main_arg16
  let main_cst_20 : FVec F S_ .f32 := constant S_ .f32 0x7F800000#32
  let main_v55 : FVec F S256x128 .f32 := broadcastInDim S256x128 ![] bcast_S_S256x128 main_cst_20
  let main_v56 : IVec S256x128 1 := cmpf .olt main_v54 main_v55
  let main_c_21 : IVec S_ 1 := constantI S_ 1 1#1
  let main_v57 : IVec S_ 1 := (fun x v => Host.reduce IntOp.andi x v reducesTo_S256x128_S_d0_1 h_S_) main_v56 main_c_21
  let main_v58 : IVec S_ 1 := andi main_v53 main_v57
  let main_v59 : FVec F S128 .f32 := Host.absf main_arg17
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : FVec F S128x128 .f32 := Host.absf main_arg18
  let main_cst_24 : FVec F S_ .f32 := constant S_ .f32 0x7F800000#32
  let main_v65 : FVec F S128x128 .f32 := broadcastInDim S128x128 ![] bcast_S_S128x128 main_cst_24
  let main_v66 : IVec S128x128 1 := cmpf .olt main_v64 main_v65
  let main_c_25 : IVec S_ 1 := constantI S_ 1 1#1
  let main_v67 : IVec S_ 1 := (fun x v => Host.reduce IntOp.andi x v reducesTo_S128x128_S_d0_1 h_S_) main_v66 main_c_25
  fn_part4 (F := F) main_arg19 main_arg20 main_arg21 main_v63 main_v67

def fn_part2 {F : FTy → Type} [FloatOps F] (main_arg12 : FVec F S320x128 .f32) (main_arg13 : FVec F S128 .f32) (main_arg14 : FVec F S256x128 .f32) (main_arg15 : FVec F S128 .f32) (main_arg16 : FVec F S256x128 .f32) (main_arg17 : FVec F S128 .f32) (main_arg18 : FVec F S128x128 .f32) (main_arg19 : FVec F S128 .f32) (main_arg20 : FVec F S128x128 .f32) (main_arg21 : FVec F S128 .f32) (main_v33 : IVec S_ 1) : IVec S_ 1 :=
  let main_v34 : FVec F S320x128 .f32 := Host.absf main_arg12
  let main_cst_12 : FVec F S_ .f32 := constant S_ .f32 0x7F800000#32
  let main_v35 : FVec F S320x128 .f32 := broadcastInDim S320x128 ![] bcast_S_S320x128 main_cst_12
  let main_v36 : IVec S320x128 1 := cmpf .olt main_v34 main_v35
  let main_c_13 : IVec S_ 1 := constantI S_ 1 1#1
  let main_v37 : IVec S_ 1 := (fun x v => Host.reduce IntOp.andi x v reducesTo_S320x128_S_d0_1 h_S_) main_v36 main_c_13
  let main_v38 : IVec S_ 1 := andi main_v33 main_v37
  let main_v39 : FVec F S128 .f32 := Host.absf main_arg13
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S256x128 .f32 := Host.absf main_arg14
  let main_cst_16 : FVec F S_ .f32 := constant S_ .f32 0x7F800000#32
  let main_v45 : FVec F S256x128 .f32 := broadcastInDim S256x128 ![] bcast_S_S256x128 main_cst_16
  let main_v46 : IVec S256x128 1 := cmpf .olt main_v44 main_v45
  let main_c_17 : IVec S_ 1 := constantI S_ 1 1#1
  let main_v47 : IVec S_ 1 := (fun x v => Host.reduce IntOp.andi x v reducesTo_S256x128_S_d0_1 h_S_) main_v46 main_c_17
  let main_v48 : IVec S_ 1 := andi main_v43 main_v47
  let main_v49 : FVec F S128 .f32 := Host.absf main_arg15
  let main_cst_18 : FVec F S_ .f32 := constant S_ .f32 0x7F800000#32
  let main_v50 : FVec F S128 .f32 := broadcastInDim S128 ![] bcast_S_S128 main_cst_18
  fn_part3 (F := F) main_arg16 main_arg17 main_arg18 main_arg19 main_arg20 main_arg21 main_v48 main_v49 main_v50

def fn_part1 {F : FTy → Type} [FloatOps F] (main_arg9 : FVec F S30000x64 .f32) (main_arg10 : FVec F S320x128 .f32) (main_arg11 : FVec F S128 .f32) (main_arg12 : FVec F S320x128 .f32) (main_arg13 : FVec F S128 .f32) (main_arg14 : FVec F S256x128 .f32) (main_arg15 : FVec F S128 .f32) (main_arg16 : FVec F S256x128 .f32) (main_arg17 : FVec F S128 .f32) (main_arg18 : FVec F S128x128 .f32) (main_arg19 : FVec F S128 .f32) (main_arg20 : FVec F S128x128 .f32) (main_arg21 : FVec F S128 .f32) (main_v13 : IVec S_ 1) (main_v16 : IVec S8000x128 1) : IVec S_ 1 :=
  let main_c_5 : IVec S_ 1 := constantI S_ 1 1#1
  let main_v17 : IVec S_ 1 := (fun x v => Host.reduce IntOp.andi x v reducesTo_S8000x128_S_d0_1 h_S_) main_v16 main_c_5
  let main_v18 : IVec S_ 1 := andi main_v13 main_v17
  let main_v19 : FVec F S30000x64 .f32 := Host.absf main_arg9
  let main_cst_6 : FVec F S_ .f32 := constant S_ .f32 0x7F800000#32
  let main_v20 : FVec F S30000x64 .f32 := broadcastInDim S30000x64 ![] bcast_S_S30000x64 main_cst_6
  let main_v21 : IVec S30000x64 1 := cmpf .olt main_v19 main_v20
  let main_c_7 : IVec S_ 1 := constantI S_ 1 1#1
  let main_v22 : IVec S_ 1 := (fun x v => Host.reduce IntOp.andi x v reducesTo_S30000x64_S_d0_1 h_S_) main_v21 main_c_7
  let main_v23 : IVec S_ 1 := andi main_v18 main_v22
  let main_v24 : FVec F S320x128 .f32 := Host.absf main_arg10
  let main_cst_8 : FVec F S_ .f32 := constant S_ .f32 0x7F800000#32
  let main_v25 : FVec F S320x128 .f32 := broadcastInDim S320x128 ![] bcast_S_S320x128 main_cst_8
  let main_v26 : IVec S320x128 1 := cmpf .olt main_v24 main_v25
  let main_c_9 : IVec S_ 1 := constantI S_ 1 1#1
  let main_v27 : IVec S_ 1 := (fun x v => Host.reduce IntOp.andi x v reducesTo_S320x128_S_d0_1 h_S_) main_v26 main_c_9
  let main_v28 : IVec S_ 1 := andi main_v23 main_v27
  let main_v29 : FVec F S128 .f32 := Host.absf main_arg11
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg12 main_arg13 main_arg14 main_arg15 main_arg16 main_arg17 main_arg18 main_arg19 main_arg20 main_arg21 main_v33

def fn {F : FTy → Type} [FloatOps F] (main_arg0 : IVec S2x1500000 32) (main_arg1 : IVec S100000x10 32) (main_arg2 : IVec S50000x10 32) (main_arg3 : IVec S100000x3x8 32) (main_arg4 : IVec S50000x3x8 32) (main_arg5 : FVec F S100000x128 .f32) (main_arg6 : FVec F S50000x128 .f32) (main_arg7 : FVec F S5000x128 .f32) (main_arg8 : FVec F S8000x128 .f32) (main_arg9 : FVec F S30000x64 .f32) (main_arg10 : FVec F S320x128 .f32) (main_arg11 : FVec F S128 .f32) (main_arg12 : FVec F S320x128 .f32) (main_arg13 : FVec F S128 .f32) (main_arg14 : FVec F S256x128 .f32) (main_arg15 : FVec F S128 .f32) (main_arg16 : FVec F S256x128 .f32) (main_arg17 : FVec F S128 .f32) (main_arg18 : FVec F S128x128 .f32) (main_arg19 : FVec F S128 .f32) (main_arg20 : FVec F S128x128 .f32) (main_arg21 : FVec F S128 .f32) : IVec S_ 1 :=
  let main_v0 : FVec F S100000x128 .f32 := Host.absf main_arg5
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S50000x128 .f32 := Host.absf main_arg6
  let main_cst_0 : FVec F S_ .f32 := constant S_ .f32 0x7F800000#32
  let main_v5 : FVec F S50000x128 .f32 := broadcastInDim S50000x128 ![] bcast_S_S50000x128 main_cst_0
  let main_v6 : IVec S50000x128 1 := cmpf .olt main_v4 main_v5
  let main_c_1 : IVec S_ 1 := constantI S_ 1 1#1
  let main_v7 : IVec S_ 1 := (fun x v => Host.reduce IntOp.andi x v reducesTo_S50000x128_S_d0_1 h_S_) main_v6 main_c_1
  let main_v8 : IVec S_ 1 := andi main_v3 main_v7
  let main_v9 : FVec F S5000x128 .f32 := Host.absf main_arg7
  let main_cst_2 : FVec F S_ .f32 := constant S_ .f32 0x7F800000#32
  let main_v10 : FVec F S5000x128 .f32 := broadcastInDim S5000x128 ![] bcast_S_S5000x128 main_cst_2
  let main_v11 : IVec S5000x128 1 := cmpf .olt main_v9 main_v10
  let main_c_3 : IVec S_ 1 := constantI S_ 1 1#1
  let main_v12 : IVec S_ 1 := (fun x v => Host.reduce IntOp.andi x v reducesTo_S5000x128_S_d0_1 h_S_) main_v11 main_c_3
  let main_v13 : IVec S_ 1 := andi main_v8 main_v12
  let main_v14 : FVec F S8000x128 .f32 := Host.absf main_arg8
  let main_cst_4 : FVec F S_ .f32 := constant S_ .f32 0x7F800000#32
  let main_v15 : FVec F S8000x128 .f32 := broadcastInDim S8000x128 ![] bcast_S_S8000x128 main_cst_4
  let main_v16 : IVec S8000x128 1 := cmpf .olt main_v14 main_v15
  fn_part1 (F := F) main_arg9 main_arg10 main_arg11 main_arg12 main_arg13 main_arg14 main_arg15 main_arg16 main_arg17 main_arg18 main_arg19 main_arg20 main_arg21 main_v13 main_v16
-- ==== Kernel.lean ====
abbrev S2x1500000 : Shape := ⟨2, ![2, 1500000]⟩
abbrev S100000x10 : Shape := ⟨2, ![100000, 10]⟩
abbrev S50000x10 : Shape := ⟨2, ![50000, 10]⟩
abbrev S100000x3x8 : Shape := ⟨3, ![100000, 3, 8]⟩
abbrev S50000x3x8 : Shape := ⟨3, ![50000, 3, 8]⟩
abbrev S100000x128 : Shape := ⟨2, ![100000, 128]⟩
abbrev S50000x128 : Shape := ⟨2, ![50000, 128]⟩
abbrev S5000x128 : Shape := ⟨2, ![5000, 128]⟩
abbrev S8000x128 : Shape := ⟨2, ![8000, 128]⟩
abbrev S30000x64 : Shape := ⟨2, ![30000, 64]⟩
abbrev S320x128 : Shape := ⟨2, ![320, 128]⟩
abbrev S128 : Shape := ⟨1, ![128]⟩
abbrev S256x128 : Shape := ⟨2, ![256, 128]⟩
abbrev S128x128 : Shape := ⟨2, ![128, 128]⟩
abbrev S_ : Shape := ⟨0, ![]⟩
abbrev S100000x3x8x1 : Shape := ⟨4, ![100000, 3, 8, 1]⟩
abbrev S100000x3x8x64 : Shape := ⟨4, ![100000, 3, 8, 64]⟩
abbrev S100000x3x64 : Shape := ⟨3, ![100000, 3, 64]⟩
abbrev S100000x192 : Shape := ⟨2, ![100000, 192]⟩
abbrev S50000x3x8x1 : Shape := ⟨4, ![50000, 3, 8, 1]⟩
abbrev S50000x3x8x64 : Shape := ⟨4, ![50000, 3, 8, 64]⟩
abbrev S50000x3x64 : Shape := ⟨3, ![50000, 3, 64]⟩
abbrev S50000x192 : Shape := ⟨2, ![50000, 192]⟩
abbrev S100000x10x1 : Shape := ⟨3, ![100000, 10, 1]⟩
abbrev S100000x10x128 : Shape := ⟨3, ![100000, 10, 128]⟩
abbrev S50000x10x1 : Shape := ⟨3, ![50000, 10, 1]⟩
abbrev S50000x10x128 : Shape := ⟨3, ![50000, 10, 128]⟩
abbrev S100000x320 : Shape := ⟨2, ![100000, 320]⟩
abbrev S50000x320 : Shape := ⟨2, ![50000, 320]⟩
abbrev S5000x320 : Shape := ⟨2, ![5000, 320]⟩
abbrev S1x128 : Shape := ⟨2, ![1, 128]⟩
abbrev S150000x128 : Shape := ⟨2, ![150000, 128]⟩
abbrev S1x1500000 : Shape := ⟨2, ![1, 1500000]⟩
abbrev S1500000 : Shape := ⟨1, ![1500000]⟩
abbrev S150000 : Shape := ⟨1, ![150000]⟩
abbrev S1500000x1 : Shape := ⟨2, ![1500000, 1]⟩
abbrev S150000x1 : Shape := ⟨2, ![150000, 1]⟩
abbrev S1500000x128 : Shape := ⟨2, ![1500000, 128]⟩
abbrev S5000x1 : Shape := ⟨2, ![5000, 1]⟩

abbrev nBuf : Space → Nat
  | .hbm => 158
  | .vmem => 50
  | .smem => 0
  | _ => 0

abbrev hbmTy0_0 (i : Nat) : BufTy := match i % 128 with
  | 0 => ⟨S2x1500000, .i32⟩
  | 1 => ⟨S100000x10, .i32⟩
  | 2 => ⟨S50000x10, .i32⟩
  | 3 => ⟨S100000x3x8, .i32⟩
  | 4 => ⟨S50000x3x8, .i32⟩
  | 5 => ⟨S100000x128, .f32⟩
  | 6 => ⟨S50000x128, .f32⟩
  | 7 => ⟨S5000x128, .f32⟩
  | 8 => ⟨S8000x128, .f32⟩
  | 9 => ⟨S30000x64, .f32⟩
  | 10 => ⟨S320x128, .f32⟩
  | 11 => ⟨S128, .f32⟩
  | 12 => ⟨S320x128, .f32⟩
  | 13 => ⟨S128, .f32⟩
  | 14 => ⟨S256x128, .f32⟩
  | 15 => ⟨S128, .f32⟩
  | 16 => ⟨S256x128, .f32⟩
  | 17 => ⟨S128, .f32⟩
  | 18 => ⟨S128x128, .f32⟩
  | 19 => ⟨S128, .f32⟩
  | 20 => ⟨S128x128, .f32⟩
  | 21 => ⟨S128, .f32⟩
  | 22 => ⟨S30000x64, .bf16⟩
  | 23 => ⟨S5000x128, .bf16⟩
  | 24 => ⟨S8000x128, .bf16⟩
  | 25 => ⟨S_, .i32⟩
  | 26 => ⟨S100000x3x8, .i32⟩
  | 27 => ⟨S100000x3x8, .i1⟩
  | 28 => ⟨S_, .i32⟩
  | 29 => ⟨S100000x3x8, .i32⟩
  | 30 => ⟨S100000x3x8, .i32⟩
  | 31 => ⟨S100000x3x8, .i32⟩
  | 32 => ⟨S100000x3x8x1, .i32⟩
  | 33 => ⟨S100000x3x8x64, .bf16⟩
  | 34 => ⟨S100000x3x8x64, .f32⟩
  | 35 => ⟨S_, .f32⟩
  | 36 => ⟨S100000x3x64, .f32⟩
  | 37 => ⟨S_, .f32⟩
  | 38 => ⟨S100000x3x64, .f32⟩
  | 39 => ⟨S100000x3x64, .f32⟩
  | 40 => ⟨S100000x192, .f32⟩
  | 41 => ⟨S_, .i32⟩
  | 42 => ⟨S50000x3x8, .i32⟩
  | 43 => ⟨S50000x3x8, .i1⟩
  | 44 => ⟨S_, .i32⟩
  | 45 => ⟨S50000x3x8, .i32⟩
  | 46 => ⟨S50000x3x8, .i32⟩
  | 47 => ⟨S50000x3x8, .i32⟩
  | 48 => ⟨S50000x3x8x1, .i32⟩
  | 49 => ⟨S50000x3x8x64, .bf16⟩
  | 50 => ⟨S50000x3x8x64, .f32⟩
  | 51 => ⟨S_, .f32⟩
  | 52 => ⟨S50000x3x64, .f32⟩
  | 53 => ⟨S_, .f32⟩
  | 54 => ⟨S50000x3x64, .f32⟩
  | 55 => ⟨S50000x3x64, .f32⟩
  | 56 => ⟨S50000x192, .f32⟩
  | 57 => ⟨S_, .i32⟩
  | 58 => ⟨S100000x10, .i32⟩
  | 59 => ⟨S100000x10, .i1⟩
  | 60 => ⟨S_, .i32⟩
  | 61 => ⟨S100000x10, .i32⟩
  | 62 => ⟨S100000x10, .i32⟩
  | 63 => ⟨S100000x10, .i32⟩
  | 64 => ⟨S100000x10x1, .i32⟩
  | 65 => ⟨S100000x10x128, .bf16⟩
  | 66 => ⟨S100000x10x128, .f32⟩
  | 67 => ⟨S_, .f32⟩
  | 68 => ⟨S100000x128, .f32⟩
  | 69 => ⟨S_, .f32⟩
  | 70 => ⟨S100000x128, .f32⟩
  | 71 => ⟨S100000x128, .f32⟩
  | 72 => ⟨S_, .i32⟩
  | 73 => ⟨S50000x10, .i32⟩
  | 74 => ⟨S50000x10, .i1⟩
  | 75 => ⟨S_, .i32⟩
  | 76 => ⟨S50000x10, .i32⟩
  | 77 => ⟨S50000x10, .i32⟩
  | 78 => ⟨S50000x10, .i32⟩
  | 79 => ⟨S50000x10x1, .i32⟩
  | 80 => ⟨S50000x10x128, .bf16⟩
  | 81 => ⟨S50000x10x128, .f32⟩
  | 82 => ⟨S_, .f32⟩
  | 83 => ⟨S50000x128, .f32⟩
  | 84 => ⟨S_, .f32⟩
  | 85 => ⟨S50000x128, .f32⟩
  | 86 => ⟨S50000x128, .f32⟩
  | 87 => ⟨S100000x320, .f32⟩
  | 88 => ⟨S100000x320, .bf16⟩
  | 89 => ⟨S50000x320, .f32⟩
  | 90 => ⟨S50000x320, .bf16⟩
  | 91 => ⟨S320x128, .bf16⟩
  | 92 => ⟨S100000x128, .f32⟩
  | 93 => ⟨S100000x128, .bf16⟩
  | 94 => ⟨S320x128, .bf16⟩
  | 95 => ⟨S50000x128, .f32⟩
  | 96 => ⟨S50000x128, .bf16⟩
  | 97 => ⟨S150000x128, .f32⟩
  | 98 => ⟨S150000x128, .bf16⟩
  | 99 => ⟨S1x1500000, .i32⟩
  | 100 => ⟨S1500000, .i32⟩
  | 101 => ⟨S1x1500000, .i32⟩
  | 102 => ⟨S1500000, .i32⟩
  | 103 => ⟨S_, .f32⟩
  | 104 => ⟨S1500000, .f32⟩
  | 105 => ⟨S_, .f32⟩
  | 106 => ⟨S150000, .f32⟩
  | 107 => ⟨S1500000x1, .i32⟩
  | 108 => ⟨S150000, .f32⟩
  | 109 => ⟨S_, .f32⟩
  | 110 => ⟨S150000, .f32⟩
  | 111 => ⟨S150000, .f32⟩
  | 112 => ⟨S_, .f32⟩
  | 113 => ⟨S150000, .f32⟩
  | 114 => ⟨S150000, .f32⟩
  | 115 => ⟨S150000x1, .f32⟩
  | 116 => ⟨S_, .i32⟩
  | 117 => ⟨S1500000, .i32⟩
  | 118 => ⟨S1500000, .i1⟩
  | 119 => ⟨S_, .i32⟩
  | 120 => ⟨S1500000, .i32⟩
  | 121 => ⟨S1500000, .i32⟩
  | 122 => ⟨S1500000, .i32⟩
  | 123 => ⟨S1500000x1, .i32⟩
  | 124 => ⟨S1500000x128, .bf16⟩
  | 125 => ⟨S1500000x128, .f32⟩
  | 126 => ⟨S_, .f32⟩
  | 127 => ⟨S150000x128, .f32⟩
  | _ => ⟨S2x1500000, .i32⟩

abbrev hbmTy0_1 (i : Nat) : BufTy := match i % 128 with
  | 0 => ⟨S1500000x1, .i32⟩
  | 1 => ⟨S150000x128, .f32⟩
  | 2 => ⟨S128x128, .bf16⟩
  | 3 => ⟨S128x128, .f32⟩
  | 4 => ⟨S128x128, .bf16⟩
  | 5 => ⟨S128x128, .f32⟩
  | 6 => ⟨S128x128, .bf16⟩
  | 7 => ⟨S150000x128, .f32⟩
  | 8 => ⟨S150000x128, .bf16⟩
  | 9 => ⟨S_, .i32⟩
  | 10 => ⟨S1500000, .i32⟩
  | 11 => ⟨S1500000, .i1⟩
  | 12 => ⟨S_, .i32⟩
  | 13 => ⟨S1500000, .i32⟩
  | 14 => ⟨S1500000, .i32⟩
  | 15 => ⟨S1500000, .i32⟩
  | 16 => ⟨S1500000x1, .i32⟩
  | 17 => ⟨S1500000x128, .bf16⟩
  | 18 => ⟨S1500000x128, .f32⟩
  | 19 => ⟨S_, .f32⟩
  | 20 => ⟨S150000x128, .f32⟩
  | 21 => ⟨S1500000x1, .i32⟩
  | 22 => ⟨S150000x128, .f32⟩
  | 23 => ⟨S128x128, .bf16⟩
  | 24 => ⟨S128x128, .f32⟩
  | 25 => ⟨S128x128, .bf16⟩
  | 26 => ⟨S128x128, .f32⟩
  | 27 => ⟨S128x128, .bf16⟩
  | 28 => ⟨S150000x128, .f32⟩
  | 29 => ⟨S150000x128, .bf16⟩
  | _ => ⟨S2x1500000, .i32⟩

abbrev hbmTy (i : Nat) : BufTy := match i / 128 with
  | 0 => hbmTy0_0 i
  | 1 => hbmTy0_1 i
  | _ => ⟨S2x1500000, .i32⟩

abbrev bufTy : (tb : Table) → Fin (tcTables nBuf tb) → BufTy
  | .hbm, ⟨i, _⟩ => hbmTy i
  | .local _ .vmem, ⟨0, _⟩ => ⟨S5000x320, .bf16⟩
  | .local _ .vmem, ⟨1, _⟩ => ⟨S5000x320, .bf16⟩
  | .local _ .vmem, ⟨2, _⟩ => ⟨S320x128, .bf16⟩
  | .local _ .vmem, ⟨3, _⟩ => ⟨S128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S5000x128, .bf16⟩
  | .local _ .vmem, ⟨9, _⟩ => ⟨S5000x128, .bf16⟩
  | .local _ .vmem, ⟨10, _⟩ => ⟨S5000x320, .bf16⟩
  | .local _ .vmem, ⟨11, _⟩ => ⟨S5000x320, .bf16⟩
  | .local _ .vmem, ⟨12, _⟩ => ⟨S320x128, .bf16⟩
  | .local _ .vmem, ⟨13, _⟩ => ⟨S128, .f32⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | .local _ .vmem, ⟨17, _⟩ => ⟨S5000x128, .f32⟩
  | .local _ .vmem, ⟨18, _⟩ => ⟨S5000x128, .bf16⟩
  | .local _ .vmem, ⟨19, _⟩ => ⟨S5000x128, .bf16⟩
  | .local _ .vmem, ⟨20, _⟩ => ⟨S5000x128, .f32⟩
  | .local _ .vmem, ⟨21, _⟩ => ⟨S5000x128, .f32⟩
  | .local _ .vmem, ⟨22, _⟩ => ⟨S5000x128, .f32⟩
  | .local _ .vmem, ⟨23, _⟩ => ⟨S5000x128, .f32⟩
  | .local _ .vmem, ⟨24, _⟩ => ⟨S5000x1, .f32⟩
  | .local _ .vmem, ⟨25, _⟩ => ⟨S5000x1, .f32⟩
  | .local _ .vmem, ⟨26, _⟩ => ⟨S128x128, .bf16⟩
  | .local _ .vmem, ⟨27, _⟩ => ⟨S128, .f32⟩
  | .local _ .vmem, ⟨28, _⟩ => ⟨S128x128, .bf16⟩
  | .local _ .vmem, ⟨29, _⟩ => ⟨S128x128, .bf16⟩
  | .local _ .vmem, ⟨30, _⟩ => ⟨S128, .f32⟩
  | .local _ .vmem, ⟨31, _⟩ => ⟨S5000x128, .f32⟩
  | .local _ .vmem, ⟨32, _⟩ => ⟨S5000x128, .f32⟩
  | .local _ .vmem, ⟨33, _⟩ => ⟨S5000x128, .bf16⟩
  | .local _ .vmem, ⟨34, _⟩ => ⟨S5000x128, .bf16⟩
  | .local _ .vmem, ⟨35, _⟩ => ⟨S5000x128, .f32⟩
  | .local _ .vmem, ⟨36, _⟩ => ⟨S5000x128, .f32⟩
  | .local _ .vmem, ⟨37, _⟩ => ⟨S5000x128, .f32⟩
  | .local _ .vmem, ⟨38, _⟩ => ⟨S5000x128, .f32⟩
  | .local _ .vmem, ⟨39, _⟩ => ⟨S5000x1, .f32⟩
  | .local _ .vmem, ⟨40, _⟩ => ⟨S5000x1, .f32⟩
  | .local _ .vmem, ⟨41, _⟩ => ⟨S128x128, .bf16⟩
  | .local _ .vmem, ⟨42, _⟩ => ⟨S128, .f32⟩
  | .local _ .vmem, ⟨43, _⟩ => ⟨S128x128, .bf16⟩
  | .local _ .vmem, ⟨44, _⟩ => ⟨S128x128, .bf16⟩
  | .local _ .vmem, ⟨45, _⟩ => ⟨S128, .f32⟩
  | .local _ .vmem, ⟨46, _⟩ => ⟨S5000x128, .f32⟩
  | .local _ .vmem, ⟨47, _⟩ => ⟨S5000x128, .f32⟩
  | .local _ .vmem, ⟨48, _⟩ => ⟨S5000x128, .bf16⟩
  | .local _ .vmem, ⟨49, _⟩ => ⟨S5000x128, .bf16⟩
  | _, _ => ⟨S2x1500000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | _, _ => false

abbrev semScoped : Fin 0 → Bool
  | ⟨_, h⟩ => absurd h (Nat.not_lt_zero _)

abbrev dmaSemScoped : Fin 50 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | _ => false

abbrev sig : RefSig :=
  ofTc nBuf bufTy 0 50 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_v0 : Ref sig .tc := ⟨.hbm, 22, rfl⟩
abbrev main_v1 : Ref sig .tc := ⟨.hbm, 23, rfl⟩
abbrev main_v2 : Ref sig .tc := ⟨.hbm, 24, rfl⟩
abbrev main_c : Ref sig .tc := ⟨.hbm, 25, rfl⟩
abbrev main_v3 : Ref sig .tc := ⟨.hbm, 26, rfl⟩
abbrev main_v4 : Ref sig .tc := ⟨.hbm, 27, rfl⟩
abbrev main_c_0 : Ref sig .tc := ⟨.hbm, 28, rfl⟩
abbrev main_v5 : Ref sig .tc := ⟨.hbm, 29, rfl⟩
abbrev main_v6 : Ref sig .tc := ⟨.hbm, 30, rfl⟩
abbrev main_v7 : Ref sig .tc := ⟨.hbm, 31, rfl⟩
abbrev main_v8 : Ref sig .tc := ⟨.hbm, 32, rfl⟩
abbrev main_v9 : Ref sig .tc := ⟨.hbm, 33, rfl⟩
abbrev main_v10 : Ref sig .tc := ⟨.hbm, 34, rfl⟩
abbrev main_cst : Ref sig .tc := ⟨.hbm, 35, rfl⟩
abbrev main_v11 : Ref sig .tc := ⟨.hbm, 36, rfl⟩
abbrev main_cst_1 : Ref sig .tc := ⟨.hbm, 37, rfl⟩
abbrev main_v12 : Ref sig .tc := ⟨.hbm, 38, rfl⟩
abbrev main_v13 : Ref sig .tc := ⟨.hbm, 39, rfl⟩
abbrev main_v14 : Ref sig .tc := ⟨.hbm, 40, rfl⟩
abbrev main_c_2 : Ref sig .tc := ⟨.hbm, 41, rfl⟩
abbrev main_v15 : Ref sig .tc := ⟨.hbm, 42, rfl⟩
abbrev main_v16 : Ref sig .tc := ⟨.hbm, 43, rfl⟩
abbrev main_c_3 : Ref sig .tc := ⟨.hbm, 44, rfl⟩
abbrev main_v17 : Ref sig .tc := ⟨.hbm, 45, rfl⟩
abbrev main_v18 : Ref sig .tc := ⟨.hbm, 46, rfl⟩
abbrev main_v19 : Ref sig .tc := ⟨.hbm, 47, rfl⟩
abbrev main_v20 : Ref sig .tc := ⟨.hbm, 48, rfl⟩
abbrev main_v21 : Ref sig .tc := ⟨.hbm, 49, rfl⟩
abbrev main_v22 : Ref sig .tc := ⟨.hbm, 50, rfl⟩
abbrev main_cst_4 : Ref sig .tc := ⟨.hbm, 51, rfl⟩
abbrev main_v23 : Ref sig .tc := ⟨.hbm, 52, rfl⟩
abbrev main_cst_5 : Ref sig .tc := ⟨.hbm, 53, rfl⟩
abbrev main_v24 : Ref sig .tc := ⟨.hbm, 54, rfl⟩
abbrev main_v25 : Ref sig .tc := ⟨.hbm, 55, rfl⟩
abbrev main_v26 : Ref sig .tc := ⟨.hbm, 56, rfl⟩
abbrev main_c_6 : Ref sig .tc := ⟨.hbm, 57, rfl⟩
abbrev main_v27 : Ref sig .tc := ⟨.hbm, 58, rfl⟩
abbrev main_v28 : Ref sig .tc := ⟨.hbm, 59, rfl⟩
abbrev main_c_7 : Ref sig .tc := ⟨.hbm, 60, rfl⟩
abbrev main_v29 : Ref sig .tc := ⟨.hbm, 61, rfl⟩
abbrev main_v30 : Ref sig .tc := ⟨.hbm, 62, rfl⟩
abbrev main_v31 : Ref sig .tc := ⟨.hbm, 63, rfl⟩
abbrev main_v32 : Ref sig .tc := ⟨.hbm, 64, rfl⟩
abbrev main_v33 : Ref sig .tc := ⟨.hbm, 65, rfl⟩
abbrev main_v34 : Ref sig .tc := ⟨.hbm, 66, rfl⟩
abbrev main_cst_8 : Ref sig .tc := ⟨.hbm, 67, rfl⟩
abbrev main_v35 : Ref sig .tc := ⟨.hbm, 68, rfl⟩
abbrev main_cst_9 : Ref sig .tc := ⟨.hbm, 69, rfl⟩
abbrev main_v36 : Ref sig .tc := ⟨.hbm, 70, rfl⟩
abbrev main_v37 : Ref sig .tc := ⟨.hbm, 71, rfl⟩
abbrev main_c_10 : Ref sig .tc := ⟨.hbm, 72, rfl⟩
abbrev main_v38 : Ref sig .tc := ⟨.hbm, 73, rfl⟩
abbrev main_v39 : Ref sig .tc := ⟨.hbm, 74, rfl⟩
abbrev main_c_11 : Ref sig .tc := ⟨.hbm, 75, rfl⟩
abbrev main_v40 : Ref sig .tc := ⟨.hbm, 76, rfl⟩
abbrev main_v41 : Ref sig .tc := ⟨.hbm, 77, rfl⟩
abbrev main_v42 : Ref sig .tc := ⟨.hbm, 78, rfl⟩
abbrev main_v43 : Ref sig .tc := ⟨.hbm, 79, rfl⟩
abbrev main_v44 : Ref sig .tc := ⟨.hbm, 80, rfl⟩
abbrev main_v45 : Ref sig .tc := ⟨.hbm, 81, rfl⟩
abbrev main_cst_12 : Ref sig .tc := ⟨.hbm, 82, rfl⟩
abbrev main_v46 : Ref sig .tc := ⟨.hbm, 83, rfl⟩
abbrev main_cst_13 : Ref sig .tc := ⟨.hbm, 84, rfl⟩
abbrev main_v47 : Ref sig .tc := ⟨.hbm, 85, rfl⟩
abbrev main_v48 : Ref sig .tc := ⟨.hbm, 86, rfl⟩
abbrev main_v49 : Ref sig .tc := ⟨.hbm, 87, rfl⟩
abbrev main_v50 : Ref sig .tc := ⟨.hbm, 88, rfl⟩
abbrev main_v51 : Ref sig .tc := ⟨.hbm, 89, rfl⟩
abbrev main_v52 : Ref sig .tc := ⟨.hbm, 90, rfl⟩
abbrev main_v53 : Ref sig .tc := ⟨.hbm, 91, rfl⟩
abbrev main_v54_0 : Ref sig .tc := ⟨.hbm, 92, rfl⟩
abbrev main_v54_1 : Ref sig .tc := ⟨.hbm, 93, rfl⟩
abbrev main_v55 : Ref sig .tc := ⟨.hbm, 94, rfl⟩
abbrev main_v56_0 : Ref sig .tc := ⟨.hbm, 95, rfl⟩
abbrev main_v56_1 : Ref sig .tc := ⟨.hbm, 96, rfl⟩
abbrev main_v57 : Ref sig .tc := ⟨.hbm, 97, rfl⟩
abbrev main_v58 : Ref sig .tc := ⟨.hbm, 98, rfl⟩
abbrev main_v59 : Ref sig .tc := ⟨.hbm, 99, rfl⟩
abbrev main_v60 : Ref sig .tc := ⟨.hbm, 100, rfl⟩
abbrev main_v61 : Ref sig .tc := ⟨.hbm, 101, rfl⟩
abbrev main_v62 : Ref sig .tc := ⟨.hbm, 102, rfl⟩
abbrev main_cst_14 : Ref sig .tc := ⟨.hbm, 103, rfl⟩
abbrev main_v63 : Ref sig .tc := ⟨.hbm, 104, rfl⟩
abbrev main_cst_15 : Ref sig .tc := ⟨.hbm, 105, rfl⟩
abbrev main_v64 : Ref sig .tc := ⟨.hbm, 106, rfl⟩
abbrev main_v65 : Ref sig .tc := ⟨.hbm, 107, rfl⟩
abbrev main_v66 : Ref sig .tc := ⟨.hbm, 108, rfl⟩
abbrev main_cst_16 : Ref sig .tc := ⟨.hbm, 109, rfl⟩
abbrev main_v67 : Ref sig .tc := ⟨.hbm, 110, rfl⟩
abbrev main_v68 : Ref sig .tc := ⟨.hbm, 111, rfl⟩
abbrev main_cst_17 : Ref sig .tc := ⟨.hbm, 112, rfl⟩
abbrev main_v69 : Ref sig .tc := ⟨.hbm, 113, rfl⟩
abbrev main_v70 : Ref sig .tc := ⟨.hbm, 114, rfl⟩
abbrev main_v71 : Ref sig .tc := ⟨.hbm, 115, rfl⟩
abbrev main_c_18 : Ref sig .tc := ⟨.hbm, 116, rfl⟩
abbrev main_v72 : Ref sig .tc := ⟨.hbm, 117, rfl⟩
abbrev main_v73 : Ref sig .tc := ⟨.hbm, 118, rfl⟩
abbrev main_c_19 : Ref sig .tc := ⟨.hbm, 119, rfl⟩
abbrev main_v74 : Ref sig .tc := ⟨.hbm, 120, rfl⟩
abbrev main_v75 : Ref sig .tc := ⟨.hbm, 121, rfl⟩
abbrev main_v76 : Ref sig .tc := ⟨.hbm, 122, rfl⟩
abbrev main_v77 : Ref sig .tc := ⟨.hbm, 123, rfl⟩
abbrev main_v78 : Ref sig .tc := ⟨.hbm, 124, rfl⟩
abbrev main_v79 : Ref sig .tc := ⟨.hbm, 125, rfl⟩
abbrev main_cst_20 : Ref sig .tc := ⟨.hbm, 126, rfl⟩
abbrev main_v80 : Ref sig .tc := ⟨.hbm, 127, rfl⟩
abbrev main_v81 : Ref sig .tc := ⟨.hbm, 128, rfl⟩
abbrev main_v82 : Ref sig .tc := ⟨.hbm, 129, rfl⟩
abbrev main_v83 : Ref sig .tc := ⟨.hbm, 130, rfl⟩
abbrev main_v84 : Ref sig .tc := ⟨.hbm, 131, rfl⟩
abbrev main_v85 : Ref sig .tc := ⟨.hbm, 132, rfl⟩
abbrev main_v86 : Ref sig .tc := ⟨.hbm, 133, rfl⟩
abbrev main_v87 : Ref sig .tc := ⟨.hbm, 134, rfl⟩
abbrev main_v88_0 : Ref sig .tc := ⟨.hbm, 135, rfl⟩
abbrev main_v88_1 : Ref sig .tc := ⟨.hbm, 136, rfl⟩
abbrev main_c_21 : Ref sig .tc := ⟨.hbm, 137, rfl⟩
abbrev main_v89 : Ref sig .tc := ⟨.hbm, 138, rfl⟩
abbrev main_v90 : Ref sig .tc := ⟨.hbm, 139, rfl⟩
abbrev main_c_22 : Ref sig .tc := ⟨.hbm, 140, rfl⟩
abbrev main_v91 : Ref sig .tc := ⟨.hbm, 141, rfl⟩
abbrev main_v92 : Ref sig .tc := ⟨.hbm, 142, rfl⟩
abbrev main_v93 : Ref sig .tc := ⟨.hbm, 143, rfl⟩
abbrev main_v94 : Ref sig .tc := ⟨.hbm, 144, rfl⟩
abbrev main_v95 : Ref sig .tc := ⟨.hbm, 145, rfl⟩
abbrev main_v96 : Ref sig .tc := ⟨.hbm, 146, rfl⟩
abbrev main_cst_23 : Ref sig .tc := ⟨.hbm, 147, rfl⟩
abbrev main_v97 : Ref sig .tc := ⟨.hbm, 148, rfl⟩
abbrev main_v98 : Ref sig .tc := ⟨.hbm, 149, rfl⟩
abbrev main_v99 : Ref sig .tc := ⟨.hbm, 150, rfl⟩
abbrev main_v100 : Ref sig .tc := ⟨.hbm, 151, rfl⟩
abbrev main_v101 : Ref sig .tc := ⟨.hbm, 152, rfl⟩
abbrev main_v102 : Ref sig .tc := ⟨.hbm, 153, rfl⟩
abbrev main_v103 : Ref sig .tc := ⟨.hbm, 154, rfl⟩
abbrev main_v104 : Ref sig .tc := ⟨.hbm, 155, rfl⟩
abbrev main_v105_0 : Ref sig .tc := ⟨.hbm, 156, rfl⟩
abbrev main_v105_1 : Ref sig .tc := ⟨.hbm, 157, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg3_1 : Ref sig .tc := ⟨.vmem, 15, rfl⟩
abbrev cc1_stg4_0 : Ref sig .tc := ⟨.vmem, 16, rfl⟩
abbrev cc1_stg4_1 : Ref sig .tc := ⟨.vmem, 17, rfl⟩
abbrev cc1_stg5_0 : Ref sig .tc := ⟨.vmem, 18, rfl⟩
abbrev cc1_stg5_1 : Ref sig .tc := ⟨.vmem, 19, rfl⟩
abbrev cc2_stg0_0 : Ref sig .tc := ⟨.vmem, 20, rfl⟩
abbrev cc2_stg0_1 : Ref sig .tc := ⟨.vmem, 21, rfl⟩
abbrev cc2_stg1_0 : Ref sig .tc := ⟨.vmem, 22, rfl⟩
abbrev cc2_stg1_1 : Ref sig .tc := ⟨.vmem, 23, rfl⟩
abbrev cc2_stg2_0 : Ref sig .tc := ⟨.vmem, 24, rfl⟩
abbrev cc2_stg2_1 : Ref sig .tc := ⟨.vmem, 25, rfl⟩
abbrev cc2_stg3_0 : Ref sig .tc := ⟨.vmem, 26, rfl⟩
abbrev cc2_stg4_0 : Ref sig .tc := ⟨.vmem, 27, rfl⟩
abbrev cc2_stg5_0 : Ref sig .tc := ⟨.vmem, 28, rfl⟩
abbrev cc2_stg6_0 : Ref sig .tc := ⟨.vmem, 29, rfl⟩
abbrev cc2_stg7_0 : Ref sig .tc := ⟨.vmem, 30, rfl⟩
abbrev cc2_stg8_0 : Ref sig .tc := ⟨.vmem, 31, rfl⟩
abbrev cc2_stg8_1 : Ref sig .tc := ⟨.vmem, 32, rfl⟩
abbrev cc2_stg9_0 : Ref sig .tc := ⟨.vmem, 33, rfl⟩
abbrev cc2_stg9_1 : Ref sig .tc := ⟨.vmem, 34, rfl⟩
abbrev cc3_stg0_0 : Ref sig .tc := ⟨.vmem, 35, rfl⟩
abbrev cc3_stg0_1 : Ref sig .tc := ⟨.vmem, 36, rfl⟩
abbrev cc3_stg1_0 : Ref sig .tc := ⟨.vmem, 37, rfl⟩
abbrev cc3_stg1_1 : Ref sig .tc := ⟨.vmem, 38, rfl⟩
abbrev cc3_stg2_0 : Ref sig .tc := ⟨.vmem, 39, rfl⟩
abbrev cc3_stg2_1 : Ref sig .tc := ⟨.vmem, 40, rfl⟩
abbrev cc3_stg3_0 : Ref sig .tc := ⟨.vmem, 41, rfl⟩
abbrev cc3_stg4_0 : Ref sig .tc := ⟨.vmem, 42, rfl⟩
abbrev cc3_stg5_0 : Ref sig .tc := ⟨.vmem, 43, rfl⟩
abbrev cc3_stg6_0 : Ref sig .tc := ⟨.vmem, 44, rfl⟩
abbrev cc3_stg7_0 : Ref sig .tc := ⟨.vmem, 45, rfl⟩
abbrev cc3_stg8_0 : Ref sig .tc := ⟨.vmem, 46, rfl⟩
abbrev cc3_stg8_1 : Ref sig .tc := ⟨.vmem, 47, rfl⟩
abbrev cc3_stg9_0 : Ref sig .tc := ⟨.vmem, 48, rfl⟩
abbrev cc3_stg9_1 : Ref sig .tc := ⟨.vmem, 49, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc1_sem0_0 : DmaSem sig := 10
abbrev cc1_sem0_1 : DmaSem sig := 11
abbrev cc1_sem1_0 : DmaSem sig := 12
abbrev cc1_sem2_0 : DmaSem sig := 13
abbrev cc1_sem3_0 : DmaSem sig := 14
abbrev cc1_sem3_1 : DmaSem sig := 15
abbrev cc1_sem4_0 : DmaSem sig := 16
abbrev cc1_sem4_1 : DmaSem sig := 17
abbrev cc1_sem5_0 : DmaSem sig := 18
abbrev cc1_sem5_1 : DmaSem sig := 19
abbrev cc2_sem0_0 : DmaSem sig := 20
abbrev cc2_sem0_1 : DmaSem sig := 21
abbrev cc2_sem1_0 : DmaSem sig := 22
abbrev cc2_sem1_1 : DmaSem sig := 23
abbrev cc2_sem2_0 : DmaSem sig := 24
abbrev cc2_sem2_1 : DmaSem sig := 25
abbrev cc2_sem3_0 : DmaSem sig := 26
abbrev cc2_sem4_0 : DmaSem sig := 27
abbrev cc2_sem5_0 : DmaSem sig := 28
abbrev cc2_sem6_0 : DmaSem sig := 29
abbrev cc2_sem7_0 : DmaSem sig := 30
abbrev cc2_sem8_0 : DmaSem sig := 31
abbrev cc2_sem8_1 : DmaSem sig := 32
abbrev cc2_sem9_0 : DmaSem sig := 33
abbrev cc2_sem9_1 : DmaSem sig := 34
abbrev cc3_sem0_0 : DmaSem sig := 35
abbrev cc3_sem0_1 : DmaSem sig := 36
abbrev cc3_sem1_0 : DmaSem sig := 37
abbrev cc3_sem1_1 : DmaSem sig := 38
abbrev cc3_sem2_0 : DmaSem sig := 39
abbrev cc3_sem2_1 : DmaSem sig := 40
abbrev cc3_sem3_0 : DmaSem sig := 41
abbrev cc3_sem4_0 : DmaSem sig := 42
abbrev cc3_sem5_0 : DmaSem sig := 43
abbrev cc3_sem6_0 : DmaSem sig := 44
abbrev cc3_sem7_0 : DmaSem sig := 45
abbrev cc3_sem8_0 : DmaSem sig := 46
abbrev cc3_sem8_1 : DmaSem sig := 47
abbrev cc3_sem9_0 : DmaSem sig := 48
abbrev cc3_sem9_1 : DmaSem sig := 49

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x320 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S320x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S5000x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S5000x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x320 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S320x128 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S5000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S5000x128 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![30], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_8 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_9 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S5000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S128x128 .bf16 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S128x128 .bf16 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S128x128 .bf16 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S128 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 2 → Memref sig .tc .vmem S5000x128 .f32 := fun | 0 => Memref.whole cc2_stg8_0 | 1 => Memref.whole cc2_stg8_1 | ⟨_ + 2, h⟩ => absurd h (Nat.not_lt.2 (Nat.le_add_left _ _))
abbrev sem2_8 : Fin 2 → DmaSem sig := fun | 0 => cc2_sem8_0 | 1 => cc2_sem8_1 | ⟨_ + 2, h⟩ => absurd h (Nat.not_lt.2 (Nat.le_add_left _ _))
abbrev reads2_8 : Fin grid2.rank → Bool := ![true]

abbrev stage2_9 : Fin 2 → Memref sig .tc .vmem S5000x128 .bf16 := fun | 0 => Memref.whole cc2_stg9_0 | 1 => Memref.whole cc2_stg9_1 | ⟨_ + 2, h⟩ => absurd h (Nat.not_lt.2 (Nat.le_add_left _ _))
abbrev sem2_9 : Fin 2 → DmaSem sig := fun | 0 => cc2_sem9_0 | 1 => cc2_sem9_1 | ⟨_ + 2, h⟩ => absurd h (Nat.not_lt.2 (Nat.le_add_left _ _))
abbrev reads2_9 : Fin grid2.rank → Bool := ![true]

abbrev grid3 : Pipeline.Grid := ⟨1, ![30], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_8 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_9 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S5000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S128x128 .bf16 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S128x128 .bf16 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S128x128 .bf16 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 1 → Memref sig .tc .vmem S128 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

abbrev stage3_8 : Fin 2 → Memref sig .tc .vmem S5000x128 .f32 := fun | 0 => Memref.whole cc3_stg8_0 | 1 => Memref.whole cc3_stg8_1 | ⟨_ + 2, h⟩ => absurd h (Nat.not_lt.2 (Nat.le_add_left _ _))
abbrev sem3_8 : Fin 2 → DmaSem sig := fun | 0 => cc3_sem8_0 | 1 => cc3_sem8_1 | ⟨_ + 2, h⟩ => absurd h (Nat.not_lt.2 (Nat.le_add_left _ _))
abbrev reads3_8 : Fin grid3.rank → Bool := ![true]

abbrev stage3_9 : Fin 2 → Memref sig .tc .vmem S5000x128 .bf16 := fun | 0 => Memref.whole cc3_stg9_0 | 1 => Memref.whole cc3_stg9_1 | ⟨_ + 2, h⟩ => absurd h (Nat.not_lt.2 (Nat.le_add_left _ _))
abbrev sem3_9 : Fin 2 → DmaSem sig := fun | 0 => cc3_sem9_0 | 1 => cc3_sem9_1 | ⟨_ + 2, h⟩ => absurd h (Nat.not_lt.2 (Nat.le_add_left _ _))
abbrev reads3_9 : Fin grid3.rank → Bool := ![true]

class Facts₀ : Prop where
  bitsLt_bf16_f32 : FTy.bits .bf16 < FTy.bits .f32
  bcast_S_S100000x3x8 : S_.BroadcastsInDim S100000x3x8 (![] : Fin 0 → Fin S100000x3x8.rank)
  bcast_S100000x3x8_S100000x3x8x1_0_1_2 : S100000x3x8.BroadcastsInDim S100000x3x8x1 (![0, 1, 2] : Fin 3 → Fin S100000x3x8x1.rank)
  reducesTo_S100000x3x8x64_S100000x3x64_d2 : S100000x3x8x64.ReducesTo [2] S100000x3x64
  h_S_ : 0 < S_.numel
  bcast_S_S100000x3x64 : S_.BroadcastsInDim S100000x3x64 (![] : Fin 0 → Fin S100000x3x64.rank)
  shapeCasts_S100000x3x64_S100000x192 : S100000x3x64.ShapeCasts S100000x192
  bcast_S_S50000x3x8 : S_.BroadcastsInDim S50000x3x8 (![] : Fin 0 → Fin S50000x3x8.rank)
  bcast_S50000x3x8_S50000x3x8x1_0_1_2 : S50000x3x8.BroadcastsInDim S50000x3x8x1 (![0, 1, 2] : Fin 3 → Fin S50000x3x8x1.rank)
  reducesTo_S50000x3x8x64_S50000x3x64_d2 : S50000x3x8x64.ReducesTo [2] S50000x3x64
  bcast_S_S50000x3x64 : S_.BroadcastsInDim S50000x3x64 (![] : Fin 0 → Fin S50000x3x64.rank)
  shapeCasts_S50000x3x64_S50000x192 : S50000x3x64.ShapeCasts S50000x192
  bcast_S_S100000x10 : S_.BroadcastsInDim S100000x10 (![] : Fin 0 → Fin S100000x10.rank)
  bcast_S100000x10_S100000x10x1_0_1 : S100000x10.BroadcastsInDim S100000x10x1 (![0, 1] : Fin 2 → Fin S100000x10x1.rank)
  reducesTo_S100000x10x128_S100000x128_d1 : S100000x10x128.ReducesTo [1] S100000x128
  bcast_S_S100000x128 : S_.BroadcastsInDim S100000x128 (![] : Fin 0 → Fin S100000x128.rank)
  bcast_S_S50000x10 : S_.BroadcastsInDim S50000x10 (![] : Fin 0 → Fin S50000x10.rank)
  bcast_S50000x10_S50000x10x1_0_1 : S50000x10.BroadcastsInDim S50000x10x1 (![0, 1] : Fin 2 → Fin S50000x10x1.rank)
  reducesTo_S50000x10x128_S50000x128_d1 : S50000x10x128.ReducesTo [1] S50000x128
  bcast_S_S50000x128 : S_.BroadcastsInDim S50000x128 (![] : Fin 0 → Fin S50000x128.rank)
  concatenates_S100000x128_S100000x192_S100000x320_d1 : Shape.Concatenates [S100000x128, S100000x192] S100000x320 1
  concatenates_S50000x128_S50000x192_S50000x320_d1 : Shape.Concatenates [S50000x128, S50000x192] S50000x320 1
  inb_S5000x320_S5000x320_0_0 : ∀ a, (![0, 0] : Fin 2 → Nat) a + S5000x320.size a ≤ S5000x320.size a
  h_S5000x320 : 0 < S5000x320.numel
  shapeCasts_S5000x320_S5000x320 : S5000x320.ShapeCasts S5000x320
  inb_S320x128_S320x128_0_0 : ∀ a, (![0, 0] : Fin 2 → Nat) a + S320x128.size a ≤ S320x128.size a
  h_S320x128 : 0 < S320x128.numel
  shapeCasts_S320x128_S320x128 : S320x128.ShapeCasts S320x128
  inb_S128_S128_0 : ∀ a, (![0] : Fin 1 → Nat) a + S128.size a ≤ S128.size a
  h_S128 : 0 < S128.numel
  shapeCasts_S128_S1x128 : S128.ShapeCasts S1x128
  broadcasts_S1x128_S5000x128 : S1x128.Broadcasts S5000x128
  inb_S5000x128_S5000x128_0_0 : ∀ a, (![0, 0] : Fin 2 → Nat) a + S5000x128.size a ≤ S5000x128.size a
  h_S5000x128 : 0 < S5000x128.numel
  packedbf16_S5000x128_S5000x128_0_0 : (Rect.unit (s := S5000x128) ![0, 0] S5000x128.size inb_S5000x128_S5000x128_0_0).PackedRows (EltTy.packing .bf16)
  concatenates_S100000x128_S50000x128_S150000x128_d0 : Shape.Concatenates [S100000x128, S50000x128] S150000x128 0
  slices_S2x1500000_S1x1500000_0_0 : S2x1500000.Slices ![0, 0] S1x1500000
  shapeCasts_S1x1500000_S1500000 : S1x1500000.ShapeCasts S1500000
  slices_S2x1500000_S1x1500000_1_0 : S2x1500000.Slices ![1, 0] S1x1500000
  bcast_S_S1500000 : S_.BroadcastsInDim S1500000 (![] : Fin 0 → Fin S1500000.rank)
  bcast_S_S150000 : S_.BroadcastsInDim S150000 (![] : Fin 0 → Fin S150000.rank)
  bcast_S1500000_S1500000x1_0 : S1500000.BroadcastsInDim S1500000x1 (![0] : Fin 1 → Fin S1500000x1.rank)
  bcast_S150000_S150000x1_0 : S150000.BroadcastsInDim S150000x1 (![0] : Fin 1 → Fin S150000x1.rank)
  bcast_S_S150000x128 : S_.BroadcastsInDim S150000x128 (![] : Fin 0 → Fin S150000x128.rank)
  slices_S256x128_S128x128_0_0 : S256x128.Slices ![0, 0] S128x128
  slices_S256x128_S128x128_128_0 : S256x128.Slices ![128, 0] S128x128
  shapeCasts_S5000x128_S5000x128 : S5000x128.ShapeCasts S5000x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  gather_S30000x64_S100000x3x8x1_S100000x3x8x64_3_0_n_n_0_3_164_wf : GatherDims.WF S30000x64 S100000x3x8x1 S100000x3x8x64 [3] [0] [] [0] [] 3 ![1, 64]
  gather_S30000x64_S50000x3x8x1_S50000x3x8x64_3_0_n_n_0_3_164_wf : GatherDims.WF S30000x64 S50000x3x8x1 S50000x3x8x64 [3] [0] [] [0] [] 3 ![1, 64]
  gather_S5000x128_S100000x10x1_S100000x10x128_2_0_n_n_0_2_1128_wf : GatherDims.WF S5000x128 S100000x10x1 S100000x10x128 [2] [0] [] [0] [] 2 ![1, 128]
  gather_S8000x128_S50000x10x1_S50000x10x128_2_0_n_n_0_2_1128_wf : GatherDims.WF S8000x128 S50000x10x1 S50000x10x128 [2] [0] [] [0] [] 2 ![1, 128]
  dot_S5000x320_S320x128_S5000x128_1_0_0_1_n_n_wf : DotDims.WF S5000x320 S320x128 S5000x128 [1] [0] [0] [1] [] []
  scatter_S150000_S1500000x1_S1500000_n_0_0_1_wf : ScatterDims.WF S150000 S1500000x1 S1500000 [] [0] [0] 1
  gather_S150000x128_S1500000x1_S1500000x128_1_0_n_n_0_1_1128_wf : GatherDims.WF S150000x128 S1500000x1 S1500000x128 [1] [0] [] [0] [] 1 ![1, 128]
  scatter_S150000x128_S1500000x1_S1500000x128_1_0_0_1_wf : ScatterDims.WF S150000x128 S1500000x1 S1500000x128 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x320.size a ≤ S100000x320.size a
  hwx0_0 : ∀ i : grid0.Coords, EltTy.bits .bf16 = 32 ∨ (Rect.block (s := S100000x320) S5000x320.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S320x128.size a ≤ S320x128.size a
  hwx0_1 : ∀ i : grid0.Coords, EltTy.bits .bf16 = 32 ∨ (Rect.block (s := S320x128) S320x128.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128.size a ≤ S128.size a
  hwx0_2 : ∀ i : grid0.Coords, EltTy.bits .f32 = 32 ∨ (Rect.block (s := S128) S128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S100000x128.size a
  hwx0_3 : ∀ i : grid0.Coords, EltTy.bits .f32 = 32 ∨ (Rect.block (s := S100000x128) S5000x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S5000x128.size a ≤ S100000x128.size a
  hwx0_4 : ∀ i : grid0.Coords, EltTy.bits .f32 = 32 ∨ (Rect.block (s := S100000x128) S5000x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S100000x128.size a
  hwx0_5 : ∀ i : grid0.Coords, EltTy.bits .bf16 = 32 ∨ (Rect.block (s := S100000x128) S5000x128.size (cc0_transform_5 i) (hinb0_5 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x320.size a ≤ S50000x320.size a
  hwx1_0 : ∀ i : grid1.Coords, EltTy.bits .bf16 = 32 ∨ (Rect.block (s := S50000x320) S5000x320.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S320x128.size a ≤ S320x128.size a
  hwx1_1 : ∀ i : grid1.Coords, EltTy.bits .bf16 = 32 ∨ (Rect.block (s := S320x128) S320x128.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128.size a ≤ S128.size a
  hwx1_2 : ∀ i : grid1.Coords, EltTy.bits .f32 = 32 ∨ (Rect.block (s := S128) S128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x128.size a ≤ S50000x128.size a
  hwx1_3 : ∀ i : grid1.Coords, EltTy.bits .f32 = 32 ∨ (Rect.block (s := S50000x128) S5000x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x128.size a ≤ S50000x128.size a
  hwx1_4 : ∀ i : grid1.Coords, EltTy.bits .f32 = 32 ∨ (Rect.block (s := S50000x128) S5000x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S50000x128.size a
  hwx1_5 : ∀ i : grid1.Coords, EltTy.bits .bf16 = 32 ∨ (Rect.block (s := S50000x128) S5000x128.size (cc1_transform_5 i) (hinb1_5 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S150000x128.size a
  hwx2_0 : ∀ i : grid2.Coords, EltTy.bits .f32 = 32 ∨ (Rect.block (s := S150000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S150000x128.size a
  hwx2_1 : ∀ i : grid2.Coords, EltTy.bits .f32 = 32 ∨ (Rect.block (s := S150000x128) S5000x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x1.size a ≤ S150000x1.size a
  hwx2_2 : ∀ i : grid2.Coords, EltTy.bits .f32 = 32 ∨ (Rect.block (s := S150000x1) S5000x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .bf16 = 32 ∨ (Rect.block (s := S128x128) S128x128.size (cc2_transform_3 i) (hinb2_3 i)).WholeWords (EltTy.packing .bf16)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128.size a ≤ S128.size a
  hwx2_4 : ∀ i : grid2.Coords, EltTy.bits .f32 = 32 ∨ (Rect.block (s := S128) S128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S128x128.size a ≤ S128x128.size a
  hwx2_5 : ∀ i : grid2.Coords, EltTy.bits .bf16 = 32 ∨ (Rect.block (s := S128x128) S128x128.size (cc2_transform_5 i) (hinb2_5 i)).WholeWords (EltTy.packing .bf16)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S128x128.size a ≤ S128x128.size a
  hwx2_6 : ∀ i : grid2.Coords, EltTy.bits .bf16 = 32 ∨ (Rect.block (s := S128x128) S128x128.size (cc2_transform_6 i) (hinb2_6 i)).WholeWords (EltTy.packing .bf16)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S128.size a ≤ S128.size a
  hwx2_7 : ∀ i : grid2.Coords, EltTy.bits .f32 = 32 ∨ (Rect.block (s := S128) S128.size (cc2_transform_7 i) (hinb2_7 i)).WholeWords (EltTy.packing .f32)
  hstage2_8 : ∀ j, (stage2_8 j).IsWhole
  nbuf2_8 : grid2.bufCount reads2_8 false = 2
  hreads2_8 : ∀ i i' : grid2.Coords, (∀ a, reads2_8 a = true → i a = i' a) → cc2_transform_8 i = cc2_transform_8 i'
  hinb2_8 : ∀ (i : grid2.Coords) a, (cc2_transform_8 i a + 1) * S5000x128.size a ≤ S150000x128.size a
  hwx2_8 : ∀ i : grid2.Coords, EltTy.bits .f32 = 32 ∨ (Rect.block (s := S150000x128) S5000x128.size (cc2_transform_8 i) (hinb2_8 i)).WholeWords (EltTy.packing .f32)
  hstage2_9 : ∀ j, (stage2_9 j).IsWhole
  nbuf2_9 : grid2.bufCount reads2_9 false = 2
  hreads2_9 : ∀ i i' : grid2.Coords, (∀ a, reads2_9 a = true → i a = i' a) → cc2_transform_9 i = cc2_transform_9 i'
  hinb2_9 : ∀ (i : grid2.Coords) a, (cc2_transform_9 i a + 1) * S5000x128.size a ≤ S150000x128.size a
  hwx2_9 : ∀ i : grid2.Coords, EltTy.bits .bf16 = 32 ∨ (Rect.block (s := S150000x128) S5000x128.size (cc2_transform_9 i) (hinb2_9 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S150000x128.size a
  hwx3_0 : ∀ i : grid3.Coords, EltTy.bits .f32 = 32 ∨ (Rect.block (s := S150000x128) S5000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x128.size a ≤ S150000x128.size a
  hwx3_1 : ∀ i : grid3.Coords, EltTy.bits .f32 = 32 ∨ (Rect.block (s := S150000x128) S5000x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x1.size a ≤ S150000x1.size a
  hwx3_2 : ∀ i : grid3.Coords, EltTy.bits .f32 = 32 ∨ (Rect.block (s := S150000x1) S5000x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S128x128.size a ≤ S128x128.size a
  hwx3_3 : ∀ i : grid3.Coords, EltTy.bits .bf16 = 32 ∨ (Rect.block (s := S128x128) S128x128.size (cc3_transform_3 i) (hinb3_3 i)).WholeWords (EltTy.packing .bf16)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S128.size a ≤ S128.size a
  hwx3_4 : ∀ i : grid3.Coords, EltTy.bits .f32 = 32 ∨ (Rect.block (s := S128) S128.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S128x128.size a ≤ S128x128.size a
  hwx3_5 : ∀ i : grid3.Coords, EltTy.bits .bf16 = 32 ∨ (Rect.block (s := S128x128) S128x128.size (cc3_transform_5 i) (hinb3_5 i)).WholeWords (EltTy.packing .bf16)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S128x128.size a ≤ S128x128.size a
  hwx3_6 : ∀ i : grid3.Coords, EltTy.bits .bf16 = 32 ∨ (Rect.block (s := S128x128) S128x128.size (cc3_transform_6 i) (hinb3_6 i)).WholeWords (EltTy.packing .bf16)
  hstage3_7 : ∀ j, (stage3_7 j).IsWhole
  nbuf3_7 : grid3.bufCount reads3_7 true = 1
  hreads3_7 : ∀ i i' : grid3.Coords, (∀ a, reads3_7 a = true → i a = i' a) → cc3_transform_7 i = cc3_transform_7 i'
  hinb3_7 : ∀ (i : grid3.Coords) a, (cc3_transform_7 i a + 1) * S128.size a ≤ S128.size a
  hwx3_7 : ∀ i : grid3.Coords, EltTy.bits .f32 = 32 ∨ (Rect.block (s := S128) S128.size (cc3_transform_7 i) (hinb3_7 i)).WholeWords (EltTy.packing .f32)
  hstage3_8 : ∀ j, (stage3_8 j).IsWhole
  nbuf3_8 : grid3.bufCount reads3_8 false = 2
  hreads3_8 : ∀ i i' : grid3.Coords, (∀ a, reads3_8 a = true → i a = i' a) → cc3_transform_8 i = cc3_transform_8 i'
  hinb3_8 : ∀ (i : grid3.Coords) a, (cc3_transform_8 i a + 1) * S5000x128.size a ≤ S150000x128.size a
  hwx3_8 : ∀ i : grid3.Coords, EltTy.bits .f32 = 32 ∨ (Rect.block (s := S150000x128) S5000x128.size (cc3_transform_8 i) (hinb3_8 i)).WholeWords (EltTy.packing .f32)
  hstage3_9 : ∀ j, (stage3_9 j).IsWhole
  nbuf3_9 : grid3.bufCount reads3_9 false = 2
  hreads3_9 : ∀ i i' : grid3.Coords, (∀ a, reads3_9 a = true → i a = i' a) → cc3_transform_9 i = cc3_transform_9 i'
  hinb3_9 : ∀ (i : grid3.Coords) a, (cc3_transform_9 i a + 1) * S5000x128.size a ≤ S150000x128.size a
  hwx3_9 : ∀ i : grid3.Coords, EltTy.bits .bf16 = 32 ∨ (Rect.block (s := S150000x128) S5000x128.size (cc3_transform_9 i) (hinb3_9 i)).WholeWords (EltTy.packing .bf16)

variable [Facts₀]

def gather_S30000x64_S100000x3x8x1_S100000x3x8x64_3_0_n_n_0_3_164 : GatherDims S30000x64 S100000x3x8x1 S100000x3x8x64 where
  offsetDims := [3]
  collapsedSliceDims := [0]
  operandBatchingDims := []
  startIndicesBatchingDims := []
  startIndexMap := [0]
  indexVectorDim := 3
  sliceSizes := ![1, 64]
  wf := gather_S30000x64_S100000x3x8x1_S100000x3x8x64_3_0_n_n_0_3_164_wf
def gather_S30000x64_S50000x3x8x1_S50000x3x8x64_3_0_n_n_0_3_164 : GatherDims S30000x64 S50000x3x8x1 S50000x3x8x64 where
  offsetDims := [3]
  collapsedSliceDims := [0]
  operandBatchingDims := []
  startIndicesBatchingDims := []
  startIndexMap := [0]
  indexVectorDim := 3
  sliceSizes := ![1, 64]
  wf := gather_S30000x64_S50000x3x8x1_S50000x3x8x64_3_0_n_n_0_3_164_wf
def gather_S5000x128_S100000x10x1_S100000x10x128_2_0_n_n_0_2_1128 : GatherDims S5000x128 S100000x10x1 S100000x10x128 where
  offsetDims := [2]
  collapsedSliceDims := [0]
  operandBatchingDims := []
  startIndicesBatchingDims := []
  startIndexMap := [0]
  indexVectorDim := 2
  sliceSizes := ![1, 128]
  wf := gather_S5000x128_S100000x10x1_S100000x10x128_2_0_n_n_0_2_1128_wf
def gather_S8000x128_S50000x10x1_S50000x10x128_2_0_n_n_0_2_1128 : GatherDims S8000x128 S50000x10x1 S50000x10x128 where
  offsetDims := [2]
  collapsedSliceDims := [0]
  operandBatchingDims := []
  startIndicesBatchingDims := []
  startIndexMap := [0]
  indexVectorDim := 2
  sliceSizes := ![1, 128]
  wf := gather_S8000x128_S50000x10x1_S50000x10x128_2_0_n_n_0_2_1128_wf
def dot_S5000x320_S320x128_S5000x128_1_0_0_1_n_n : DotDims S5000x320 S320x128 S5000x128 where
  lhsContracting := [1]
  rhsContracting := [0]
  lhsNonContracting := [0]
  rhsNonContracting := [1]
  lhsBatch := []
  rhsBatch := []
  wf := dot_S5000x320_S320x128_S5000x128_1_0_0_1_n_n_wf
def scatter_S150000_S1500000x1_S1500000_n_0_0_1 : ScatterDims S150000 S1500000x1 S1500000 where
  updateWindowDims := []
  insertedWindowDims := [0]
  scatterDimsToOperandDims := [0]
  indexVectorDim := 1
  wf := scatter_S150000_S1500000x1_S1500000_n_0_0_1_wf
def gather_S150000x128_S1500000x1_S1500000x128_1_0_n_n_0_1_1128 : GatherDims S150000x128 S1500000x1 S1500000x128 where
  offsetDims := [1]
  collapsedSliceDims := [0]
  operandBatchingDims := []
  startIndicesBatchingDims := []
  startIndexMap := [0]
  indexVectorDim := 1
  sliceSizes := ![1, 128]
  wf := gather_S150000x128_S1500000x1_S1500000x128_1_0_n_n_0_1_1128_wf
def scatter_S150000x128_S1500000x1_S1500000x128_1_0_0_1 : ScatterDims S150000x128 S1500000x1 S1500000x128 where
  updateWindowDims := [1]
  insertedWindowDims := [0]
  scatterDimsToOperandDims := [0]
  indexVectorDim := 1
  wf := scatter_S150000x128_S1500000x1_S1500000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_v50) S5000x320.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v53) S320x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg11) S128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S5000x128.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v54_0) S5000x128.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v54_1) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v52) S5000x320.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v55) S320x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg13) S128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg6) S5000x128.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v56_0) S5000x128.size cc1_transform_4 reads1_4 true false 2 stage1_4 sem1_4
    hrank1 hreads1_4 hinb1_4 nbuf1_4 (Memref.isWhole_whole _) hwx1_4 hstage1_4

abbrev win1_5 : Pipeline.Window sig grid1 :=
  Pipeline.Window.ofSpec (Memref.whole main_v56_1) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v57) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v82) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v71) S5000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v83) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg19) S128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v85) S128x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v87) S128x128.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_arg15) S128.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_v88_0) S5000x128.size cc2_transform_8 reads2_8 true false 2 stage2_8 sem2_8
    hrank2 hreads2_8 hinb2_8 nbuf2_8 (Memref.isWhole_whole _) hwx2_8 hstage2_8

abbrev win2_9 : Pipeline.Window sig grid2 :=
  Pipeline.Window.ofSpec (Memref.whole main_v88_1) S5000x128.size cc2_transform_9 reads2_9 true false 2 stage2_9 sem2_9
    hrank2 hreads2_9 hinb2_9 nbuf2_9 (Memref.isWhole_whole _) hwx2_9 hstage2_9

abbrev win2 : Fin 10 → Pipeline.Window sig grid2 := fun | 0 => win2_0 | 1 => win2_1 | 2 => win2_2 | 3 => win2_3 | 4 => win2_4 | 5 => win2_5 | 6 => win2_6 | 7 => win2_7 | 8 => win2_8 | 9 => win2_9 | ⟨_ + 10, h⟩ => absurd h (Nat.not_lt.2 (Nat.le_add_left _ _))
abbrev spec2 : Fin 10 → Pipeline.WinSpec sig grid2.rank := fun w => (win2 w).toWinSpec

abbrev win3_0 : Pipeline.Window sig grid3 :=
  Pipeline.Window.ofSpec (Memref.whole main_v88_0) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v99) S5000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v71) S5000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v100) S128x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_arg21) S128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v102) S128x128.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v104) S128x128.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_arg17) S128.size cc3_transform_7 reads3_7 false true 1 stage3_7 sem3_7
    hrank3 hreads3_7 hinb3_7 nbuf3_7 (Memref.isWhole_whole _) hwx3_7 hstage3_7

abbrev win3_8 : Pipeline.Window sig grid3 :=
  Pipeline.Window.ofSpec (Memref.whole main_v105_0) S5000x128.size cc3_transform_8 reads3_8 true false 2 stage3_8 sem3_8
    hrank3 hreads3_8 hinb3_8 nbuf3_8 (Memref.isWhole_whole _) hwx3_8 hstage3_8

abbrev win3_9 : Pipeline.Window sig grid3 :=
  Pipeline.Window.ofSpec (Memref.whole main_v105_1) S5000x128.size cc3_transform_9 reads3_9 true false 2 stage3_9 sem3_9
    hrank3 hreads3_9 hinb3_9 nbuf3_9 (Memref.isWhole_whole _) hwx3_9 hstage3_9

abbrev win3 : Fin 10 → Pipeline.Window sig grid3 := fun | 0 => win3_0 | 1 => win3_1 | 2 => win3_2 | 3 => win3_3 | 4 => win3_4 | 5 => win3_5 | 6 => win3_6 | 7 => win3_7 | 8 => win3_8 | 9 => win3_9 | ⟨_ + 10, h⟩ => absurd h (Nat.not_lt.2 (Nat.le_add_left _ _))
abbrev spec3 : Fin 10 → Pipeline.WinSpec sig grid3.rank := fun w => (win3 w).toWinSpec

class Facts : Prop extends Facts₀ where

variable [Facts]
-- ==== ReferenceIdeal.lean ====
abbrev S2x1500000 : Shape := ⟨2, ![2, 1500000]⟩
abbrev S100000x10 : Shape := ⟨2, ![100000, 10]⟩
abbrev S50000x10 : Shape := ⟨2, ![50000, 10]⟩
abbrev S100000x3x8 : Shape := ⟨3, ![100000, 3, 8]⟩
abbrev S50000x3x8 : Shape := ⟨3, ![50000, 3, 8]⟩
abbrev S100000x128 : Shape := ⟨2, ![100000, 128]⟩
abbrev S50000x128 : Shape := ⟨2, ![50000, 128]⟩
abbrev S5000x128 : Shape := ⟨2, ![5000, 128]⟩
abbrev S8000x128 : Shape := ⟨2, ![8000, 128]⟩
abbrev S30000x64 : Shape := ⟨2, ![30000, 64]⟩
abbrev S320x128 : Shape := ⟨2, ![320, 128]⟩
abbrev S128 : Shape := ⟨1, ![128]⟩
abbrev S256x128 : Shape := ⟨2, ![256, 128]⟩
abbrev S128x128 : Shape := ⟨2, ![128, 128]⟩
abbrev S_ : Shape := ⟨0, ![]⟩
abbrev S100000x3x8x1 : Shape := ⟨4, ![100000, 3, 8, 1]⟩
abbrev S100000x3x8x64 : Shape := ⟨4, ![100000, 3, 8, 64]⟩
abbrev S100000x3x64 : Shape := ⟨3, ![100000, 3, 64]⟩
abbrev S100000x192 : Shape := ⟨2, ![100000, 192]⟩
abbrev S50000x3x8x1 : Shape := ⟨4, ![50000, 3, 8, 1]⟩
abbrev S50000x3x8x64 : Shape := ⟨4, ![50000, 3, 8, 64]⟩
abbrev S50000x3x64 : Shape := ⟨3, ![50000, 3, 64]⟩
abbrev S50000x192 : Shape := ⟨2, ![50000, 192]⟩
abbrev S100000x10x1 : Shape := ⟨3, ![100000, 10, 1]⟩
abbrev S100000x10x128 : Shape := ⟨3, ![100000, 10, 128]⟩
abbrev S50000x10x1 : Shape := ⟨3, ![50000, 10, 1]⟩
abbrev S50000x10x128 : Shape := ⟨3, ![50000, 10, 128]⟩
abbrev S100000x320 : Shape := ⟨2, ![100000, 320]⟩
abbrev S1x128 : Shape := ⟨2, ![1, 128]⟩
abbrev S50000x320 : Shape := ⟨2, ![50000, 320]⟩
abbrev S150000x128 : Shape := ⟨2, ![150000, 128]⟩
abbrev S1x1500000 : Shape := ⟨2, ![1, 1500000]⟩
abbrev S1500000 : Shape := ⟨1, ![1500000]⟩
abbrev S150000 : Shape := ⟨1, ![150000]⟩
abbrev S1500000x1 : Shape := ⟨2, ![1500000, 1]⟩
abbrev S1500000x128 : Shape := ⟨2, ![1500000, 128]⟩
abbrev S150000x1 : Shape := ⟨2, ![150000, 1]⟩
abbrev S150000x256 : Shape := ⟨2, ![150000, 256]⟩

abbrev nBuf : Space → Nat
  | .hbm => 165
  | .vmem => 0
  | .smem => 0
  | _ => 0

abbrev hbmTy0_0 (i : Nat) : BufTy := match i % 128 with
  | 0 => ⟨S2x1500000, .i32⟩
  | 1 => ⟨S100000x10, .i32⟩
  | 2 => ⟨S50000x10, .i32⟩
  | 3 => ⟨S100000x3x8, .i32⟩
  | 4 => ⟨S50000x3x8, .i32⟩
  | 5 => ⟨S100000x128, .f32⟩
  | 6 => ⟨S50000x128, .f32⟩
  | 7 => ⟨S5000x128, .f32⟩
  | 8 => ⟨S8000x128, .f32⟩
  | 9 => ⟨S30000x64, .f32⟩
  | 10 => ⟨S320x128, .f32⟩
  | 11 => ⟨S128, .f32⟩
  | 12 => ⟨S320x128, .f32⟩
  | 13 => ⟨S128, .f32⟩
  | 14 => ⟨S256x128, .f32⟩
  | 15 => ⟨S128, .f32⟩
  | 16 => ⟨S256x128, .f32⟩
  | 17 => ⟨S128, .f32⟩
  | 18 => ⟨S128x128, .f32⟩
  | 19 => ⟨S128, .f32⟩
  | 20 => ⟨S128x128, .f32⟩
  | 21 => ⟨S128, .f32⟩
  | 22 => ⟨S_, .i32⟩
  | 23 => ⟨S100000x3x8, .i32⟩
  | 24 => ⟨S100000x3x8, .i1⟩
  | 25 => ⟨S_, .i32⟩
  | 26 => ⟨S100000x3x8, .i32⟩
  | 27 => ⟨S100000x3x8, .i32⟩
  | 28 => ⟨S100000x3x8, .i32⟩
  | 29 => ⟨S100000x3x8x1, .i32⟩
  | 30 => ⟨S100000x3x8x64, .f32⟩
  | 31 => ⟨S_, .f32⟩
  | 32 => ⟨S100000x3x64, .f32⟩
  | 33 => ⟨S_, .f32⟩
  | 34 => ⟨S100000x3x64, .f32⟩
  | 35 => ⟨S100000x3x64, .f32⟩
  | 36 => ⟨S100000x192, .f32⟩
  | 37 => ⟨S_, .i32⟩
  | 38 => ⟨S50000x3x8, .i32⟩
  | 39 => ⟨S50000x3x8, .i1⟩
  | 40 => ⟨S_, .i32⟩
  | 41 => ⟨S50000x3x8, .i32⟩
  | 42 => ⟨S50000x3x8, .i32⟩
  | 43 => ⟨S50000x3x8, .i32⟩
  | 44 => ⟨S50000x3x8x1, .i32⟩
  | 45 => ⟨S50000x3x8x64, .f32⟩
  | 46 => ⟨S_, .f32⟩
  | 47 => ⟨S50000x3x64, .f32⟩
  | 48 => ⟨S_, .f32⟩
  | 49 => ⟨S50000x3x64, .f32⟩
  | 50 => ⟨S50000x3x64, .f32⟩
  | 51 => ⟨S50000x192, .f32⟩
  | 52 => ⟨S_, .i32⟩
  | 53 => ⟨S100000x10, .i32⟩
  | 54 => ⟨S100000x10, .i1⟩
  | 55 => ⟨S_, .i32⟩
  | 56 => ⟨S100000x10, .i32⟩
  | 57 => ⟨S100000x10, .i32⟩
  | 58 => ⟨S100000x10, .i32⟩
  | 59 => ⟨S100000x10x1, .i32⟩
  | 60 => ⟨S100000x10x128, .f32⟩
  | 61 => ⟨S_, .f32⟩
  | 62 => ⟨S100000x128, .f32⟩
  | 63 => ⟨S_, .f32⟩
  | 64 => ⟨S100000x128, .f32⟩
  | 65 => ⟨S100000x128, .f32⟩
  | 66 => ⟨S_, .i32⟩
  | 67 => ⟨S50000x10, .i32⟩
  | 68 => ⟨S50000x10, .i1⟩
  | 69 => ⟨S_, .i32⟩
  | 70 => ⟨S50000x10, .i32⟩
  | 71 => ⟨S50000x10, .i32⟩
  | 72 => ⟨S50000x10, .i32⟩
  | 73 => ⟨S50000x10x1, .i32⟩
  | 74 => ⟨S50000x10x128, .f32⟩
  | 75 => ⟨S_, .f32⟩
  | 76 => ⟨S50000x128, .f32⟩
  | 77 => ⟨S_, .f32⟩
  | 78 => ⟨S50000x128, .f32⟩
  | 79 => ⟨S50000x128, .f32⟩
  | 80 => ⟨S100000x320, .f32⟩
  | 81 => ⟨S100000x128, .f32⟩
  | 82 => ⟨S1x128, .f32⟩
  | 83 => ⟨S100000x128, .f32⟩
  | 84 => ⟨S100000x128, .f32⟩
  | 85 => ⟨S50000x320, .f32⟩
  | 86 => ⟨S50000x128, .f32⟩
  | 87 => ⟨S1x128, .f32⟩
  | 88 => ⟨S50000x128, .f32⟩
  | 89 => ⟨S50000x128, .f32⟩
  | 90 => ⟨S100000x128, .f32⟩
  | 91 => ⟨S50000x128, .f32⟩
  | 92 => ⟨S150000x128, .f32⟩
  | 93 => ⟨S1x1500000, .i32⟩
  | 94 => ⟨S1500000, .i32⟩
  | 95 => ⟨S1x1500000, .i32⟩
  | 96 => ⟨S1500000, .i32⟩
  | 97 => ⟨S_, .f32⟩
  | 98 => ⟨S1500000, .f32⟩
  | 99 => ⟨S_, .f32⟩
  | 100 => ⟨S150000, .f32⟩
  | 101 => ⟨S1500000x1, .i32⟩
  | 102 => ⟨S150000, .f32⟩
  | 103 => ⟨S_, .f32⟩
  | 104 => ⟨S150000, .f32⟩
  | 105 => ⟨S150000, .f32⟩
  | 106 => ⟨S_, .i32⟩
  | 107 => ⟨S1500000, .i32⟩
  | 108 => ⟨S1500000, .i1⟩
  | 109 => ⟨S_, .i32⟩
  | 110 => ⟨S1500000, .i32⟩
  | 111 => ⟨S1500000, .i32⟩
  | 112 => ⟨S1500000, .i32⟩
  | 113 => ⟨S1500000x1, .i32⟩
  | 114 => ⟨S1500000x128, .f32⟩
  | 115 => ⟨S_, .f32⟩
  | 116 => ⟨S150000x128, .f32⟩
  | 117 => ⟨S1500000x1, .i32⟩
  | 118 => ⟨S150000x128, .f32⟩
  | 119 => ⟨S150000x1, .f32⟩
  | 120 => ⟨S150000x128, .f32⟩
  | 121 => ⟨S150000x128, .f32⟩
  | 122 => ⟨S150000x128, .f32⟩
  | 123 => ⟨S1x128, .f32⟩
  | 124 => ⟨S150000x128, .f32⟩
  | 125 => ⟨S150000x128, .f32⟩
  | 126 => ⟨S_, .f32⟩
  | 127 => ⟨S150000x128, .f32⟩
  | _ => ⟨S2x1500000, .i32⟩

abbrev hbmTy0_1 (i : Nat) : BufTy := match i % 128 with
  | 0 => ⟨S150000x128, .f32⟩
  | 1 => ⟨S150000x256, .f32⟩
  | 2 => ⟨S150000x128, .f32⟩
  | 3 => ⟨S1x128, .f32⟩
  | 4 => ⟨S150000x128, .f32⟩
  | 5 => ⟨S150000x128, .f32⟩
  | 6 => ⟨S_, .f32⟩
  | 7 => ⟨S150000x128, .f32⟩
  | 8 => ⟨S150000x128, .f32⟩
  | 9 => ⟨S_, .i32⟩
  | 10 => ⟨S1500000, .i32⟩
  | 11 => ⟨S1500000, .i1⟩
  | 12 => ⟨S_, .i32⟩
  | 13 => ⟨S1500000, .i32⟩
  | 14 => ⟨S1500000, .i32⟩
  | 15 => ⟨S1500000, .i32⟩
  | 16 => ⟨S1500000x1, .i32⟩
  | 17 => ⟨S1500000x128, .f32⟩
  | 18 => ⟨S_, .f32⟩
  | 19 => ⟨S150000x128, .f32⟩
  | 20 => ⟨S1500000x1, .i32⟩
  | 21 => ⟨S150000x128, .f32⟩
  | 22 => ⟨S150000x1, .f32⟩
  | 23 => ⟨S150000x128, .f32⟩
  | 24 => ⟨S150000x128, .f32⟩
  | 25 => ⟨S150000x128, .f32⟩
  | 26 => ⟨S1x128, .f32⟩
  | 27 => ⟨S150000x128, .f32⟩
  | 28 => ⟨S150000x128, .f32⟩
  | 29 => ⟨S_, .f32⟩
  | 30 => ⟨S150000x128, .f32⟩
  | 31 => ⟨S150000x128, .f32⟩
  | 32 => ⟨S150000x256, .f32⟩
  | 33 => ⟨S150000x128, .f32⟩
  | 34 => ⟨S1x128, .f32⟩
  | 35 => ⟨S150000x128, .f32⟩
  | 36 => ⟨S150000x128, .f32⟩
  | _ => ⟨S2x1500000, .i32⟩

abbrev hbmTy (i : Nat) : BufTy := match i / 128 with
  | 0 => hbmTy0_0 i
  | 1 => hbmTy0_1 i
  | _ => ⟨S2x1500000, .i32⟩

abbrev bufTy : (tb : Table) → Fin (tcTables nBuf tb) → BufTy
  | .hbm, ⟨i, _⟩ => hbmTy i
  | _, _ => ⟨S2x1500000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_c : Ref sig .tc := ⟨.hbm, 22, rfl⟩
abbrev main_v0 : Ref sig .tc := ⟨.hbm, 23, rfl⟩
abbrev main_v1 : Ref sig .tc := ⟨.hbm, 24, rfl⟩
abbrev main_c_0 : Ref sig .tc := ⟨.hbm, 25, rfl⟩
abbrev main_v2 : Ref sig .tc := ⟨.hbm, 26, rfl⟩
abbrev main_v3 : Ref sig .tc := ⟨.hbm, 27, rfl⟩
abbrev main_v4 : Ref sig .tc := ⟨.hbm, 28, rfl⟩
abbrev main_v5 : Ref sig .tc := ⟨.hbm, 29, rfl⟩
abbrev main_v6 : Ref sig .tc := ⟨.hbm, 30, rfl⟩
abbrev main_cst : Ref sig .tc := ⟨.hbm, 31, rfl⟩
abbrev main_v7 : Ref sig .tc := ⟨.hbm, 32, rfl⟩
abbrev main_cst_1 : Ref sig .tc := ⟨.hbm, 33, rfl⟩
abbrev main_v8 : Ref sig .tc := ⟨.hbm, 34, rfl⟩
abbrev main_v9 : Ref sig .tc := ⟨.hbm, 35, rfl⟩
abbrev main_v10 : Ref sig .tc := ⟨.hbm, 36, rfl⟩
abbrev main_c_2 : Ref sig .tc := ⟨.hbm, 37, rfl⟩
abbrev main_v11 : Ref sig .tc := ⟨.hbm, 38, rfl⟩
abbrev main_v12 : Ref sig .tc := ⟨.hbm, 39, rfl⟩
abbrev main_c_3 : Ref sig .tc := ⟨.hbm, 40, rfl⟩
abbrev main_v13 : Ref sig .tc := ⟨.hbm, 41, rfl⟩
abbrev main_v14 : Ref sig .tc := ⟨.hbm, 42, rfl⟩
abbrev main_v15 : Ref sig .tc := ⟨.hbm, 43, rfl⟩
abbrev main_v16 : Ref sig .tc := ⟨.hbm, 44, rfl⟩
abbrev main_v17 : Ref sig .tc := ⟨.hbm, 45, rfl⟩
abbrev main_cst_4 : Ref sig .tc := ⟨.hbm, 46, rfl⟩
abbrev main_v18 : Ref sig .tc := ⟨.hbm, 47, rfl⟩
abbrev main_cst_5 : Ref sig .tc := ⟨.hbm, 48, rfl⟩
abbrev main_v19 : Ref sig .tc := ⟨.hbm, 49, rfl⟩
abbrev main_v20 : Ref sig .tc := ⟨.hbm, 50, rfl⟩
abbrev main_v21 : Ref sig .tc := ⟨.hbm, 51, rfl⟩
abbrev main_c_6 : Ref sig .tc := ⟨.hbm, 52, rfl⟩
abbrev main_v22 : Ref sig .tc := ⟨.hbm, 53, rfl⟩
abbrev main_v23 : Ref sig .tc := ⟨.hbm, 54, rfl⟩
abbrev main_c_7 : Ref sig .tc := ⟨.hbm, 55, rfl⟩
abbrev main_v24 : Ref sig .tc := ⟨.hbm, 56, rfl⟩
abbrev main_v25 : Ref sig .tc := ⟨.hbm, 57, rfl⟩
abbrev main_v26 : Ref sig .tc := ⟨.hbm, 58, rfl⟩
abbrev main_v27 : Ref sig .tc := ⟨.hbm, 59, rfl⟩
abbrev main_v28 : Ref sig .tc := ⟨.hbm, 60, rfl⟩
abbrev main_cst_8 : Ref sig .tc := ⟨.hbm, 61, rfl⟩
abbrev main_v29 : Ref sig .tc := ⟨.hbm, 62, rfl⟩
abbrev main_cst_9 : Ref sig .tc := ⟨.hbm, 63, rfl⟩
abbrev main_v30 : Ref sig .tc := ⟨.hbm, 64, rfl⟩
abbrev main_v31 : Ref sig .tc := ⟨.hbm, 65, rfl⟩
abbrev main_c_10 : Ref sig .tc := ⟨.hbm, 66, rfl⟩
abbrev main_v32 : Ref sig .tc := ⟨.hbm, 67, rfl⟩
abbrev main_v33 : Ref sig .tc := ⟨.hbm, 68, rfl⟩
abbrev main_c_11 : Ref sig .tc := ⟨.hbm, 69, rfl⟩
abbrev main_v34 : Ref sig .tc := ⟨.hbm, 70, rfl⟩
abbrev main_v35 : Ref sig .tc := ⟨.hbm, 71, rfl⟩
abbrev main_v36 : Ref sig .tc := ⟨.hbm, 72, rfl⟩
abbrev main_v37 : Ref sig .tc := ⟨.hbm, 73, rfl⟩
abbrev main_v38 : Ref sig .tc := ⟨.hbm, 74, rfl⟩
abbrev main_cst_12 : Ref sig .tc := ⟨.hbm, 75, rfl⟩
abbrev main_v39 : Ref sig .tc := ⟨.hbm, 76, rfl⟩
abbrev main_cst_13 : Ref sig .tc := ⟨.hbm, 77, rfl⟩
abbrev main_v40 : Ref sig .tc := ⟨.hbm, 78, rfl⟩
abbrev main_v41 : Ref sig .tc := ⟨.hbm, 79, rfl⟩
abbrev main_v42 : Ref sig .tc := ⟨.hbm, 80, rfl⟩
abbrev main_v43 : Ref sig .tc := ⟨.hbm, 81, rfl⟩
abbrev main_v44 : Ref sig .tc := ⟨.hbm, 82, rfl⟩
abbrev main_v45 : Ref sig .tc := ⟨.hbm, 83, rfl⟩
abbrev main_v46 : Ref sig .tc := ⟨.hbm, 84, rfl⟩
abbrev main_v47 : Ref sig .tc := ⟨.hbm, 85, rfl⟩
abbrev main_v48 : Ref sig .tc := ⟨.hbm, 86, rfl⟩
abbrev main_v49 : Ref sig .tc := ⟨.hbm, 87, rfl⟩
abbrev main_v50 : Ref sig .tc := ⟨.hbm, 88, rfl⟩
abbrev main_v51 : Ref sig .tc := ⟨.hbm, 89, rfl⟩
abbrev main_v52 : Ref sig .tc := ⟨.hbm, 90, rfl⟩
abbrev main_v53 : Ref sig .tc := ⟨.hbm, 91, rfl⟩
abbrev main_v54 : Ref sig .tc := ⟨.hbm, 92, rfl⟩
abbrev main_v55 : Ref sig .tc := ⟨.hbm, 93, rfl⟩
abbrev main_v56 : Ref sig .tc := ⟨.hbm, 94, rfl⟩
abbrev main_v57 : Ref sig .tc := ⟨.hbm, 95, rfl⟩
abbrev main_v58 : Ref sig .tc := ⟨.hbm, 96, rfl⟩
abbrev main_cst_14 : Ref sig .tc := ⟨.hbm, 97, rfl⟩
abbrev main_v59 : Ref sig .tc := ⟨.hbm, 98, rfl⟩
abbrev main_cst_15 : Ref sig .tc := ⟨.hbm, 99, rfl⟩
abbrev main_v60 : Ref sig .tc := ⟨.hbm, 100, rfl⟩
abbrev main_v61 : Ref sig .tc := ⟨.hbm, 101, rfl⟩
abbrev main_v62 : Ref sig .tc := ⟨.hbm, 102, rfl⟩
abbrev main_cst_16 : Ref sig .tc := ⟨.hbm, 103, rfl⟩
abbrev main_v63 : Ref sig .tc := ⟨.hbm, 104, rfl⟩
abbrev main_v64 : Ref sig .tc := ⟨.hbm, 105, rfl⟩
abbrev main_c_17 : Ref sig .tc := ⟨.hbm, 106, rfl⟩
abbrev main_v65 : Ref sig .tc := ⟨.hbm, 107, rfl⟩
abbrev main_v66 : Ref sig .tc := ⟨.hbm, 108, rfl⟩
abbrev main_c_18 : Ref sig .tc := ⟨.hbm, 109, rfl⟩
abbrev main_v67 : Ref sig .tc := ⟨.hbm, 110, rfl⟩
abbrev main_v68 : Ref sig .tc := ⟨.hbm, 111, rfl⟩
abbrev main_v69 : Ref sig .tc := ⟨.hbm, 112, rfl⟩
abbrev main_v70 : Ref sig .tc := ⟨.hbm, 113, rfl⟩
abbrev main_v71 : Ref sig .tc := ⟨.hbm, 114, rfl⟩
abbrev main_cst_19 : Ref sig .tc := ⟨.hbm, 115, rfl⟩
abbrev main_v72 : Ref sig .tc := ⟨.hbm, 116, rfl⟩
abbrev main_v73 : Ref sig .tc := ⟨.hbm, 117, rfl⟩
abbrev main_v74 : Ref sig .tc := ⟨.hbm, 118, rfl⟩
abbrev main_v75 : Ref sig .tc := ⟨.hbm, 119, rfl⟩
abbrev main_v76 : Ref sig .tc := ⟨.hbm, 120, rfl⟩
abbrev main_v77 : Ref sig .tc := ⟨.hbm, 121, rfl⟩
abbrev main_v78 : Ref sig .tc := ⟨.hbm, 122, rfl⟩
abbrev main_v79 : Ref sig .tc := ⟨.hbm, 123, rfl⟩
abbrev main_v80 : Ref sig .tc := ⟨.hbm, 124, rfl⟩
abbrev main_v81 : Ref sig .tc := ⟨.hbm, 125, rfl⟩
abbrev main_call0_cst : Ref sig .tc := ⟨.hbm, 126, rfl⟩
abbrev main_call0_v0 : Ref sig .tc := ⟨.hbm, 127, rfl⟩
abbrev main_v82 : Ref sig .tc := ⟨.hbm, 128, rfl⟩
abbrev main_v83 : Ref sig .tc := ⟨.hbm, 129, rfl⟩
abbrev main_v84 : Ref sig .tc := ⟨.hbm, 130, rfl⟩
abbrev main_v85 : Ref sig .tc := ⟨.hbm, 131, rfl⟩
abbrev main_v86 : Ref sig .tc := ⟨.hbm, 132, rfl⟩
abbrev main_v87 : Ref sig .tc := ⟨.hbm, 133, rfl⟩
abbrev main_call1_cst : Ref sig .tc := ⟨.hbm, 134, rfl⟩
abbrev main_call1_v0 : Ref sig .tc := ⟨.hbm, 135, rfl⟩
abbrev main_v88 : Ref sig .tc := ⟨.hbm, 136, rfl⟩
abbrev main_c_20 : Ref sig .tc := ⟨.hbm, 137, rfl⟩
abbrev main_v89 : Ref sig .tc := ⟨.hbm, 138, rfl⟩
abbrev main_v90 : Ref sig .tc := ⟨.hbm, 139, rfl⟩
abbrev main_c_21 : Ref sig .tc := ⟨.hbm, 140, rfl⟩
abbrev main_v91 : Ref sig .tc := ⟨.hbm, 141, rfl⟩
abbrev main_v92 : Ref sig .tc := ⟨.hbm, 142, rfl⟩
abbrev main_v93 : Ref sig .tc := ⟨.hbm, 143, rfl⟩
abbrev main_v94 : Ref sig .tc := ⟨.hbm, 144, rfl⟩
abbrev main_v95 : Ref sig .tc := ⟨.hbm, 145, rfl⟩
abbrev main_cst_22 : Ref sig .tc := ⟨.hbm, 146, rfl⟩
abbrev main_v96 : Ref sig .tc := ⟨.hbm, 147, rfl⟩
abbrev main_v97 : Ref sig .tc := ⟨.hbm, 148, rfl⟩
abbrev main_v98 : Ref sig .tc := ⟨.hbm, 149, rfl⟩
abbrev main_v99 : Ref sig .tc := ⟨.hbm, 150, rfl⟩
abbrev main_v100 : Ref sig .tc := ⟨.hbm, 151, rfl⟩
abbrev main_v101 : Ref sig .tc := ⟨.hbm, 152, rfl⟩
abbrev main_v102 : Ref sig .tc := ⟨.hbm, 153, rfl⟩
abbrev main_v103 : Ref sig .tc := ⟨.hbm, 154, rfl⟩
abbrev main_v104 : Ref sig .tc := ⟨.hbm, 155, rfl⟩
abbrev main_v105 : Ref sig .tc := ⟨.hbm, 156, rfl⟩
abbrev main_call2_cst : Ref sig .tc := ⟨.hbm, 157, rfl⟩
abbrev main_call2_v0 : Ref sig .tc := ⟨.hbm, 158, rfl⟩
abbrev main_v106 : Ref sig .tc := ⟨.hbm, 159, rfl⟩
abbrev main_v107 : Ref sig .tc := ⟨.hbm, 160, rfl⟩
abbrev main_v108 : Ref sig .tc := ⟨.hbm, 161, rfl⟩
abbrev main_v109 : Ref sig .tc := ⟨.hbm, 162, rfl⟩
abbrev main_v110 : Ref sig .tc := ⟨.hbm, 163, rfl⟩
abbrev main_v111 : Ref sig .tc := ⟨.hbm, 164, rfl⟩

abbrev nD : Nat := 1
abbrev τ : Topo := Topo.v7x

variable {F : FTy → Type} [FloatOps F]

class Facts₀ : Prop where
  bcast_S_S100000x3x8 : S_.BroadcastsInDim S100000x3x8 (![] : Fin 0 → Fin S100000x3x8.rank)
  bcast_S100000x3x8_S100000x3x8x1_0_1_2 : S100000x3x8.BroadcastsInDim S100000x3x8x1 (![0, 1, 2] : Fin 3 → Fin S100000x3x8x1.rank)
  reducesTo_S100000x3x8x64_S100000x3x64_d2 : S100000x3x8x64.ReducesTo [2] S100000x3x64
  h_S_ : 0 < S_.numel
  bcast_S_S100000x3x64 : S_.BroadcastsInDim S100000x3x64 (![] : Fin 0 → Fin S100000x3x64.rank)
  shapeCasts_S100000x3x64_S100000x192 : S100000x3x64.ShapeCasts S100000x192
  bcast_S_S50000x3x8 : S_.BroadcastsInDim S50000x3x8 (![] : Fin 0 → Fin S50000x3x8.rank)
  bcast_S50000x3x8_S50000x3x8x1_0_1_2 : S50000x3x8.BroadcastsInDim S50000x3x8x1 (![0, 1, 2] : Fin 3 → Fin S50000x3x8x1.rank)
  reducesTo_S50000x3x8x64_S50000x3x64_d2 : S50000x3x8x64.ReducesTo [2] S50000x3x64
  bcast_S_S50000x3x64 : S_.BroadcastsInDim S50000x3x64 (![] : Fin 0 → Fin S50000x3x64.rank)
  shapeCasts_S50000x3x64_S50000x192 : S50000x3x64.ShapeCasts S50000x192
  bcast_S_S100000x10 : S_.BroadcastsInDim S100000x10 (![] : Fin 0 → Fin S100000x10.rank)
  bcast_S100000x10_S100000x10x1_0_1 : S100000x10.BroadcastsInDim S100000x10x1 (![0, 1] : Fin 2 → Fin S100000x10x1.rank)
  reducesTo_S100000x10x128_S100000x128_d1 : S100000x10x128.ReducesTo [1] S100000x128
  bcast_S_S100000x128 : S_.BroadcastsInDim S100000x128 (![] : Fin 0 → Fin S100000x128.rank)
  bcast_S_S50000x10 : S_.BroadcastsInDim S50000x10 (![] : Fin 0 → Fin S50000x10.rank)
  bcast_S50000x10_S50000x10x1_0_1 : S50000x10.BroadcastsInDim S50000x10x1 (![0, 1] : Fin 2 → Fin S50000x10x1.rank)
  reducesTo_S50000x10x128_S50000x128_d1 : S50000x10x128.ReducesTo [1] S50000x128
  bcast_S_S50000x128 : S_.BroadcastsInDim S50000x128 (![] : Fin 0 → Fin S50000x128.rank)
  concatenates_S100000x128_S100000x192_S100000x320_d1 : Shape.Concatenates [S100000x128, S100000x192] S100000x320 1
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  concatenates_S50000x128_S50000x192_S50000x320_d1 : Shape.Concatenates [S50000x128, S50000x192] S50000x320 1
  bcast_S1x128_S50000x128_0_1 : S1x128.BroadcastsInDim S50000x128 (![0, 1] : Fin 2 → Fin S50000x128.rank)
  concatenates_S100000x128_S50000x128_S150000x128_d0 : Shape.Concatenates [S100000x128, S50000x128] S150000x128 0
  slices_S2x1500000_S1x1500000_0_0 : S2x1500000.Slices ![0, 0] S1x1500000
  shapeCasts_S1x1500000_S1500000 : S1x1500000.ShapeCasts S1500000
  slices_S2x1500000_S1x1500000_1_0 : S2x1500000.Slices ![1, 0] S1x1500000
  bcast_S_S1500000 : S_.BroadcastsInDim S1500000 (![] : Fin 0 → Fin S1500000.rank)
  bcast_S_S150000 : S_.BroadcastsInDim S150000 (![] : Fin 0 → Fin S150000.rank)
  bcast_S1500000_S1500000x1_0 : S1500000.BroadcastsInDim S1500000x1 (![0] : Fin 1 → Fin S1500000x1.rank)
  bcast_S_S150000x128 : S_.BroadcastsInDim S150000x128 (![] : Fin 0 → Fin S150000x128.rank)
  bcast_S150000_S150000x1_0 : S150000.BroadcastsInDim S150000x1 (![0] : Fin 1 → Fin S150000x1.rank)
  bcast_S150000x1_S150000x128_0_1 : S150000x1.BroadcastsInDim S150000x128 (![0, 1] : Fin 2 → Fin S150000x128.rank)
  bcast_S1x128_S150000x128_0_1 : S1x128.BroadcastsInDim S150000x128 (![0, 1] : Fin 2 → Fin S150000x128.rank)
  concatenates_S150000x128_S150000x128_S150000x256_d1 : Shape.Concatenates [S150000x128, S150000x128] S150000x256 1
  gather_S30000x64_S100000x3x8x1_S100000x3x8x64_3_0_n_n_0_3_164_wf : GatherDims.WF S30000x64 S100000x3x8x1 S100000x3x8x64 [3] [0] [] [0] [] 3 ![1, 64]
  gather_S30000x64_S50000x3x8x1_S50000x3x8x64_3_0_n_n_0_3_164_wf : GatherDims.WF S30000x64 S50000x3x8x1 S50000x3x8x64 [3] [0] [] [0] [] 3 ![1, 64]
  gather_S5000x128_S100000x10x1_S100000x10x128_2_0_n_n_0_2_1128_wf : GatherDims.WF S5000x128 S100000x10x1 S100000x10x128 [2] [0] [] [0] [] 2 ![1, 128]
  gather_S8000x128_S50000x10x1_S50000x10x128_2_0_n_n_0_2_1128_wf : GatherDims.WF S8000x128 S50000x10x1 S50000x10x128 [2] [0] [] [0] [] 2 ![1, 128]
  dot_S100000x320_S320x128_S100000x128_1_0_0_1_n_n_wf : DotDims.WF S100000x320 S320x128 S100000x128 [1] [0] [0] [1] [] []
  dot_S50000x320_S320x128_S50000x128_1_0_0_1_n_n_wf : DotDims.WF S50000x320 S320x128 S50000x128 [1] [0] [0] [1] [] []
  scatter_S150000_S1500000x1_S1500000_n_0_0_1_wf : ScatterDims.WF S150000 S1500000x1 S1500000 [] [0] [0] 1
  gather_S150000x128_S1500000x1_S1500000x128_1_0_n_n_0_1_1128_wf : GatherDims.WF S150000x128 S1500000x1 S1500000x128 [1] [0] [] [0] [] 1 ![1, 128]
  scatter_S150000x128_S1500000x1_S1500000x128_1_0_0_1_wf : ScatterDims.WF S150000x128 S1500000x1 S1500000x128 [1] [0] [0] 1
  dot_S150000x128_S128x128_S150000x128_1_0_0_1_n_n_wf : DotDims.WF S150000x128 S128x128 S150000x128 [1] [0] [0] [1] [] []
  dot_S150000x256_S256x128_S150000x128_1_0_0_1_n_n_wf : DotDims.WF S150000x256 S256x128 S150000x128 [1] [0] [0] [1] [] []

variable [Facts₀]

def gather_S30000x64_S100000x3x8x1_S100000x3x8x64_3_0_n_n_0_3_164 : GatherDims S30000x64 S100000x3x8x1 S100000x3x8x64 where
  offsetDims := [3]
  collapsedSliceDims := [0]
  operandBatchingDims := []
  startIndicesBatchingDims := []
  startIndexMap := [0]
  indexVectorDim := 3
  sliceSizes := ![1, 64]
  wf := gather_S30000x64_S100000x3x8x1_S100000x3x8x64_3_0_n_n_0_3_164_wf
def gather_S30000x64_S50000x3x8x1_S50000x3x8x64_3_0_n_n_0_3_164 : GatherDims S30000x64 S50000x3x8x1 S50000x3x8x64 where
  offsetDims := [3]
  collapsedSliceDims := [0]
  operandBatchingDims := []
  startIndicesBatchingDims := []
  startIndexMap := [0]
  indexVectorDim := 3
  sliceSizes := ![1, 64]
  wf := gather_S30000x64_S50000x3x8x1_S50000x3x8x64_3_0_n_n_0_3_164_wf
def gather_S5000x128_S100000x10x1_S100000x10x128_2_0_n_n_0_2_1128 : GatherDims S5000x128 S100000x10x1 S100000x10x128 where
  offsetDims := [2]
  collapsedSliceDims := [0]
  operandBatchingDims := []
  startIndicesBatchingDims := []
  startIndexMap := [0]
  indexVectorDim := 2
  sliceSizes := ![1, 128]
  wf := gather_S5000x128_S100000x10x1_S100000x10x128_2_0_n_n_0_2_1128_wf
def gather_S8000x128_S50000x10x1_S50000x10x128_2_0_n_n_0_2_1128 : GatherDims S8000x128 S50000x10x1 S50000x10x128 where
  offsetDims := [2]
  collapsedSliceDims := [0]
  operandBatchingDims := []
  startIndicesBatchingDims := []
  startIndexMap := [0]
  indexVectorDim := 2
  sliceSizes := ![1, 128]
  wf := gather_S8000x128_S50000x10x1_S50000x10x128_2_0_n_n_0_2_1128_wf
def dot_S100000x320_S320x128_S100000x128_1_0_0_1_n_n : DotDims S100000x320 S320x128 S100000x128 where
  lhsContracting := [1]
  rhsContracting := [0]
  lhsNonContracting := [0]
  rhsNonContracting := [1]
  lhsBatch := []
  rhsBatch := []
  wf := dot_S100000x320_S320x128_S100000x128_1_0_0_1_n_n_wf
def dot_S50000x320_S320x128_S50000x128_1_0_0_1_n_n : DotDims S50000x320 S320x128 S50000x128 where
  lhsContracting := [1]
  rhsContracting := [0]
  lhsNonContracting := [0]
  rhsNonContracting := [1]
  lhsBatch := []
  rhsBatch := []
  wf := dot_S50000x320_S320x128_S50000x128_1_0_0_1_n_n_wf
def scatter_S150000_S1500000x1_S1500000_n_0_0_1 : ScatterDims S150000 S1500000x1 S1500000 where
  updateWindowDims := []
  insertedWindowDims := [0]
  scatterDimsToOperandDims := [0]
  indexVectorDim := 1
  wf := scatter_S150000_S1500000x1_S1500000_n_0_0_1_wf
def gather_S150000x128_S1500000x1_S1500000x128_1_0_n_n_0_1_1128 : GatherDims S150000x128 S1500000x1 S1500000x128 where
  offsetDims := [1]
  collapsedSliceDims := [0]
  operandBatchingDims := []
  startIndicesBatchingDims := []
  startIndexMap := [0]
  indexVectorDim := 1
  sliceSizes := ![1, 128]
  wf := gather_S150000x128_S1500000x1_S1500000x128_1_0_n_n_0_1_1128_wf
def scatter_S150000x128_S1500000x1_S1500000x128_1_0_0_1 : ScatterDims S150000x128 S1500000x1 S1500000x128 where
  updateWindowDims := [1]
  insertedWindowDims := [0]
  scatterDimsToOperandDims := [0]
  indexVectorDim := 1
  wf := scatter_S150000x128_S1500000x1_S1500000x128_1_0_0_1_wf
def dot_S150000x128_S128x128_S150000x128_1_0_0_1_n_n : DotDims S150000x128 S128x128 S150000x128 where
  lhsContracting := [1]
  rhsContracting := [0]
  lhsNonContracting := [0]
  rhsNonContracting := [1]
  lhsBatch := []
  rhsBatch := []
  wf := dot_S150000x128_S128x128_S150000x128_1_0_0_1_n_n_wf
def dot_S150000x256_S256x128_S150000x128_1_0_0_1_n_n : DotDims S150000x256 S256x128 S150000x128 where
  lhsContracting := [1]
  rhsContracting := [0]
  lhsNonContracting := [0]
  rhsNonContracting := [1]
  lhsBatch := []
  rhsBatch := []
  wf := dot_S150000x256_S256x128_S150000x128_1_0_0_1_n_n_wf

class Facts : Prop extends Facts₀ where

variable [Facts]
-- ==== Proof.RefRun.lean ====
/-
  The reference program's run, read stage by stage.

  @main is a straight line of 143 host operations. Each operation writes ONE buffer, its result's (`opsW` lists them in
  order), and none of the 22 argument buffers is among these; no operation allocates a buffer. So every weakly fair
  execution terminates with each buffer at the fold of the operations' results over the launch contents: the result
  buffer `main_v111` at that fold, and every argument buffer, which no operation writes, at its launch contents.
  The fold itself is left as it is: the stages are read off it one at a time elsewhere.
-/
import proofs.«128228_j51565377356535_2_alg».proof.Proof.RefOps

noncomputable section

namespace Cert.ReferenceIdeal.Ops

open Cert.ReferenceIdeal Cert.ReferenceIdeal.Gen Idealize.ShloMosaic Idealize.ShloMosaic.TcCoe Idealize.SL.Sem Idealize.ShloMosaic.StableHlo

variable {F : FTy → Type} [FloatOps F]

/-- The buffer each of the 143 operations writes, in order. -/
abbrev opsW : List (Ref sig .tc) :=
  [
    main_c, main_v0, main_v1, main_c_0, main_v2, main_v3, main_v4, main_v5, main_v6, main_cst,
    main_v7, main_cst_1, main_v8, main_v9, main_v10, main_c_2, main_v11, main_v12, main_c_3, main_v13,
    main_v14, main_v15, main_v16, main_v17, main_cst_4, main_v18, main_cst_5, main_v19, main_v20, main_v21,
    main_c_6, main_v22, main_v23, main_c_7, main_v24, main_v25, main_v26, main_v27, main_v28, main_cst_8,
    main_v29, main_cst_9, main_v30, main_v31, main_c_10, main_v32, main_v33, main_c_11, main_v34, main_v35,
    main_v36, main_v37, main_v38, main_cst_12, main_v39, main_cst_13, main_v40, main_v41, main_v42, main_v43,
    main_v44, main_v45, main_v46, main_v47, main_v48, main_v49, main_v50, main_v51, main_v52, main_v53,
    main_v54, main_v55, main_v56, main_v57, main_v58, main_cst_14, main_v59, main_cst_15, main_v60, main_v61,
    main_v62, main_cst_16, main_v63, main_v64, main_c_17, main_v65, main_v66, main_c_18, main_v67, main_v68,
    main_v69, main_v70, main_v71, main_cst_19, main_v72, main_v73, main_v74, main_v75, main_v76, main_v77,
    main_v78, main_v79, main_v80, main_v81, main_call0_cst, main_call0_v0, main_v82, main_v83, main_v84, main_v85,
    main_v86, main_v87, main_call1_cst, main_call1_v0, main_v88, main_c_20, main_v89, main_v90, main_c_21, main_v91,
    main_v92, main_v93, main_v94, main_v95, main_cst_22, main_v96, main_v97, main_v98, main_v99, main_v100,
    main_v101, main_v102, main_v103, main_v104, main_v105, main_call2_cst, main_call2_v0, main_v106, main_v107, main_v108,
    main_v109, main_v110, main_v111 ]

/-- One written buffer per operation. -/
theorem opsW_length : opsW.length = 143 := rfl

set_option maxRecDepth 8192 in
/-- Every operation writes only its own result buffer, which is in the list. -/
theorem ops_writes : (ops : List (HloOp τ sig (Elt F))).Forall fun op => op.writes ⊆ (opsW.map (Proc.devRef (τ := τ) .tc)).toFinset := by
  simp only [List.Forall]
  repeat' apply And.intro
  all_goals
    simp only [StableHlo.nullary_writes, StableHlo.unary_writes, StableHlo.binary_writes, StableHlo.ternary_writes,
      StableHlo.quaternary_writes, StableHlo.reshape_writes, Finset.singleton_subset_iff, List.mem_toFinset]
    exact List.mem_map_of_mem (by decide)

set_option maxRecDepth 8192 in
/-- No operation allocates a buffer. -/
theorem ops_fresh_all : (ops : List (HloOp τ sig (Elt F))).Forall fun op => op.fresh = ∅ := by
  simp only [List.Forall]; repeat' constructor

/-- The same, operation by operation. -/
theorem ops_fresh : ∀ op ∈ (ops : List (HloOp τ sig (Elt F))), op.fresh = ∅ :=
  List.forall_iff_forall_mem.mp ops_fresh_all

set_option maxRecDepth 8192 in
/-- On every device, for any float values, from any memory with zero counters: every weakly fair execution of @main
    terminates with the result buffer at the fold of the 143 operations over the launch contents, and the arguments
    unchanged (no operation writes an argument's buffer). -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v111) = after ops (launchContents m c) (Proc.devRef .tc main_v111)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21) :=
  (θ_run defs _ _).mono (fun _ h c => ⟨h c main_v111,
      (h c main_arg0).trans (after_of_writes_sub ops _ ops_writes (by decide)),
      (h c main_arg1).trans (after_of_writes_sub ops _ ops_writes (by decide)),
      (h c main_arg2).trans (after_of_writes_sub ops _ ops_writes (by decide)),
      (h c main_arg3).trans (after_of_writes_sub ops _ ops_writes (by decide)),
      (h c main_arg4).trans (after_of_writes_sub ops _ ops_writes (by decide)),
      (h c main_arg5).trans (after_of_writes_sub ops _ ops_writes (by decide)),
      (h c main_arg6).trans (after_of_writes_sub ops _ ops_writes (by decide)),
      (h c main_arg7).trans (after_of_writes_sub ops _ ops_writes (by decide)),
      (h c main_arg8).trans (after_of_writes_sub ops _ ops_writes (by decide)),
      (h c main_arg9).trans (after_of_writes_sub ops _ ops_writes (by decide)),
      (h c main_arg10).trans (after_of_writes_sub ops _ ops_writes (by decide)),
      (h c main_arg11).trans (after_of_writes_sub ops _ ops_writes (by decide)),
      (h c main_arg12).trans (after_of_writes_sub ops _ ops_writes (by decide)),
      (h c main_arg13).trans (after_of_writes_sub ops _ ops_writes (by decide)),
      (h c main_arg14).trans (after_of_writes_sub ops _ ops_writes (by decide)),
      (h c main_arg15).trans (after_of_writes_sub ops _ ops_writes (by decide)),
      (h c main_arg16).trans (after_of_writes_sub ops _ ops_writes (by decide)),
      (h c main_arg17).trans (after_of_writes_sub ops _ ops_writes (by decide)),
      (h c main_arg18).trans (after_of_writes_sub ops _ ops_writes (by decide)),
      (h c main_arg19).trans (after_of_writes_sub ops _ ops_writes (by decide)),
      (h c main_arg20).trans (after_of_writes_sub ops _ ops_writes (by decide)),
      (h c main_arg21).trans (after_of_writes_sub ops _ ops_writes (by decide))⟩)
    (run_seq scopedRefs_eq scopedSems_eq defs main (fun _ => ops) main_eq (fun _ => ops_sub) m ρ (fun _ => ops_fresh))

end Cert.ReferenceIdeal.Ops

end
-- ==== Proof.RefResult.lean ====
/-
  What the reference's result buffer holds after all of its operations, read stage by stage.

  The reference is a straight line of 143 operations, each writing one buffer from the buffers written before it.
  The line is cut into 10 consecutive runs (the table mean of the users' 3 x 8 table; that of the items' 3 x 8 table; the table mean of the users' 10-entry table; that of the items' 10-entry table; the two embeddings and their join; the edge lists and the degree; the first neighbour sums and their division by the degree; the first layer; the second neighbour sums; the second layer).
  Running a concatenation is running its pieces in turn (after_append). Through one run, a buffer that no
  operation of the run writes keeps its contents (the _keep lemmas), and a buffer that the run computes holds its
  stage, the composition of the run's operations on what the run's inputs hold (the cK_ lemmas: under hypotheses
  naming what the inputs hold, the run's operations are folded and the stage's definition unfolded, both sides
  being the same composition). Chaining the runs from the contents W at the start gives the result buffer as the
  last stage of the arguments' contents under W.
-/
import proofs.«128228_j51565377356535_2_alg».proof.Proof.RefStages
import proofs.«128228_j51565377356535_2_alg».proof.Proof.RefOps

noncomputable section

namespace Cert.ReferenceIdeal.Result

open Cert.ReferenceIdeal Cert.ReferenceIdeal.Gen Cert.ReferenceIdeal.Stages Idealize.ShloMosaic Idealize.ShloMosaic.TcCoe
  Idealize.SL.Sem Idealize.ShloMosaic.StableHlo

/-- Running two lines one after the other is running their concatenation. -/
theorem after_append {τ' : Topo} {sig' : RefSig} {Val : EltTy → Type} (l1 l2 : List (HloOp τ' sig' Val))
    (V : Valuation τ' sig' Val) : after (l1 ++ l2) V = after l2 (after l1 V) := by
  induction l1 generalizing V with
  | nil => rfl
  | cons op l ih => exact ih (op.result V)

variable {F : FTy → Type} [FloatOps F]

/-! ## The runs -/

/-- Operations 0 to 14 of the line: the table mean of the users' 3 x 8 table. -/
abbrev c1 : List (HloOp τ sig (Elt F)) :=
  [ nullary main_c (constantI S_ 32 0#32),
    unary main_c main_v0 (broadcastInDim S100000x3x8 ![] bcast_S_S100000x3x8 : (⟨S_, .i32⟩ : BufTy).Contents (Elt F) → (⟨S100000x3x8, .i32⟩ : BufTy).Contents (Elt F)),
    binary main_arg3 main_v0 main_v1 (cmpi .slt : (⟨S100000x3x8, .i32⟩ : BufTy).Contents (Elt F) → (⟨S100000x3x8, .i32⟩ : BufTy).Contents (Elt F) → (⟨S100000x3x8, .i1⟩ : BufTy).Contents (Elt F)),
    nullary main_c_0 (constantI S_ 32 30000#32),
    unary main_c_0 main_v2 (broadcastInDim S100000x3x8 ![] bcast_S_S100000x3x8 : (⟨S_, .i32⟩ : BufTy).Contents (Elt F) → (⟨S100000x3x8, .i32⟩ : BufTy).Contents (Elt F)),
    binary main_arg3 main_v2 main_v3 (addi : (⟨S100000x3x8, .i32⟩ : BufTy).Contents (Elt F) → (⟨S100000x3x8, .i32⟩ : BufTy).Contents (Elt F) → (⟨S100000x3x8, .i32⟩ : BufTy).Contents (Elt F)),
    ternary main_v1 main_v3 main_arg3 main_v4 (select : (⟨S100000x3x8, .i1⟩ : BufTy).Contents (Elt F) → (⟨S100000x3x8, .i32⟩ : BufTy).Contents (Elt F) → (⟨S100000x3x8, .i32⟩ : BufTy).Contents (Elt F) → (⟨S100000x3x8, .i32⟩ : BufTy).Contents (Elt F)),
    unary main_v4 main_v5 (broadcastInDim S100000x3x8x1 ![0, 1, 2] bcast_S100000x3x8_S100000x3x8x1_0_1_2 : (⟨S100000x3x8, .i32⟩ : BufTy).Contents (Elt F) → (⟨S100000x3x8x1, .i32⟩ : BufTy).Contents (Elt F)),
    binary main_arg9 main_v5 main_v6 ((fun x i => Host.gather gather_S30000x64_S100000x3x8x1_S100000x3x8x64_3_0_n_n_0_3_164 x i) : (⟨S30000x64, .f32⟩ : BufTy).Contents (Elt F) → (⟨S100000x3x8x1, .i32⟩ : BufTy).Contents (Elt F) → (⟨S100000x3x8x64, .f32⟩ : BufTy).Contents (Elt F)),
    nullary main_cst (constant S_ .f32 0x00000000#32),
    binary main_v6 main_cst main_v7 ((fun x v => Host.reduceAdd x v reducesTo_S100000x3x8x64_S100000x3x64_d2 h_S_) : (⟨S100000x3x8x64, .f32⟩ : BufTy).Contents (Elt F) → (⟨S_, .f32⟩ : BufTy).Contents (Elt F) → (⟨S100000x3x64, .f32⟩ : BufTy).Contents (Elt F)),
    nullary main_cst_1 (constant S_ .f32 0x41000000#32),
    unary main_cst_1 main_v8 (broadcastInDim S100000x3x64 ![] bcast_S_S100000x3x64 : (⟨S_, .f32⟩ : BufTy).Contents (Elt F) → (⟨S100000x3x64, .f32⟩ : BufTy).Contents (Elt F)),
    binary main_v7 main_v8 main_v9 (Host.divf : (⟨S100000x3x64, .f32⟩ : BufTy).Contents (Elt F) → (⟨S100000x3x64, .f32⟩ : BufTy).Contents (Elt F) → (⟨S100000x3x64, .f32⟩ : BufTy).Contents (Elt F)),
    reshape main_v9 main_v10 rfl shapeCasts_S100000x3x64_S100000x192 ]

/-- Operations 15 to 29 of the line: that of the items' 3 x 8 table. -/
abbrev c2 : List (HloOp τ sig (Elt F)) :=
  [ nullary main_c_2 (constantI S_ 32 0#32),
    unary main_c_2 main_v11 (broadcastInDim S50000x3x8 ![] bcast_S_S50000x3x8 : (⟨S_, .i32⟩ : BufTy).Contents (Elt F) → (⟨S50000x3x8, .i32⟩ : BufTy).Contents (Elt F)),
    binary main_arg4 main_v11 main_v12 (cmpi .slt : (⟨S50000x3x8, .i32⟩ : BufTy).Contents (Elt F) → (⟨S50000x3x8, .i32⟩ : BufTy).Contents (Elt F) → (⟨S50000x3x8, .i1⟩ : BufTy).Contents (Elt F)),
    nullary main_c_3 (constantI S_ 32 30000#32),
    unary main_c_3 main_v13 (broadcastInDim S50000x3x8 ![] bcast_S_S50000x3x8 : (⟨S_, .i32⟩ : BufTy).Contents (Elt F) → (⟨S50000x3x8, .i32⟩ : BufTy).Contents (Elt F)),
    binary main_arg4 main_v13 main_v14 (addi : (⟨S50000x3x8, .i32⟩ : BufTy).Contents (Elt F) → (⟨S50000x3x8, .i32⟩ : BufTy).Contents (Elt F) → (⟨S50000x3x8, .i32⟩ : BufTy).Contents (Elt F)),
    ternary main_v12 main_v14 main_arg4 main_v15 (select : (⟨S50000x3x8, .i1⟩ : BufTy).Contents (Elt F) → (⟨S50000x3x8, .i32⟩ : BufTy).Contents (Elt F) → (⟨S50000x3x8, .i32⟩ : BufTy).Contents (Elt F) → (⟨S50000x3x8, .i32⟩ : BufTy).Contents (Elt F)),
    unary main_v15 main_v16 (broadcastInDim S50000x3x8x1 ![0, 1, 2] bcast_S50000x3x8_S50000x3x8x1_0_1_2 : (⟨S50000x3x8, .i32⟩ : BufTy).Contents (Elt F) → (⟨S50000x3x8x1, .i32⟩ : BufTy).Contents (Elt F)),
    binary main_arg9 main_v16 main_v17 ((fun x i => Host.gather gather_S30000x64_S50000x3x8x1_S50000x3x8x64_3_0_n_n_0_3_164 x i) : (⟨S30000x64, .f32⟩ : BufTy).Contents (Elt F) → (⟨S50000x3x8x1, .i32⟩ : BufTy).Contents (Elt F) → (⟨S50000x3x8x64, .f32⟩ : BufTy).Contents (Elt F)),
    nullary main_cst_4 (constant S_ .f32 0x00000000#32),
    binary main_v17 main_cst_4 main_v18 ((fun x v => Host.reduceAdd x v reducesTo_S50000x3x8x64_S50000x3x64_d2 h_S_) : (⟨S50000x3x8x64, .f32⟩ : BufTy).Contents (Elt F) → (⟨S_, .f32⟩ : BufTy).Contents (Elt F) → (⟨S50000x3x64, .f32⟩ : BufTy).Contents (Elt F)),
    nullary main_cst_5 (constant S_ .f32 0x41000000#32),
    unary main_cst_5 main_v19 (broadcastInDim S50000x3x64 ![] bcast_S_S50000x3x64 : (⟨S_, .f32⟩ : BufTy).Contents (Elt F) → (⟨S50000x3x64, .f32⟩ : BufTy).Contents (Elt F)),
    binary main_v18 main_v19 main_v20 (Host.divf : (⟨S50000x3x64, .f32⟩ : BufTy).Contents (Elt F) → (⟨S50000x3x64, .f32⟩ : BufTy).Contents (Elt F) → (⟨S50000x3x64, .f32⟩ : BufTy).Contents (Elt F)),
    reshape main_v20 main_v21 rfl shapeCasts_S50000x3x64_S50000x192 ]

/-- Operations 30 to 43 of the line: the table mean of the users' 10-entry table. -/
abbrev c3 : List (HloOp τ sig (Elt F)) :=
  [ nullary main_c_6 (constantI S_ 32 0#32),
    unary main_c_6 main_v22 (broadcastInDim S100000x10 ![] bcast_S_S100000x10 : (⟨S_, .i32⟩ : BufTy).Contents (Elt F) → (⟨S100000x10, .i32⟩ : BufTy).Contents (Elt F)),
    binary main_arg1 main_v22 main_v23 (cmpi .slt : (⟨S100000x10, .i32⟩ : BufTy).Contents (Elt F) → (⟨S100000x10, .i32⟩ : BufTy).Contents (Elt F) → (⟨S100000x10, .i1⟩ : BufTy).Contents (Elt F)),
    nullary main_c_7 (constantI S_ 32 5000#32),
    unary main_c_7 main_v24 (broadcastInDim S100000x10 ![] bcast_S_S100000x10 : (⟨S_, .i32⟩ : BufTy).Contents (Elt F) → (⟨S100000x10, .i32⟩ : BufTy).Contents (Elt F)),
    binary main_arg1 main_v24 main_v25 (addi : (⟨S100000x10, .i32⟩ : BufTy).Contents (Elt F) → (⟨S100000x10, .i32⟩ : BufTy).Contents (Elt F) → (⟨S100000x10, .i32⟩ : BufTy).Contents (Elt F)),
    ternary main_v23 main_v25 main_arg1 main_v26 (select : (⟨S100000x10, .i1⟩ : BufTy).Contents (Elt F) → (⟨S100000x10, .i32⟩ : BufTy).Contents (Elt F) → (⟨S100000x10, .i32⟩ : BufTy).Contents (Elt F) → (⟨S100000x10, .i32⟩ : BufTy).Contents (Elt F)),
    unary main_v26 main_v27 (broadcastInDim S100000x10x1 ![0, 1] bcast_S100000x10_S100000x10x1_0_1 : (⟨S100000x10, .i32⟩ : BufTy).Contents (Elt F) → (⟨S100000x10x1, .i32⟩ : BufTy).Contents (Elt F)),
    binary main_arg7 main_v27 main_v28 ((fun x i => Host.gather gather_S5000x128_S100000x10x1_S100000x10x128_2_0_n_n_0_2_1128 x i) : (⟨S5000x128, .f32⟩ : BufTy).Contents (Elt F) → (⟨S100000x10x1, .i32⟩ : BufTy).Contents (Elt F) → (⟨S100000x10x128, .f32⟩ : BufTy).Contents (Elt F)),
    nullary main_cst_8 (constant S_ .f32 0x00000000#32),
    binary main_v28 main_cst_8 main_v29 ((fun x v => Host.reduceAdd x v reducesTo_S100000x10x128_S100000x128_d1 h_S_) : (⟨S100000x10x128, .f32⟩ : BufTy).Contents (Elt F) → (⟨S_, .f32⟩ : BufTy).Contents (Elt F) → (⟨S100000x128, .f32⟩ : BufTy).Contents (Elt F)),
    nullary main_cst_9 (constant S_ .f32 0x41200000#32),
    unary main_cst_9 main_v30 (broadcastInDim S100000x128 ![] bcast_S_S100000x128 : (⟨S_, .f32⟩ : BufTy).Contents (Elt F) → (⟨S100000x128, .f32⟩ : BufTy).Contents (Elt F)),
    binary main_v29 main_v30 main_v31 (Host.divf : (⟨S100000x128, .f32⟩ : BufTy).Contents (Elt F) → (⟨S100000x128, .f32⟩ : BufTy).Contents (Elt F) → (⟨S100000x128, .f32⟩ : BufTy).Contents (Elt F)) ]

/-- Operations 44 to 57 of the line: that of the items' 10-entry table. -/
abbrev c4 : List (HloOp τ sig (Elt F)) :=
  [ nullary main_c_10 (constantI S_ 32 0#32),
    unary main_c_10 main_v32 (broadcastInDim S50000x10 ![] bcast_S_S50000x10 : (⟨S_, .i32⟩ : BufTy).Contents (Elt F) → (⟨S50000x10, .i32⟩ : BufTy).Contents (Elt F)),
    binary main_arg2 main_v32 main_v33 (cmpi .slt : (⟨S50000x10, .i32⟩ : BufTy).Contents (Elt F) → (⟨S50000x10, .i32⟩ : BufTy).Contents (Elt F) → (⟨S50000x10, .i1⟩ : BufTy).Contents (Elt F)),
    nullary main_c_11 (constantI S_ 32 8000#32),
    unary main_c_11 main_v34 (broadcastInDim S50000x10 ![] bcast_S_S50000x10 : (⟨S_, .i32⟩ : BufTy).Contents (Elt F) → (⟨S50000x10, .i32⟩ : BufTy).Contents (Elt F)),
    binary main_arg2 main_v34 main_v35 (addi : (⟨S50000x10, .i32⟩ : BufTy).Contents (Elt F) → (⟨S50000x10, .i32⟩ : BufTy).Contents (Elt F) → (⟨S50000x10, .i32⟩ : BufTy).Contents (Elt F)),
    ternary main_v33 main_v35 main_arg2 main_v36 (select : (⟨S50000x10, .i1⟩ : BufTy).Contents (Elt F) → (⟨S50000x10, .i32⟩ : BufTy).Contents (Elt F) → (⟨S50000x10, .i32⟩ : BufTy).Contents (Elt F) → (⟨S50000x10, .i32⟩ : BufTy).Contents (Elt F)),
    unary main_v36 main_v37 (broadcastInDim S50000x10x1 ![0, 1] bcast_S50000x10_S50000x10x1_0_1 : (⟨S50000x10, .i32⟩ : BufTy).Contents (Elt F) → (⟨S50000x10x1, .i32⟩ : BufTy).Contents (Elt F)),
    binary main_arg8 main_v37 main_v38 ((fun x i => Host.gather gather_S8000x128_S50000x10x1_S50000x10x128_2_0_n_n_0_2_1128 x i) : (⟨S8000x128, .f32⟩ : BufTy).Contents (Elt F) → (⟨S50000x10x1, .i32⟩ : BufTy).Contents (Elt F) → (⟨S50000x10x128, .f32⟩ : BufTy).Contents (Elt F)),
    nullary main_cst_12 (constant S_ .f32 0x00000000#32),
    binary main_v38 main_cst_12 main_v39 ((fun x v => Host.reduceAdd x v reducesTo_S50000x10x128_S50000x128_d1 h_S_) : (⟨S50000x10x128, .f32⟩ : BufTy).Contents (Elt F) → (⟨S_, .f32⟩ : BufTy).Contents (Elt F) → (⟨S50000x128, .f32⟩ : BufTy).Contents (Elt F)),
    nullary main_cst_13 (constant S_ .f32 0x41200000#32),
    unary main_cst_13 main_v40 (broadcastInDim S50000x128 ![] bcast_S_S50000x128 : (⟨S_, .f32⟩ : BufTy).Contents (Elt F) → (⟨S50000x128, .f32⟩ : BufTy).Contents (Elt F)),
    binary main_v39 main_v40 main_v41 (Host.divf : (⟨S50000x128, .f32⟩ : BufTy).Contents (Elt F) → (⟨S50000x128, .f32⟩ : BufTy).Contents (Elt F) → (⟨S50000x128, .f32⟩ : BufTy).Contents (Elt F)) ]

/-- Operations 58 to 70 of the line: the two embeddings and their join. -/
abbrev c5 : List (HloOp τ sig (Elt F)) :=
  [ binary main_v31 main_v10 main_v42 ((fun a b => concatenate S100000x320 1 [⟨S100000x128, a⟩, ⟨S100000x192, b⟩] concatenates_S100000x128_S100000x192_S100000x320_d1) : (⟨S100000x128, .f32⟩ : BufTy).Contents (Elt F) → (⟨S100000x192, .f32⟩ : BufTy).Contents (Elt F) → (⟨S100000x320, .f32⟩ : BufTy).Contents (Elt F)),
    binary main_v42 main_arg10 main_v43 ((fun l r => Host.dotGeneral dot_S100000x320_S320x128_S100000x128_1_0_0_1_n_n none l r) : (⟨S100000x320, .f32⟩ : BufTy).Contents (Elt F) → (⟨S320x128, .f32⟩ : BufTy).Contents (Elt F) → (⟨S100000x128, .f32⟩ : BufTy).Contents (Elt F)),
    unary main_arg11 main_v44 (broadcastInDim S1x128 ![1] bcast_S128_S1x128_1 : (⟨S128, .f32⟩ : BufTy).Contents (Elt F) → (⟨S1x128, .f32⟩ : BufTy).Contents (Elt F)),
    unary main_v44 main_v45 (broadcastInDim S100000x128 ![0, 1] bcast_S1x128_S100000x128_0_1 : (⟨S1x128, .f32⟩ : BufTy).Contents (Elt F) → (⟨S100000x128, .f32⟩ : BufTy).Contents (Elt F)),
    binary main_v43 main_v45 main_v46 (addf : (⟨S100000x128, .f32⟩ : BufTy).Contents (Elt F) → (⟨S100000x128, .f32⟩ : BufTy).Contents (Elt F) → (⟨S100000x128, .f32⟩ : BufTy).Contents (Elt F)),
    binary main_v41 main_v21 main_v47 ((fun a b => concatenate S50000x320 1 [⟨S50000x128, a⟩, ⟨S50000x192, b⟩] concatenates_S50000x128_S50000x192_S50000x320_d1) : (⟨S50000x128, .f32⟩ : BufTy).Contents (Elt F) → (⟨S50000x192, .f32⟩ : BufTy).Contents (Elt F) → (⟨S50000x320, .f32⟩ : BufTy).Contents (Elt F)),
    binary main_v47 main_arg12 main_v48 ((fun l r => Host.dotGeneral dot_S50000x320_S320x128_S50000x128_1_0_0_1_n_n none l r) : (⟨S50000x320, .f32⟩ : BufTy).Contents (Elt F) → (⟨S320x128, .f32⟩ : BufTy).Contents (Elt F) → (⟨S50000x128, .f32⟩ : BufTy).Contents (Elt F)),
    unary main_arg13 main_v49 (broadcastInDim S1x128 ![1] bcast_S128_S1x128_1 : (⟨S128, .f32⟩ : BufTy).Contents (Elt F) → (⟨S1x128, .f32⟩ : BufTy).Contents (Elt F)),
    unary main_v49 main_v50 (broadcastInDim S50000x128 ![0, 1] bcast_S1x128_S50000x128_0_1 : (⟨S1x128, .f32⟩ : BufTy).Contents (Elt F) → (⟨S50000x128, .f32⟩ : BufTy).Contents (Elt F)),
    binary main_v48 main_v50 main_v51 (addf : (⟨S50000x128, .f32⟩ : BufTy).Contents (Elt F) → (⟨S50000x128, .f32⟩ : BufTy).Contents (Elt F) → (⟨S50000x128, .f32⟩ : BufTy).Contents (Elt F)),
    binary main_v46 main_arg5 main_v52 (addf : (⟨S100000x128, .f32⟩ : BufTy).Contents (Elt F) → (⟨S100000x128, .f32⟩ : BufTy).Contents (Elt F) → (⟨S100000x128, .f32⟩ : BufTy).Contents (Elt F)),
    binary main_v51 main_arg6 main_v53 (addf : (⟨S50000x128, .f32⟩ : BufTy).Contents (Elt F) → (⟨S50000x128, .f32⟩ : BufTy).Contents (Elt F) → (⟨S50000x128, .f32⟩ : BufTy).Contents (Elt F)),
    binary main_v52 main_v53 main_v54 ((fun a b => concatenate S150000x128 0 [⟨S100000x128, a⟩, ⟨S50000x128, b⟩] concatenates_S100000x128_S50000x128_S150000x128_d0) : (⟨S100000x128, .f32⟩ : BufTy).Contents (Elt F) → (⟨S50000x128, .f32⟩ : BufTy).Contents (Elt F) → (⟨S150000x128, .f32⟩ : BufTy).Contents (Elt F)) ]

/-- Operations 71 to 83 of the line: the edge lists and the degree. -/
abbrev c6 : List (HloOp τ sig (Elt F)) :=
  [ unary main_arg0 main_v55 ((extractStridedSlice S1x1500000 ![0, 0] · slices_S2x1500000_S1x1500000_0_0) : (⟨S2x1500000, .i32⟩ : BufTy).Contents (Elt F) → (⟨S1x1500000, .i32⟩ : BufTy).Contents (Elt F)),
    reshape main_v55 main_v56 rfl shapeCasts_S1x1500000_S1500000,
    unary main_arg0 main_v57 ((extractStridedSlice S1x1500000 ![1, 0] · slices_S2x1500000_S1x1500000_1_0) : (⟨S2x1500000, .i32⟩ : BufTy).Contents (Elt F) → (⟨S1x1500000, .i32⟩ : BufTy).Contents (Elt F)),
    reshape main_v57 main_v58 rfl shapeCasts_S1x1500000_S1500000,
    nullary main_cst_14 (constant S_ .f32 0x3F800000#32),
    unary main_cst_14 main_v59 (broadcastInDim S1500000 ![] bcast_S_S1500000 : (⟨S_, .f32⟩ : BufTy).Contents (Elt F) → (⟨S1500000, .f32⟩ : BufTy).Contents (Elt F)),
    nullary main_cst_15 (constant S_ .f32 0x00000000#32),
    unary main_cst_15 main_v60 (broadcastInDim S150000 ![] bcast_S_S150000 : (⟨S_, .f32⟩ : BufTy).Contents (Elt F) → (⟨S150000, .f32⟩ : BufTy).Contents (Elt F)),
    unary main_v58 main_v61 (broadcastInDim S1500000x1 ![0] bcast_S1500000_S1500000x1_0 : (⟨S1500000, .i32⟩ : BufTy).Contents (Elt F) → (⟨S1500000x1, .i32⟩ : BufTy).Contents (Elt F)),
    ternary main_v60 main_v61 main_v59 main_v62 ((fun x i u => Host.scatterAdd scatter_S150000_S1500000x1_S1500000_n_0_0_1 x i u) : (⟨S150000, .f32⟩ : BufTy).Contents (Elt F) → (⟨S1500000x1, .i32⟩ : BufTy).Contents (Elt F) → (⟨S1500000, .f32⟩ : BufTy).Contents (Elt F) → (⟨S150000, .f32⟩ : BufTy).Contents (Elt F)),
    nullary main_cst_16 (constant S_ .f32 0x3F800000#32),
    unary main_cst_16 main_v63 (broadcastInDim S150000 ![] bcast_S_S150000 : (⟨S_, .f32⟩ : BufTy).Contents (Elt F) → (⟨S150000, .f32⟩ : BufTy).Contents (Elt F)),
    binary main_v62 main_v63 main_v64 (maximumf : (⟨S150000, .f32⟩ : BufTy).Contents (Elt F) → (⟨S150000, .f32⟩ : BufTy).Contents (Elt F) → (⟨S150000, .f32⟩ : BufTy).Contents (Elt F)) ]

/-- Operations 84 to 99 of the line: the first neighbour sums and their division by the degree. -/
abbrev c7 : List (HloOp τ sig (Elt F)) :=
  [ nullary main_c_17 (constantI S_ 32 0#32),
    unary main_c_17 main_v65 (broadcastInDim S1500000 ![] bcast_S_S1500000 : (⟨S_, .i32⟩ : BufTy).Contents (Elt F) → (⟨S1500000, .i32⟩ : BufTy).Contents (Elt F)),
    binary main_v56 main_v65 main_v66 (cmpi .slt : (⟨S1500000, .i32⟩ : BufTy).Contents (Elt F) → (⟨S1500000, .i32⟩ : BufTy).Contents (Elt F) → (⟨S1500000, .i1⟩ : BufTy).Contents (Elt F)),
    nullary main_c_18 (constantI S_ 32 150000#32),
    unary main_c_18 main_v67 (broadcastInDim S1500000 ![] bcast_S_S1500000 : (⟨S_, .i32⟩ : BufTy).Contents (Elt F) → (⟨S1500000, .i32⟩ : BufTy).Contents (Elt F)),
    binary main_v56 main_v67 main_v68 (addi : (⟨S1500000, .i32⟩ : BufTy).Contents (Elt F) → (⟨S1500000, .i32⟩ : BufTy).Contents (Elt F) → (⟨S1500000, .i32⟩ : BufTy).Contents (Elt F)),
    ternary main_v66 main_v68 main_v56 main_v69 (select : (⟨S1500000, .i1⟩ : BufTy).Contents (Elt F) → (⟨S1500000, .i32⟩ : BufTy).Contents (Elt F) → (⟨S1500000, .i32⟩ : BufTy).Contents (Elt F) → (⟨S1500000, .i32⟩ : BufTy).Contents (Elt F)),
    unary main_v69 main_v70 (broadcastInDim S1500000x1 ![0] bcast_S1500000_S1500000x1_0 : (⟨S1500000, .i32⟩ : BufTy).Contents (Elt F) → (⟨S1500000x1, .i32⟩ : BufTy).Contents (Elt F)),
    binary main_v54 main_v70 main_v71 ((fun x i => Host.gather gather_S150000x128_S1500000x1_S1500000x128_1_0_n_n_0_1_1128 x i) : (⟨S150000x128, .f32⟩ : BufTy).Contents (Elt F) → (⟨S1500000x1, .i32⟩ : BufTy).Contents (Elt F) → (⟨S1500000x128, .f32⟩ : BufTy).Contents (Elt F)),
    nullary main_cst_19 (constant S_ .f32 0x00000000#32),
    unary main_cst_19 main_v72 (broadcastInDim S150000x128 ![] bcast_S_S150000x128 : (⟨S_, .f32⟩ : BufTy).Contents (Elt F) → (⟨S150000x128, .f32⟩ : BufTy).Contents (Elt F)),
    unary main_v58 main_v73 (broadcastInDim S1500000x1 ![0] bcast_S1500000_S1500000x1_0 : (⟨S1500000, .i32⟩ : BufTy).Contents (Elt F) → (⟨S1500000x1, .i32⟩ : BufTy).Contents (Elt F)),
    ternary main_v72 main_v73 main_v71 main_v74 ((fun x i u => Host.scatterAdd scatter_S150000x128_S1500000x1_S1500000x128_1_0_0_1 x i u) : (⟨S150000x128, .f32⟩ : BufTy).Contents (Elt F) → (⟨S1500000x1, .i32⟩ : BufTy).Contents (Elt F) → (⟨S1500000x128, .f32⟩ : BufTy).Contents (Elt F) → (⟨S150000x128, .f32⟩ : BufTy).Contents (Elt F)),
    unary main_v64 main_v75 (broadcastInDim S150000x1 ![0] bcast_S150000_S150000x1_0 : (⟨S150000, .f32⟩ : BufTy).Contents (Elt F) → (⟨S150000x1, .f32⟩ : BufTy).Contents (Elt F)),
    unary main_v75 main_v76 (broadcastInDim S150000x128 ![0, 1] bcast_S150000x1_S150000x128_0_1 : (⟨S150000x1, .f32⟩ : BufTy).Contents (Elt F) → (⟨S150000x128, .f32⟩ : BufTy).Contents (Elt F)),
    binary main_v74 main_v76 main_v77 (Host.divf : (⟨S150000x128, .f32⟩ : BufTy).Contents (Elt F) → (⟨S150000x128, .f32⟩ : BufTy).Contents (Elt F) → (⟨S150000x128, .f32⟩ : BufTy).Contents (Elt F)) ]

/-- Operations 100 to 114 of the line: the first layer. -/
abbrev c8 : List (HloOp τ sig (Elt F)) :=
  [ binary main_v77 main_arg18 main_v78 ((fun l r => Host.dotGeneral dot_S150000x128_S128x128_S150000x128_1_0_0_1_n_n none l r) : (⟨S150000x128, .f32⟩ : BufTy).Contents (Elt F) → (⟨S128x128, .f32⟩ : BufTy).Contents (Elt F) → (⟨S150000x128, .f32⟩ : BufTy).Contents (Elt F)),
    unary main_arg19 main_v79 (broadcastInDim S1x128 ![1] bcast_S128_S1x128_1 : (⟨S128, .f32⟩ : BufTy).Contents (Elt F) → (⟨S1x128, .f32⟩ : BufTy).Contents (Elt F)),
    unary main_v79 main_v80 (broadcastInDim S150000x128 ![0, 1] bcast_S1x128_S150000x128_0_1 : (⟨S1x128, .f32⟩ : BufTy).Contents (Elt F) → (⟨S150000x128, .f32⟩ : BufTy).Contents (Elt F)),
    binary main_v78 main_v80 main_v81 (addf : (⟨S150000x128, .f32⟩ : BufTy).Contents (Elt F) → (⟨S150000x128, .f32⟩ : BufTy).Contents (Elt F) → (⟨S150000x128, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S150000x128, .f32⟩) main_call0_v0) (broadcastInDim S150000x128 ![] bcast_S_S150000x128),
    TRef.binary (TRef.of (T := ⟨S150000x128, .f32⟩) main_v81) (TRef.of (T := ⟨S150000x128, .f32⟩) main_call0_v0) (TRef.of (T := ⟨S150000x128, .f32⟩) main_v82) maximumf,
    binary main_v54 main_v82 main_v83 ((fun a b => concatenate S150000x256 1 [⟨S150000x128, a⟩, ⟨S150000x128, b⟩] concatenates_S150000x128_S150000x128_S150000x256_d1) : (⟨S150000x128, .f32⟩ : BufTy).Contents (Elt F) → (⟨S150000x128, .f32⟩ : BufTy).Contents (Elt F) → (⟨S150000x256, .f32⟩ : BufTy).Contents (Elt F)),
    binary main_v83 main_arg14 main_v84 ((fun l r => Host.dotGeneral dot_S150000x256_S256x128_S150000x128_1_0_0_1_n_n none l r) : (⟨S150000x256, .f32⟩ : BufTy).Contents (Elt F) → (⟨S256x128, .f32⟩ : BufTy).Contents (Elt F) → (⟨S150000x128, .f32⟩ : BufTy).Contents (Elt F)),
    unary main_arg15 main_v85 (broadcastInDim S1x128 ![1] bcast_S128_S1x128_1 : (⟨S128, .f32⟩ : BufTy).Contents (Elt F) → (⟨S1x128, .f32⟩ : BufTy).Contents (Elt F)),
    unary main_v85 main_v86 (broadcastInDim S150000x128 ![0, 1] bcast_S1x128_S150000x128_0_1 : (⟨S1x128, .f32⟩ : BufTy).Contents (Elt F) → (⟨S150000x128, .f32⟩ : BufTy).Contents (Elt F)),
    binary main_v84 main_v86 main_v87 (addf : (⟨S150000x128, .f32⟩ : BufTy).Contents (Elt F) → (⟨S150000x128, .f32⟩ : BufTy).Contents (Elt F) → (⟨S150000x128, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S150000x128, .f32⟩) main_call1_v0) (broadcastInDim S150000x128 ![] bcast_S_S150000x128),
    TRef.binary (TRef.of (T := ⟨S150000x128, .f32⟩) main_v87) (TRef.of (T := ⟨S150000x128, .f32⟩) main_call1_v0) (TRef.of (T := ⟨S150000x128, .f32⟩) main_v88) maximumf ]

/-- Operations 115 to 127 of the line: the second neighbour sums. -/
abbrev c9 : List (HloOp τ sig (Elt F)) :=
  [ nullary main_c_20 (constantI S_ 32 0#32),
    unary main_c_20 main_v89 (broadcastInDim S1500000 ![] bcast_S_S1500000 : (⟨S_, .i32⟩ : BufTy).Contents (Elt F) → (⟨S1500000, .i32⟩ : BufTy).Contents (Elt F)),
    binary main_v56 main_v89 main_v90 (cmpi .slt : (⟨S1500000, .i32⟩ : BufTy).Contents (Elt F) → (⟨S1500000, .i32⟩ : BufTy).Contents (Elt F) → (⟨S1500000, .i1⟩ : BufTy).Contents (Elt F)),
    nullary main_c_21 (constantI S_ 32 150000#32),
    unary main_c_21 main_v91 (broadcastInDim S1500000 ![] bcast_S_S1500000 : (⟨S_, .i32⟩ : BufTy).Contents (Elt F) → (⟨S1500000, .i32⟩ : BufTy).Contents (Elt F)),
    binary main_v56 main_v91 main_v92 (addi : (⟨S1500000, .i32⟩ : BufTy).Contents (Elt F) → (⟨S1500000, .i32⟩ : BufTy).Contents (Elt F) → (⟨S1500000, .i32⟩ : BufTy).Contents (Elt F)),
    ternary main_v90 main_v92 main_v56 main_v93 (select : (⟨S1500000, .i1⟩ : BufTy).Contents (Elt F) → (⟨S1500000, .i32⟩ : BufTy).Contents (Elt F) → (⟨S1500000, .i32⟩ : BufTy).Contents (Elt F) → (⟨S1500000, .i32⟩ : BufTy).Contents (Elt F)),
    unary main_v93 main_v94 (broadcastInDim S1500000x1 ![0] bcast_S1500000_S1500000x1_0 : (⟨S1500000, .i32⟩ : BufTy).Contents (Elt F) → (⟨S1500000x1, .i32⟩ : BufTy).Contents (Elt F)),
    binary main_v88 main_v94 main_v95 ((fun x i => Host.gather gather_S150000x128_S1500000x1_S1500000x128_1_0_n_n_0_1_1128 x i) : (⟨S150000x128, .f32⟩ : BufTy).Contents (Elt F) → (⟨S1500000x1, .i32⟩ : BufTy).Contents (Elt F) → (⟨S1500000x128, .f32⟩ : BufTy).Contents (Elt F)),
    nullary main_cst_22 (constant S_ .f32 0x00000000#32),
    unary main_cst_22 main_v96 (broadcastInDim S150000x128 ![] bcast_S_S150000x128 : (⟨S_, .f32⟩ : BufTy).Contents (Elt F) → (⟨S150000x128, .f32⟩ : BufTy).Contents (Elt F)),
    unary main_v58 main_v97 (broadcastInDim S1500000x1 ![0] bcast_S1500000_S1500000x1_0 : (⟨S1500000, .i32⟩ : BufTy).Contents (Elt F) → (⟨S1500000x1, .i32⟩ : BufTy).Contents (Elt F)),
    ternary main_v96 main_v97 main_v95 main_v98 ((fun x i u => Host.scatterAdd scatter_S150000x128_S1500000x1_S1500000x128_1_0_0_1 x i u) : (⟨S150000x128, .f32⟩ : BufTy).Contents (Elt F) → (⟨S1500000x1, .i32⟩ : BufTy).Contents (Elt F) → (⟨S1500000x128, .f32⟩ : BufTy).Contents (Elt F) → (⟨S150000x128, .f32⟩ : BufTy).Contents (Elt F)) ]

/-- Operations 128 to 142 of the line: the second layer. -/
abbrev c10 : List (HloOp τ sig (Elt F)) :=
  [ unary main_v64 main_v99 (broadcastInDim S150000x1 ![0] bcast_S150000_S150000x1_0 : (⟨S150000, .f32⟩ : BufTy).Contents (Elt F) → (⟨S150000x1, .f32⟩ : BufTy).Contents (Elt F)),
    unary main_v99 main_v100 (broadcastInDim S150000x128 ![0, 1] bcast_S150000x1_S150000x128_0_1 : (⟨S150000x1, .f32⟩ : BufTy).Contents (Elt F) → (⟨S150000x128, .f32⟩ : BufTy).Contents (Elt F)),
    binary main_v98 main_v100 main_v101 (Host.divf : (⟨S150000x128, .f32⟩ : BufTy).Contents (Elt F) → (⟨S150000x128, .f32⟩ : BufTy).Contents (Elt F) → (⟨S150000x128, .f32⟩ : BufTy).Contents (Elt F)),
    binary main_v101 main_arg20 main_v102 ((fun l r => Host.dotGeneral dot_S150000x128_S128x128_S150000x128_1_0_0_1_n_n none l r) : (⟨S150000x128, .f32⟩ : BufTy).Contents (Elt F) → (⟨S128x128, .f32⟩ : BufTy).Contents (Elt F) → (⟨S150000x128, .f32⟩ : BufTy).Contents (Elt F)),
    unary main_arg21 main_v103 (broadcastInDim S1x128 ![1] bcast_S128_S1x128_1 : (⟨S128, .f32⟩ : BufTy).Contents (Elt F) → (⟨S1x128, .f32⟩ : BufTy).Contents (Elt F)),
    unary main_v103 main_v104 (broadcastInDim S150000x128 ![0, 1] bcast_S1x128_S150000x128_0_1 : (⟨S1x128, .f32⟩ : BufTy).Contents (Elt F) → (⟨S150000x128, .f32⟩ : BufTy).Contents (Elt F)),
    binary main_v102 main_v104 main_v105 (addf : (⟨S150000x128, .f32⟩ : BufTy).Contents (Elt F) → (⟨S150000x128, .f32⟩ : BufTy).Contents (Elt F) → (⟨S150000x128, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S150000x128, .f32⟩) main_call2_v0) (broadcastInDim S150000x128 ![] bcast_S_S150000x128),
    TRef.binary (TRef.of (T := ⟨S150000x128, .f32⟩) main_v105) (TRef.of (T := ⟨S150000x128, .f32⟩) main_call2_v0) (TRef.of (T := ⟨S150000x128, .f32⟩) main_v106) maximumf,
    binary main_v88 main_v106 main_v107 ((fun a b => concatenate S150000x256 1 [⟨S150000x128, a⟩, ⟨S150000x128, b⟩] concatenates_S150000x128_S150000x128_S150000x256_d1) : (⟨S150000x128, .f32⟩ : BufTy).Contents (Elt F) → (⟨S150000x128, .f32⟩ : BufTy).Contents (Elt F) → (⟨S150000x256, .f32⟩ : BufTy).Contents (Elt F)),
    binary main_v107 main_arg16 main_v108 ((fun l r => Host.dotGeneral dot_S150000x256_S256x128_S150000x128_1_0_0_1_n_n none l r) : (⟨S150000x256, .f32⟩ : BufTy).Contents (Elt F) → (⟨S256x128, .f32⟩ : BufTy).Contents (Elt F) → (⟨S150000x128, .f32⟩ : BufTy).Contents (Elt F)),
    unary main_arg17 main_v109 (broadcastInDim S1x128 ![1] bcast_S128_S1x128_1 : (⟨S128, .f32⟩ : BufTy).Contents (Elt F) → (⟨S1x128, .f32⟩ : BufTy).Contents (Elt F)),
    unary main_v109 main_v110 (broadcastInDim S150000x128 ![0, 1] bcast_S1x128_S150000x128_0_1 : (⟨S1x128, .f32⟩ : BufTy).Contents (Elt F) → (⟨S150000x128, .f32⟩ : BufTy).Contents (Elt F)),
    binary main_v108 main_v110 main_v111 (addf : (⟨S150000x128, .f32⟩ : BufTy).Contents (Elt F) → (⟨S150000x128, .f32⟩ : BufTy).Contents (Elt F) → (⟨S150000x128, .f32⟩ : BufTy).Contents (Elt F)) ]

/-- The line is the runs in order. -/
theorem ops_eq : (Cert.ReferenceIdeal.Ops.ops : List (HloOp τ sig (Elt F))) = c1 ++ (c2 ++ (c3 ++ (c4 ++ (c5 ++ (c6 ++ (c7 ++ (c8 ++ (c9 ++ (c10))))))))) := rfl

/-! ## What a run leaves alone -/

/-- The buffers run 1 writes. -/
abbrev c1_W : List (Ref sig .tc) := [main_c, main_v0, main_v1, main_c_0, main_v2, main_v3, main_v4, main_v5, main_v6, main_cst, main_v7, main_cst_1, main_v8, main_v9, main_v10]
theorem c1_writes : (c1 : List (HloOp τ sig (Elt F))).Forall fun op => op.writes ⊆ (c1_W.map (Proc.devRef (τ := τ) .tc)).toFinset := by
  simp only [List.Forall]
  exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer run 1 does not write keeps its contents through it. -/
theorem c1_keep (V : Valuation τ sig (Elt F)) (r : Ref sig .tc) (h : r ∉ c1_W) :
    after (c1 (F := F)) V (Proc.devRef .tc r) = V (Proc.devRef .tc r) :=
  after_of_writes_sub c1 V c1_writes h

/-- The buffers run 2 writes. -/
abbrev c2_W : List (Ref sig .tc) := [main_c_2, main_v11, main_v12, main_c_3, main_v13, main_v14, main_v15, main_v16, main_v17, main_cst_4, main_v18, main_cst_5, main_v19, main_v20, main_v21]
theorem c2_writes : (c2 : List (HloOp τ sig (Elt F))).Forall fun op => op.writes ⊆ (c2_W.map (Proc.devRef (τ := τ) .tc)).toFinset := by
  simp only [List.Forall]
  exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer run 2 does not write keeps its contents through it. -/
theorem c2_keep (V : Valuation τ sig (Elt F)) (r : Ref sig .tc) (h : r ∉ c2_W) :
    after (c2 (F := F)) V (Proc.devRef .tc r) = V (Proc.devRef .tc r) :=
  after_of_writes_sub c2 V c2_writes h

/-- The buffers run 3 writes. -/
abbrev c3_W : List (Ref sig .tc) := [main_c_6, main_v22, main_v23, main_c_7, main_v24, main_v25, main_v26, main_v27, main_v28, main_cst_8, main_v29, main_cst_9, main_v30, main_v31]
theorem c3_writes : (c3 : List (HloOp τ sig (Elt F))).Forall fun op => op.writes ⊆ (c3_W.map (Proc.devRef (τ := τ) .tc)).toFinset := by
  simp only [List.Forall]
  exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer run 3 does not write keeps its contents through it. -/
theorem c3_keep (V : Valuation τ sig (Elt F)) (r : Ref sig .tc) (h : r ∉ c3_W) :
    after (c3 (F := F)) V (Proc.devRef .tc r) = V (Proc.devRef .tc r) :=
  after_of_writes_sub c3 V c3_writes h

/-- The buffers run 4 writes. -/
abbrev c4_W : List (Ref sig .tc) := [main_c_10, main_v32, main_v33, main_c_11, main_v34, main_v35, main_v36, main_v37, main_v38, main_cst_12, main_v39, main_cst_13, main_v40, main_v41]
theorem c4_writes : (c4 : List (HloOp τ sig (Elt F))).Forall fun op => op.writes ⊆ (c4_W.map (Proc.devRef (τ := τ) .tc)).toFinset := by
  simp only [List.Forall]
  exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer run 4 does not write keeps its contents through it. -/
theorem c4_keep (V : Valuation τ sig (Elt F)) (r : Ref sig .tc) (h : r ∉ c4_W) :
    after (c4 (F := F)) V (Proc.devRef .tc r) = V (Proc.devRef .tc r) :=
  after_of_writes_sub c4 V c4_writes h

/-- The buffers run 5 writes. -/
abbrev c5_W : List (Ref sig .tc) := [main_v42, main_v43, main_v44, main_v45, main_v46, main_v47, main_v48, main_v49, main_v50, main_v51, main_v52, main_v53, main_v54]
theorem c5_writes : (c5 : List (HloOp τ sig (Elt F))).Forall fun op => op.writes ⊆ (c5_W.map (Proc.devRef (τ := τ) .tc)).toFinset := by
  simp only [List.Forall]
  exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer run 5 does not write keeps its contents through it. -/
theorem c5_keep (V : Valuation τ sig (Elt F)) (r : Ref sig .tc) (h : r ∉ c5_W) :
    after (c5 (F := F)) V (Proc.devRef .tc r) = V (Proc.devRef .tc r) :=
  after_of_writes_sub c5 V c5_writes h

/-- The buffers run 6 writes. -/
abbrev c6_W : List (Ref sig .tc) := [main_v55, main_v56, main_v57, main_v58, main_cst_14, main_v59, main_cst_15, main_v60, main_v61, main_v62, main_cst_16, main_v63, main_v64]
theorem c6_writes : (c6 : List (HloOp τ sig (Elt F))).Forall fun op => op.writes ⊆ (c6_W.map (Proc.devRef (τ := τ) .tc)).toFinset := by
  simp only [List.Forall]
  exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer run 6 does not write keeps its contents through it. -/
theorem c6_keep (V : Valuation τ sig (Elt F)) (r : Ref sig .tc) (h : r ∉ c6_W) :
    after (c6 (F := F)) V (Proc.devRef .tc r) = V (Proc.devRef .tc r) :=
  after_of_writes_sub c6 V c6_writes h

/-- The buffers run 7 writes. -/
abbrev c7_W : List (Ref sig .tc) := [main_c_17, main_v65, main_v66, main_c_18, main_v67, main_v68, main_v69, main_v70, main_v71, main_cst_19, main_v72, main_v73, main_v74, main_v75, main_v76, main_v77]
theorem c7_writes : (c7 : List (HloOp τ sig (Elt F))).Forall fun op => op.writes ⊆ (c7_W.map (Proc.devRef (τ := τ) .tc)).toFinset := by
  simp only [List.Forall]
  exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer run 7 does not write keeps its contents through it. -/
theorem c7_keep (V : Valuation τ sig (Elt F)) (r : Ref sig .tc) (h : r ∉ c7_W) :
    after (c7 (F := F)) V (Proc.devRef .tc r) = V (Proc.devRef .tc r) :=
  after_of_writes_sub c7 V c7_writes h

/-- The buffers run 8 writes. -/
abbrev c8_W : List (Ref sig .tc) := [main_v78, main_v79, main_v80, main_v81, main_call0_cst, main_call0_v0, main_v82, main_v83, main_v84, main_v85, main_v86, main_v87, main_call1_cst, main_call1_v0, main_v88]
theorem c8_writes : (c8 : List (HloOp τ sig (Elt F))).Forall fun op => op.writes ⊆ (c8_W.map (Proc.devRef (τ := τ) .tc)).toFinset := by
  simp only [List.Forall]
  exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer run 8 does not write keeps its contents through it. -/
theorem c8_keep (V : Valuation τ sig (Elt F)) (r : Ref sig .tc) (h : r ∉ c8_W) :
    after (c8 (F := F)) V (Proc.devRef .tc r) = V (Proc.devRef .tc r) :=
  after_of_writes_sub c8 V c8_writes h

/-- The buffers run 9 writes. -/
abbrev c9_W : List (Ref sig .tc) := [main_c_20, main_v89, main_v90, main_c_21, main_v91, main_v92, main_v93, main_v94, main_v95, main_cst_22, main_v96, main_v97, main_v98]
theorem c9_writes : (c9 : List (HloOp τ sig (Elt F))).Forall fun op => op.writes ⊆ (c9_W.map (Proc.devRef (τ := τ) .tc)).toFinset := by
  simp only [List.Forall]
  exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer run 9 does not write keeps its contents through it. -/
theorem c9_keep (V : Valuation τ sig (Elt F)) (r : Ref sig .tc) (h : r ∉ c9_W) :
    after (c9 (F := F)) V (Proc.devRef .tc r) = V (Proc.devRef .tc r) :=
  after_of_writes_sub c9 V c9_writes h

/-- The buffers run 10 writes. -/
abbrev c10_W : List (Ref sig .tc) := [main_v99, main_v100, main_v101, main_v102, main_v103, main_v104, main_v105, main_call2_cst, main_call2_v0, main_v106, main_v107, main_v108, main_v109, main_v110, main_v111]
theorem c10_writes : (c10 : List (HloOp τ sig (Elt F))).Forall fun op => op.writes ⊆ (c10_W.map (Proc.devRef (τ := τ) .tc)).toFinset := by
  simp only [List.Forall]
  exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer run 10 does not write keeps its contents through it. -/
theorem c10_keep (V : Valuation τ sig (Elt F)) (r : Ref sig .tc) (h : r ∉ c10_W) :
    after (c10 (F := F)) V (Proc.devRef .tc r) = V (Proc.devRef .tc r) :=
  after_of_writes_sub c10 V c10_writes h

/-! ## What a run computes -/

set_option maxHeartbeats 2000000 in
theorem c1_v10 (V : Valuation τ sig (Elt F)) (x3 : (⟨S100000x3x8, .i32⟩ : BufTy).Contents (Elt F)) (x9 : (⟨S30000x64, .f32⟩ : BufTy).Contents (Elt F))
    (h_arg9 : V (Proc.devRef .tc main_arg9) = x9)
    (h_arg3 : V (Proc.devRef .tc main_arg3) = x3) :
    after (c1 (F := F)) V (Proc.devRef .tc main_v10) = val_main_v10 (F := F) x3 x9 := by
  after_results
  rw [h_arg9, h_arg3]
  rfl

set_option maxHeartbeats 2000000 in
theorem c2_v21 (V : Valuation τ sig (Elt F)) (x4 : (⟨S50000x3x8, .i32⟩ : BufTy).Contents (Elt F)) (x9 : (⟨S30000x64, .f32⟩ : BufTy).Contents (Elt F))
    (h_arg9 : V (Proc.devRef .tc main_arg9) = x9)
    (h_arg4 : V (Proc.devRef .tc main_arg4) = x4) :
    after (c2 (F := F)) V (Proc.devRef .tc main_v21) = val_main_v21 (F := F) x4 x9 := by
  after_results
  rw [h_arg9, h_arg4]
  rfl

set_option maxHeartbeats 2000000 in
theorem c3_v31 (V : Valuation τ sig (Elt F)) (x1 : (⟨S100000x10, .i32⟩ : BufTy).Contents (Elt F)) (x7 : (⟨S5000x128, .f32⟩ : BufTy).Contents (Elt F))
    (h_arg7 : V (Proc.devRef .tc main_arg7) = x7)
    (h_arg1 : V (Proc.devRef .tc main_arg1) = x1) :
    after (c3 (F := F)) V (Proc.devRef .tc main_v31) = val_main_v31 (F := F) x1 x7 := by
  after_results
  rw [h_arg7, h_arg1]
  rfl

set_option maxHeartbeats 2000000 in
theorem c4_v41 (V : Valuation τ sig (Elt F)) (x2 : (⟨S50000x10, .i32⟩ : BufTy).Contents (Elt F)) (x8 : (⟨S8000x128, .f32⟩ : BufTy).Contents (Elt F))
    (h_arg8 : V (Proc.devRef .tc main_arg8) = x8)
    (h_arg2 : V (Proc.devRef .tc main_arg2) = x2) :
    after (c4 (F := F)) V (Proc.devRef .tc main_v41) = val_main_v41 (F := F) x2 x8 := by
  after_results
  rw [h_arg8, h_arg2]
  rfl

set_option maxHeartbeats 2000000 in
theorem c5_v54 (V : Valuation τ sig (Elt F)) (x1 : (⟨S100000x10, .i32⟩ : BufTy).Contents (Elt F)) (x2 : (⟨S50000x10, .i32⟩ : BufTy).Contents (Elt F)) (x3 : (⟨S100000x3x8, .i32⟩ : BufTy).Contents (Elt F)) (x4 : (⟨S50000x3x8, .i32⟩ : BufTy).Contents (Elt F)) (x5 : (⟨S100000x128, .f32⟩ : BufTy).Contents (Elt F)) (x6 : (⟨S50000x128, .f32⟩ : BufTy).Contents (Elt F)) (x7 : (⟨S5000x128, .f32⟩ : BufTy).Contents (Elt F)) (x8 : (⟨S8000x128, .f32⟩ : BufTy).Contents (Elt F)) (x9 : (⟨S30000x64, .f32⟩ : BufTy).Contents (Elt F)) (x10 : (⟨S320x128, .f32⟩ : BufTy).Contents (Elt F)) (x11 : (⟨S128, .f32⟩ : BufTy).Contents (Elt F)) (x12 : (⟨S320x128, .f32⟩ : BufTy).Contents (Elt F)) (x13 : (⟨S128, .f32⟩ : BufTy).Contents (Elt F))
    (h_v31 : V (Proc.devRef .tc main_v31) = val_main_v31 (F := F) x1 x7)
    (h_v10 : V (Proc.devRef .tc main_v10) = val_main_v10 (F := F) x3 x9)
    (h_arg10 : V (Proc.devRef .tc main_arg10) = x10)
    (h_arg11 : V (Proc.devRef .tc main_arg11) = x11)
    (h_arg5 : V (Proc.devRef .tc main_arg5) = x5)
    (h_v41 : V (Proc.devRef .tc main_v41) = val_main_v41 (F := F) x2 x8)
    (h_v21 : V (Proc.devRef .tc main_v21) = val_main_v21 (F := F) x4 x9)
    (h_arg12 : V (Proc.devRef .tc main_arg12) = x12)
    (h_arg13 : V (Proc.devRef .tc main_arg13) = x13)
    (h_arg6 : V (Proc.devRef .tc main_arg6) = x6) :
    after (c5 (F := F)) V (Proc.devRef .tc main_v54) = val_main_v54 (F := F) x1 x2 x3 x4 x5 x6 x7 x8 x9 x10 x11 x12 x13 := by
  after_results
  rw [h_v31, h_v10, h_arg10, h_arg11, h_arg5, h_v41, h_v21, h_arg12, h_arg13, h_arg6]
  rfl

set_option maxHeartbeats 2000000 in
theorem c6_v56 (V : Valuation τ sig (Elt F)) (x0 : (⟨S2x1500000, .i32⟩ : BufTy).Contents (Elt F))
    (h_arg0 : V (Proc.devRef .tc main_arg0) = x0) :
    after (c6 (F := F)) V (Proc.devRef .tc main_v56) = val_main_v56 (F := F) x0 := by
  after_results
  rw [h_arg0]
  rfl

set_option maxHeartbeats 2000000 in
theorem c6_v58 (V : Valuation τ sig (Elt F)) (x0 : (⟨S2x1500000, .i32⟩ : BufTy).Contents (Elt F))
    (h_arg0 : V (Proc.devRef .tc main_arg0) = x0) :
    after (c6 (F := F)) V (Proc.devRef .tc main_v58) = val_main_v58 (F := F) x0 := by
  after_results
  rw [h_arg0]
  rfl

set_option maxHeartbeats 2000000 in
theorem c6_v64 (V : Valuation τ sig (Elt F)) (x0 : (⟨S2x1500000, .i32⟩ : BufTy).Contents (Elt F))
    (h_arg0 : V (Proc.devRef .tc main_arg0) = x0) :
    after (c6 (F := F)) V (Proc.devRef .tc main_v64) = val_main_v64 (F := F) x0 := by
  after_results
  rw [h_arg0]
  rfl

set_option maxHeartbeats 2000000 in
theorem c7_v77 (V : Valuation τ sig (Elt F)) (x0 : (⟨S2x1500000, .i32⟩ : BufTy).Contents (Elt F)) (x1 : (⟨S100000x10, .i32⟩ : BufTy).Contents (Elt F)) (x2 : (⟨S50000x10, .i32⟩ : BufTy).Contents (Elt F)) (x3 : (⟨S100000x3x8, .i32⟩ : BufTy).Contents (Elt F)) (x4 : (⟨S50000x3x8, .i32⟩ : BufTy).Contents (Elt F)) (x5 : (⟨S100000x128, .f32⟩ : BufTy).Contents (Elt F)) (x6 : (⟨S50000x128, .f32⟩ : BufTy).Contents (Elt F)) (x7 : (⟨S5000x128, .f32⟩ : BufTy).Contents (Elt F)) (x8 : (⟨S8000x128, .f32⟩ : BufTy).Contents (Elt F)) (x9 : (⟨S30000x64, .f32⟩ : BufTy).Contents (Elt F)) (x10 : (⟨S320x128, .f32⟩ : BufTy).Contents (Elt F)) (x11 : (⟨S128, .f32⟩ : BufTy).Contents (Elt F)) (x12 : (⟨S320x128, .f32⟩ : BufTy).Contents (Elt F)) (x13 : (⟨S128, .f32⟩ : BufTy).Contents (Elt F))
    (h_v58 : V (Proc.devRef .tc main_v58) = val_main_v58 (F := F) x0)
    (h_v54 : V (Proc.devRef .tc main_v54) = val_main_v54 (F := F) x1 x2 x3 x4 x5 x6 x7 x8 x9 x10 x11 x12 x13)
    (h_v56 : V (Proc.devRef .tc main_v56) = val_main_v56 (F := F) x0)
    (h_v64 : V (Proc.devRef .tc main_v64) = val_main_v64 (F := F) x0) :
    after (c7 (F := F)) V (Proc.devRef .tc main_v77) = val_main_v77 (F := F) x0 x1 x2 x3 x4 x5 x6 x7 x8 x9 x10 x11 x12 x13 := by
  after_results
  rw [h_v58, h_v54, h_v56, h_v64]
  rfl

set_option maxHeartbeats 2000000 in
theorem c8_v88 (V : Valuation τ sig (Elt F)) (x0 : (⟨S2x1500000, .i32⟩ : BufTy).Contents (Elt F)) (x1 : (⟨S100000x10, .i32⟩ : BufTy).Contents (Elt F)) (x2 : (⟨S50000x10, .i32⟩ : BufTy).Contents (Elt F)) (x3 : (⟨S100000x3x8, .i32⟩ : BufTy).Contents (Elt F)) (x4 : (⟨S50000x3x8, .i32⟩ : BufTy).Contents (Elt F)) (x5 : (⟨S100000x128, .f32⟩ : BufTy).Contents (Elt F)) (x6 : (⟨S50000x128, .f32⟩ : BufTy).Contents (Elt F)) (x7 : (⟨S5000x128, .f32⟩ : BufTy).Contents (Elt F)) (x8 : (⟨S8000x128, .f32⟩ : BufTy).Contents (Elt F)) (x9 : (⟨S30000x64, .f32⟩ : BufTy).Contents (Elt F)) (x10 : (⟨S320x128, .f32⟩ : BufTy).Contents (Elt F)) (x11 : (⟨S128, .f32⟩ : BufTy).Contents (Elt F)) (x12 : (⟨S320x128, .f32⟩ : BufTy).Contents (Elt F)) (x13 : (⟨S128, .f32⟩ : BufTy).Contents (Elt F)) (x14 : (⟨S256x128, .f32⟩ : BufTy).Contents (Elt F)) (x15 : (⟨S128, .f32⟩ : BufTy).Contents (Elt F)) (x18 : (⟨S128x128, .f32⟩ : BufTy).Contents (Elt F)) (x19 : (⟨S128, .f32⟩ : BufTy).Contents (Elt F))
    (h_v54 : V (Proc.devRef .tc main_v54) = val_main_v54 (F := F) x1 x2 x3 x4 x5 x6 x7 x8 x9 x10 x11 x12 x13)
    (h_v77 : V (Proc.devRef .tc main_v77) = val_main_v77 (F := F) x0 x1 x2 x3 x4 x5 x6 x7 x8 x9 x10 x11 x12 x13)
    (h_arg18 : V (Proc.devRef .tc main_arg18) = x18)
    (h_arg19 : V (Proc.devRef .tc main_arg19) = x19)
    (h_arg14 : V (Proc.devRef .tc main_arg14) = x14)
    (h_arg15 : V (Proc.devRef .tc main_arg15) = x15) :
    after (c8 (F := F)) V (Proc.devRef .tc main_v88) = val_main_v88 (F := F) x0 x1 x2 x3 x4 x5 x6 x7 x8 x9 x10 x11 x12 x13 x14 x15 x18 x19 := by
  after_results
  rw [h_v54, h_v77, h_arg18, h_arg19, h_arg14, h_arg15]
  rfl

set_option maxHeartbeats 2000000 in
theorem c9_v98 (V : Valuation τ sig (Elt F)) (x0 : (⟨S2x1500000, .i32⟩ : BufTy).Contents (Elt F)) (x1 : (⟨S100000x10, .i32⟩ : BufTy).Contents (Elt F)) (x2 : (⟨S50000x10, .i32⟩ : BufTy).Contents (Elt F)) (x3 : (⟨S100000x3x8, .i32⟩ : BufTy).Contents (Elt F)) (x4 : (⟨S50000x3x8, .i32⟩ : BufTy).Contents (Elt F)) (x5 : (⟨S100000x128, .f32⟩ : BufTy).Contents (Elt F)) (x6 : (⟨S50000x128, .f32⟩ : BufTy).Contents (Elt F)) (x7 : (⟨S5000x128, .f32⟩ : BufTy).Contents (Elt F)) (x8 : (⟨S8000x128, .f32⟩ : BufTy).Contents (Elt F)) (x9 : (⟨S30000x64, .f32⟩ : BufTy).Contents (Elt F)) (x10 : (⟨S320x128, .f32⟩ : BufTy).Contents (Elt F)) (x11 : (⟨S128, .f32⟩ : BufTy).Contents (Elt F)) (x12 : (⟨S320x128, .f32⟩ : BufTy).Contents (Elt F)) (x13 : (⟨S128, .f32⟩ : BufTy).Contents (Elt F)) (x14 : (⟨S256x128, .f32⟩ : BufTy).Contents (Elt F)) (x15 : (⟨S128, .f32⟩ : BufTy).Contents (Elt F)) (x18 : (⟨S128x128, .f32⟩ : BufTy).Contents (Elt F)) (x19 : (⟨S128, .f32⟩ : BufTy).Contents (Elt F))
    (h_v58 : V (Proc.devRef .tc main_v58) = val_main_v58 (F := F) x0)
    (h_v88 : V (Proc.devRef .tc main_v88) = val_main_v88 (F := F) x0 x1 x2 x3 x4 x5 x6 x7 x8 x9 x10 x11 x12 x13 x14 x15 x18 x19)
    (h_v56 : V (Proc.devRef .tc main_v56) = val_main_v56 (F := F) x0) :
    after (c9 (F := F)) V (Proc.devRef .tc main_v98) = val_main_v98 (F := F) x0 x1 x2 x3 x4 x5 x6 x7 x8 x9 x10 x11 x12 x13 x14 x15 x18 x19 := by
  after_results
  rw [h_v58, h_v88, h_v56]
  rfl

set_option maxHeartbeats 2000000 in
theorem c10_v111 (V : Valuation τ sig (Elt F)) (x0 : (⟨S2x1500000, .i32⟩ : BufTy).Contents (Elt F)) (x1 : (⟨S100000x10, .i32⟩ : BufTy).Contents (Elt F)) (x2 : (⟨S50000x10, .i32⟩ : BufTy).Contents (Elt F)) (x3 : (⟨S100000x3x8, .i32⟩ : BufTy).Contents (Elt F)) (x4 : (⟨S50000x3x8, .i32⟩ : BufTy).Contents (Elt F)) (x5 : (⟨S100000x128, .f32⟩ : BufTy).Contents (Elt F)) (x6 : (⟨S50000x128, .f32⟩ : BufTy).Contents (Elt F)) (x7 : (⟨S5000x128, .f32⟩ : BufTy).Contents (Elt F)) (x8 : (⟨S8000x128, .f32⟩ : BufTy).Contents (Elt F)) (x9 : (⟨S30000x64, .f32⟩ : BufTy).Contents (Elt F)) (x10 : (⟨S320x128, .f32⟩ : BufTy).Contents (Elt F)) (x11 : (⟨S128, .f32⟩ : BufTy).Contents (Elt F)) (x12 : (⟨S320x128, .f32⟩ : BufTy).Contents (Elt F)) (x13 : (⟨S128, .f32⟩ : BufTy).Contents (Elt F)) (x14 : (⟨S256x128, .f32⟩ : BufTy).Contents (Elt F)) (x15 : (⟨S128, .f32⟩ : BufTy).Contents (Elt F)) (x16 : (⟨S256x128, .f32⟩ : BufTy).Contents (Elt F)) (x17 : (⟨S128, .f32⟩ : BufTy).Contents (Elt F)) (x18 : (⟨S128x128, .f32⟩ : BufTy).Contents (Elt F)) (x19 : (⟨S128, .f32⟩ : BufTy).Contents (Elt F)) (x20 : (⟨S128x128, .f32⟩ : BufTy).Contents (Elt F)) (x21 : (⟨S128, .f32⟩ : BufTy).Contents (Elt F))
    (h_v88 : V (Proc.devRef .tc main_v88) = val_main_v88 (F := F) x0 x1 x2 x3 x4 x5 x6 x7 x8 x9 x10 x11 x12 x13 x14 x15 x18 x19)
    (h_v98 : V (Proc.devRef .tc main_v98) = val_main_v98 (F := F) x0 x1 x2 x3 x4 x5 x6 x7 x8 x9 x10 x11 x12 x13 x14 x15 x18 x19)
    (h_v64 : V (Proc.devRef .tc main_v64) = val_main_v64 (F := F) x0)
    (h_arg20 : V (Proc.devRef .tc main_arg20) = x20)
    (h_arg21 : V (Proc.devRef .tc main_arg21) = x21)
    (h_arg16 : V (Proc.devRef .tc main_arg16) = x16)
    (h_arg17 : V (Proc.devRef .tc main_arg17) = x17) :
    after (c10 (F := F)) V (Proc.devRef .tc main_v111) = val_main_v111 (F := F) x0 x1 x2 x3 x4 x5 x6 x7 x8 x9 x10 x11 x12 x13 x14 x15 x16 x17 x18 x19 x20 x21 := by
  after_results
  rw [h_v88, h_v98, h_v64, h_arg20, h_arg21, h_arg16, h_arg17]
  rfl

/-! ## The runs in turn, from the contents W -/

/-- The contents after the first k runs. -/
abbrev V0 (W : Valuation τ sig (Elt F)) : Valuation τ sig (Elt F) := W
abbrev V1 (W : Valuation τ sig (Elt F)) : Valuation τ sig (Elt F) := after (c1 (F := F)) (V0 W)
abbrev V2 (W : Valuation τ sig (Elt F)) : Valuation τ sig (Elt F) := after (c2 (F := F)) (V1 W)
abbrev V3 (W : Valuation τ sig (Elt F)) : Valuation τ sig (Elt F) := after (c3 (F := F)) (V2 W)
abbrev V4 (W : Valuation τ sig (Elt F)) : Valuation τ sig (Elt F) := after (c4 (F := F)) (V3 W)
abbrev V5 (W : Valuation τ sig (Elt F)) : Valuation τ sig (Elt F) := after (c5 (F := F)) (V4 W)
abbrev V6 (W : Valuation τ sig (Elt F)) : Valuation τ sig (Elt F) := after (c6 (F := F)) (V5 W)
abbrev V7 (W : Valuation τ sig (Elt F)) : Valuation τ sig (Elt F) := after (c7 (F := F)) (V6 W)
abbrev V8 (W : Valuation τ sig (Elt F)) : Valuation τ sig (Elt F) := after (c8 (F := F)) (V7 W)
abbrev V9 (W : Valuation τ sig (Elt F)) : Valuation τ sig (Elt F) := after (c9 (F := F)) (V8 W)
abbrev V10 (W : Valuation τ sig (Elt F)) : Valuation τ sig (Elt F) := after (c10 (F := F)) (V9 W)

theorem V1_keep (W : Valuation τ sig (Elt F)) (r : Ref sig .tc) (h1 : r ∉ c1_W) :
    V1 W (Proc.devRef .tc r) = W (Proc.devRef .tc r) :=
  (c1_keep (V0 W) r h1)

theorem V2_keep (W : Valuation τ sig (Elt F)) (r : Ref sig .tc) (h1 : r ∉ c1_W) (h2 : r ∉ c2_W) :
    V2 W (Proc.devRef .tc r) = W (Proc.devRef .tc r) :=
  (c2_keep (V1 W) r h2).trans (V1_keep W r h1)

theorem V3_keep (W : Valuation τ sig (Elt F)) (r : Ref sig .tc) (h1 : r ∉ c1_W) (h2 : r ∉ c2_W) (h3 : r ∉ c3_W) :
    V3 W (Proc.devRef .tc r) = W (Proc.devRef .tc r) :=
  (c3_keep (V2 W) r h3).trans (V2_keep W r h1 h2)

theorem V4_keep (W : Valuation τ sig (Elt F)) (r : Ref sig .tc) (h1 : r ∉ c1_W) (h2 : r ∉ c2_W) (h3 : r ∉ c3_W) (h4 : r ∉ c4_W) :
    V4 W (Proc.devRef .tc r) = W (Proc.devRef .tc r) :=
  (c4_keep (V3 W) r h4).trans (V3_keep W r h1 h2 h3)

theorem V5_keep (W : Valuation τ sig (Elt F)) (r : Ref sig .tc) (h1 : r ∉ c1_W) (h2 : r ∉ c2_W) (h3 : r ∉ c3_W) (h4 : r ∉ c4_W) (h5 : r ∉ c5_W) :
    V5 W (Proc.devRef .tc r) = W (Proc.devRef .tc r) :=
  (c5_keep (V4 W) r h5).trans (V4_keep W r h1 h2 h3 h4)

theorem V6_keep (W : Valuation τ sig (Elt F)) (r : Ref sig .tc) (h1 : r ∉ c1_W) (h2 : r ∉ c2_W) (h3 : r ∉ c3_W) (h4 : r ∉ c4_W) (h5 : r ∉ c5_W) (h6 : r ∉ c6_W) :
    V6 W (Proc.devRef .tc r) = W (Proc.devRef .tc r) :=
  (c6_keep (V5 W) r h6).trans (V5_keep W r h1 h2 h3 h4 h5)

theorem V7_keep (W : Valuation τ sig (Elt F)) (r : Ref sig .tc) (h1 : r ∉ c1_W) (h2 : r ∉ c2_W) (h3 : r ∉ c3_W) (h4 : r ∉ c4_W) (h5 : r ∉ c5_W) (h6 : r ∉ c6_W) (h7 : r ∉ c7_W) :
    V7 W (Proc.devRef .tc r) = W (Proc.devRef .tc r) :=
  (c7_keep (V6 W) r h7).trans (V6_keep W r h1 h2 h3 h4 h5 h6)

theorem V8_keep (W : Valuation τ sig (Elt F)) (r : Ref sig .tc) (h1 : r ∉ c1_W) (h2 : r ∉ c2_W) (h3 : r ∉ c3_W) (h4 : r ∉ c4_W) (h5 : r ∉ c5_W) (h6 : r ∉ c6_W) (h7 : r ∉ c7_W) (h8 : r ∉ c8_W) :
    V8 W (Proc.devRef .tc r) = W (Proc.devRef .tc r) :=
  (c8_keep (V7 W) r h8).trans (V7_keep W r h1 h2 h3 h4 h5 h6 h7)

theorem V9_keep (W : Valuation τ sig (Elt F)) (r : Ref sig .tc) (h1 : r ∉ c1_W) (h2 : r ∉ c2_W) (h3 : r ∉ c3_W) (h4 : r ∉ c4_W) (h5 : r ∉ c5_W) (h6 : r ∉ c6_W) (h7 : r ∉ c7_W) (h8 : r ∉ c8_W) (h9 : r ∉ c9_W) :
    V9 W (Proc.devRef .tc r) = W (Proc.devRef .tc r) :=
  (c9_keep (V8 W) r h9).trans (V8_keep W r h1 h2 h3 h4 h5 h6 h7 h8)

theorem V1_v10 (W : Valuation τ sig (Elt F)) :
    V1 W (Proc.devRef .tc main_v10) = val_main_v10 (F := F) (W (Proc.devRef .tc main_arg3)) (W (Proc.devRef .tc main_arg9)) :=
  c1_v10 (V0 W) (W (Proc.devRef .tc main_arg3)) (W (Proc.devRef .tc main_arg9))
    rfl rfl

theorem V2_v10 (W : Valuation τ sig (Elt F)) :
    V2 W (Proc.devRef .tc main_v10) = val_main_v10 (F := F) (W (Proc.devRef .tc main_arg3)) (W (Proc.devRef .tc main_arg9)) :=
  (c2_keep (V1 W) main_v10 (by decide)).trans (V1_v10 W)

theorem V2_v21 (W : Valuation τ sig (Elt F)) :
    V2 W (Proc.devRef .tc main_v21) = val_main_v21 (F := F) (W (Proc.devRef .tc main_arg4)) (W (Proc.devRef .tc main_arg9)) :=
  c2_v21 (V1 W) (W (Proc.devRef .tc main_arg4)) (W (Proc.devRef .tc main_arg9))
    (V1_keep W main_arg9 (by decide)) (V1_keep W main_arg4 (by decide))

theorem V3_v31 (W : Valuation τ sig (Elt F)) :
    V3 W (Proc.devRef .tc main_v31) = val_main_v31 (F := F) (W (Proc.devRef .tc main_arg1)) (W (Proc.devRef .tc main_arg7)) :=
  c3_v31 (V2 W) (W (Proc.devRef .tc main_arg1)) (W (Proc.devRef .tc main_arg7))
    (V2_keep W main_arg7 (by decide) (by decide)) (V2_keep W main_arg1 (by decide) (by decide))

theorem V3_v10 (W : Valuation τ sig (Elt F)) :
    V3 W (Proc.devRef .tc main_v10) = val_main_v10 (F := F) (W (Proc.devRef .tc main_arg3)) (W (Proc.devRef .tc main_arg9)) :=
  (c3_keep (V2 W) main_v10 (by decide)).trans (V2_v10 W)

theorem V3_v21 (W : Valuation τ sig (Elt F)) :
    V3 W (Proc.devRef .tc main_v21) = val_main_v21 (F := F) (W (Proc.devRef .tc main_arg4)) (W (Proc.devRef .tc main_arg9)) :=
  (c3_keep (V2 W) main_v21 (by decide)).trans (V2_v21 W)

theorem V4_v31 (W : Valuation τ sig (Elt F)) :
    V4 W (Proc.devRef .tc main_v31) = val_main_v31 (F := F) (W (Proc.devRef .tc main_arg1)) (W (Proc.devRef .tc main_arg7)) :=
  (c4_keep (V3 W) main_v31 (by decide)).trans (V3_v31 W)

theorem V4_v10 (W : Valuation τ sig (Elt F)) :
    V4 W (Proc.devRef .tc main_v10) = val_main_v10 (F := F) (W (Proc.devRef .tc main_arg3)) (W (Proc.devRef .tc main_arg9)) :=
  (c4_keep (V3 W) main_v10 (by decide)).trans (V3_v10 W)

theorem V4_v41 (W : Valuation τ sig (Elt F)) :
    V4 W (Proc.devRef .tc main_v41) = val_main_v41 (F := F) (W (Proc.devRef .tc main_arg2)) (W (Proc.devRef .tc main_arg8)) :=
  c4_v41 (V3 W) (W (Proc.devRef .tc main_arg2)) (W (Proc.devRef .tc main_arg8))
    (V3_keep W main_arg8 (by decide) (by decide) (by decide)) (V3_keep W main_arg2 (by decide) (by decide) (by decide))

theorem V4_v21 (W : Valuation τ sig (Elt F)) :
    V4 W (Proc.devRef .tc main_v21) = val_main_v21 (F := F) (W (Proc.devRef .tc main_arg4)) (W (Proc.devRef .tc main_arg9)) :=
  (c4_keep (V3 W) main_v21 (by decide)).trans (V3_v21 W)

theorem V5_v54 (W : Valuation τ sig (Elt F)) :
    V5 W (Proc.devRef .tc main_v54) = val_main_v54 (F := F) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg9)) (W (Proc.devRef .tc main_arg10)) (W (Proc.devRef .tc main_arg11)) (W (Proc.devRef .tc main_arg12)) (W (Proc.devRef .tc main_arg13)) :=
  c5_v54 (V4 W) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg9)) (W (Proc.devRef .tc main_arg10)) (W (Proc.devRef .tc main_arg11)) (W (Proc.devRef .tc main_arg12)) (W (Proc.devRef .tc main_arg13))
    (V4_v31 W) (V4_v10 W) (V4_keep W main_arg10 (by decide) (by decide) (by decide) (by decide)) (V4_keep W main_arg11 (by decide) (by decide) (by decide) (by decide)) (V4_keep W main_arg5 (by decide) (by decide) (by decide) (by decide)) (V4_v41 W) (V4_v21 W) (V4_keep W main_arg12 (by decide) (by decide) (by decide) (by decide)) (V4_keep W main_arg13 (by decide) (by decide) (by decide) (by decide)) (V4_keep W main_arg6 (by decide) (by decide) (by decide) (by decide))

theorem V6_v56 (W : Valuation τ sig (Elt F)) :
    V6 W (Proc.devRef .tc main_v56) = val_main_v56 (F := F) (W (Proc.devRef .tc main_arg0)) :=
  c6_v56 (V5 W) (W (Proc.devRef .tc main_arg0))
    (V5_keep W main_arg0 (by decide) (by decide) (by decide) (by decide) (by decide))

theorem V6_v54 (W : Valuation τ sig (Elt F)) :
    V6 W (Proc.devRef .tc main_v54) = val_main_v54 (F := F) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg9)) (W (Proc.devRef .tc main_arg10)) (W (Proc.devRef .tc main_arg11)) (W (Proc.devRef .tc main_arg12)) (W (Proc.devRef .tc main_arg13)) :=
  (c6_keep (V5 W) main_v54 (by decide)).trans (V5_v54 W)

theorem V6_v58 (W : Valuation τ sig (Elt F)) :
    V6 W (Proc.devRef .tc main_v58) = val_main_v58 (F := F) (W (Proc.devRef .tc main_arg0)) :=
  c6_v58 (V5 W) (W (Proc.devRef .tc main_arg0))
    (V5_keep W main_arg0 (by decide) (by decide) (by decide) (by decide) (by decide))

theorem V6_v64 (W : Valuation τ sig (Elt F)) :
    V6 W (Proc.devRef .tc main_v64) = val_main_v64 (F := F) (W (Proc.devRef .tc main_arg0)) :=
  c6_v64 (V5 W) (W (Proc.devRef .tc main_arg0))
    (V5_keep W main_arg0 (by decide) (by decide) (by decide) (by decide) (by decide))

theorem V7_v77 (W : Valuation τ sig (Elt F)) :
    V7 W (Proc.devRef .tc main_v77) = val_main_v77 (F := F) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg9)) (W (Proc.devRef .tc main_arg10)) (W (Proc.devRef .tc main_arg11)) (W (Proc.devRef .tc main_arg12)) (W (Proc.devRef .tc main_arg13)) :=
  c7_v77 (V6 W) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg9)) (W (Proc.devRef .tc main_arg10)) (W (Proc.devRef .tc main_arg11)) (W (Proc.devRef .tc main_arg12)) (W (Proc.devRef .tc main_arg13))
    (V6_v58 W) (V6_v54 W) (V6_v56 W) (V6_v64 W)

theorem V7_v54 (W : Valuation τ sig (Elt F)) :
    V7 W (Proc.devRef .tc main_v54) = val_main_v54 (F := F) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg9)) (W (Proc.devRef .tc main_arg10)) (W (Proc.devRef .tc main_arg11)) (W (Proc.devRef .tc main_arg12)) (W (Proc.devRef .tc main_arg13)) :=
  (c7_keep (V6 W) main_v54 (by decide)).trans (V6_v54 W)

theorem V7_v56 (W : Valuation τ sig (Elt F)) :
    V7 W (Proc.devRef .tc main_v56) = val_main_v56 (F := F) (W (Proc.devRef .tc main_arg0)) :=
  (c7_keep (V6 W) main_v56 (by decide)).trans (V6_v56 W)

theorem V7_v58 (W : Valuation τ sig (Elt F)) :
    V7 W (Proc.devRef .tc main_v58) = val_main_v58 (F := F) (W (Proc.devRef .tc main_arg0)) :=
  (c7_keep (V6 W) main_v58 (by decide)).trans (V6_v58 W)

theorem V7_v64 (W : Valuation τ sig (Elt F)) :
    V7 W (Proc.devRef .tc main_v64) = val_main_v64 (F := F) (W (Proc.devRef .tc main_arg0)) :=
  (c7_keep (V6 W) main_v64 (by decide)).trans (V6_v64 W)

theorem V8_v56 (W : Valuation τ sig (Elt F)) :
    V8 W (Proc.devRef .tc main_v56) = val_main_v56 (F := F) (W (Proc.devRef .tc main_arg0)) :=
  (c8_keep (V7 W) main_v56 (by decide)).trans (V7_v56 W)

theorem V8_v88 (W : Valuation τ sig (Elt F)) :
    V8 W (Proc.devRef .tc main_v88) = val_main_v88 (F := F) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg9)) (W (Proc.devRef .tc main_arg10)) (W (Proc.devRef .tc main_arg11)) (W (Proc.devRef .tc main_arg12)) (W (Proc.devRef .tc main_arg13)) (W (Proc.devRef .tc main_arg14)) (W (Proc.devRef .tc main_arg15)) (W (Proc.devRef .tc main_arg18)) (W (Proc.devRef .tc main_arg19)) :=
  c8_v88 (V7 W) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg9)) (W (Proc.devRef .tc main_arg10)) (W (Proc.devRef .tc main_arg11)) (W (Proc.devRef .tc main_arg12)) (W (Proc.devRef .tc main_arg13)) (W (Proc.devRef .tc main_arg14)) (W (Proc.devRef .tc main_arg15)) (W (Proc.devRef .tc main_arg18)) (W (Proc.devRef .tc main_arg19))
    (V7_v54 W) (V7_v77 W) (V7_keep W main_arg18 (by decide) (by decide) (by decide) (by decide) (by decide) (by decide) (by decide)) (V7_keep W main_arg19 (by decide) (by decide) (by decide) (by decide) (by decide) (by decide) (by decide)) (V7_keep W main_arg14 (by decide) (by decide) (by decide) (by decide) (by decide) (by decide) (by decide)) (V7_keep W main_arg15 (by decide) (by decide) (by decide) (by decide) (by decide) (by decide) (by decide))

theorem V8_v58 (W : Valuation τ sig (Elt F)) :
    V8 W (Proc.devRef .tc main_v58) = val_main_v58 (F := F) (W (Proc.devRef .tc main_arg0)) :=
  (c8_keep (V7 W) main_v58 (by decide)).trans (V7_v58 W)

theorem V8_v64 (W : Valuation τ sig (Elt F)) :
    V8 W (Proc.devRef .tc main_v64) = val_main_v64 (F := F) (W (Proc.devRef .tc main_arg0)) :=
  (c8_keep (V7 W) main_v64 (by decide)).trans (V7_v64 W)

theorem V9_v64 (W : Valuation τ sig (Elt F)) :
    V9 W (Proc.devRef .tc main_v64) = val_main_v64 (F := F) (W (Proc.devRef .tc main_arg0)) :=
  (c9_keep (V8 W) main_v64 (by decide)).trans (V8_v64 W)

theorem V9_v98 (W : Valuation τ sig (Elt F)) :
    V9 W (Proc.devRef .tc main_v98) = val_main_v98 (F := F) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg9)) (W (Proc.devRef .tc main_arg10)) (W (Proc.devRef .tc main_arg11)) (W (Proc.devRef .tc main_arg12)) (W (Proc.devRef .tc main_arg13)) (W (Proc.devRef .tc main_arg14)) (W (Proc.devRef .tc main_arg15)) (W (Proc.devRef .tc main_arg18)) (W (Proc.devRef .tc main_arg19)) :=
  c9_v98 (V8 W) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg9)) (W (Proc.devRef .tc main_arg10)) (W (Proc.devRef .tc main_arg11)) (W (Proc.devRef .tc main_arg12)) (W (Proc.devRef .tc main_arg13)) (W (Proc.devRef .tc main_arg14)) (W (Proc.devRef .tc main_arg15)) (W (Proc.devRef .tc main_arg18)) (W (Proc.devRef .tc main_arg19))
    (V8_v58 W) (V8_v88 W) (V8_v56 W)

theorem V9_v88 (W : Valuation τ sig (Elt F)) :
    V9 W (Proc.devRef .tc main_v88) = val_main_v88 (F := F) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg9)) (W (Proc.devRef .tc main_arg10)) (W (Proc.devRef .tc main_arg11)) (W (Proc.devRef .tc main_arg12)) (W (Proc.devRef .tc main_arg13)) (W (Proc.devRef .tc main_arg14)) (W (Proc.devRef .tc main_arg15)) (W (Proc.devRef .tc main_arg18)) (W (Proc.devRef .tc main_arg19)) :=
  (c9_keep (V8 W) main_v88 (by decide)).trans (V8_v88 W)

theorem V10_v111 (W : Valuation τ sig (Elt F)) :
    V10 W (Proc.devRef .tc main_v111) = val_main_v111 (F := F) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg9)) (W (Proc.devRef .tc main_arg10)) (W (Proc.devRef .tc main_arg11)) (W (Proc.devRef .tc main_arg12)) (W (Proc.devRef .tc main_arg13)) (W (Proc.devRef .tc main_arg14)) (W (Proc.devRef .tc main_arg15)) (W (Proc.devRef .tc main_arg16)) (W (Proc.devRef .tc main_arg17)) (W (Proc.devRef .tc main_arg18)) (W (Proc.devRef .tc main_arg19)) (W (Proc.devRef .tc main_arg20)) (W (Proc.devRef .tc main_arg21)) :=
  c10_v111 (V9 W) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg9)) (W (Proc.devRef .tc main_arg10)) (W (Proc.devRef .tc main_arg11)) (W (Proc.devRef .tc main_arg12)) (W (Proc.devRef .tc main_arg13)) (W (Proc.devRef .tc main_arg14)) (W (Proc.devRef .tc main_arg15)) (W (Proc.devRef .tc main_arg16)) (W (Proc.devRef .tc main_arg17)) (W (Proc.devRef .tc main_arg18)) (W (Proc.devRef .tc main_arg19)) (W (Proc.devRef .tc main_arg20)) (W (Proc.devRef .tc main_arg21))
    (V9_v88 W) (V9_v98 W) (V9_v64 W) (V9_keep W main_arg20 (by decide) (by decide) (by decide) (by decide) (by decide) (by decide) (by decide) (by decide) (by decide)) (V9_keep W main_arg21 (by decide) (by decide) (by decide) (by decide) (by decide) (by decide) (by decide) (by decide) (by decide)) (V9_keep W main_arg16 (by decide) (by decide) (by decide) (by decide) (by decide) (by decide) (by decide) (by decide) (by decide)) (V9_keep W main_arg17 (by decide) (by decide) (by decide) (by decide) (by decide) (by decide) (by decide) (by decide) (by decide))

/-- After all 143 operations the result buffer holds the last stage of the arguments' contents. -/
theorem result_any (W : Valuation τ sig (Elt F)) :
    after (Cert.ReferenceIdeal.Ops.ops (F := F)) W (Proc.devRef .tc main_v111)
      = val_main_v111 (F := F) (W (Proc.devRef .tc main_arg0))
          (W (Proc.devRef .tc main_arg1))
          (W (Proc.devRef .tc main_arg2))
          (W (Proc.devRef .tc main_arg3))
          (W (Proc.devRef .tc main_arg4))
          (W (Proc.devRef .tc main_arg5))
          (W (Proc.devRef .tc main_arg6))
          (W (Proc.devRef .tc main_arg7))
          (W (Proc.devRef .tc main_arg8))
          (W (Proc.devRef .tc main_arg9))
          (W (Proc.devRef .tc main_arg10))
          (W (Proc.devRef .tc main_arg11))
          (W (Proc.devRef .tc main_arg12))
          (W (Proc.devRef .tc main_arg13))
          (W (Proc.devRef .tc main_arg14))
          (W (Proc.devRef .tc main_arg15))
          (W (Proc.devRef .tc main_arg16))
          (W (Proc.devRef .tc main_arg17))
          (W (Proc.devRef .tc main_arg18))
          (W (Proc.devRef .tc main_arg19))
          (W (Proc.devRef .tc main_arg20))
          (W (Proc.devRef .tc main_arg21)) := by
  rw [ops_eq]
  simp only [after_append]
  exact V10_v111 W

/-- The same on the extended reals. -/
theorem result_after (W : Valuation τ sig (Elt Ideal)) :
    after (Cert.ReferenceIdeal.Ops.ops (F := Ideal)) W (Proc.devRef .tc main_v111)
      = val_main_v111 (F := Ideal) (W (Proc.devRef .tc main_arg0))
          (W (Proc.devRef .tc main_arg1))
          (W (Proc.devRef .tc main_arg2))
          (W (Proc.devRef .tc main_arg3))
          (W (Proc.devRef .tc main_arg4))
          (W (Proc.devRef .tc main_arg5))
          (W (Proc.devRef .tc main_arg6))
          (W (Proc.devRef .tc main_arg7))
          (W (Proc.devRef .tc main_arg8))
          (W (Proc.devRef .tc main_arg9))
          (W (Proc.devRef .tc main_arg10))
          (W (Proc.devRef .tc main_arg11))
          (W (Proc.devRef .tc main_arg12))
          (W (Proc.devRef .tc main_arg13))
          (W (Proc.devRef .tc main_arg14))
          (W (Proc.devRef .tc main_arg15))
          (W (Proc.devRef .tc main_arg16))
          (W (Proc.devRef .tc main_arg17))
          (W (Proc.devRef .tc main_arg18))
          (W (Proc.devRef .tc main_arg19))
          (W (Proc.devRef .tc main_arg20))
          (W (Proc.devRef .tc main_arg21)) :=
  result_any W

end Cert.ReferenceIdeal.Result

end
-- ==== Proof.HostStretches.lean ====
/-
  The host code between the kernel program's four regions, one stretch at a time, read against the reference.

  Each stretch is a straight line of array operations. From ANY buffer contents W at its start, a buffer the
  stretch computes holds afterwards the stretch's own expression of W's values, and a buffer it does not write
  holds what W held. The expressions are the reference program's own stages (the val_ functions of its stages) of the same
  inputs: the kernel program spells the same gathers, means, joins, index wrap-arounds and neighbour sums, and differs
  only by changes of float format (to a 16-bit format before a table lookup, back to 32 bits before a sum), which are
  the identity on the extended reals. So every equation here closes by unfolding definitions; no arithmetic is used.

  Two small combinations of the reference's stages are named, because the kernel program applies them to arrays the
  reference reaches by another route: join (the users' and the items' rows, one under the other) and neighbourSum
  (for every node, the sum of the rows of x at the sources of the edges that end in it).
-/
import proofs.«128228_j51565377356535_2_alg».proof.Proof.Gen.KernelIdeal.Frame
import proofs.«128228_j51565377356535_2_alg».proof.Proof.RefStages
import Idealize.ShloMosaic.PureOps.Ideal
import Idealize.ShloMosaic.Lib.StableHlo.Run

noncomputable section

namespace Cert.Bridge

open Idealize.ShloMosaic Idealize.ShloMosaic.TcCoe Idealize.ShloMosaic.StableHlo Idealize.SL.Sem
open Cert.KernelIdeal Cert.KernelIdeal.Gen

/-- The users' rows above the items' rows. -/
def join (a : FVec Ideal Cert.ReferenceIdeal.S100000x128 .f32) (b : FVec Ideal Cert.ReferenceIdeal.S50000x128 .f32) :
    FVec Ideal Cert.ReferenceIdeal.S150000x128 .f32 :=
  concatenate Cert.ReferenceIdeal.S150000x128 0 [⟨Cert.ReferenceIdeal.S100000x128, a⟩, ⟨Cert.ReferenceIdeal.S50000x128, b⟩]
    Cert.ReferenceIdeal.Gen.concatenates_S100000x128_S50000x128_S150000x128_d0

/-- For every node, the sum of the rows of x at the sources of the edges e that end in the node. -/
def neighbourSum (x : FVec Ideal Cert.ReferenceIdeal.S150000x128 .f32)
    (e : (⟨Cert.ReferenceIdeal.S2x1500000, .i32⟩ : BufTy).Contents (Elt Ideal)) : FVec Ideal Cert.ReferenceIdeal.S150000x128 .f32 :=
  Host.scatterAdd Cert.ReferenceIdeal.scatter_S150000x128_S1500000x1_S1500000x128_1_0_0_1
    (Cert.ReferenceIdeal.Stages.val_main_v72 (F := Ideal)) (Cert.ReferenceIdeal.Stages.val_main_v73 (F := Ideal) e)
    (Host.gather Cert.ReferenceIdeal.gather_S150000x128_S1500000x1_S1500000x128_1_0_n_n_0_1_1128 x
      (Cert.ReferenceIdeal.Stages.val_main_v70 (F := Ideal) e))

/-- Two lines of operations run one after the other are their concatenation run as one. -/
theorem after_append {Val : EltTy → Type} (l₁ l₂ : List (HloOp τ sig Val)) (V : Valuation τ sig Val) :
    after (l₁ ++ l₂) V = after l₂ (after l₁ V) := by
  induction l₁ generalizing V with
  | nil => rfl
  | cons op l ih => exact ih _

/-- A line of operations cut after its first n. -/
theorem after_cut {Val : EltTy → Type} (n : Nat) (ops : List (HloOp τ sig Val)) (V : Valuation τ sig Val) :
    after ops V = after (ops.drop n) (after (ops.take n) V) := by
  rw [← after_append, List.take_append_drop]

/-- What is left of a buffer read after one pass over a stretch: an operation's result read at another buffer is what
    was there before the operation. -/
local macro "after_residue" : tactic =>
  `(tactic| repeat (first
      | rw [nullary_result] | rw [unary_result] | rw [binary_result] | rw [ternary_result] | rw [reshape_result]
      | (rw [nullary_result_ne]; rotate_left; decide)
      | (rw [unary_result_ne]; rotate_left; decide)
      | (rw [binary_result_ne]; rotate_left; decide)
      | (rw [ternary_result_ne]; rotate_left; decide)
      | (rw [reshape_result_ne]; rotate_left; decide)))

variable (W : Valuation τ sig (Elt Ideal))

/-! ## Before region 0: the two concatenated table means and the users' weight -/

/-- The users' table means, joined: the two means are read from the first 65 operations, which hold no join; the join
    and the change of format are the last five. -/
theorem s0_v50 : after (hostOps0 (F := Ideal)) W (Proc.devRef .tc main_v50)
    = Cert.ReferenceIdeal.Stages.val_main_v42 (F := Ideal) (W (Proc.devRef .tc main_arg1)) (W (Proc.devRef .tc main_arg3)) (W (Proc.devRef .tc main_arg7)) (W (Proc.devRef .tc main_arg9)) := by
  have h37 : after ((hostOps0 (F := Ideal)).take 65) W (Proc.devRef .tc main_v37)
      = Cert.ReferenceIdeal.Stages.val_main_v31 (F := Ideal) (W (Proc.devRef .tc main_arg1)) (W (Proc.devRef .tc main_arg7)) := by
    simp only [hostOps0, List.take]
    after_results_simp
    rfl
  have h14 : after ((hostOps0 (F := Ideal)).take 65) W (Proc.devRef .tc main_v14)
      = Cert.ReferenceIdeal.Stages.val_main_v10 (F := Ideal) (W (Proc.devRef .tc main_arg3)) (W (Proc.devRef .tc main_arg9)) := by
    simp only [hostOps0, List.take]
    after_results_simp
    rfl
  rw [after_cut 65]
  generalize after ((hostOps0 (F := Ideal)).take 65) W = W' at h37 h14 ⊢
  simp only [hostOps0, List.drop]
  after_results
  rw [h37, h14]
  rfl

/-- The items' table means, joined, the same way. -/
theorem s0_v52 : after (hostOps0 (F := Ideal)) W (Proc.devRef .tc main_v52)
    = Cert.ReferenceIdeal.Stages.val_main_v47 (F := Ideal) (W (Proc.devRef .tc main_arg2)) (W (Proc.devRef .tc main_arg4)) (W (Proc.devRef .tc main_arg8)) (W (Proc.devRef .tc main_arg9)) := by
  have h48 : after ((hostOps0 (F := Ideal)).take 65) W (Proc.devRef .tc main_v48)
      = Cert.ReferenceIdeal.Stages.val_main_v41 (F := Ideal) (W (Proc.devRef .tc main_arg2)) (W (Proc.devRef .tc main_arg8)) := by
    simp only [hostOps0, List.take]
    after_results_simp
    rfl
  have h26 : after ((hostOps0 (F := Ideal)).take 65) W (Proc.devRef .tc main_v26)
      = Cert.ReferenceIdeal.Stages.val_main_v21 (F := Ideal) (W (Proc.devRef .tc main_arg4)) (W (Proc.devRef .tc main_arg9)) := by
    simp only [hostOps0, List.take]
    after_results_simp
    rfl
  rw [after_cut 65]
  generalize after ((hostOps0 (F := Ideal)).take 65) W = W' at h48 h26 ⊢
  simp only [hostOps0, List.drop]
  after_results
  rw [h48, h26]
  rfl

theorem s0_v53 : after (hostOps0 (F := Ideal)) W (Proc.devRef .tc main_v53) = W (Proc.devRef .tc main_arg10) := by
  after_results
  rfl

theorem s0_arg0 : after (hostOps0 (F := Ideal)) W (Proc.devRef .tc main_arg0) = W (Proc.devRef .tc main_arg0) := by after_results
theorem s0_arg5 : after (hostOps0 (F := Ideal)) W (Proc.devRef .tc main_arg5) = W (Proc.devRef .tc main_arg5) := by after_results
theorem s0_arg6 : after (hostOps0 (F := Ideal)) W (Proc.devRef .tc main_arg6) = W (Proc.devRef .tc main_arg6) := by after_results
theorem s0_arg11 : after (hostOps0 (F := Ideal)) W (Proc.devRef .tc main_arg11) = W (Proc.devRef .tc main_arg11) := by after_results
theorem s0_arg12 : after (hostOps0 (F := Ideal)) W (Proc.devRef .tc main_arg12) = W (Proc.devRef .tc main_arg12) := by after_results
theorem s0_arg13 : after (hostOps0 (F := Ideal)) W (Proc.devRef .tc main_arg13) = W (Proc.devRef .tc main_arg13) := by after_results
theorem s0_arg14 : after (hostOps0 (F := Ideal)) W (Proc.devRef .tc main_arg14) = W (Proc.devRef .tc main_arg14) := by after_results
theorem s0_arg15 : after (hostOps0 (F := Ideal)) W (Proc.devRef .tc main_arg15) = W (Proc.devRef .tc main_arg15) := by after_results
theorem s0_arg16 : after (hostOps0 (F := Ideal)) W (Proc.devRef .tc main_arg16) = W (Proc.devRef .tc main_arg16) := by after_results
theorem s0_arg17 : after (hostOps0 (F := Ideal)) W (Proc.devRef .tc main_arg17) = W (Proc.devRef .tc main_arg17) := by after_results
theorem s0_arg18 : after (hostOps0 (F := Ideal)) W (Proc.devRef .tc main_arg18) = W (Proc.devRef .tc main_arg18) := by after_results
theorem s0_arg19 : after (hostOps0 (F := Ideal)) W (Proc.devRef .tc main_arg19) = W (Proc.devRef .tc main_arg19) := by after_results
theorem s0_arg20 : after (hostOps0 (F := Ideal)) W (Proc.devRef .tc main_arg20) = W (Proc.devRef .tc main_arg20) := by after_results
theorem s0_arg21 : after (hostOps0 (F := Ideal)) W (Proc.devRef .tc main_arg21) = W (Proc.devRef .tc main_arg21) := by after_results

/-! ## Between regions 0 and 1: the items' weight -/

theorem s1_v55 : after (hostOps1 (F := Ideal)) W (Proc.devRef .tc main_v55) = W (Proc.devRef .tc main_arg12) := by
  after_results
  rfl

theorem s1_v52 : after (hostOps1 (F := Ideal)) W (Proc.devRef .tc main_v52) = W (Proc.devRef .tc main_v52) := by after_results
theorem s1_v54_0 : after (hostOps1 (F := Ideal)) W (Proc.devRef .tc main_v54_0) = W (Proc.devRef .tc main_v54_0) := by after_results
theorem s1_v54_1 : after (hostOps1 (F := Ideal)) W (Proc.devRef .tc main_v54_1) = W (Proc.devRef .tc main_v54_1) := by after_results
theorem s1_arg0 : after (hostOps1 (F := Ideal)) W (Proc.devRef .tc main_arg0) = W (Proc.devRef .tc main_arg0) := by after_results
theorem s1_arg6 : after (hostOps1 (F := Ideal)) W (Proc.devRef .tc main_arg6) = W (Proc.devRef .tc main_arg6) := by after_results
theorem s1_arg13 : after (hostOps1 (F := Ideal)) W (Proc.devRef .tc main_arg13) = W (Proc.devRef .tc main_arg13) := by after_results
theorem s1_arg14 : after (hostOps1 (F := Ideal)) W (Proc.devRef .tc main_arg14) = W (Proc.devRef .tc main_arg14) := by after_results
theorem s1_arg15 : after (hostOps1 (F := Ideal)) W (Proc.devRef .tc main_arg15) = W (Proc.devRef .tc main_arg15) := by after_results
theorem s1_arg16 : after (hostOps1 (F := Ideal)) W (Proc.devRef .tc main_arg16) = W (Proc.devRef .tc main_arg16) := by after_results
theorem s1_arg17 : after (hostOps1 (F := Ideal)) W (Proc.devRef .tc main_arg17) = W (Proc.devRef .tc main_arg17) := by after_results
theorem s1_arg18 : after (hostOps1 (F := Ideal)) W (Proc.devRef .tc main_arg18) = W (Proc.devRef .tc main_arg18) := by after_results
theorem s1_arg19 : after (hostOps1 (F := Ideal)) W (Proc.devRef .tc main_arg19) = W (Proc.devRef .tc main_arg19) := by after_results
theorem s1_arg20 : after (hostOps1 (F := Ideal)) W (Proc.devRef .tc main_arg20) = W (Proc.devRef .tc main_arg20) := by after_results
theorem s1_arg21 : after (hostOps1 (F := Ideal)) W (Proc.devRef .tc main_arg21) = W (Proc.devRef .tc main_arg21) := by after_results

/-! ## Between regions 1 and 2: the joined embeddings, the edges, the degrees, the neighbour sums, the first layer's weights -/

theorem s2_v57 : after (hostOps2 (F := Ideal)) W (Proc.devRef .tc main_v57) = join (W (Proc.devRef .tc main_v54_0)) (W (Proc.devRef .tc main_v56_0)) := by
  after_results
  rfl

theorem s2_v58 : after (hostOps2 (F := Ideal)) W (Proc.devRef .tc main_v58) = join (W (Proc.devRef .tc main_v54_1)) (W (Proc.devRef .tc main_v56_1)) := by
  after_results
  rfl

theorem s2_v60 : after (hostOps2 (F := Ideal)) W (Proc.devRef .tc main_v60) = Cert.ReferenceIdeal.Stages.val_main_v56 (F := Ideal) (W (Proc.devRef .tc main_arg0)) := by
  after_results
  rfl

theorem s2_v62 : after (hostOps2 (F := Ideal)) W (Proc.devRef .tc main_v62) = Cert.ReferenceIdeal.Stages.val_main_v58 (F := Ideal) (W (Proc.devRef .tc main_arg0)) := by
  after_results
  rfl

/-- The column of reciprocal degrees. -/
theorem s2_v71 : after (hostOps2 (F := Ideal)) W (Proc.devRef .tc main_v71)
    = broadcastInDim Cert.ReferenceIdeal.S150000x1 ![0] Cert.ReferenceIdeal.Gen.bcast_S150000_S150000x1_0
        (Host.divf (broadcastInDim Cert.ReferenceIdeal.S150000 ![] Cert.ReferenceIdeal.Gen.bcast_S_S150000 (constant (F := Ideal) Cert.ReferenceIdeal.S_ .f32 0x3F800000#32))
          (Cert.ReferenceIdeal.Stages.val_main_v64 (F := Ideal) (W (Proc.devRef .tc main_arg0)))) := by
  after_results
  rfl

set_option maxHeartbeats 2000000 in
theorem s2_v82 : after (hostOps2 (F := Ideal)) W (Proc.devRef .tc main_v82)
    = neighbourSum (join (W (Proc.devRef .tc main_v54_1)) (W (Proc.devRef .tc main_v56_1))) (W (Proc.devRef .tc main_arg0)) := by
  after_results_simp
  after_residue
  rfl

theorem s2_v83 : after (hostOps2 (F := Ideal)) W (Proc.devRef .tc main_v83) = W (Proc.devRef .tc main_arg18) := by
  after_results
  rfl

theorem s2_v85 : after (hostOps2 (F := Ideal)) W (Proc.devRef .tc main_v85)
    = extractStridedSlice S128x128 ![0, 0] (W (Proc.devRef .tc main_arg14)) slices_S256x128_S128x128_0_0 := by
  after_results
  rfl

theorem s2_v87 : after (hostOps2 (F := Ideal)) W (Proc.devRef .tc main_v87)
    = extractStridedSlice S128x128 ![128, 0] (W (Proc.devRef .tc main_arg14)) slices_S256x128_S128x128_128_0 := by
  after_results
  rfl

theorem s2_arg15 : after (hostOps2 (F := Ideal)) W (Proc.devRef .tc main_arg15) = W (Proc.devRef .tc main_arg15) := by after_results
theorem s2_arg16 : after (hostOps2 (F := Ideal)) W (Proc.devRef .tc main_arg16) = W (Proc.devRef .tc main_arg16) := by after_results
theorem s2_arg17 : after (hostOps2 (F := Ideal)) W (Proc.devRef .tc main_arg17) = W (Proc.devRef .tc main_arg17) := by after_results
theorem s2_arg19 : after (hostOps2 (F := Ideal)) W (Proc.devRef .tc main_arg19) = W (Proc.devRef .tc main_arg19) := by after_results
theorem s2_arg20 : after (hostOps2 (F := Ideal)) W (Proc.devRef .tc main_arg20) = W (Proc.devRef .tc main_arg20) := by after_results
theorem s2_arg21 : after (hostOps2 (F := Ideal)) W (Proc.devRef .tc main_arg21) = W (Proc.devRef .tc main_arg21) := by after_results

/-! ## Between regions 2 and 3: the neighbour sums of the first layer's result, the second layer's weights -/

theorem s3_v99 (e : (⟨Cert.ReferenceIdeal.S2x1500000, .i32⟩ : BufTy).Contents (Elt Ideal))
    (h60 : W (Proc.devRef .tc main_v60) = Cert.ReferenceIdeal.Stages.val_main_v56 (F := Ideal) e)
    (h62 : W (Proc.devRef .tc main_v62) = Cert.ReferenceIdeal.Stages.val_main_v58 (F := Ideal) e) :
    after (hostOps3 (F := Ideal)) W (Proc.devRef .tc main_v99) = neighbourSum (W (Proc.devRef .tc main_v88_1)) e := by
  after_results
  rw [h60, h62]
  rfl

theorem s3_v100 : after (hostOps3 (F := Ideal)) W (Proc.devRef .tc main_v100) = W (Proc.devRef .tc main_arg20) := by
  after_results
  rfl

theorem s3_v102 : after (hostOps3 (F := Ideal)) W (Proc.devRef .tc main_v102)
    = extractStridedSlice S128x128 ![0, 0] (W (Proc.devRef .tc main_arg16)) slices_S256x128_S128x128_0_0 := by
  after_results
  rfl

theorem s3_v104 : after (hostOps3 (F := Ideal)) W (Proc.devRef .tc main_v104)
    = extractStridedSlice S128x128 ![128, 0] (W (Proc.devRef .tc main_arg16)) slices_S256x128_S128x128_128_0 := by
  after_results
  rfl

theorem s3_v88_0 : after (hostOps3 (F := Ideal)) W (Proc.devRef .tc main_v88_0) = W (Proc.devRef .tc main_v88_0) := by after_results
theorem s3_v71 : after (hostOps3 (F := Ideal)) W (Proc.devRef .tc main_v71) = W (Proc.devRef .tc main_v71) := by after_results
theorem s3_arg17 : after (hostOps3 (F := Ideal)) W (Proc.devRef .tc main_arg17) = W (Proc.devRef .tc main_arg17) := by after_results
theorem s3_arg21 : after (hostOps3 (F := Ideal)) W (Proc.devRef .tc main_arg21) = W (Proc.devRef .tc main_arg21) := by after_results

/-! ## The reference's own stages through the two named combinations -/

theorem ref_join (x1 x2 x3 x4 x5 x6 x7 x8 x9 x10 x11 x12 x13) :
    Cert.ReferenceIdeal.Stages.val_main_v54 (F := Ideal) x1 x2 x3 x4 x5 x6 x7 x8 x9 x10 x11 x12 x13
      = join (Cert.ReferenceIdeal.Stages.val_main_v52 (F := Ideal) x1 x3 x5 x7 x9 x10 x11) (Cert.ReferenceIdeal.Stages.val_main_v53 (F := Ideal) x2 x4 x6 x8 x9 x12 x13) := rfl

theorem ref_sum1 (x0 x1 x2 x3 x4 x5 x6 x7 x8 x9 x10 x11 x12 x13) :
    Cert.ReferenceIdeal.Stages.val_main_v74 (F := Ideal) x0 x1 x2 x3 x4 x5 x6 x7 x8 x9 x10 x11 x12 x13
      = neighbourSum (Cert.ReferenceIdeal.Stages.val_main_v54 (F := Ideal) x1 x2 x3 x4 x5 x6 x7 x8 x9 x10 x11 x12 x13) x0 := rfl

theorem ref_sum2 (x0 x1 x2 x3 x4 x5 x6 x7 x8 x9 x10 x11 x12 x13 x14 x15 x18 x19) :
    Cert.ReferenceIdeal.Stages.val_main_v98 (F := Ideal) x0 x1 x2 x3 x4 x5 x6 x7 x8 x9 x10 x11 x12 x13 x14 x15 x18 x19
      = neighbourSum (Cert.ReferenceIdeal.Stages.val_main_v88 (F := Ideal) x0 x1 x2 x3 x4 x5 x6 x7 x8 x9 x10 x11 x12 x13 x14 x15 x18 x19) x0 := rfl

end Cert.Bridge

end
-- ==== Proof.LibMatmulPlain.lean ====
/-
  The product of an [M, K] matrix by a [K, N] matrix, read at an entry, on the extended reals, for any extents and
  element formats: entry (p, n) of the product taken into a zero accumulator is the sum over k of the left matrix's
  (p, k) entry times the right matrix's (k, n) entry; taken into an accumulator acc it is acc's entry plus that sum.
-/
import Idealize.ShloMosaic.PureOps.Ideal.Laws
import Idealize.ShloMosaic.Lib.ValueIdx

noncomputable section

namespace Cert.LibMatmulPlain

open Idealize.ShloMosaic Idealize.ShloMosaic.ValueIdx

/-- The dimension numbers of a plain matrix product: contract the left matrix's columns with the right one's rows. -/
abbrev plainDims (M K N : Nat)
    (wf : DotDims.WF ⟨2, ![M, K]⟩ ⟨2, ![K, N]⟩ ⟨2, ![M, N]⟩ [1] [0] [0] [1] [] []) :
    DotDims ⟨2, ![M, K]⟩ ⟨2, ![K, N]⟩ ⟨2, ![M, N]⟩ where
  lhsContracting := [1]
  rhsContracting := [0]
  lhsNonContracting := [0]
  rhsNonContracting := [1]
  lhsBatch := []
  rhsBatch := []
  wf := wf

variable {M K N : Nat} (wf : DotDims.WF ⟨2, ![M, K]⟩ ⟨2, ![K, N]⟩ ⟨2, ![M, N]⟩ [1] [0] [0] [1] [] [])

/-- The left operand's row coordinate is the output entry's row. -/
theorem lhsIdx_row (j : (⟨2, ![M, N]⟩ : Shape).Idx) (q : (plainDims M K N wf).contr.Idx) :
    ((plainDims M K N wf).lhsIdx j q 0).val = (j 0).val := by
  unfold DotDims.lhsIdx
  rw [dif_neg (show ¬(0 : Fin 2) ∈ (plainDims M K N wf).lhsBatch from List.not_mem_nil),
    dif_pos (show (0 : Fin 2) ∈ (plainDims M K N wf).lhsNonContracting from List.mem_singleton.mpr rfl)]
  rfl

/-- The right operand's column coordinate is the output entry's column. -/
theorem rhsIdx_col (j : (⟨2, ![M, N]⟩ : Shape).Idx) (q : (plainDims M K N wf).contr.Idx) :
    ((plainDims M K N wf).rhsIdx j q 1).val = (j 1).val := by
  unfold DotDims.rhsIdx
  rw [dif_neg (show ¬(1 : Fin 2) ∈ (plainDims M K N wf).rhsBatch from List.not_mem_nil),
    dif_pos (show (1 : Fin 2) ∈ (plainDims M K N wf).rhsNonContracting from List.mem_singleton.mpr rfl)]
  rfl

/-- The left operand's index for output entry (p, n) and contraction index k is (p, k). -/
theorem lhsIdx_eq (p : Fin M) (n : Fin N) (k : Fin K) :
    (plainDims M K N wf).lhsIdx (ix2 p n) ((contrEquiv1 (plainDims M K N wf) K rfl rfl).symm k) = ix2 p k := by
  have hk := contrEquiv1_symm_val (plainDims M K N wf) K rfl rfl k
  funext a
  refine Fin.ext ?_
  match a with
  | ⟨0, _⟩ => exact lhsIdx_row wf _ _
  | ⟨1, _⟩ => exact ((plainDims M K N wf).lhsIdx_val_of_single rfl _ _).trans hk

/-- The right operand's index for output entry (p, n) and contraction index k is (k, n). -/
theorem rhsIdx_eq (p : Fin M) (n : Fin N) (k : Fin K) :
    (plainDims M K N wf).rhsIdx (ix2 p n) ((contrEquiv1 (plainDims M K N wf) K rfl rfl).symm k) = ix2 k n := by
  have hk := contrEquiv1_symm_val (plainDims M K N wf) K rfl rfl k
  funext a
  refine Fin.ext ?_
  match a with
  | ⟨0, _⟩ => exact ((plainDims M K N wf).rhsIdx_val_of_single rfl _ _).trans hk
  | ⟨1, _⟩ => exact rhsIdx_col wf _ _

/-- Entry (p, n) of the product taken into an accumulator: the accumulator's entry plus the K-term sum. -/
theorem matmul_apply {φ₁ φ₂ : FTy} (prec : Option ContractPrecision)
    (lhs : FVec Ideal ⟨2, ![M, K]⟩ φ₁) (rhs : FVec Ideal ⟨2, ![K, N]⟩ φ₂) (acc : FVec Ideal ⟨2, ![M, N]⟩ .f32)
    (p : Fin M) (n : Fin N) :
    FloatOps.matmul (plainDims M K N wf) prec lhs rhs acc (ix2 p n)
      = acc (ix2 p n) + ∑ k : Fin K, lhs (ix2 p k) * rhs (ix2 k n) := by
  rw [Ideal.matmul_apply, ← Equiv.sum_comp (contrEquiv1 (plainDims M K N wf) K rfl rfl).symm]
  refine congrArg (acc (ix2 p n) + ·) (Finset.sum_congr rfl fun k _ => ?_)
  rw [lhsIdx_eq wf p n k, rhsIdx_eq wf p n k]

/-- Entry (p, n) of the product taken into the zero accumulator: the K-term sum alone. -/
theorem matmul_zero_apply {φ₁ φ₂ : FTy} (prec : Option ContractPrecision)
    (lhs : FVec Ideal ⟨2, ![M, K]⟩ φ₁) (rhs : FVec Ideal ⟨2, ![K, N]⟩ φ₂) (p : Fin M) (n : Fin N) :
    FloatOps.matmul (plainDims M K N wf) prec lhs rhs (constant ⟨2, ![M, N]⟩ .f32 0x00000000#32) (ix2 p n)
      = ∑ k : Fin K, lhs (ix2 p k) * rhs (ix2 k n) := by
  rw [matmul_apply wf prec lhs rhs _ p n]
  show Ideal.ofBits .f32 0x00000000#32 + _ = _
  rw [Ideal.ofBits_zero_f32, zero_add]

end Cert.LibMatmulPlain

end
-- ==== Proof.LibAffineRows.lean ====
/-
  An affine map of the rows of a matrix, as a vector program spells it, read at an entry on the extended reals,
  for any extents: the operands cast to a narrower float format (the identity on the extended reals), their
  product taken into a zero accumulator, and a bias vector [n] laid out as one row [1, n] and repeated down the
  [m, n] result. Entry (p, q) is the k-term sum of products plus the bias's entry q.
-/
import Idealize.ShloMosaic.Lib.ValueLayout
import Idealize.ShloMosaic.Lib.Pipeline.Value
import proofs.«128228_j51565377356535_2_alg».proof.Proof.LibMatmulPlain

noncomputable section

namespace Cert.LibAffineRows

open Idealize.ShloMosaic Idealize.ShloMosaic.ValueIdx Cert.LibMatmulPlain

variable {m k n : Nat}

/-- A bias vector laid out as a row and repeated down `m` rows reads, at (p, q), its entry q. -/
theorem biasRows_apply (b : FVec Ideal ⟨1, ![n]⟩ .f32) (hc : (⟨1, ![n]⟩ : Shape).ShapeCasts ⟨2, ![1, n]⟩)
    (hb : (⟨2, ![1, n]⟩ : Shape).Broadcasts ⟨2, ![m, n]⟩) (p : Fin m) (q : Fin n) :
    broadcastTo ⟨2, ![m, n]⟩ (shapeCast ⟨2, ![1, n]⟩ b hc) hb (ix2 p q) = b (ix1 q) :=
  (broadcastTo_1b_ab_apply (shapeCast ⟨2, ![1, n]⟩ b hc) hb p q).trans (shapeCast_a_1a_apply b hc 0 q)

/-- Entry (p, q) of `u · w + bias`, the operands cast to a narrower format first: the k-term sum of products plus
    the bias's entry q. -/
theorem affine_apply {ψ : FTy} (wf : DotDims.WF ⟨2, ![m, k]⟩ ⟨2, ![k, n]⟩ ⟨2, ![m, n]⟩ [1] [0] [0] [1] [] [])
    (u : FVec Ideal ⟨2, ![m, k]⟩ .f32) (w : FVec Ideal ⟨2, ![k, n]⟩ .f32) (b : FVec Ideal ⟨1, ![n]⟩ .f32)
    (hψ : ψ.bits < FTy.f32.bits) (hc : (⟨1, ![n]⟩ : Shape).ShapeCasts ⟨2, ![1, n]⟩)
    (hb : (⟨2, ![1, n]⟩ : Shape).Broadcasts ⟨2, ![m, n]⟩) (p : Fin m) (q : Fin n) :
    addf (matmul (plainDims m k n wf) none (truncf ψ u hψ) (truncf ψ w hψ) (constant ⟨2, ![m, n]⟩ .f32 0x00000000#32))
        (broadcastTo ⟨2, ![m, n]⟩ (shapeCast ⟨2, ![1, n]⟩ b hc) hb) (ix2 p q)
      = (∑ j : Fin k, u (ix2 p j) * w (ix2 j q)) + b (ix1 q) := by
  show FloatOps.matmul (plainDims m k n wf) none (truncf ψ u hψ) (truncf ψ w hψ) (constant ⟨2, ![m, n]⟩ .f32 0x00000000#32) (ix2 p q)
      + broadcastTo ⟨2, ![m, n]⟩ (shapeCast ⟨2, ![1, n]⟩ b hc) hb (ix2 p q) = _
  rw [matmul_zero_apply wf none (truncf ψ u hψ) (truncf ψ w hψ) p q, biasRows_apply b hc hb p q]
  rfl

/-- The same followed by a rectifier — the maximum with the all-zero f32 word repeated over the result: entry (p, q) is
    the maximum of the affine entry and that word's value. -/
theorem rectAffine_apply {ψ : FTy} (wf : DotDims.WF ⟨2, ![m, k]⟩ ⟨2, ![k, n]⟩ ⟨2, ![m, n]⟩ [1] [0] [0] [1] [] [])
    (u : FVec Ideal ⟨2, ![m, k]⟩ .f32) (w : FVec Ideal ⟨2, ![k, n]⟩ .f32) (b : FVec Ideal ⟨1, ![n]⟩ .f32)
    (hψ : ψ.bits < FTy.f32.bits) (hc : (⟨1, ![n]⟩ : Shape).ShapeCasts ⟨2, ![1, n]⟩)
    (hb : (⟨2, ![1, n]⟩ : Shape).Broadcasts ⟨2, ![m, n]⟩) (p : Fin m) (q : Fin n) :
    maximumf (addf (matmul (plainDims m k n wf) none (truncf ψ u hψ) (truncf ψ w hψ) (constant ⟨2, ![m, n]⟩ .f32 0x00000000#32))
          (broadcastTo ⟨2, ![m, n]⟩ (shapeCast ⟨2, ![1, n]⟩ b hc) hb))
        (broadcast ⟨2, ![m, n]⟩ (Scalar.ofBits (F := Ideal) .f32 0x00000000#32)) (ix2 p q)
      = max ((∑ j : Fin k, u (ix2 p j) * w (ix2 j q)) + b (ix1 q)) (Ideal.ofBits .f32 0x00000000#32) :=
  congrArg (max · (Ideal.ofBits .f32 0x00000000#32)) (affine_apply wf u w b hψ hc hb p q)

end Cert.LibAffineRows

end
-- ==== Proof.LibDenseLayers.lean ====
/-
  The vocabulary of a stack of dense layers on the extended reals, for any extents, and the spellings that denote it.

  For a matrix a [m, k], a weight w [k, n] and a bias b [n]:  mm a w  has entry (p, q) the k-term sum of a(p, j) * w(j, q);
  bias m b  repeats b down m rows;  rect a  is, entry by entry, the maximum with the value of the all-zero f32 word.
  A product taken on the matrix unit into a zero accumulator (its weight first cast to a narrower float format, the
  identity on the extended reals) and a general product on the host are both mm; a bias vector laid out as one row and
  repeated down the rows, either way it is spelt, is bias; the maximum with a zero repeated over the shape is rect.

  The one law of arithmetic used: a sum over k1 + k2 + k3 terms is the sum of its first k1, next k2 and last k3 terms
  (addition on the extended reals is commutative and associative; nothing here needs a finite entry). So the product of
  three matrices joined side by side with a weight is the sum of the three products with the weight's matching row slabs.
-/
import Idealize.ShloMosaic.Lib.ValueLayout
import Idealize.ShloMosaic.Lib.Pipeline.Value
import Idealize.ShloMosaic.PureOps.Ideal.Laws
import proofs.«128228_j51565377356535_2_alg».proof.Proof.LibMatmulPlain
import proofs.«128228_j51565377356535_2_alg».proof.Proof.LibAffineRows

noncomputable section

namespace Cert.Layers

open Idealize.ShloMosaic Idealize.ShloMosaic.ValueIdx Cert.LibMatmulPlain Cert.LibAffineRows

variable {m k n : Nat}

/-- An [m, n] matrix of extended reals. -/
abbrev Mat (m n : Nat) : Type := (⟨2, ![m, n]⟩ : Shape).Idx → EReal
/-- An [n] vector of extended reals. -/
abbrev Row (n : Nat) : Type := (⟨1, ![n]⟩ : Shape).Idx → EReal

/-- Rows of a against columns of w. -/
def mm (a : Mat m k) (w : Mat k n) : Mat m n := fun i => ∑ j : Fin k, a (ix2 (i 0) j) * w (ix2 j (i 1))

/-- The vector b repeated down m rows. -/
def bias (m : Nat) (b : Row n) : Mat m n := fun i => b (ix1 (i 1))

/-- Entry by entry the maximum with the value of the all-zero f32 word. -/
def rect {s : Shape} (a : s.Idx → EReal) : s.Idx → EReal := fun i => max (a i) (Ideal.ofBits .f32 0x00000000#32)

/-- One dense layer: a · w + b. -/
def dense (a : Mat m k) (w : Mat k n) (b : Row n) : Mat m n := fun i => mm a w i + bias m b i

theorem mm_apply (a : Mat m k) (w : Mat k n) (p : Fin m) (q : Fin n) :
    mm a w (ix2 p q) = ∑ j : Fin k, a (ix2 p j) * w (ix2 j q) := rfl

/-! ## The matrix unit's spellings -/

/-- A product on the matrix unit into a zero accumulator, the weight cast to a narrower format first. -/
theorem tileMm_eq {φ₁ ψ : FTy} (d : DotDims ⟨2, ![m, k]⟩ ⟨2, ![k, n]⟩ ⟨2, ![m, n]⟩)
    (wf : DotDims.WF ⟨2, ![m, k]⟩ ⟨2, ![k, n]⟩ ⟨2, ![m, n]⟩ [1] [0] [0] [1] [] []) (hd : d = plainDims m k n wf)
    (a : FVec Ideal ⟨2, ![m, k]⟩ φ₁) (w : FVec Ideal ⟨2, ![k, n]⟩ .f32) (hψ : ψ.bits < FTy.f32.bits) :
    matmul d none a (truncf ψ w hψ) (constant ⟨2, ![m, n]⟩ .f32 0x00000000#32) = mm a w := by
  subst hd
  funext i
  obtain ⟨p, q, rfl⟩ : ∃ (p : Fin m) (q : Fin n), i = ix2 p q := ⟨i 0, i 1, eq_ix2 i⟩
  exact matmul_zero_apply wf none a (truncf ψ w hψ) p q

/-- A bias vector laid out as one row and repeated down the rows. -/
theorem tileBias_eq (b : FVec Ideal ⟨1, ![n]⟩ .f32) (hc : (⟨1, ![n]⟩ : Shape).ShapeCasts ⟨2, ![1, n]⟩)
    (hb : (⟨2, ![1, n]⟩ : Shape).Broadcasts ⟨2, ![m, n]⟩) :
    broadcastTo ⟨2, ![m, n]⟩ (shapeCast ⟨2, ![1, n]⟩ b hc) hb = bias m b := by
  funext i
  obtain ⟨p, q, rfl⟩ : ∃ (p : Fin m) (q : Fin n), i = ix2 p q := ⟨i 0, i 1, eq_ix2 i⟩
  exact biasRows_apply b hc hb p q

/-- The maximum with the zero word repeated over the shape. -/
theorem tileRect_eq {s : Shape} (a : FVec Ideal s .f32) :
    maximumf a (broadcast s (Scalar.ofBits (F := Ideal) .f32 0x00000000#32)) = rect a := rfl

/-! ## The host's spellings -/

/-- A general product contracting the left matrix's columns with the right one's rows. -/
theorem hostMm_eq (d : DotDims ⟨2, ![m, k]⟩ ⟨2, ![k, n]⟩ ⟨2, ![m, n]⟩)
    (wf : DotDims.WF ⟨2, ![m, k]⟩ ⟨2, ![k, n]⟩ ⟨2, ![m, n]⟩ [1] [0] [0] [1] [] []) (hd : d = plainDims m k n wf)
    (a : FVec Ideal ⟨2, ![m, k]⟩ .f32) (w : FVec Ideal ⟨2, ![k, n]⟩ .f32) :
    Host.dotGeneral d none a w = mm a w := by
  subst hd
  funext i
  obtain ⟨p, q, rfl⟩ : ∃ (p : Fin m) (q : Fin n), i = ix2 p q := ⟨i 0, i 1, eq_ix2 i⟩
  rw [mm_apply]
  simp only [Host.dotGeneral]
  rw [Ideal.dotGeneral_apply, ← Equiv.sum_comp (contrEquiv1 (plainDims m k n wf) k rfl rfl).symm]
  refine Finset.sum_congr rfl fun j _ => ?_
  rw [lhsIdx_eq wf p q j, rhsIdx_eq wf p q j]

/-- A bias vector broadcast first to one row and then down the rows. -/
theorem hostBias_eq (b : FVec Ideal ⟨1, ![n]⟩ .f32)
    (h1 : (⟨1, ![n]⟩ : Shape).BroadcastsInDim ⟨2, ![1, n]⟩ ![1])
    (h2 : (⟨2, ![1, n]⟩ : Shape).BroadcastsInDim ⟨2, ![m, n]⟩ ![0, 1]) :
    broadcastInDim ⟨2, ![m, n]⟩ ![0, 1] h2 (broadcastInDim ⟨2, ![1, n]⟩ ![1] h1 b) = bias m b := by
  funext i
  obtain ⟨p, q, rfl⟩ : ∃ (p : Fin m) (q : Fin n), i = ix2 p q := ⟨i 0, i 1, eq_ix2 i⟩
  refine (broadcastInDim_apply _ h2 _ (ix2 p q) (ix2 (0 : Fin 1) q) fun ax => ?_).trans
    (broadcastInDim_apply _ h1 b (ix2 (0 : Fin 1) q) (ix1 q) fun ax => ?_)
  · match ax with
    | ⟨0, _⟩ => show (0 : Nat) = if (1 : Nat) = 1 then 0 else p.val; rw [if_pos rfl]
    | ⟨1, _⟩ => show q.val = if n = 1 then 0 else q.val; split_ifs with h <;> omega
  · match ax with
    | ⟨0, _⟩ => show q.val = if n = 1 then 0 else q.val; split_ifs with h <;> omega

/-- The maximum with the zero word as a scalar constant broadcast over the shape. -/
theorem hostRect_eq {s : Shape} (a : FVec Ideal s .f32) (h : (⟨0, ![]⟩ : Shape).BroadcastsInDim s ![]) :
    maximumf a (broadcastInDim s ![] h (constant (F := Ideal) ⟨0, ![]⟩ .f32 0x00000000#32)) = rect a := by
  funext i
  show max (a i) (broadcastInDim s ![] h (constant (F := Ideal) ⟨0, ![]⟩ .f32 0x00000000#32) i) = _
  rw [broadcastInDim_apply _ h _ i ix0 fun ax => ax.elim0]
  rfl

/-! ## Splitting a sum -/

/-- A sum over k1 + k2 + k3 terms is the sum of its first k1, next k2 and last k3 terms. -/
theorem sum_three {M : Type} [AddCommMonoid M] (k1 k2 k3 : Nat) (f : Fin (k1 + k2 + k3) → M) :
    ∑ j, f j = (∑ j : Fin k1, f ⟨j.val, by omega⟩ + ∑ j : Fin k2, f ⟨k1 + j.val, by omega⟩)
      + ∑ j : Fin k3, f ⟨k1 + k2 + j.val, by omega⟩ := by
  rw [Fin.sum_univ_add, Fin.sum_univ_add]
  rfl

/-- A sum over k1 + k2 terms is the sum of its first k1 and last k2 terms. -/
theorem sum_two {M : Type} [AddCommMonoid M] (k1 k2 : Nat) (f : Fin (k1 + k2) → M) :
    ∑ j, f j = ∑ j : Fin k1, f ⟨j.val, by omega⟩ + ∑ j : Fin k2, f ⟨k1 + j.val, by omega⟩ := by
  rw [Fin.sum_univ_add]
  rfl

end Cert.Layers

end
-- ==== Proof.LibMeanConv.lean ====
/-
  The layers of the network as index formulas on the extended reals, for any extents.

  For a node-feature matrix x [n, a]:
    enc      two dense layers, each followed by the rectifier:        max (max (x·w1 + b1, 0)·w2 + b2, 0);
    conv     one graph convolution on an already averaged neighbourhood mean [n, a]:
                                                                     max ((mean·wl + bl) + x·wr, 0);
    readout  a rectified dense layer followed by a plain one:         max (h·w1 + b1, 0)·w2 + b2.
  The neighbourhood mean is the summed neighbour features s [n, a] divided row by row by a divisor d [n]
  (divRow), or multiplied row by row by a column inv [n, 1] of reciprocals (scaleCol). Row p of each result
  depends on row p of the row-indexed operands only, so a block of consecutive rows of the result is the same
  formula of the same rows of the operands (the _rows lemmas).

  The one law of arithmetic: on the extended reals a quotient s / d by a divisor d ≠ 0 is s · d⁻¹, with the
  inverse of either infinity being 0; so s · (1 / d) = s · (1 · d⁻¹) = s / d for EVERY extended real s — no
  entry need be finite. The divisor here is max (count, 1) ≥ 1, never 0.
-/
import proofs.«128228_j51565377356535_2_alg».proof.Proof.LibDenseLayers

noncomputable section

namespace Cert.Net

open Idealize.ShloMosaic Idealize.ShloMosaic.ValueIdx Cert.LibMatmulPlain Cert.Layers

variable {n n' a b c : Nat}

/-- The one row of a [1, b] matrix, as a vector. -/
def rowOf (r : Mat 1 b) : Row b := fun i => r (ix2 (0 : Fin 1) (i 0))

/-- Two dense layers, each rectified. -/
def enc (x : Mat n a) (w1 : Mat a b) (b1 : Row b) (w2 : Mat b c) (b2 : Row c) : Mat n c :=
  rect (dense (rect (dense x w1 b1)) w2 b2)

/-- Every row of s multiplied by that row's entry of the column inv. -/
def scaleCol (s : Mat n a) (inv : Mat n 1) : Mat n a := fun i => s i * inv (ix2 (i 0) (0 : Fin 1))

/-- Every row of s divided by that row's entry of the vector d. -/
def divRow (s : Mat n a) (d : Row n) : Mat n a := fun i => Ideal.div (s i) (d (ix1 (i 0)))

/-- One graph convolution on the neighbourhood mean: (mean · wl + bl) + x · wr, rectified. -/
def conv (mean x : Mat n a) (wl : Mat a b) (bl : Row b) (wr : Mat a b) : Mat n b :=
  rect fun i => dense mean wl bl i + mm x wr i

/-- A rectified dense layer followed by a plain dense layer. -/
def readout (h : Mat n a) (w1 : Mat a b) (b1 : Row b) (w2 : Mat b c) (b2 : Row c) : Mat n c :=
  dense (rect (dense h w1 b1)) w2 b2

/-! ## Each row of a result depends on that row of the operands -/

theorem rect_congr {s s' : Shape} (f : s.Idx → EReal) (g : s'.Idx → EReal) (i : s.Idx) (j : s'.Idx)
    (h : f i = g j) : rect f i = rect g j :=
  congrArg (max · (Ideal.ofBits .f32 0x00000000#32)) h

theorem mm_rows (x : Mat n a) (x' : Mat n' a) (w : Mat a b) (p' : Fin n') (p : Fin n)
    (hx : ∀ j, x' (ix2 p' j) = x (ix2 p j)) (q : Fin b) : mm x' w (ix2 p' q) = mm x w (ix2 p q) := by
  rw [mm_apply, mm_apply]
  simp only [hx]

theorem dense_rows (x : Mat n a) (x' : Mat n' a) (w : Mat a b) (bb : Row b) (p' : Fin n') (p : Fin n)
    (hx : ∀ j, x' (ix2 p' j) = x (ix2 p j)) (q : Fin b) :
    dense x' w bb (ix2 p' q) = dense x w bb (ix2 p q) := by
  show mm x' w (ix2 p' q) + bias n' bb (ix2 p' q) = mm x w (ix2 p q) + bias n bb (ix2 p q)
  rw [mm_rows x x' w p' p hx q]
  rfl

theorem enc_rows (x : Mat n a) (x' : Mat n' a) (w1 : Mat a b) (b1 : Row b) (w2 : Mat b c) (b2 : Row c)
    (p' : Fin n') (p : Fin n) (hx : ∀ j, x' (ix2 p' j) = x (ix2 p j)) (q : Fin c) :
    enc x' w1 b1 w2 b2 (ix2 p' q) = enc x w1 b1 w2 b2 (ix2 p q) := by
  unfold enc
  exact rect_congr _ _ _ _
    (dense_rows _ _ w2 b2 p' p (fun k => rect_congr _ _ _ _ (dense_rows x x' w1 b1 p' p hx k)) q)

theorem scaleCol_rows (s : Mat n a) (s' : Mat n' a) (inv : Mat n 1) (inv' : Mat n' 1) (p' : Fin n') (p : Fin n)
    (hs : ∀ j, s' (ix2 p' j) = s (ix2 p j)) (hi : inv' (ix2 p' (0 : Fin 1)) = inv (ix2 p (0 : Fin 1)))
    (j : Fin a) : scaleCol s' inv' (ix2 p' j) = scaleCol s inv (ix2 p j) := by
  show s' (ix2 p' j) * inv' (ix2 p' (0 : Fin 1)) = s (ix2 p j) * inv (ix2 p (0 : Fin 1))
  rw [hs, hi]

theorem conv_rows (mean x : Mat n a) (mean' x' : Mat n' a) (wl : Mat a b) (bl : Row b) (wr : Mat a b)
    (p' : Fin n') (p : Fin n) (hm : ∀ j, mean' (ix2 p' j) = mean (ix2 p j))
    (hx : ∀ j, x' (ix2 p' j) = x (ix2 p j)) (q : Fin b) :
    conv mean' x' wl bl wr (ix2 p' q) = conv mean x wl bl wr (ix2 p q) := by
  unfold conv
  refine rect_congr _ _ _ _ ?_
  show dense mean' wl bl (ix2 p' q) + mm x' wr (ix2 p' q) = dense mean wl bl (ix2 p q) + mm x wr (ix2 p q)
  rw [dense_rows mean mean' wl bl p' p hm q, mm_rows x x' wr p' p hx q]

theorem readout_rows (h : Mat n a) (h' : Mat n' a) (w1 : Mat a b) (b1 : Row b) (w2 : Mat b c) (b2 : Row c)
    (p' : Fin n') (p : Fin n) (hh : ∀ j, h' (ix2 p' j) = h (ix2 p j)) (q : Fin c) :
    readout h' w1 b1 w2 b2 (ix2 p' q) = readout h w1 b1 w2 b2 (ix2 p q) := by
  unfold readout
  exact dense_rows _ _ w2 b2 p' p (fun k => rect_congr _ _ _ _ (dense_rows h h' w1 b1 p' p hh k)) q

/-! ## The product with a reciprocal is the quotient -/

/-- The pattern of 1.0 denotes 1. -/
theorem ofBits_one : Ideal.ofBits .f32 0x3F800000#32 = 1 := by
  simp [Ideal.ofBits, Ideal.ieee, -EReal.coe_mul]; norm_num

/-- s · (1 / d) = s / d for a divisor d ≠ 0, at every extended real s. -/
theorem mul_recip (s u d : EReal) (hu : u = 1) (hd : d ≠ 0) : s * Ideal.div u d = Ideal.div s d := by
  subst hu
  unfold Ideal.div
  rw [if_neg hd, if_neg hd, one_mul]

/-- The larger of anything and 1 is not 0. -/
theorem max_one_ne_zero (x u : EReal) (hu : u = 1) : max x u ≠ 0 := by
  subst hu
  exact ne_of_gt (lt_of_lt_of_le zero_lt_one (le_max_right x 1))

/-- Scaling the rows by the reciprocals of nonzero divisors is dividing the rows by the divisors. -/
theorem scaleCol_eq_divRow (s : Mat n a) (inv : Mat n 1) (d : Row n) (u : EReal) (hu : u = 1)
    (hd : ∀ p, d (ix1 p) ≠ 0) (hinv : ∀ p, inv (ix2 p (0 : Fin 1)) = Ideal.div u (d (ix1 p))) :
    scaleCol s inv = divRow s d := by
  funext i
  obtain ⟨p, q, rfl⟩ : ∃ (p : Fin n) (q : Fin a), i = ix2 p q := ⟨i 0, i 1, eq_ix2 i⟩
  show s (ix2 p q) * inv (ix2 p (0 : Fin 1)) = Ideal.div (s (ix2 p q)) (d (ix1 p))
  rw [hinv p, mul_recip _ _ _ hu (hd p)]

end Cert.Net

end
-- ==== Proof.GraphLayers.lean ====
/-
  The two kinds of layer of the network, as index formulas on the extended reals, for any extents.

  For n nodes with feature width d:
    embed  the initial embedding: the concatenated table means cat [n, k] through one dense layer, plus the
           node's own identity embedding e [n, d]:                       (cat · w + b) + e;
    layer  one message-passing layer on the summed neighbour features s [n, d] and a column inv [n, 1] of per-node
           factors (the reciprocal of the node's in-degree, at least one): the neighbourhood mean  s · inv  goes
           through a rectified dense layer, and the node's own features x and that result are multiplied by the
           upper and the lower half (wt, wb) of one weight and added, with a bias:
                                   (x · wt + max ((s · inv) · vw + vb, 0) · wb) + b.
           The first layer of the network is followed by a rectifier, the last one is not.
  Row p of each result depends on row p of the node-indexed operands only, so a block of consecutive rows of
  the result is the same formula of the same rows of the operands (embed_rows, layer_rows).
-/
import proofs.«128228_j51565377356535_2_alg».proof.Proof.LibMeanConv

noncomputable section

namespace Cert.Graph

open Idealize.ShloMosaic Idealize.ShloMosaic.ValueIdx Cert.Layers Cert.Net

variable {n n' k d : Nat}

/-- The initial embedding: one dense layer of the concatenated table means, plus the identity embedding. -/
def embed (cat : Mat n k) (w : Mat k d) (b : Row d) (e : Mat n d) : Mat n d := fun i => dense cat w b i + e i

/-- One message-passing layer, before its optional rectifier. -/
def layer (x s : Mat n d) (inv : Mat n 1) (vw : Mat d d) (vb : Row d) (wt wb : Mat d d) (b : Row d) : Mat n d :=
  fun i => (mm x wt i + mm (rect (dense (scaleCol s inv) vw vb)) wb i) + bias n b i

theorem embed_apply (cat : Mat n k) (w : Mat k d) (b : Row d) (e : Mat n d) (i) :
    embed cat w b e i = dense cat w b i + e i := rfl

theorem layer_apply (x s : Mat n d) (inv : Mat n 1) (vw : Mat d d) (vb : Row d) (wt wb : Mat d d) (b : Row d) (i) :
    layer x s inv vw vb wt wb b i = (mm x wt i + mm (rect (dense (scaleCol s inv) vw vb)) wb i) + bias n b i := rfl

/-- Row p' of the embedding of one set of nodes is row p of another's when the rows of the operands agree. -/
theorem embed_rows (cat : Mat n k) (cat' : Mat n' k) (w : Mat k d) (b : Row d) (e : Mat n d) (e' : Mat n' d)
    (p' : Fin n') (p : Fin n) (hc : ∀ j, cat' (ix2 p' j) = cat (ix2 p j)) (he : ∀ q, e' (ix2 p' q) = e (ix2 p q))
    (q : Fin d) : embed cat' w b e' (ix2 p' q) = embed cat w b e (ix2 p q) := by
  show dense cat' w b (ix2 p' q) + e' (ix2 p' q) = dense cat w b (ix2 p q) + e (ix2 p q)
  rw [dense_rows cat cat' w b p' p hc q, he q]

/-- Row p' of a layer on one set of nodes is row p of the layer on another when the rows of x, s and inv agree. -/
theorem layer_rows (x s : Mat n d) (x' s' : Mat n' d) (inv : Mat n 1) (inv' : Mat n' 1) (vw : Mat d d) (vb : Row d)
    (wt wb : Mat d d) (b : Row d) (p' : Fin n') (p : Fin n) (hx : ∀ j, x' (ix2 p' j) = x (ix2 p j))
    (hs : ∀ j, s' (ix2 p' j) = s (ix2 p j)) (hi : inv' (ix2 p' (0 : Fin 1)) = inv (ix2 p (0 : Fin 1))) (q : Fin d) :
    layer x' s' inv' vw vb wt wb b (ix2 p' q) = layer x s inv vw vb wt wb b (ix2 p q) := by
  show (mm x' wt (ix2 p' q) + mm (rect (dense (scaleCol s' inv') vw vb)) wb (ix2 p' q)) + bias n' b (ix2 p' q)
     = (mm x wt (ix2 p q) + mm (rect (dense (scaleCol s inv) vw vb)) wb (ix2 p q)) + bias n b (ix2 p q)
  rw [mm_rows x x' wt p' p hx q,
    mm_rows (rect (dense (scaleCol s inv) vw vb)) (rect (dense (scaleCol s' inv') vw vb)) wb p' p
      (fun j => rect_congr _ _ _ _ (dense_rows _ _ vw vb p' p (fun j' => scaleCol_rows s s' inv inv' p' p hs hi j') j)) q]
  rfl

end Cert.Graph

end
-- ==== Proof.EmbedWindows0.lean ====
/-
  The first embedding region (100000 rows, 20 points), on the program's side: what one grid point of each region writes back, and where the
  blocks it reads sit in their arrays.

  Each region runs its body over consecutive blocks of 5000 rows. At point t the body reads rows 5000·t … 5000·t + 4999
  of the table means [rows, 320] and of the identity embedding [rows, 128], the whole weight [320, 128] and the whole
  bias [128], and stores one [5000, 128] value, which is written back as rows 5000·t … 5000·t + 4999 of each result.
  Here: the stored value is the body's arithmetic of the blocks read (one whole store of it over loads of the whole
  staging buffers); entry (r, j) of a row block at point t is entry (5000·t + r, j) of its array; the weight's and the
  bias's blocks are the arrays themselves; and row p of a result lies in the block of point p / 5000.
-/
import proofs.«128228_j51565377356535_2_alg».proof.Proof.Gen.KernelIdeal.Frame
import Idealize.ShloMosaic.Lib.Pipeline.Value
import Idealize.ShloMosaic.Lib.ValueIdx

noncomputable section

namespace Cert.KernelIdeal.EmbedBlocks

open Cert.KernelIdeal Cert.KernelIdeal.Gen Idealize.ShloMosaic Idealize.ShloMosaic.TcCoe Idealize.SL.Sem
open Idealize.ShloMosaic.ValueIdx
open Idealize.ShloMosaic.Pipeline (Dat)

variable {F : FTy → Type} [FloatOps F]
variable (V : (c : Dev nD) → (b : Ref sig .tc) → Buf (Elt F) ((c : Thread nD τ).loc b))

/-- The zero offsets of a rank-2 and of a rank-1 buffer. -/
theorem zero2 : (![0, 0] : Fin 2 → Nat) = fun _ => 0 := funext fun a => by fin_cases a <;> rfl
theorem zero1 : (![0] : Fin 1 → Nat) = fun _ => 0 := funext fun a => by fin_cases a; rfl

/-! ## What the body leaves: its arithmetic of the blocks it read -/

/-- Region 0, the f32 result's buffer: one store of the whole buffer, of the arithmetic of the whole input buffers. -/
theorem out0_4_eq (x0 : Vec F S5000x320 .bf16) (x1 : Vec F S320x128 .bf16) (x2 : Vec F S128 .f32) (x3 : Vec F S5000x128 .f32) :
    out0_4 x0 x1 x2 x3 = k0_pay1 x0 x1 x2 x3 := by
  unfold out0_4
  rw [View.canon_unit_zero zero2]
  simp only [View.ld_unit_zero (S := S5000x320) zero2, View.ld_unit_zero (S := S320x128) zero2,
    View.ld_unit_zero (S := S128) zero1, View.ld_unit_zero (S := S5000x128) zero2]

/-- Region 0, the bf16 result's buffer. -/
theorem out0_5_eq (x0 : Vec F S5000x320 .bf16) (x1 : Vec F S320x128 .bf16) (x2 : Vec F S128 .f32) (x3 : Vec F S5000x128 .f32) :
    out0_5 x0 x1 x2 x3 = k0_pay2 x0 x1 x2 x3 := by
  unfold out0_5
  rw [View.canon_unit_zero zero2]
  simp only [View.ld_unit_zero (S := S5000x320) zero2, View.ld_unit_zero (S := S320x128) zero2,
    View.ld_unit_zero (S := S128) zero1, View.ld_unit_zero (S := S5000x128) zero2]

/-! ## Region 0: the printed index maps over the 20 points -/

/-- The row-blocked windows (table means, identity embedding, both results) are at block (t, 0) at point t; the
    weight and the bias are at block 0 at every point. -/
theorem index0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = t.val ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0 :=
  (by decide +kernel : ∀ t : Fin grid0.N, _)

/-! ## Region 0: the blocks read at point t, as entries of their arrays -/

/-- Entry (r, j) of the table means' block at point t is entry (5000·t + r, j) of the array. -/
theorem rows0_0 (c : Dev nD) (t : Fin cfg0.N) (r : Fin 5000) (j : Fin 320) (p : Fin 100000)
    (hp : p.val = 5000 * t.val + r.val) :
    (iblk0 V c 0 t : Vec F S5000x320 .bf16) (ix2 r j) = (V c main_v50 : S100000x320.Idx → Elt F .bf16) (ix2 p j) := by
  obtain ⟨e0, e1, -⟩ := index0 t
  unfold iblk0
  rw [View.read_apply]
  show V c main_v50 _ = V c main_v50 _
  congr 1
  funext a
  apply Fin.ext
  match a with
  | ⟨0, _⟩ => show win0_0.index t (0 : Fin 2) * 5000 + 1 * r.val = p.val; rw [e0, hp]; omega
  | ⟨1, _⟩ => show win0_0.index t (1 : Fin 2) * 320 + 1 * j.val = j.val; rw [e1]; omega

/-- The weight's block at every point is the whole weight. -/
theorem whole0_1 (c : Dev nD) (t : Fin cfg0.N) :
    (iblk0 V c 1 t : Vec F S320x128 .bf16) = (V c main_v53 : S320x128.Idx → Elt F .bf16) := by
  obtain ⟨-, -, e0, e1, -⟩ := index0 t
  funext y
  unfold iblk0
  rw [View.read_apply]
  show V c main_v53 _ = V c main_v53 _
  congr 1
  funext a
  apply Fin.ext
  match a with
  | ⟨0, _⟩ => show win0_1.index t (0 : Fin 2) * 320 + 1 * (y 0).val = (y 0).val; rw [e0]; omega
  | ⟨1, _⟩ => show win0_1.index t (1 : Fin 2) * 128 + 1 * (y 1).val = (y 1).val; rw [e1]; omega

/-- The bias's block at every point is the whole bias. -/
theorem whole0_2 (c : Dev nD) (t : Fin cfg0.N) :
    (iblk0 V c 2 t : Vec F S128 .f32) = (V c main_arg11 : S128.Idx → Elt F .f32) := by
  obtain ⟨-, -, -, -, e0, -⟩ := index0 t
  funext y
  unfold iblk0
  rw [View.read_apply]
  show V c main_arg11 _ = V c main_arg11 _
  congr 1
  funext a
  apply Fin.ext
  match a with
  | ⟨0, _⟩ => show win0_2.index t (0 : Fin 1) * 128 + 1 * (y 0).val = (y 0).val; rw [e0]; omega

/-- Entry (r, q) of the identity embedding's block at point t is entry (5000·t + r, q) of the array. -/
theorem rows0_3 (c : Dev nD) (t : Fin cfg0.N) (r : Fin 5000) (q : Fin 128) (p : Fin 100000)
    (hp : p.val = 5000 * t.val + r.val) :
    (iblk0 V c 3 t : Vec F S5000x128 .f32) (ix2 r q) = (V c main_arg5 : S100000x128.Idx → Elt F .f32) (ix2 p q) := by
  obtain ⟨-, -, -, -, -, e0, e1, -⟩ := index0 t
  unfold iblk0
  rw [View.read_apply]
  show V c main_arg5 _ = V c main_arg5 _
  congr 1
  funext a
  apply Fin.ext
  match a with
  | ⟨0, _⟩ => show win0_3.index t (0 : Fin 2) * 5000 + 1 * r.val = p.val; rw [e0, hp]; omega
  | ⟨1, _⟩ => show win0_3.index t (1 : Fin 2) * 128 + 1 * q.val = q.val; rw [e1]; omega

/-! ## Region 0: what a point writes back, and which point covers a row -/

/-- Point t writes back to the f32 result the body's arithmetic of the blocks it read. -/
theorem flushed0_4 (c : Dev nD) (t : Fin cfg0.N) :
    (dat0 V c).flushed 4 t = k0_pay1 (iblk0 V c 0 t) (iblk0 V c 1 t) (iblk0 V c 2 t) (iblk0 V c 3 t) := by
  show (cfg0.win 4).cut (grid0.coords t) ((dat0 V c).after 4 t) = _
  rw [after0_4, out0_4_eq]
  rfl

/-- Point t writes back to the bf16 result the same arithmetic, narrowed. -/
theorem flushed0_5 (c : Dev nD) (t : Fin cfg0.N) :
    (dat0 V c).flushed 5 t = k0_pay2 (iblk0 V c 0 t) (iblk0 V c 1 t) (iblk0 V c 2 t) (iblk0 V c 3 t) := by
  show (cfg0.win 5).cut (grid0.coords t) ((dat0 V c).after 5 t) = _
  rw [after0_5, out0_5_eq]
  rfl

/-- An entry of the f32 result is in point t's block iff each coordinate is in the block's range on its axis. -/
theorem mem_blk0_4 (t : Fin cfg0.N) (i : S100000x128.Idx) :
    i ∈ ((cfg0.win 4).blk t).view.set ↔ ∀ a : Fin 2, win0_4.index t a * S5000x128.size a ≤ (i a).val
      ∧ (i a).val < win0_4.index t a * S5000x128.size a + S5000x128.size a := by
  show i ∈ ((View.whole main_v54_0).slice (win0_4.rect t)).set ↔ _
  rw [View.set_slice_whole, Rect.mem_set_unit]
  exact Iff.rfl

/-- The same for the bf16 result. -/
theorem mem_blk0_5 (t : Fin cfg0.N) (i : S100000x128.Idx) :
    i ∈ ((cfg0.win 5).blk t).view.set ↔ ∀ a : Fin 2, win0_5.index t a * S5000x128.size a ≤ (i a).val
      ∧ (i a).val < win0_5.index t a * S5000x128.size a + S5000x128.size a := by
  show i ∈ ((View.whole main_v54_1).slice (win0_5.rect t)).set ↔ _
  rw [View.set_slice_whole, Rect.mem_set_unit]
  exact Iff.rfl

/-- Row p of the f32 result lies in the block of point p / 5000, which is written back. -/
theorem covered0_4 (i : S100000x128.Idx) :
    ∃ t : Fin cfg0.N, (cfg0.win 4).flush t = true ∧ i ∈ ((cfg0.win 4).blk t).view.set := by
  have hN : cfg0.N = 20 := N_0
  have h0 : (i 0).val < 100000 := (i 0).isLt
  have h1 : (i 1).val < 128 := (i 1).isLt
  have ht : (i 0).val / 5000 < cfg0.N := by rw [hN]; omega
  obtain ⟨-, -, -, -, -, -, -, e0, e1, -⟩ := index0 ⟨(i 0).val / 5000, ht⟩
  refine ⟨⟨(i 0).val / 5000, ht⟩, flush0_4 _, ?_⟩
  rw [mem_blk0_4]
  intro a
  match a with
  | ⟨0, _⟩ =>
    show win0_4.index ⟨(i 0).val / 5000, ht⟩ (0 : Fin 2) * 5000 ≤ (i 0).val
      ∧ (i 0).val < win0_4.index ⟨(i 0).val / 5000, ht⟩ (0 : Fin 2) * 5000 + 5000
    rw [e0]; show (i 0).val / 5000 * 5000 ≤ (i 0).val ∧ (i 0).val < (i 0).val / 5000 * 5000 + 5000; omega
  | ⟨1, _⟩ =>
    show win0_4.index ⟨(i 0).val / 5000, ht⟩ (1 : Fin 2) * 128 ≤ (i 1).val
      ∧ (i 1).val < win0_4.index ⟨(i 0).val / 5000, ht⟩ (1 : Fin 2) * 128 + 128
    rw [e1]; omega

/-- Row p of the bf16 result lies in the block of point p / 5000, which is written back. -/
theorem covered0_5 (i : S100000x128.Idx) :
    ∃ t : Fin cfg0.N, (cfg0.win 5).flush t = true ∧ i ∈ ((cfg0.win 5).blk t).view.set := by
  have hN : cfg0.N = 20 := N_0
  have h0 : (i 0).val < 100000 := (i 0).isLt
  have h1 : (i 1).val < 128 := (i 1).isLt
  have ht : (i 0).val / 5000 < cfg0.N := by rw [hN]; omega
  obtain ⟨-, -, -, -, -, -, -, -, -, e0, e1⟩ := index0 ⟨(i 0).val / 5000, ht⟩
  refine ⟨⟨(i 0).val / 5000, ht⟩, flush0_5 _, ?_⟩
  rw [mem_blk0_5]
  intro a
  match a with
  | ⟨0, _⟩ =>
    show win0_5.index ⟨(i 0).val / 5000, ht⟩ (0 : Fin 2) * 5000 ≤ (i 0).val
      ∧ (i 0).val < win0_5.index ⟨(i 0).val / 5000, ht⟩ (0 : Fin 2) * 5000 + 5000
    rw [e0]; show (i 0).val / 5000 * 5000 ≤ (i 0).val ∧ (i 0).val < (i 0).val / 5000 * 5000 + 5000; omega
  | ⟨1, _⟩ =>
    show win0_5.index ⟨(i 0).val / 5000, ht⟩ (1 : Fin 2) * 128 ≤ (i 1).val
      ∧ (i 1).val < win0_5.index ⟨(i 0).val / 5000, ht⟩ (1 : Fin 2) * 128 + 128
    rw [e1]; omega

/-- Entry (r, q) of the f32 result's block at point t sits at entry (5000·t + r, q) of the array. -/
theorem at0_4 (t : Fin cfg0.N) (r : Fin 5000) (q : Fin 128) (p : Fin 100000) (hp : p.val = 5000 * t.val + r.val) :
    ((cfg0.win 4).blk t).view.emb (ix2 r q) = (ix2 p q : S100000x128.Idx) := by
  obtain ⟨-, -, -, -, -, -, -, e0, e1, -⟩ := index0 t
  funext a
  apply Fin.ext
  match a with
  | ⟨0, _⟩ => show win0_4.index t (0 : Fin 2) * 5000 + 1 * r.val = p.val; rw [e0, hp]; omega
  | ⟨1, _⟩ => show win0_4.index t (1 : Fin 2) * 128 + 1 * q.val = q.val; rw [e1]; omega

/-- The same for the bf16 result. -/
theorem at0_5 (t : Fin cfg0.N) (r : Fin 5000) (q : Fin 128) (p : Fin 100000) (hp : p.val = 5000 * t.val + r.val) :
    ((cfg0.win 5).blk t).view.emb (ix2 r q) = (ix2 p q : S100000x128.Idx) := by
  obtain ⟨-, -, -, -, -, -, -, -, -, e0, e1⟩ := index0 t
  funext a
  apply Fin.ext
  match a with
  | ⟨0, _⟩ => show win0_5.index t (0 : Fin 2) * 5000 + 1 * r.val = p.val; rw [e0, hp]; omega
  | ⟨1, _⟩ => show win0_5.index t (1 : Fin 2) * 128 + 1 * q.val = q.val; rw [e1]; omega

/-! ## Region 0: the results as whole arrays -/

/-- If rows 5000·t … 5000·t + 4999 of G are, at every point t, the body's arithmetic of the blocks read there, the
    f32 result ends holding G: every point writes its block back, and the blocks cover the array. -/
theorem arr0_4_of (c : Dev nD) (G : S100000x128.Idx → Elt F .f32)
    (hG : ∀ (t : Fin cfg0.N) (r : Fin 5000) (q : Fin 128) (p : Fin 100000), p.val = 5000 * t.val + r.val →
      k0_pay1 (iblk0 V c 0 t) (iblk0 V c 1 t) (iblk0 V c 2 t) (iblk0 V c 3 t) (ix2 r q) = G (ix2 p q)) :
    (dat0 V c).arrAt 4 cfg0.N = G := by
  have hN : cfg0.N = 20 := N_0
  refine (dat0 V c).arrAt_eq_of_cover 4 G (fun t _ => ?_) covered0_4
  rw [flushed0_4]
  refine funext fun (y : S5000x128.Idx) => ?_
  obtain ⟨r, q, rfl⟩ : ∃ (r : Fin 5000) (q : Fin 128), y = ix2 r q := ⟨y 0, y 1, eq_ix2 y⟩
  have ht : t.val < 20 := hN ▸ t.isLt
  rw [View.read_apply, at0_4 t r q ⟨5000 * t.val + r.val, by omega⟩ rfl]
  exact hG t r q _ rfl

/-- The same for the bf16 result. -/
theorem arr0_5_of (c : Dev nD) (G : S100000x128.Idx → Elt F .bf16)
    (hG : ∀ (t : Fin cfg0.N) (r : Fin 5000) (q : Fin 128) (p : Fin 100000), p.val = 5000 * t.val + r.val →
      k0_pay2 (iblk0 V c 0 t) (iblk0 V c 1 t) (iblk0 V c 2 t) (iblk0 V c 3 t) (ix2 r q) = G (ix2 p q)) :
    (dat0 V c).arrAt 5 cfg0.N = G := by
  have hN : cfg0.N = 20 := N_0
  refine (dat0 V c).arrAt_eq_of_cover 5 G (fun t _ => ?_) covered0_5
  rw [flushed0_5]
  refine funext fun (y : S5000x128.Idx) => ?_
  obtain ⟨r, q, rfl⟩ : ∃ (r : Fin 5000) (q : Fin 128), y = ix2 r q := ⟨y 0, y 1, eq_ix2 y⟩
  have ht : t.val < 20 := hN ▸ t.isLt
  rw [View.read_apply, at0_5 t r q ⟨5000 * t.val + r.val, by omega⟩ rfl]
  exact hG t r q _ rfl

end Cert.KernelIdeal.EmbedBlocks

end
-- ==== Proof.EmbedWindows1.lean ====
/-
  The second embedding region (50000 rows, 10 points), on the program's side: what one grid point of each region writes back, and where the
  blocks it reads sit in their arrays.

  Each region runs its body over consecutive blocks of 5000 rows. At point t the body reads rows 5000·t … 5000·t + 4999
  of the table means [rows, 320] and of the identity embedding [rows, 128], the whole weight [320, 128] and the whole
  bias [128], and stores one [5000, 128] value, which is written back as rows 5000·t … 5000·t + 4999 of each result.
  Here: the stored value is the body's arithmetic of the blocks read (one whole store of it over loads of the whole
  staging buffers); entry (r, j) of a row block at point t is entry (5000·t + r, j) of its array; the weight's and the
  bias's blocks are the arrays themselves; and row p of a result lies in the block of point p / 5000.
-/
import proofs.«128228_j51565377356535_2_alg».proof.Proof.Gen.KernelIdeal.Frame
import Idealize.ShloMosaic.Lib.Pipeline.Value
import Idealize.ShloMosaic.Lib.ValueIdx

noncomputable section

namespace Cert.KernelIdeal.EmbedBlocks

open Cert.KernelIdeal Cert.KernelIdeal.Gen Idealize.ShloMosaic Idealize.ShloMosaic.TcCoe Idealize.SL.Sem
open Idealize.ShloMosaic.ValueIdx
open Idealize.ShloMosaic.Pipeline (Dat)

variable {F : FTy → Type} [FloatOps F]
variable (V : (c : Dev nD) → (b : Ref sig .tc) → Buf (Elt F) ((c : Thread nD τ).loc b))

/-- The zero offsets of a rank-2 and of a rank-1 buffer. -/
private theorem zero2 : (![0, 0] : Fin 2 → Nat) = fun _ => 0 := funext fun a => by fin_cases a <;> rfl
private theorem zero1 : (![0] : Fin 1 → Nat) = fun _ => 0 := funext fun a => by fin_cases a; rfl

/-! ## What the body leaves: its arithmetic of the blocks it read -/

/-- Region 1, the f32 result's buffer: one store of the whole buffer, of the arithmetic of the whole input buffers. -/
theorem out1_4_eq (x0 : Vec F S5000x320 .bf16) (x1 : Vec F S320x128 .bf16) (x2 : Vec F S128 .f32) (x3 : Vec F S5000x128 .f32) :
    out1_4 x0 x1 x2 x3 = k1_pay1 x0 x1 x2 x3 := by
  unfold out1_4
  rw [View.canon_unit_zero zero2]
  simp only [View.ld_unit_zero (S := S5000x320) zero2, View.ld_unit_zero (S := S320x128) zero2,
    View.ld_unit_zero (S := S128) zero1, View.ld_unit_zero (S := S5000x128) zero2]

/-- Region 1, the bf16 result's buffer. -/
theorem out1_5_eq (x0 : Vec F S5000x320 .bf16) (x1 : Vec F S320x128 .bf16) (x2 : Vec F S128 .f32) (x3 : Vec F S5000x128 .f32) :
    out1_5 x0 x1 x2 x3 = k1_pay2 x0 x1 x2 x3 := by
  unfold out1_5
  rw [View.canon_unit_zero zero2]
  simp only [View.ld_unit_zero (S := S5000x320) zero2, View.ld_unit_zero (S := S320x128) zero2,
    View.ld_unit_zero (S := S128) zero1, View.ld_unit_zero (S := S5000x128) zero2]

/-! ## Region 1: the printed index maps over the 10 points -/

/-- The row-blocked windows (table means, identity embedding, both results) are at block (t, 0) at point t; the
    weight and the bias are at block 0 at every point. -/
theorem index1 : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 1) = 0
    ∧ win1_3.index t (0 : Fin 2) = t.val ∧ win1_3.index t (1 : Fin 2) = 0
    ∧ win1_4.index t (0 : Fin 2) = t.val ∧ win1_4.index t (1 : Fin 2) = 0
    ∧ win1_5.index t (0 : Fin 2) = t.val ∧ win1_5.index t (1 : Fin 2) = 0 :=
  (by decide +kernel : ∀ t : Fin grid1.N, _)

/-! ## Region 1: the blocks read at point t, as entries of their arrays -/

/-- Entry (r, j) of the table means' block at point t is entry (5000·t + r, j) of the array. -/
theorem rows1_0 (c : Dev nD) (t : Fin cfg1.N) (r : Fin 5000) (j : Fin 320) (p : Fin 50000)
    (hp : p.val = 5000 * t.val + r.val) :
    (iblk1 V c 0 t : Vec F S5000x320 .bf16) (ix2 r j) = (V c main_v52 : S50000x320.Idx → Elt F .bf16) (ix2 p j) := by
  obtain ⟨e0, e1, -⟩ := index1 t
  unfold iblk1
  rw [View.read_apply]
  show V c main_v52 _ = V c main_v52 _
  congr 1
  funext a
  apply Fin.ext
  match a with
  | ⟨0, _⟩ => show win1_0.index t (0 : Fin 2) * 5000 + 1 * r.val = p.val; rw [e0, hp]; omega
  | ⟨1, _⟩ => show win1_0.index t (1 : Fin 2) * 320 + 1 * j.val = j.val; rw [e1]; omega

/-- The weight's block at every point is the whole weight. -/
theorem whole1_1 (c : Dev nD) (t : Fin cfg1.N) :
    (iblk1 V c 1 t : Vec F S320x128 .bf16) = (V c main_v55 : S320x128.Idx → Elt F .bf16) := by
  obtain ⟨-, -, e0, e1, -⟩ := index1 t
  funext y
  unfold iblk1
  rw [View.read_apply]
  show V c main_v55 _ = V c main_v55 _
  congr 1
  funext a
  apply Fin.ext
  match a with
  | ⟨0, _⟩ => show win1_1.index t (0 : Fin 2) * 320 + 1 * (y 0).val = (y 0).val; rw [e0]; omega
  | ⟨1, _⟩ => show win1_1.index t (1 : Fin 2) * 128 + 1 * (y 1).val = (y 1).val; rw [e1]; omega

/-- The bias's block at every point is the whole bias. -/
theorem whole1_2 (c : Dev nD) (t : Fin cfg1.N) :
    (iblk1 V c 2 t : Vec F S128 .f32) = (V c main_arg13 : S128.Idx → Elt F .f32) := by
  obtain ⟨-, -, -, -, e0, -⟩ := index1 t
  funext y
  unfold iblk1
  rw [View.read_apply]
  show V c main_arg13 _ = V c main_arg13 _
  congr 1
  funext a
  apply Fin.ext
  match a with
  | ⟨0, _⟩ => show win1_2.index t (0 : Fin 1) * 128 + 1 * (y 0).val = (y 0).val; rw [e0]; omega

/-- Entry (r, q) of the identity embedding's block at point t is entry (5000·t + r, q) of the array. -/
theorem rows1_3 (c : Dev nD) (t : Fin cfg1.N) (r : Fin 5000) (q : Fin 128) (p : Fin 50000)
    (hp : p.val = 5000 * t.val + r.val) :
    (iblk1 V c 3 t : Vec F S5000x128 .f32) (ix2 r q) = (V c main_arg6 : S50000x128.Idx → Elt F .f32) (ix2 p q) := by
  obtain ⟨-, -, -, -, -, e0, e1, -⟩ := index1 t
  unfold iblk1
  rw [View.read_apply]
  show V c main_arg6 _ = V c main_arg6 _
  congr 1
  funext a
  apply Fin.ext
  match a with
  | ⟨0, _⟩ => show win1_3.index t (0 : Fin 2) * 5000 + 1 * r.val = p.val; rw [e0, hp]; omega
  | ⟨1, _⟩ => show win1_3.index t (1 : Fin 2) * 128 + 1 * q.val = q.val; rw [e1]; omega

/-! ## Region 1: what a point writes back, and which point covers a row -/

/-- Point t writes back to the f32 result the body's arithmetic of the blocks it read. -/
theorem flushed1_4 (c : Dev nD) (t : Fin cfg1.N) :
    (dat1 V c).flushed 4 t = k1_pay1 (iblk1 V c 0 t) (iblk1 V c 1 t) (iblk1 V c 2 t) (iblk1 V c 3 t) := by
  show (cfg1.win 4).cut (grid1.coords t) ((dat1 V c).after 4 t) = _
  rw [after1_4, out1_4_eq]
  rfl

/-- Point t writes back to the bf16 result the same arithmetic, narrowed. -/
theorem flushed1_5 (c : Dev nD) (t : Fin cfg1.N) :
    (dat1 V c).flushed 5 t = k1_pay2 (iblk1 V c 0 t) (iblk1 V c 1 t) (iblk1 V c 2 t) (iblk1 V c 3 t) := by
  show (cfg1.win 5).cut (grid1.coords t) ((dat1 V c).after 5 t) = _
  rw [after1_5, out1_5_eq]
  rfl

/-- An entry of the f32 result is in point t's block iff each coordinate is in the block's range on its axis. -/
theorem mem_blk1_4 (t : Fin cfg1.N) (i : S50000x128.Idx) :
    i ∈ ((cfg1.win 4).blk t).view.set ↔ ∀ a : Fin 2, win1_4.index t a * S5000x128.size a ≤ (i a).val
      ∧ (i a).val < win1_4.index t a * S5000x128.size a + S5000x128.size a := by
  show i ∈ ((View.whole main_v56_0).slice (win1_4.rect t)).set ↔ _
  rw [View.set_slice_whole, Rect.mem_set_unit]
  exact Iff.rfl

/-- The same for the bf16 result. -/
theorem mem_blk1_5 (t : Fin cfg1.N) (i : S50000x128.Idx) :
    i ∈ ((cfg1.win 5).blk t).view.set ↔ ∀ a : Fin 2, win1_5.index t a * S5000x128.size a ≤ (i a).val
      ∧ (i a).val < win1_5.index t a * S5000x128.size a + S5000x128.size a := by
  show i ∈ ((View.whole main_v56_1).slice (win1_5.rect t)).set ↔ _
  rw [View.set_slice_whole, Rect.mem_set_unit]
  exact Iff.rfl

/-- Row p of the f32 result lies in the block of point p / 5000, which is written back. -/
theorem covered1_4 (i : S50000x128.Idx) :
    ∃ t : Fin cfg1.N, (cfg1.win 4).flush t = true ∧ i ∈ ((cfg1.win 4).blk t).view.set := by
  have hN : cfg1.N = 10 := N_1
  have h0 : (i 0).val < 50000 := (i 0).isLt
  have h1 : (i 1).val < 128 := (i 1).isLt
  have ht : (i 0).val / 5000 < cfg1.N := by rw [hN]; omega
  obtain ⟨-, -, -, -, -, -, -, e0, e1, -⟩ := index1 ⟨(i 0).val / 5000, ht⟩
  refine ⟨⟨(i 0).val / 5000, ht⟩, flush1_4 _, ?_⟩
  rw [mem_blk1_4]
  intro a
  match a with
  | ⟨0, _⟩ =>
    show win1_4.index ⟨(i 0).val / 5000, ht⟩ (0 : Fin 2) * 5000 ≤ (i 0).val
      ∧ (i 0).val < win1_4.index ⟨(i 0).val / 5000, ht⟩ (0 : Fin 2) * 5000 + 5000
    rw [e0]; show (i 0).val / 5000 * 5000 ≤ (i 0).val ∧ (i 0).val < (i 0).val / 5000 * 5000 + 5000; omega
  | ⟨1, _⟩ =>
    show win1_4.index ⟨(i 0).val / 5000, ht⟩ (1 : Fin 2) * 128 ≤ (i 1).val
      ∧ (i 1).val < win1_4.index ⟨(i 0).val / 5000, ht⟩ (1 : Fin 2) * 128 + 128
    rw [e1]; omega

/-- Row p of the bf16 result lies in the block of point p / 5000, which is written back. -/
theorem covered1_5 (i : S50000x128.Idx) :
    ∃ t : Fin cfg1.N, (cfg1.win 5).flush t = true ∧ i ∈ ((cfg1.win 5).blk t).view.set := by
  have hN : cfg1.N = 10 := N_1
  have h0 : (i 0).val < 50000 := (i 0).isLt
  have h1 : (i 1).val < 128 := (i 1).isLt
  have ht : (i 0).val / 5000 < cfg1.N := by rw [hN]; omega
  obtain ⟨-, -, -, -, -, -, -, -, -, e0, e1⟩ := index1 ⟨(i 0).val / 5000, ht⟩
  refine ⟨⟨(i 0).val / 5000, ht⟩, flush1_5 _, ?_⟩
  rw [mem_blk1_5]
  intro a
  match a with
  | ⟨0, _⟩ =>
    show win1_5.index ⟨(i 0).val / 5000, ht⟩ (0 : Fin 2) * 5000 ≤ (i 0).val
      ∧ (i 0).val < win1_5.index ⟨(i 0).val / 5000, ht⟩ (0 : Fin 2) * 5000 + 5000
    rw [e0]; show (i 0).val / 5000 * 5000 ≤ (i 0).val ∧ (i 0).val < (i 0).val / 5000 * 5000 + 5000; omega
  | ⟨1, _⟩ =>
    show win1_5.index ⟨(i 0).val / 5000, ht⟩ (1 : Fin 2) * 128 ≤ (i 1).val
      ∧ (i 1).val < win1_5.index ⟨(i 0).val / 5000, ht⟩ (1 : Fin 2) * 128 + 128
    rw [e1]; omega

/-- Entry (r, q) of the f32 result's block at point t sits at entry (5000·t + r, q) of the array. -/
theorem at1_4 (t : Fin cfg1.N) (r : Fin 5000) (q : Fin 128) (p : Fin 50000) (hp : p.val = 5000 * t.val + r.val) :
    ((cfg1.win 4).blk t).view.emb (ix2 r q) = (ix2 p q : S50000x128.Idx) := by
  obtain ⟨-, -, -, -, -, -, -, e0, e1, -⟩ := index1 t
  funext a
  apply Fin.ext
  match a with
  | ⟨0, _⟩ => show win1_4.index t (0 : Fin 2) * 5000 + 1 * r.val = p.val; rw [e0, hp]; omega
  | ⟨1, _⟩ => show win1_4.index t (1 : Fin 2) * 128 + 1 * q.val = q.val; rw [e1]; omega

/-- The same for the bf16 result. -/
theorem at1_5 (t : Fin cfg1.N) (r : Fin 5000) (q : Fin 128) (p : Fin 50000) (hp : p.val = 5000 * t.val + r.val) :
    ((cfg1.win 5).blk t).view.emb (ix2 r q) = (ix2 p q : S50000x128.Idx) := by
  obtain ⟨-, -, -, -, -, -, -, -, -, e0, e1⟩ := index1 t
  funext a
  apply Fin.ext
  match a with
  | ⟨0, _⟩ => show win1_5.index t (0 : Fin 2) * 5000 + 1 * r.val = p.val; rw [e0, hp]; omega
  | ⟨1, _⟩ => show win1_5.index t (1 : Fin 2) * 128 + 1 * q.val = q.val; rw [e1]; omega

/-! ## Region 1: the results as whole arrays -/

/-- If rows 5000·t … 5000·t + 4999 of G are, at every point t, the body's arithmetic of the blocks read there, the
    f32 result ends holding G: every point writes its block back, and the blocks cover the array. -/
theorem arr1_4_of (c : Dev nD) (G : S50000x128.Idx → Elt F .f32)
    (hG : ∀ (t : Fin cfg1.N) (r : Fin 5000) (q : Fin 128) (p : Fin 50000), p.val = 5000 * t.val + r.val →
      k1_pay1 (iblk1 V c 0 t) (iblk1 V c 1 t) (iblk1 V c 2 t) (iblk1 V c 3 t) (ix2 r q) = G (ix2 p q)) :
    (dat1 V c).arrAt 4 cfg1.N = G := by
  have hN : cfg1.N = 10 := N_1
  refine (dat1 V c).arrAt_eq_of_cover 4 G (fun t _ => ?_) covered1_4
  rw [flushed1_4]
  refine funext fun (y : S5000x128.Idx) => ?_
  obtain ⟨r, q, rfl⟩ : ∃ (r : Fin 5000) (q : Fin 128), y = ix2 r q := ⟨y 0, y 1, eq_ix2 y⟩
  have ht : t.val < 10 := hN ▸ t.isLt
  rw [View.read_apply, at1_4 t r q ⟨5000 * t.val + r.val, by omega⟩ rfl]
  exact hG t r q _ rfl

/-- The same for the bf16 result. -/
theorem arr1_5_of (c : Dev nD) (G : S50000x128.Idx → Elt F .bf16)
    (hG : ∀ (t : Fin cfg1.N) (r : Fin 5000) (q : Fin 128) (p : Fin 50000), p.val = 5000 * t.val + r.val →
      k1_pay2 (iblk1 V c 0 t) (iblk1 V c 1 t) (iblk1 V c 2 t) (iblk1 V c 3 t) (ix2 r q) = G (ix2 p q)) :
    (dat1 V c).arrAt 5 cfg1.N = G := by
  have hN : cfg1.N = 10 := N_1
  refine (dat1 V c).arrAt_eq_of_cover 5 G (fun t _ => ?_) covered1_5
  rw [flushed1_5]
  refine funext fun (y : S5000x128.Idx) => ?_
  obtain ⟨r, q, rfl⟩ : ∃ (r : Fin 5000) (q : Fin 128), y = ix2 r q := ⟨y 0, y 1, eq_ix2 y⟩
  have ht : t.val < 10 := hN ▸ t.isLt
  rw [View.read_apply, at1_5 t r q ⟨5000 * t.val + r.val, by omega⟩ rfl]
  exact hG t r q _ rfl

end Cert.KernelIdeal.EmbedBlocks

end
-- ==== Proof.EmbedBlocks.lean ====
/-
  The two embedding regions of the kernel program, as whole arrays.

  Each region computes, for its node set, the initial embedding (cat · w + b) + e: cat [rows, 320] the concatenated
  table means, w [320, 128] and b [128] one dense layer, e [rows, 128] the nodes' identity embedding. It stores the
  value twice, as f32 and narrowed to bf16; on the extended reals the narrowing is the identity, so both results hold
  the same array.

  The body's arithmetic on one block of 5000 rows is that formula of the blocks: the product on the matrix unit into
  the zero accumulator is the 320-term sum of row entries times weight entries, the bias laid out as one row and
  repeated down the rows is added, then the identity block. Row r of the block at point t depends on row 5000·t + r of
  cat and of e and on all of w and b, and the formula is local to rows, so the block is rows 5000·t … 5000·t + 4999 of
  the formula of the whole arrays; the blocks of the 20 (region 0) or 10 (region 1) points cover the result.
-/
import proofs.«128228_j51565377356535_2_alg».proof.Proof.EmbedWindows0
import proofs.«128228_j51565377356535_2_alg».proof.Proof.EmbedWindows1
import proofs.«128228_j51565377356535_2_alg».proof.Proof.GraphLayers
import proofs.«128228_j51565377356535_2_alg».proof.Proof.LibDenseLayers

noncomputable section

namespace Cert.KernelIdeal.EmbedBlocks

open Cert.KernelIdeal Cert.KernelIdeal.Gen Cert.Layers Cert.Net Cert.Graph Idealize.ShloMosaic
open Idealize.ShloMosaic.TcCoe Idealize.ShloMosaic.ValueIdx Cert.LibMatmulPlain

/-! ## The body's arithmetic on one block is the embedding of the blocks -/

/-- Region 0's f32 value: the product into the zero accumulator is the 320-term sum, the bias row repeated down the
    5000 rows is added, then the identity block. -/
theorem pay0_eq (v0 : FVec Ideal S5000x320 .bf16) (v2 : FVec Ideal S320x128 .bf16) (v5 : FVec Ideal S128 .f32)
    (v9 : FVec Ideal S5000x128 .f32) : k0_pay1 (F := Ideal) v0 v2 v5 v9 = embed v0 v2 v5 v9 := by
  have hd : dot_S5000x320_S320x128_S5000x128_1_0_0_1_n_n
      = plainDims 5000 320 128 dot_S5000x320_S320x128_S5000x128_1_0_0_1_n_n_wf := rfl
  have hmm : matmul dot_S5000x320_S320x128_S5000x128_1_0_0_1_n_n none
        (shapeCast S5000x320 v0 shapeCasts_S5000x320_S5000x320) (shapeCast S320x128 v2 shapeCasts_S320x128_S320x128)
        (constant S5000x128 .f32 0x00000000#32) = mm v0 v2 := by
    rw [shapeCast_self, shapeCast_self, hd]
    funext i
    obtain ⟨p, q, rfl⟩ : ∃ (p : Fin 5000) (q : Fin 128), i = ix2 p q := ⟨i 0, i 1, eq_ix2 i⟩
    exact matmul_zero_apply _ none v0 v2 p q
  have hb := tileBias_eq (m := 5000) v5 shapeCasts_S128_S1x128 broadcasts_S1x128_S5000x128
  show addf (addf (matmul dot_S5000x320_S320x128_S5000x128_1_0_0_1_n_n none
        (shapeCast S5000x320 v0 shapeCasts_S5000x320_S5000x320) (shapeCast S320x128 v2 shapeCasts_S320x128_S320x128)
        (constant S5000x128 .f32 0x00000000#32))
      (broadcastTo S5000x128 (shapeCast S1x128 v5 shapeCasts_S128_S1x128) broadcasts_S1x128_S5000x128)) v9 = _
  rw [hmm, hb]
  rfl

/-- Region 0's bf16 value is the f32 one: narrowing is the identity on the extended reals. -/
theorem pay0n_eq (v0 : FVec Ideal S5000x320 .bf16) (v2 : FVec Ideal S320x128 .bf16) (v5 : FVec Ideal S128 .f32)
    (v9 : FVec Ideal S5000x128 .f32) : k0_pay2 (F := Ideal) v0 v2 v5 v9 = embed v0 v2 v5 v9 :=
  (show k0_pay2 (F := Ideal) v0 v2 v5 v9 = k0_pay1 (F := Ideal) v0 v2 v5 v9 from rfl).trans (pay0_eq v0 v2 v5 v9)

/-- Region 1's f32 value: the same arithmetic. -/
theorem pay1_eq (v0 : FVec Ideal S5000x320 .bf16) (v2 : FVec Ideal S320x128 .bf16) (v5 : FVec Ideal S128 .f32)
    (v9 : FVec Ideal S5000x128 .f32) : k1_pay1 (F := Ideal) v0 v2 v5 v9 = embed v0 v2 v5 v9 :=
  (show k1_pay1 (F := Ideal) v0 v2 v5 v9 = k0_pay1 (F := Ideal) v0 v2 v5 v9 from rfl).trans (pay0_eq v0 v2 v5 v9)

/-- Region 1's bf16 value. -/
theorem pay1n_eq (v0 : FVec Ideal S5000x320 .bf16) (v2 : FVec Ideal S320x128 .bf16) (v5 : FVec Ideal S128 .f32)
    (v9 : FVec Ideal S5000x128 .f32) : k1_pay2 (F := Ideal) v0 v2 v5 v9 = embed v0 v2 v5 v9 :=
  (show k1_pay2 (F := Ideal) v0 v2 v5 v9 = k0_pay1 (F := Ideal) v0 v2 v5 v9 from rfl).trans (pay0_eq v0 v2 v5 v9)

/-! ## The results as whole arrays -/

variable (V : (c : Dev nD) → (b : Ref sig .tc) → Buf (Elt Ideal) ((c : Thread nD τ).loc b))

/-- Rows 5000·t … 5000·t + 4999 of the embedding of region 0's arrays are the embedding of the blocks read at point t:
    the row blocks are those rows of their arrays, the weight and the bias are read whole. -/
theorem rows0 (c : Dev nD) (t : Fin cfg0.N) (r : Fin 5000) (q : Fin 128) (p : Fin 100000)
    (hp : p.val = 5000 * t.val + r.val) :
    embed (iblk0 V c 0 t) (iblk0 V c 1 t) (iblk0 V c 2 t) (iblk0 V c 3 t) (ix2 r q)
      = embed (V c main_v50) (V c main_v53) (V c main_arg11) (V c main_arg5) (ix2 p q) := by
  rw [whole0_1 V c t, whole0_2 V c t]
  exact embed_rows (V c main_v50) (iblk0 V c 0 t) (V c main_v53) (V c main_arg11) (V c main_arg5) (iblk0 V c 3 t) r p
    (fun j => rows0_0 V c t r j p hp) (fun q' => rows0_3 V c t r q' p hp) q

/-- The same for region 1. -/
theorem rows1 (c : Dev nD) (t : Fin cfg1.N) (r : Fin 5000) (q : Fin 128) (p : Fin 50000)
    (hp : p.val = 5000 * t.val + r.val) :
    embed (iblk1 V c 0 t) (iblk1 V c 1 t) (iblk1 V c 2 t) (iblk1 V c 3 t) (ix2 r q)
      = embed (V c main_v52) (V c main_v55) (V c main_arg13) (V c main_arg6) (ix2 p q) := by
  rw [whole1_1 V c t, whole1_2 V c t]
  exact embed_rows (V c main_v52) (iblk1 V c 0 t) (V c main_v55) (V c main_arg13) (V c main_arg6) (iblk1 V c 3 t) r p
    (fun j => rows1_0 V c t r j p hp) (fun q' => rows1_3 V c t r q' p hp) q

/-- Region 0's f32 result is the embedding of the first node set. -/
theorem users_f32 (c : Dev nD) :
    (dat0 (F := Ideal) V c).arrAt 4 cfg0.N = embed (V c main_v50) (V c main_v53) (V c main_arg11) (V c main_arg5) :=
  arr0_4_of V c _ fun t r q p hp =>
    (congrFun (pay0_eq (iblk0 V c 0 t) (iblk0 V c 1 t) (iblk0 V c 2 t) (iblk0 V c 3 t)) (ix2 r q)).trans
      (rows0 V c t r q p hp)

/-- Region 0's bf16 result is the same array. -/
theorem users_bf16 (c : Dev nD) :
    (dat0 (F := Ideal) V c).arrAt 5 cfg0.N = embed (V c main_v50) (V c main_v53) (V c main_arg11) (V c main_arg5) :=
  arr0_5_of V c _ fun t r q p hp =>
    (congrFun (pay0n_eq (iblk0 V c 0 t) (iblk0 V c 1 t) (iblk0 V c 2 t) (iblk0 V c 3 t)) (ix2 r q)).trans
      (rows0 V c t r q p hp)

/-- Region 1's f32 result is the embedding of the second node set. -/
theorem items_f32 (c : Dev nD) :
    (dat1 (F := Ideal) V c).arrAt 4 cfg1.N = embed (V c main_v52) (V c main_v55) (V c main_arg13) (V c main_arg6) :=
  arr1_4_of V c _ fun t r q p hp =>
    (congrFun (pay1_eq (iblk1 V c 0 t) (iblk1 V c 1 t) (iblk1 V c 2 t) (iblk1 V c 3 t)) (ix2 r q)).trans
      (rows1 V c t r q p hp)

/-- Region 1's bf16 result is the same array. -/
theorem items_bf16 (c : Dev nD) :
    (dat1 (F := Ideal) V c).arrAt 5 cfg1.N = embed (V c main_v52) (V c main_v55) (V c main_arg13) (V c main_arg6) :=
  arr1_5_of V c _ fun t r q p hp =>
    (congrFun (pay1n_eq (iblk1 V c 0 t) (iblk1 V c 1 t) (iblk1 V c 2 t) (iblk1 V c 3 t)) (ix2 r q)).trans
      (rows1 V c t r q p hp)

end Cert.KernelIdeal.EmbedBlocks

end
-- ==== Proof.LibKeepdims.lean ====
/-
  A row statistic kept as a column, read at an index.

  A reduction over the last axis of an [a, b] array with the reduced axis kept gives an [a] vector reshaped to
  an [a, 1] column. Such a column meets a rank-2 array in two ways: broadcast along the columns of an [a, b]
  array, where element (p, q) reads row p of the column; or turned into a [1, a] row and broadcast along the
  rows of a [b, a] array, where element (p, q) reads row q of the column. The lemmas read each step at an index
  given by its coordinates, for any extents and any element type; the last reads the row sums themselves, on the
  extended reals, as finite sums over the reduced coordinate.
-/
import Idealize.ShloMosaic.Lib.Pipeline.Value
import Idealize.ShloMosaic.Lib.ValueIdx
import Idealize.ShloMosaic.PureOps.Ideal.Laws

noncomputable section

open scoped BigOperators

namespace Cert.Lib.Keepdims

open Idealize.ShloMosaic Idealize.ShloMosaic.ValueIdx

variable {α : Type}

/-- A vector reshaped [a] → [a, 1]: row `p` of the column is element `p` of the vector. -/
theorem castCol_apply {a : Nat} (v : (⟨1, ![a]⟩ : Shape).Idx → α)
    (h : (⟨1, ![a]⟩ : Shape).ShapeCasts ⟨2, ![a, 1]⟩) (p : Fin a) :
    shapeCast ⟨2, ![a, 1]⟩ v h (ix2 p (0 : Fin 1)) = v (ix1 p) := by
  refine shapeCast_apply v h (ix2 p (0 : Fin 1)) (ix1 p) ?_
  rw [Shape.rowMajor_val_one, Shape.rowMajor_val_two]
  show p.val = p.val * 1 + 0
  omega

/-- A column broadcast [a, 1] → [a, b] along the columns: element (p, q) is the column's row `p`. -/
theorem bcastCol_apply {a b : Nat} (col : (⟨2, ![a, 1]⟩ : Shape).Idx → α)
    (h : (⟨2, ![a, 1]⟩ : Shape).Broadcasts ⟨2, ![a, b]⟩) (p : Fin a) (q : Fin b) :
    broadcastTo ⟨2, ![a, b]⟩ col h (ix2 p q) = col (ix2 p (0 : Fin 1)) :=
  broadcastTo_apply col h (ix2 p q) (ix2 p (0 : Fin 1)) (fun d => match d with
    | ⟨0, _⟩ => by
        show p.val = if a = 1 then 0 else p.val
        split_ifs with ha
        · subst ha; have := p.isLt; omega
        · rfl
    | ⟨1, _⟩ => by show 0 = if (1 : Nat) = 1 then 0 else q.val; rw [if_pos rfl])

/-- A column turned into a row, [a, 1] → [1, a], and broadcast along the rows to [b, a]: element (p, q) is the
    column's row `q`. -/
theorem bcastColAsRow_apply {a b : Nat} (col : (⟨2, ![a, 1]⟩ : Shape).Idx → α)
    (ht : (⟨2, ![a, 1]⟩ : Shape).Transposes [1, 0] ⟨2, ![1, a]⟩)
    (h : (⟨2, ![1, a]⟩ : Shape).Broadcasts ⟨2, ![b, a]⟩) (p : Fin b) (q : Fin a) :
    broadcastTo ⟨2, ![b, a]⟩ (transpose ⟨2, ![1, a]⟩ [1, 0] col ht) h (ix2 p q) = col (ix2 q (0 : Fin 1)) := by
  refine (broadcastTo_apply _ h (ix2 p q) (ix2 (0 : Fin 1) q) (fun d => match d with
    | ⟨0, _⟩ => by show 0 = if (1 : Nat) = 1 then 0 else p.val; rw [if_pos rfl]
    | ⟨1, _⟩ => by
        show q.val = if a = 1 then 0 else q.val
        split_ifs with ha
        · subst ha; have := q.isLt; omega
        · rfl)).trans ?_
  exact transpose_apply [1, 0] col ht (ix2 (0 : Fin 1) q) (ix2 q (0 : Fin 1)) (fun d => match d with
    | ⟨0, _⟩ => rfl
    | ⟨1, _⟩ => rfl)

/-- The sums of an [a, b] array's rows, on the extended reals, kept as a column: row `p` of the column is the sum
    over the `b` coordinates of row `p`. -/
theorem sumCol_apply {a b : Nat} {φ : FTy} (v : FVec Ideal ⟨2, ![a, b]⟩ φ) (acc : BitVec φ.bits)
    (hr : (⟨2, ![a, b]⟩ : Shape).Reduces [1] ⟨1, ![a]⟩) (hφ : FKind.Formats φ) (hacc : acc = FKind.add.neutral φ hφ)
    (hc : (⟨1, ![a]⟩ : Shape).ShapeCasts ⟨2, ![a, 1]⟩) (p : Fin a) :
    shapeCast ⟨2, ![a, 1]⟩ (multiReduction .add [1] ⟨1, ![a]⟩ v acc hr hφ hacc) hc (ix2 p (0 : Fin 1))
      = ∑ k : Fin b, v (ix2 p k) := by
  refine (castCol_apply _ hc p).trans ?_
  refine (Ideal.multiReduction_add_single v acc hr hφ hacc (ix1 p)).trans ?_
  refine Finset.sum_congr rfl fun k _ => ?_
  exact congrArg v (funext fun d => Fin.ext (by match d with | ⟨0, _⟩ => rfl | ⟨1, _⟩ => rfl))

end Cert.Lib.Keepdims

end
-- ==== Proof.LibTileRows.lean ====
/-
  The vector program's spellings of the layers' pieces, on the extended reals, for any extents.

  A bias that reaches the body as a [1, n] block is cast to its own shape (the identity) and repeated down the m rows:
  entry (p, q) is the block's entry (0, q). A column [m, 1] of per-row factors is cast to its own shape and repeated
  across the n columns, and multiplies an [m, n] block entry by entry: entry (p, q) is s(p, q) times the column's
  row p. A product on the matrix unit into a zero accumulator, the weight cast to a narrower float format first (the
  identity on the extended reals), plus such a bias is one dense layer.
-/
import proofs.«128228_j51565377356535_2_alg».proof.Proof.LibMeanConv
import proofs.«128228_j51565377356535_2_alg».proof.Proof.LibKeepdims
import Idealize.ShloMosaic.Lib.ValueLayout
import Idealize.ShloMosaic.Lib.Pipeline.Value

noncomputable section

namespace Cert.Net

open Idealize.ShloMosaic Idealize.ShloMosaic.ValueIdx Cert.LibMatmulPlain Cert.Layers

variable {m k n : Nat}

/-- A [1, n] bias block, cast to its own shape and repeated down m rows. -/
theorem tileBiasRow_eq (r : FVec Ideal ⟨2, ![1, n]⟩ .f32) (hc : (⟨2, ![1, n]⟩ : Shape).ShapeCasts ⟨2, ![1, n]⟩)
    (hb : (⟨2, ![1, n]⟩ : Shape).Broadcasts ⟨2, ![m, n]⟩) :
    broadcastTo ⟨2, ![m, n]⟩ (shapeCast ⟨2, ![1, n]⟩ r hc) hb = bias m (rowOf r) := by
  rw [shapeCast_self]
  funext i
  obtain ⟨p, q, rfl⟩ : ∃ (p : Fin m) (q : Fin n), i = ix2 p q := ⟨i 0, i 1, eq_ix2 i⟩
  exact broadcastTo_1b_ab_apply r hb p q

/-- An [m, n] block (cast to its own shape) times an [m, 1] column (cast to its own shape) repeated across the columns. -/
theorem tileScaleCol_eq (s : FVec Ideal ⟨2, ![m, n]⟩ .f32) (inv : FVec Ideal ⟨2, ![m, 1]⟩ .f32)
    (hs : (⟨2, ![m, n]⟩ : Shape).ShapeCasts ⟨2, ![m, n]⟩) (hc : (⟨2, ![m, 1]⟩ : Shape).ShapeCasts ⟨2, ![m, 1]⟩)
    (hb : (⟨2, ![m, 1]⟩ : Shape).Broadcasts ⟨2, ![m, n]⟩) :
    mulf (shapeCast ⟨2, ![m, n]⟩ s hs) (broadcastTo ⟨2, ![m, n]⟩ (shapeCast ⟨2, ![m, 1]⟩ inv hc) hb) = scaleCol s inv := by
  rw [shapeCast_self, shapeCast_self]
  funext i
  obtain ⟨p, q, rfl⟩ : ∃ (p : Fin m) (q : Fin n), i = ix2 p q := ⟨i 0, i 1, eq_ix2 i⟩
  show s (ix2 p q) * broadcastTo ⟨2, ![m, n]⟩ inv hb (ix2 p q) = s (ix2 p q) * inv (ix2 p (0 : Fin 1))
  rw [Cert.Lib.Keepdims.bcastCol_apply inv hb p q]

/-- One dense layer as the vector program spells it: the product into a zero accumulator, the weight cast to a
    narrower format first, plus the [1, n] bias block repeated down the rows. -/
theorem tileDenseRow_eq {φ₁ ψ : FTy} (d : DotDims ⟨2, ![m, k]⟩ ⟨2, ![k, n]⟩ ⟨2, ![m, n]⟩)
    (wf : DotDims.WF ⟨2, ![m, k]⟩ ⟨2, ![k, n]⟩ ⟨2, ![m, n]⟩ [1] [0] [0] [1] [] []) (hd : d = plainDims m k n wf)
    (a : FVec Ideal ⟨2, ![m, k]⟩ φ₁) (w : FVec Ideal ⟨2, ![k, n]⟩ .f32) (hψ : ψ.bits < FTy.f32.bits)
    (r : FVec Ideal ⟨2, ![1, n]⟩ .f32) (hc : (⟨2, ![1, n]⟩ : Shape).ShapeCasts ⟨2, ![1, n]⟩)
    (hb : (⟨2, ![1, n]⟩ : Shape).Broadcasts ⟨2, ![m, n]⟩) :
    addf (matmul d none a (truncf ψ w hψ) (constant ⟨2, ![m, n]⟩ .f32 0x00000000#32))
        (broadcastTo ⟨2, ![m, n]⟩ (shapeCast ⟨2, ![1, n]⟩ r hc) hb)
      = dense a w (rowOf r) := by
  rw [tileMm_eq d wf hd a w hψ, tileBiasRow_eq r hc hb]
  rfl

end Cert.Net

end
-- ==== Proof.LayerBlocks.lean ====
/-
  What the two message-passing regions of the idealized kernel program write, as whole arrays.

  Each region runs one layer over the 150000 nodes in 30 blocks of 5000 rows. At a grid point the body holds a block
  of 5000 rows of the node features x [5000, 128], of the summed neighbour features s [5000, 128] and of the column
  inv [5000, 1], and the whole weights and biases. It forms the neighbourhood mean  s · inv  (the column repeated
  across the 128 columns), the rectified dense layer  max (mean · vw + vb, 0),  the sum of the two products
  x · wt + that · wb,  and adds the bias b; the first region then takes the maximum with zero, the second does not.
  Every product is taken into a zero accumulator with its LEFT factor cast to a narrower float format, which on the
  extended reals is the identity; the weights arrive in that format already. So the stored f32 block is
  rect (layer x s inv vw vb wt wb b)  in the first region and  layer x s inv vw vb wt wb b  in the second, and the
  block stored in the narrower format (one more cast) is the same function.

  Row r of the layer depends on row r of x, s and inv only (layer_rows), the block of a row-blocked window at point t
  is rows 5000·t … 5000·t + 4999 of its array, and the weights' and biases' blocks are their arrays: so what point t
  writes back is block t of the layer of the WHOLE arrays the region found. The 30 blocks tile the 150000 rows (the
  point that writes row r is r / 5000), so after the region each output array holds that layer.
-/
import proofs.«128228_j51565377356535_2_alg».proof.Proof.Gen.KernelIdeal.Frame
import proofs.«128228_j51565377356535_2_alg».proof.Proof.GraphLayers
import proofs.«128228_j51565377356535_2_alg».proof.Proof.LibTileRows
import Idealize.ShloMosaic.Lib.Pipeline.Value

noncomputable section

namespace Cert.KernelIdeal.LayerBlocks

open Cert.KernelIdeal Cert.KernelIdeal.Gen Cert.Layers Cert.Net Cert.Graph Idealize.ShloMosaic
open Idealize.ShloMosaic.ValueIdx Idealize.ShloMosaic.TcCoe Cert.LibMatmulPlain
open Idealize.ShloMosaic.Pipeline (Dat)

/-! ## One grid point's arithmetic is the layer formula on the blocks -/

/-- A [5000, 128] by [128, 128] product into a zero accumulator, the left factor cast to a narrower format first:
    entry (p, q) is the 128-term sum of a(p, j) · w(j, q). -/
theorem blockMm_eq (a : FVec Ideal S5000x128 .f32) (w : FVec Ideal S128x128 .bf16) :
    matmul dot_S5000x128_S128x128_S5000x128_1_0_0_1_n_n none (truncf .bf16 a bitsLt_bf16_f32) w
      (constant S5000x128 .f32 0x00000000#32) = mm (m := 5000) (k := 128) (n := 128) a w := by
  funext i
  obtain ⟨p, q, rfl⟩ : ∃ (p : Fin 5000) (q : Fin 128), i = ix2 p q := ⟨i 0, i 1, eq_ix2 i⟩
  exact matmul_zero_apply dot_S5000x128_S128x128_S5000x128_1_0_0_1_n_n.wf none (truncf .bf16 a bitsLt_bf16_f32) w p q

/-- The first region's f32 store: the rectified layer of the blocks. The casts of a shape to itself drop out, the
    mean is scaleCol, the three products are mm, the two biases are bias; what is left is the formula, entry by entry. -/
theorem first_pay_f32 (v0 v3 : Vec Ideal S5000x128 .f32) (v5 : Vec Ideal S5000x1 .f32) (v10 : Vec Ideal S128x128 .bf16)
    (v13 : Vec Ideal S128 .f32) (v20 v23 : Vec Ideal S128x128 .bf16) (v27 : Vec Ideal S128 .f32) :
    Gen.k2_pay1 (F := Ideal) v0 v3 v5 v10 v13 v20 v23 v27
      = rect (layer (n := 5000) (d := 128) v0 v3 v5 v10 v13 v20 v23 v27) := by
  unfold Gen.k2_pay1
  dsimp only
  rw [tileScaleCol_eq v3 v5, shapeCast_self v0, shapeCast_self v10, shapeCast_self v20, shapeCast_self v23,
    blockMm_eq, blockMm_eq, blockMm_eq, tileBias_eq, tileBias_eq]
  rfl

/-- The first region's store in the narrower format: one more cast of the same value. -/
theorem first_pay_bf16 (v0 v3 : Vec Ideal S5000x128 .f32) (v5 : Vec Ideal S5000x1 .f32) (v10 : Vec Ideal S128x128 .bf16)
    (v13 : Vec Ideal S128 .f32) (v20 v23 : Vec Ideal S128x128 .bf16) (v27 : Vec Ideal S128 .f32) :
    Gen.k2_pay2 (F := Ideal) v0 v3 v5 v10 v13 v20 v23 v27
      = rect (layer (n := 5000) (d := 128) v0 v3 v5 v10 v13 v20 v23 v27) := by
  unfold Gen.k2_pay2
  exact first_pay_f32 v0 v3 v5 v10 v13 v20 v23 v27

/-- The second region's f32 store: the layer of the blocks, with no rectifier after it. -/
theorem second_pay_f32 (v0 v3 : Vec Ideal S5000x128 .f32) (v5 : Vec Ideal S5000x1 .f32) (v10 : Vec Ideal S128x128 .bf16)
    (v13 : Vec Ideal S128 .f32) (v20 v23 : Vec Ideal S128x128 .bf16) (v27 : Vec Ideal S128 .f32) :
    Gen.k3_pay1 (F := Ideal) v0 v3 v5 v10 v13 v20 v23 v27
      = layer (n := 5000) (d := 128) v0 v3 v5 v10 v13 v20 v23 v27 := by
  unfold Gen.k3_pay1
  dsimp only
  rw [tileScaleCol_eq v3 v5, shapeCast_self v0, shapeCast_self v10, shapeCast_self v20, shapeCast_self v23,
    blockMm_eq, blockMm_eq, blockMm_eq, tileBias_eq, tileBias_eq]
  rfl

/-! ## Rows of a block against rows of the arrays -/

/-- The zero offsets of a rank-2 whole-block access, however they are spelt. -/
theorem hz2 : (![0, 0] : Fin 2 → Nat) = fun _ => 0 := funext fun a => by fin_cases a <;> rfl
/-- The zero offset of a rank-1 whole-block access. -/
theorem hz1 : (![0] : Fin 1 → Nat) = fun _ => 0 := funext fun a => by fin_cases a; rfl

/-- Row r of the layer on blocks of 5000 rows that hold rows 5000·k + r of the node-indexed operands is row 5000·k + r
    of the layer on all the rows (the weights and biases being the same). -/
theorem layer_block (X S : Mat 150000 128) (I : Mat 150000 1) (vw : Mat 128 128) (vb : Row 128) (wt wb : Mat 128 128)
    (b : Row 128) (x0 x1 : Mat 5000 128) (x2 : Mat 5000 1) (k : Nat)
    (h0 : ∀ (y : S5000x128.Idx) (i : S150000x128.Idx), (i 0).val = 5000 * k + (y 0).val → (i 1).val = (y 1).val → x0 y = X i)
    (h1 : ∀ (y : S5000x128.Idx) (i : S150000x128.Idx), (i 0).val = 5000 * k + (y 0).val → (i 1).val = (y 1).val → x1 y = S i)
    (h2 : ∀ (y : S5000x1.Idx) (i : S150000x1.Idx), (i 0).val = 5000 * k + (y 0).val → (i 1).val = (y 1).val → x2 y = I i)
    (y : S5000x128.Idx) (i : S150000x128.Idx) (hi0 : (i 0).val = 5000 * k + (y 0).val) (hi1 : (i 1).val = (y 1).val) :
    layer x0 x1 x2 vw vb wt wb b y = layer X S I vw vb wt wb b i := by
  obtain ⟨r, q, rfl⟩ : ∃ (r : Fin 5000) (q : Fin 128), y = ix2 r q := ⟨y 0, y 1, eq_ix2 y⟩
  obtain ⟨p, q', rfl⟩ : ∃ (p : Fin 150000) (q' : Fin 128), i = ix2 p q' := ⟨i 0, i 1, eq_ix2 i⟩
  obtain rfl : q' = q := Fin.ext hi1
  exact layer_rows X S x0 x1 I x2 vw vb wt wb b r p (fun j => h0 (ix2 r j) (ix2 p j) hi0 rfl)
    (fun j => h1 (ix2 r j) (ix2 p j) hi0 rfl) (h2 (ix2 r 0) (ix2 p 0) hi0 rfl) q'

/-! ## The first layer's region -/

/-- The printed index maps of the region's windows, decided once over its 30 grid points: the row-blocked windows (the
    node features, the summed neighbour features, the column of factors, and the two outputs) are at block row t and
    block column 0 at point t; the weights and the biases are at block 0 throughout. -/
theorem idx2 : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = 0 ∧ win2_3.index t (1 : Fin 2) = 0
    ∧ win2_4.index t (0 : Fin 1) = 0
    ∧ win2_5.index t (0 : Fin 2) = 0 ∧ win2_5.index t (1 : Fin 2) = 0
    ∧ win2_6.index t (0 : Fin 2) = 0 ∧ win2_6.index t (1 : Fin 2) = 0
    ∧ win2_7.index t (0 : Fin 1) = 0
    ∧ win2_8.index t (0 : Fin 2) = t.val ∧ win2_8.index t (1 : Fin 2) = 0
    ∧ win2_9.index t (0 : Fin 2) = t.val ∧ win2_9.index t (1 : Fin 2) = 0 :=
  (by decide +kernel : ∀ t : Fin grid2.N, _)

/-- The body's one store covers the whole output block, so the block ends holding that store's value. -/
theorem out2_8_eq (x0 x1 : Vec Ideal S5000x128 .f32) (x2 : Vec Ideal S5000x1 .f32) (x3 : Vec Ideal S128x128 .bf16)
    (x4 : Vec Ideal S128 .f32) (x5 x6 : Vec Ideal S128x128 .bf16) (x7 : Vec Ideal S128 .f32) :
    out2_8 (F := Ideal) x0 x1 x2 x3 x4 x5 x6 x7 = Gen.k2_pay1 x0 x1 x2 x3 x4 x5 x6 x7 := by
  unfold out2_8
  rw [View.canon_unit_zero hz2]
  simp only [View.ld_unit_zero (S := S5000x128) hz2, View.ld_unit_zero (S := S5000x1) hz2,
    View.ld_unit_zero (S := S128x128) hz2, View.ld_unit_zero (S := S128) hz1]

/-- The body's one store covers the whole output block, so the block ends holding that store's value. -/
theorem out2_9_eq (x0 x1 : Vec Ideal S5000x128 .f32) (x2 : Vec Ideal S5000x1 .f32) (x3 : Vec Ideal S128x128 .bf16)
    (x4 : Vec Ideal S128 .f32) (x5 x6 : Vec Ideal S128x128 .bf16) (x7 : Vec Ideal S128 .f32) :
    out2_9 (F := Ideal) x0 x1 x2 x3 x4 x5 x6 x7 = Gen.k2_pay2 x0 x1 x2 x3 x4 x5 x6 x7 := by
  unfold out2_9
  rw [View.canon_unit_zero hz2]
  simp only [View.ld_unit_zero (S := S5000x128) hz2, View.ld_unit_zero (S := S5000x1) hz2,
    View.ld_unit_zero (S := S128x128) hz2, View.ld_unit_zero (S := S128) hz1]

section
variable (V : (c : Dev nD) → (b : Ref sig .tc) → Buf (Elt Ideal) ((c : Thread nD τ).loc b))

/-- Entry (r, q) of the block of the node features at point t is entry (5000·t + r, q) of the array. -/
theorem blk2_0 (c : Dev nD) (t : Fin cfg2.N) (y : S5000x128.Idx) (i : S150000x128.Idx)
    (h0 : (i 0).val = 5000 * t.val + (y 0).val) (h1 : (i 1).val = (y 1).val) :
    (iblk2 V c 0 t : Vec Ideal S5000x128 .f32) y = (V c main_v57 : S150000x128.Idx → EReal) i := by
  obtain ⟨e0, e1, -⟩ := idx2 t
  unfold iblk2
  rw [View.read_apply]
  show V c main_v57 _ = V c main_v57 _
  congr 1
  funext a
  apply Fin.ext
  match a with
  | ⟨0, _⟩ => show win2_0.index t 0 * 5000 + 1 * (y 0).val = (i 0).val; rw [e0, h0]; omega
  | ⟨1, _⟩ => show win2_0.index t 1 * 128 + 1 * (y 1).val = (i 1).val; rw [e1, h1]; omega

/-- Entry (r, q) of the block of the summed neighbour features at point t is entry (5000·t + r, q) of the array. -/
theorem blk2_1 (c : Dev nD) (t : Fin cfg2.N) (y : S5000x128.Idx) (i : S150000x128.Idx)
    (h0 : (i 0).val = 5000 * t.val + (y 0).val) (h1 : (i 1).val = (y 1).val) :
    (iblk2 V c 1 t : Vec Ideal S5000x128 .f32) y = (V c main_v82 : S150000x128.Idx → EReal) i := by
  obtain ⟨-, -, e0, e1, -⟩ := idx2 t
  unfold iblk2
  rw [View.read_apply]
  show V c main_v82 _ = V c main_v82 _
  congr 1
  funext a
  apply Fin.ext
  match a with
  | ⟨0, _⟩ => show win2_1.index t 0 * 5000 + 1 * (y 0).val = (i 0).val; rw [e0, h0]; omega
  | ⟨1, _⟩ => show win2_1.index t 1 * 128 + 1 * (y 1).val = (i 1).val; rw [e1, h1]; omega

/-- Entry (r, q) of the block of the column of factors at point t is entry (5000·t + r, q) of the array. -/
theorem blk2_2 (c : Dev nD) (t : Fin cfg2.N) (y : S5000x1.Idx) (i : S150000x1.Idx)
    (h0 : (i 0).val = 5000 * t.val + (y 0).val) (h1 : (i 1).val = (y 1).val) :
    (iblk2 V c 2 t : Vec Ideal S5000x1 .f32) y = (V c main_v71 : S150000x1.Idx → EReal) i := by
  obtain ⟨-, -, -, -, e0, e1, -⟩ := idx2 t
  unfold iblk2
  rw [View.read_apply]
  show V c main_v71 _ = V c main_v71 _
  congr 1
  funext a
  apply Fin.ext
  match a with
  | ⟨0, _⟩ => show win2_2.index t 0 * 5000 + 1 * (y 0).val = (i 0).val; rw [e0, h0]; omega
  | ⟨1, _⟩ => show win2_2.index t 1 * 1 + 1 * (y 1).val = (i 1).val; rw [e1, h1]; omega

/-- The block of the first weight is the whole array at every point. -/
theorem blk2_3 (c : Dev nD) (t : Fin cfg2.N) :
    (iblk2 V c 3 t : Vec Ideal S128x128 .bf16) = (V c main_v83 : S128x128.Idx → EReal) := by
  obtain ⟨-, -, -, -, -, -, e0, e1, -⟩ := idx2 t
  funext y
  unfold iblk2
  rw [View.read_apply]
  show V c main_v83 _ = V c main_v83 _
  congr 1
  funext a
  apply Fin.ext
  match a with
  | ⟨0, _⟩ => show win2_3.index t 0 * 128 + 1 * (y 0).val = (y 0).val; rw [e0]; omega
  | ⟨1, _⟩ => show win2_3.index t 1 * 128 + 1 * (y 1).val = (y 1).val; rw [e1]; omega

/-- The block of the first bias is the whole array at every point. -/
theorem blk2_4 (c : Dev nD) (t : Fin cfg2.N) :
    (iblk2 V c 4 t : Vec Ideal S128 .f32) = (V c main_arg19 : S128.Idx → EReal) := by
  obtain ⟨-, -, -, -, -, -, -, -, e0, -⟩ := idx2 t
  funext y
  unfold iblk2
  rw [View.read_apply]
  show V c main_arg19 _ = V c main_arg19 _
  congr 1
  funext a
  apply Fin.ext
  match a with
  | ⟨0, _⟩ => show win2_4.index t 0 * 128 + 1 * (y 0).val = (y 0).val; rw [e0]; omega

/-- The block of the upper half of the second weight is the whole array at every point. -/
theorem blk2_5 (c : Dev nD) (t : Fin cfg2.N) :
    (iblk2 V c 5 t : Vec Ideal S128x128 .bf16) = (V c main_v85 : S128x128.Idx → EReal) := by
  obtain ⟨-, -, -, -, -, -, -, -, -, e0, e1, -⟩ := idx2 t
  funext y
  unfold iblk2
  rw [View.read_apply]
  show V c main_v85 _ = V c main_v85 _
  congr 1
  funext a
  apply Fin.ext
  match a with
  | ⟨0, _⟩ => show win2_5.index t 0 * 128 + 1 * (y 0).val = (y 0).val; rw [e0]; omega
  | ⟨1, _⟩ => show win2_5.index t 1 * 128 + 1 * (y 1).val = (y 1).val; rw [e1]; omega

/-- The block of the lower half of the second weight is the whole array at every point. -/
theorem blk2_6 (c : Dev nD) (t : Fin cfg2.N) :
    (iblk2 V c 6 t : Vec Ideal S128x128 .bf16) = (V c main_v87 : S128x128.Idx → EReal) := by
  obtain ⟨-, -, -, -, -, -, -, -, -, -, -, e0, e1, -⟩ := idx2 t
  funext y
  unfold iblk2
  rw [View.read_apply]
  show V c main_v87 _ = V c main_v87 _
  congr 1
  funext a
  apply Fin.ext
  match a with
  | ⟨0, _⟩ => show win2_6.index t 0 * 128 + 1 * (y 0).val = (y 0).val; rw [e0]; omega
  | ⟨1, _⟩ => show win2_6.index t 1 * 128 + 1 * (y 1).val = (y 1).val; rw [e1]; omega

/-- The block of the second bias is the whole array at every point. -/
theorem blk2_7 (c : Dev nD) (t : Fin cfg2.N) :
    (iblk2 V c 7 t : Vec Ideal S128 .f32) = (V c main_arg15 : S128.Idx → EReal) := by
  obtain ⟨-, -, -, -, -, -, -, -, -, -, -, -, -, e0, -⟩ := idx2 t
  funext y
  unfold iblk2
  rw [View.read_apply]
  show V c main_arg15 _ = V c main_arg15 _
  congr 1
  funext a
  apply Fin.ext
  match a with
  | ⟨0, _⟩ => show win2_7.index t 0 * 128 + 1 * (y 0).val = (y 0).val; rw [e0]; omega

/-- What point t writes back into the f32 output is block t of the rectified layer of the whole arrays: the block is the
    formula of the input blocks, the weights' and biases' blocks are the arrays, and row r of the formula on the
    row blocks is row 5000·t + r of the formula on all rows. -/
theorem flushed2_8 (c : Dev nD) (t : Fin cfg2.N) :
    (dat2 (F := Ideal) V c).flushed 8 t = ((cfg2.win 8).blk t).view.read (Elt Ideal)
      (rect (layer (V c main_v57) (V c main_v82) (V c main_v71) (V c main_v83) (V c main_arg19) (V c main_v85)
        (V c main_v87) (V c main_arg15)) : S150000x128.Idx → EReal) := by
  show (cfg2.win 8).cut (grid2.coords t) ((dat2 V c).after 8 t) = _
  rw [after2_8, out2_8_eq (iblk2 V c 0 t) (iblk2 V c 1 t) (iblk2 V c 2 t) (iblk2 V c 3 t) (iblk2 V c 4 t) (iblk2 V c 5 t)
      (iblk2 V c 6 t) (iblk2 V c 7 t),
    first_pay_f32 (iblk2 V c 0 t) (iblk2 V c 1 t) (iblk2 V c 2 t) (iblk2 V c 3 t) (iblk2 V c 4 t) (iblk2 V c 5 t)
      (iblk2 V c 6 t) (iblk2 V c 7 t),
    blk2_3 V c t, blk2_4 V c t, blk2_5 V c t, blk2_6 V c t, blk2_7 V c t]
  obtain ⟨-, -, -, -, -, -, -, -, -, -, -, -, -, -, e0, e1, -⟩ := idx2 t
  funext j
  refine rect_congr _ _ _ _ (layer_block (V c main_v57) (V c main_v82) (V c main_v71) (V c main_v83) (V c main_arg19)
    (V c main_v85) (V c main_v87) (V c main_arg15) (iblk2 V c 0 t) (iblk2 V c 1 t) (iblk2 V c 2 t) t.val
    (blk2_0 V c t) (blk2_1 V c t) (blk2_2 V c t) j _ ?_ ?_)
  · show win2_8.index t 0 * 5000 + 1 * (j 0).val = 5000 * t.val + (j 0).val; rw [e0]; omega
  · show win2_8.index t 1 * 128 + 1 * (j 1).val = (j 1).val; rw [e1]; omega

/-- An index of the f32 output array is in point t's block iff each coordinate is in the block's range on its axis. -/
theorem mem_blk2_8 (t : Fin cfg2.N) (i : S150000x128.Idx) :
    i ∈ ((cfg2.win 8).blk t).view.set ↔ ∀ a : Fin 2, win2_8.index t a * S5000x128.size a ≤ (i a).val
      ∧ (i a).val < win2_8.index t a * S5000x128.size a + S5000x128.size a := by
  show i ∈ ((View.whole main_v88_0).slice (win2_8.rect t)).set ↔ _
  rw [View.set_slice_whole, Rect.mem_set_unit]
  exact Iff.rfl

/-- Row r of the f32 output array is written back by the point r / 5000: the 30 blocks of 5000 rows tile the 150000 rows. -/
theorem covered2_8 (i : S150000x128.Idx) :
    ∃ t : Fin cfg2.N, (cfg2.win 8).flush t = true ∧ i ∈ ((cfg2.win 8).blk t).view.set := by
  have hi0 : (i 0).val < 150000 := (i 0).isLt
  have hi1 : (i 1).val < 128 := (i 1).isLt
  have hN : cfg2.N = 30 := N_2
  have ht : (i 0).val / 5000 < cfg2.N := by rw [hN]; omega
  obtain ⟨-, -, -, -, -, -, -, -, -, -, -, -, -, -, e0, e1, -⟩ := idx2 ⟨(i 0).val / 5000, ht⟩
  refine ⟨⟨(i 0).val / 5000, ht⟩, flush2_8 _, ?_⟩
  rw [mem_blk2_8]
  intro a
  match a with
  | ⟨0, _⟩ =>
    show win2_8.index ⟨(i 0).val / 5000, ht⟩ 0 * 5000 ≤ (i 0).val
      ∧ (i 0).val < win2_8.index ⟨(i 0).val / 5000, ht⟩ 0 * 5000 + 5000
    rw [e0]
    show (i 0).val / 5000 * 5000 ≤ (i 0).val ∧ (i 0).val < (i 0).val / 5000 * 5000 + 5000
    omega
  | ⟨1, _⟩ =>
    show win2_8.index ⟨(i 0).val / 5000, ht⟩ 1 * 128 ≤ (i 1).val
      ∧ (i 1).val < win2_8.index ⟨(i 0).val / 5000, ht⟩ 1 * 128 + 128
    rw [e1]
    omega

/-- The f32 output array after the region: the rectified layer of the arrays the region found. -/
theorem first_f32 (c : Dev nD) :
    (dat2 (F := Ideal) V c).arrAt 8 cfg2.N
      = rect (layer (V c main_v57) (V c main_v82) (V c main_v71) (V c main_v83) (V c main_arg19) (V c main_v85)
        (V c main_v87) (V c main_arg15)) :=
  (dat2 (F := Ideal) V c).arrAt_eq_of_cover 8 _ (fun t _ => flushed2_8 V c t) covered2_8

/-- What point t writes back into the narrower-format output is block t of the rectified layer of the whole arrays: the block is the
    formula of the input blocks, the weights' and biases' blocks are the arrays, and row r of the formula on the
    row blocks is row 5000·t + r of the formula on all rows. -/
theorem flushed2_9 (c : Dev nD) (t : Fin cfg2.N) :
    (dat2 (F := Ideal) V c).flushed 9 t = ((cfg2.win 9).blk t).view.read (Elt Ideal)
      (rect (layer (V c main_v57) (V c main_v82) (V c main_v71) (V c main_v83) (V c main_arg19) (V c main_v85)
        (V c main_v87) (V c main_arg15)) : S150000x128.Idx → EReal) := by
  show (cfg2.win 9).cut (grid2.coords t) ((dat2 V c).after 9 t) = _
  rw [after2_9, out2_9_eq (iblk2 V c 0 t) (iblk2 V c 1 t) (iblk2 V c 2 t) (iblk2 V c 3 t) (iblk2 V c 4 t) (iblk2 V c 5 t)
      (iblk2 V c 6 t) (iblk2 V c 7 t),
    first_pay_bf16 (iblk2 V c 0 t) (iblk2 V c 1 t) (iblk2 V c 2 t) (iblk2 V c 3 t) (iblk2 V c 4 t) (iblk2 V c 5 t)
      (iblk2 V c 6 t) (iblk2 V c 7 t),
    blk2_3 V c t, blk2_4 V c t, blk2_5 V c t, blk2_6 V c t, blk2_7 V c t]
  obtain ⟨-, -, -, -, -, -, -, -, -, -, -, -, -, -, -, -, e0, e1⟩ := idx2 t
  funext j
  refine rect_congr _ _ _ _ (layer_block (V c main_v57) (V c main_v82) (V c main_v71) (V c main_v83) (V c main_arg19)
    (V c main_v85) (V c main_v87) (V c main_arg15) (iblk2 V c 0 t) (iblk2 V c 1 t) (iblk2 V c 2 t) t.val
    (blk2_0 V c t) (blk2_1 V c t) (blk2_2 V c t) j _ ?_ ?_)
  · show win2_9.index t 0 * 5000 + 1 * (j 0).val = 5000 * t.val + (j 0).val; rw [e0]; omega
  · show win2_9.index t 1 * 128 + 1 * (j 1).val = (j 1).val; rw [e1]; omega

/-- An index of the narrower-format output array is in point t's block iff each coordinate is in the block's range on its axis. -/
theorem mem_blk2_9 (t : Fin cfg2.N) (i : S150000x128.Idx) :
    i ∈ ((cfg2.win 9).blk t).view.set ↔ ∀ a : Fin 2, win2_9.index t a * S5000x128.size a ≤ (i a).val
      ∧ (i a).val < win2_9.index t a * S5000x128.size a + S5000x128.size a := by
  show i ∈ ((View.whole main_v88_1).slice (win2_9.rect t)).set ↔ _
  rw [View.set_slice_whole, Rect.mem_set_unit]
  exact Iff.rfl

/-- Row r of the narrower-format output array is written back by the point r / 5000: the 30 blocks of 5000 rows tile the 150000 rows. -/
theorem covered2_9 (i : S150000x128.Idx) :
    ∃ t : Fin cfg2.N, (cfg2.win 9).flush t = true ∧ i ∈ ((cfg2.win 9).blk t).view.set := by
  have hi0 : (i 0).val < 150000 := (i 0).isLt
  have hi1 : (i 1).val < 128 := (i 1).isLt
  have hN : cfg2.N = 30 := N_2
  have ht : (i 0).val / 5000 < cfg2.N := by rw [hN]; omega
  obtain ⟨-, -, -, -, -, -, -, -, -, -, -, -, -, -, -, -, e0, e1⟩ := idx2 ⟨(i 0).val / 5000, ht⟩
  refine ⟨⟨(i 0).val / 5000, ht⟩, flush2_9 _, ?_⟩
  rw [mem_blk2_9]
  intro a
  match a with
  | ⟨0, _⟩ =>
    show win2_9.index ⟨(i 0).val / 5000, ht⟩ 0 * 5000 ≤ (i 0).val
      ∧ (i 0).val < win2_9.index ⟨(i 0).val / 5000, ht⟩ 0 * 5000 + 5000
    rw [e0]
    show (i 0).val / 5000 * 5000 ≤ (i 0).val ∧ (i 0).val < (i 0).val / 5000 * 5000 + 5000
    omega
  | ⟨1, _⟩ =>
    show win2_9.index ⟨(i 0).val / 5000, ht⟩ 1 * 128 ≤ (i 1).val
      ∧ (i 1).val < win2_9.index ⟨(i 0).val / 5000, ht⟩ 1 * 128 + 128
    rw [e1]
    omega

/-- The narrower-format output array after the region: the rectified layer of the arrays the region found. -/
theorem first_bf16 (c : Dev nD) :
    (dat2 (F := Ideal) V c).arrAt 9 cfg2.N
      = rect (layer (V c main_v57) (V c main_v82) (V c main_v71) (V c main_v83) (V c main_arg19) (V c main_v85)
        (V c main_v87) (V c main_arg15)) :=
  (dat2 (F := Ideal) V c).arrAt_eq_of_cover 9 _ (fun t _ => flushed2_9 V c t) covered2_9

end

/-! ## The second layer's region -/

/-- The printed index maps of the region's windows, decided once over its 30 grid points: the row-blocked windows (the
    node features, the summed neighbour features, the column of factors, and the two outputs) are at block row t and
    block column 0 at point t; the weights and the biases are at block 0 throughout. -/
theorem idx3 : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 2) = 0 ∧ win3_3.index t (1 : Fin 2) = 0
    ∧ win3_4.index t (0 : Fin 1) = 0
    ∧ win3_5.index t (0 : Fin 2) = 0 ∧ win3_5.index t (1 : Fin 2) = 0
    ∧ win3_6.index t (0 : Fin 2) = 0 ∧ win3_6.index t (1 : Fin 2) = 0
    ∧ win3_7.index t (0 : Fin 1) = 0
    ∧ win3_8.index t (0 : Fin 2) = t.val ∧ win3_8.index t (1 : Fin 2) = 0
    ∧ win3_9.index t (0 : Fin 2) = t.val ∧ win3_9.index t (1 : Fin 2) = 0 :=
  (by decide +kernel : ∀ t : Fin grid3.N, _)

/-- The body's one store covers the whole output block, so the block ends holding that store's value. -/
theorem out3_8_eq (x0 x1 : Vec Ideal S5000x128 .f32) (x2 : Vec Ideal S5000x1 .f32) (x3 : Vec Ideal S128x128 .bf16)
    (x4 : Vec Ideal S128 .f32) (x5 x6 : Vec Ideal S128x128 .bf16) (x7 : Vec Ideal S128 .f32) :
    out3_8 (F := Ideal) x0 x1 x2 x3 x4 x5 x6 x7 = Gen.k3_pay1 x0 x1 x2 x3 x4 x5 x6 x7 := by
  unfold out3_8
  rw [View.canon_unit_zero hz2]
  simp only [View.ld_unit_zero (S := S5000x128) hz2, View.ld_unit_zero (S := S5000x1) hz2,
    View.ld_unit_zero (S := S128x128) hz2, View.ld_unit_zero (S := S128) hz1]

section
variable (V : (c : Dev nD) → (b : Ref sig .tc) → Buf (Elt Ideal) ((c : Thread nD τ).loc b))

/-- Entry (r, q) of the block of the node features at point t is entry (5000·t + r, q) of the array. -/
theorem blk3_0 (c : Dev nD) (t : Fin cfg3.N) (y : S5000x128.Idx) (i : S150000x128.Idx)
    (h0 : (i 0).val = 5000 * t.val + (y 0).val) (h1 : (i 1).val = (y 1).val) :
    (iblk3 V c 0 t : Vec Ideal S5000x128 .f32) y = (V c main_v88_0 : S150000x128.Idx → EReal) i := by
  obtain ⟨e0, e1, -⟩ := idx3 t
  unfold iblk3
  rw [View.read_apply]
  show V c main_v88_0 _ = V c main_v88_0 _
  congr 1
  funext a
  apply Fin.ext
  match a with
  | ⟨0, _⟩ => show win3_0.index t 0 * 5000 + 1 * (y 0).val = (i 0).val; rw [e0, h0]; omega
  | ⟨1, _⟩ => show win3_0.index t 1 * 128 + 1 * (y 1).val = (i 1).val; rw [e1, h1]; omega

/-- Entry (r, q) of the block of the summed neighbour features at point t is entry (5000·t + r, q) of the array. -/
theorem blk3_1 (c : Dev nD) (t : Fin cfg3.N) (y : S5000x128.Idx) (i : S150000x128.Idx)
    (h0 : (i 0).val = 5000 * t.val + (y 0).val) (h1 : (i 1).val = (y 1).val) :
    (iblk3 V c 1 t : Vec Ideal S5000x128 .f32) y = (V c main_v99 : S150000x128.Idx → EReal) i := by
  obtain ⟨-, -, e0, e1, -⟩ := idx3 t
  unfold iblk3
  rw [View.read_apply]
  show V c main_v99 _ = V c main_v99 _
  congr 1
  funext a
  apply Fin.ext
  match a with
  | ⟨0, _⟩ => show win3_1.index t 0 * 5000 + 1 * (y 0).val = (i 0).val; rw [e0, h0]; omega
  | ⟨1, _⟩ => show win3_1.index t 1 * 128 + 1 * (y 1).val = (i 1).val; rw [e1, h1]; omega

/-- Entry (r, q) of the block of the column of factors at point t is entry (5000·t + r, q) of the array. -/
theorem blk3_2 (c : Dev nD) (t : Fin cfg3.N) (y : S5000x1.Idx) (i : S150000x1.Idx)
    (h0 : (i 0).val = 5000 * t.val + (y 0).val) (h1 : (i 1).val = (y 1).val) :
    (iblk3 V c 2 t : Vec Ideal S5000x1 .f32) y = (V c main_v71 : S150000x1.Idx → EReal) i := by
  obtain ⟨-, -, -, -, e0, e1, -⟩ := idx3 t
  unfold iblk3
  rw [View.read_apply]
  show V c main_v71 _ = V c main_v71 _
  congr 1
  funext a
  apply Fin.ext
  match a with
  | ⟨0, _⟩ => show win3_2.index t 0 * 5000 + 1 * (y 0).val = (i 0).val; rw [e0, h0]; omega
  | ⟨1, _⟩ => show win3_2.index t 1 * 1 + 1 * (y 1).val = (i 1).val; rw [e1, h1]; omega

/-- The block of the first weight is the whole array at every point. -/
theorem blk3_3 (c : Dev nD) (t : Fin cfg3.N) :
    (iblk3 V c 3 t : Vec Ideal S128x128 .bf16) = (V c main_v100 : S128x128.Idx → EReal) := by
  obtain ⟨-, -, -, -, -, -, e0, e1, -⟩ := idx3 t
  funext y
  unfold iblk3
  rw [View.read_apply]
  show V c main_v100 _ = V c main_v100 _
  congr 1
  funext a
  apply Fin.ext
  match a with
  | ⟨0, _⟩ => show win3_3.index t 0 * 128 + 1 * (y 0).val = (y 0).val; rw [e0]; omega
  | ⟨1, _⟩ => show win3_3.index t 1 * 128 + 1 * (y 1).val = (y 1).val; rw [e1]; omega

/-- The block of the first bias is the whole array at every point. -/
theorem blk3_4 (c : Dev nD) (t : Fin cfg3.N) :
    (iblk3 V c 4 t : Vec Ideal S128 .f32) = (V c main_arg21 : S128.Idx → EReal) := by
  obtain ⟨-, -, -, -, -, -, -, -, e0, -⟩ := idx3 t
  funext y
  unfold iblk3
  rw [View.read_apply]
  show V c main_arg21 _ = V c main_arg21 _
  congr 1
  funext a
  apply Fin.ext
  match a with
  | ⟨0, _⟩ => show win3_4.index t 0 * 128 + 1 * (y 0).val = (y 0).val; rw [e0]; omega

/-- The block of the upper half of the second weight is the whole array at every point. -/
theorem blk3_5 (c : Dev nD) (t : Fin cfg3.N) :
    (iblk3 V c 5 t : Vec Ideal S128x128 .bf16) = (V c main_v102 : S128x128.Idx → EReal) := by
  obtain ⟨-, -, -, -, -, -, -, -, -, e0, e1, -⟩ := idx3 t
  funext y
  unfold iblk3
  rw [View.read_apply]
  show V c main_v102 _ = V c main_v102 _
  congr 1
  funext a
  apply Fin.ext
  match a with
  | ⟨0, _⟩ => show win3_5.index t 0 * 128 + 1 * (y 0).val = (y 0).val; rw [e0]; omega
  | ⟨1, _⟩ => show win3_5.index t 1 * 128 + 1 * (y 1).val = (y 1).val; rw [e1]; omega

/-- The block of the lower half of the second weight is the whole array at every point. -/
theorem blk3_6 (c : Dev nD) (t : Fin cfg3.N) :
    (iblk3 V c 6 t : Vec Ideal S128x128 .bf16) = (V c main_v104 : S128x128.Idx → EReal) := by
  obtain ⟨-, -, -, -, -, -, -, -, -, -, -, e0, e1, -⟩ := idx3 t
  funext y
  unfold iblk3
  rw [View.read_apply]
  show V c main_v104 _ = V c main_v104 _
  congr 1
  funext a
  apply Fin.ext
  match a with
  | ⟨0, _⟩ => show win3_6.index t 0 * 128 + 1 * (y 0).val = (y 0).val; rw [e0]; omega
  | ⟨1, _⟩ => show win3_6.index t 1 * 128 + 1 * (y 1).val = (y 1).val; rw [e1]; omega

/-- The block of the second bias is the whole array at every point. -/
theorem blk3_7 (c : Dev nD) (t : Fin cfg3.N) :
    (iblk3 V c 7 t : Vec Ideal S128 .f32) = (V c main_arg17 : S128.Idx → EReal) := by
  obtain ⟨-, -, -, -, -, -, -, -, -, -, -, -, -, e0, -⟩ := idx3 t
  funext y
  unfold iblk3
  rw [View.read_apply]
  show V c main_arg17 _ = V c main_arg17 _
  congr 1
  funext a
  apply Fin.ext
  match a with
  | ⟨0, _⟩ => show win3_7.index t 0 * 128 + 1 * (y 0).val = (y 0).val; rw [e0]; omega

/-- What point t writes back into the f32 output is block t of the layer of the whole arrays: the block is the
    formula of the input blocks, the weights' and biases' blocks are the arrays, and row r of the formula on the
    row blocks is row 5000·t + r of the formula on all rows. -/
theorem flushed3_8 (c : Dev nD) (t : Fin cfg3.N) :
    (dat3 (F := Ideal) V c).flushed 8 t = ((cfg3.win 8).blk t).view.read (Elt Ideal)
      (layer (V c main_v88_0) (V c main_v99) (V c main_v71) (V c main_v100) (V c main_arg21) (V c main_v102)
        (V c main_v104) (V c main_arg17) : S150000x128.Idx → EReal) := by
  show (cfg3.win 8).cut (grid3.coords t) ((dat3 V c).after 8 t) = _
  rw [after3_8, out3_8_eq (iblk3 V c 0 t) (iblk3 V c 1 t) (iblk3 V c 2 t) (iblk3 V c 3 t) (iblk3 V c 4 t) (iblk3 V c 5 t)
      (iblk3 V c 6 t) (iblk3 V c 7 t),
    second_pay_f32 (iblk3 V c 0 t) (iblk3 V c 1 t) (iblk3 V c 2 t) (iblk3 V c 3 t) (iblk3 V c 4 t) (iblk3 V c 5 t)
      (iblk3 V c 6 t) (iblk3 V c 7 t),
    blk3_3 V c t, blk3_4 V c t, blk3_5 V c t, blk3_6 V c t, blk3_7 V c t]
  obtain ⟨-, -, -, -, -, -, -, -, -, -, -, -, -, -, e0, e1, -⟩ := idx3 t
  funext j
  refine layer_block (V c main_v88_0) (V c main_v99) (V c main_v71) (V c main_v100) (V c main_arg21)
    (V c main_v102) (V c main_v104) (V c main_arg17) (iblk3 V c 0 t) (iblk3 V c 1 t) (iblk3 V c 2 t) t.val
    (blk3_0 V c t) (blk3_1 V c t) (blk3_2 V c t) j _ ?_ ?_
  · show win3_8.index t 0 * 5000 + 1 * (j 0).val = 5000 * t.val + (j 0).val; rw [e0]; omega
  · show win3_8.index t 1 * 128 + 1 * (j 1).val = (j 1).val; rw [e1]; omega

/-- An index of the f32 output array is in point t's block iff each coordinate is in the block's range on its axis. -/
theorem mem_blk3_8 (t : Fin cfg3.N) (i : S150000x128.Idx) :
    i ∈ ((cfg3.win 8).blk t).view.set ↔ ∀ a : Fin 2, win3_8.index t a * S5000x128.size a ≤ (i a).val
      ∧ (i a).val < win3_8.index t a * S5000x128.size a + S5000x128.size a := by
  show i ∈ ((View.whole main_v105_0).slice (win3_8.rect t)).set ↔ _
  rw [View.set_slice_whole, Rect.mem_set_unit]
  exact Iff.rfl

/-- Row r of the f32 output array is written back by the point r / 5000: the 30 blocks of 5000 rows tile the 150000 rows. -/
theorem covered3_8 (i : S150000x128.Idx) :
    ∃ t : Fin cfg3.N, (cfg3.win 8).flush t = true ∧ i ∈ ((cfg3.win 8).blk t).view.set := by
  have hi0 : (i 0).val < 150000 := (i 0).isLt
  have hi1 : (i 1).val < 128 := (i 1).isLt
  have hN : cfg3.N = 30 := N_3
  have ht : (i 0).val / 5000 < cfg3.N := by rw [hN]; omega
  obtain ⟨-, -, -, -, -, -, -, -, -, -, -, -, -, -, e0, e1, -⟩ := idx3 ⟨(i 0).val / 5000, ht⟩
  refine ⟨⟨(i 0).val / 5000, ht⟩, flush3_8 _, ?_⟩
  rw [mem_blk3_8]
  intro a
  match a with
  | ⟨0, _⟩ =>
    show win3_8.index ⟨(i 0).val / 5000, ht⟩ 0 * 5000 ≤ (i 0).val
      ∧ (i 0).val < win3_8.index ⟨(i 0).val / 5000, ht⟩ 0 * 5000 + 5000
    rw [e0]
    show (i 0).val / 5000 * 5000 ≤ (i 0).val ∧ (i 0).val < (i 0).val / 5000 * 5000 + 5000
    omega
  | ⟨1, _⟩ =>
    show win3_8.index ⟨(i 0).val / 5000, ht⟩ 1 * 128 ≤ (i 1).val
      ∧ (i 1).val < win3_8.index ⟨(i 0).val / 5000, ht⟩ 1 * 128 + 128
    rw [e1]
    omega

/-- The f32 output array after the region: the layer of the arrays the region found. -/
theorem second_f32 (c : Dev nD) :
    (dat3 (F := Ideal) V c).arrAt 8 cfg3.N
      = layer (V c main_v88_0) (V c main_v99) (V c main_v71) (V c main_v100) (V c main_arg21) (V c main_v102)
        (V c main_v104) (V c main_arg17) :=
  (dat3 (F := Ideal) V c).arrAt_eq_of_cover 8 _ (fun t _ => flushed3_8 V c t) covered3_8

end

end Cert.KernelIdeal.LayerBlocks

end
-- ==== Proof.LibJoinedProduct.lean ====
/-
  The product of matrices joined side by side with one weight.

  Joining [m, k1], [m, k2] and [m, k3] along the columns gives an [m, K] matrix, K = k1 + k2 + k3, whose entry (p, j)
  is the first piece's for j < k1, the second's at j - k1 for the next k2 columns, the third's at j - k1 - k2 after that.
  Its product with a weight [K, n] is therefore the sum of the three pieces' products with the weight's rows
  0 .. k1, k1 .. k1 + k2 and k1 + k2 .. K: the K-term sum of each entry split into its three runs. The same with
  two pieces. Only that addition is commutative and associative is used.
-/
import proofs.«128228_j51565377356535_2_alg».proof.Proof.LibDenseLayers

noncomputable section

namespace Cert.Layers

open Idealize.ShloMosaic Idealize.ShloMosaic.ValueIdx

variable {α : Type} {m k1 k2 k3 K n : Nat}

/-! ## A joined matrix read at an entry -/

section Three
variable (a1 : (⟨2, ![m, k1]⟩ : Shape).Idx → α) (a2 : (⟨2, ![m, k2]⟩ : Shape).Idx → α) (a3 : (⟨2, ![m, k3]⟩ : Shape).Idx → α)
  (hcat : Shape.Concatenates [⟨2, ![m, k1]⟩, ⟨2, ![m, k2]⟩, ⟨2, ![m, k3]⟩] ⟨2, ![m, K]⟩ 1)

theorem join3_first (p : Fin m) (j : Fin k1) (hj : j.val < K) :
    concatenate ⟨2, ![m, K]⟩ 1 [⟨⟨2, ![m, k1]⟩, a1⟩, ⟨⟨2, ![m, k2]⟩, a2⟩, ⟨⟨2, ![m, k3]⟩, a3⟩] hcat (ix2 p ⟨j.val, hj⟩)
      = a1 (ix2 p j) :=
  concatenate_apply_piece (t := ⟨2, ![m, K]⟩) (1 : Fin 2) [⟨⟨2, ![m, k1]⟩, a1⟩, ⟨⟨2, ![m, k2]⟩, a2⟩, ⟨⟨2, ![m, k3]⟩, a3⟩] hcat _ 0 (by simp) ⟨2, ![m, k1]⟩ a1 rfl rfl 0 rfl (ix2 p j)
    (fun b hb => by match b with
      | ⟨0, _⟩ => rfl
      | ⟨1, _⟩ => exact absurd rfl hb)
    (by show 0 + j.val = j.val; omega)

theorem join3_second (p : Fin m) (j : Fin k2) (hj : k1 + j.val < K) :
    concatenate ⟨2, ![m, K]⟩ 1 [⟨⟨2, ![m, k1]⟩, a1⟩, ⟨⟨2, ![m, k2]⟩, a2⟩, ⟨⟨2, ![m, k3]⟩, a3⟩] hcat (ix2 p ⟨k1 + j.val, hj⟩)
      = a2 (ix2 p j) :=
  concatenate_apply_piece (t := ⟨2, ![m, K]⟩) (1 : Fin 2) [⟨⟨2, ![m, k1]⟩, a1⟩, ⟨⟨2, ![m, k2]⟩, a2⟩, ⟨⟨2, ![m, k3]⟩, a3⟩] hcat _ 1 (by simp) ⟨2, ![m, k2]⟩ a2 rfl rfl k1 (by simp) (ix2 p j)
    (fun b hb => by match b with
      | ⟨0, _⟩ => rfl
      | ⟨1, _⟩ => exact absurd rfl hb)
    rfl

theorem join3_third (p : Fin m) (j : Fin k3) (hj : k1 + k2 + j.val < K) :
    concatenate ⟨2, ![m, K]⟩ 1 [⟨⟨2, ![m, k1]⟩, a1⟩, ⟨⟨2, ![m, k2]⟩, a2⟩, ⟨⟨2, ![m, k3]⟩, a3⟩] hcat (ix2 p ⟨k1 + k2 + j.val, hj⟩)
      = a3 (ix2 p j) :=
  concatenate_apply_piece (t := ⟨2, ![m, K]⟩) (1 : Fin 2) [⟨⟨2, ![m, k1]⟩, a1⟩, ⟨⟨2, ![m, k2]⟩, a2⟩, ⟨⟨2, ![m, k3]⟩, a3⟩] hcat _ 2 (by simp) ⟨2, ![m, k3]⟩ a3 rfl rfl (k1 + k2) (by simp) (ix2 p j)
    (fun b hb => by match b with
      | ⟨0, _⟩ => rfl
      | ⟨1, _⟩ => exact absurd rfl hb)
    rfl

end Three

section Two
variable (a1 : (⟨2, ![m, k1]⟩ : Shape).Idx → α) (a2 : (⟨2, ![m, k2]⟩ : Shape).Idx → α)
  (hcat : Shape.Concatenates [⟨2, ![m, k1]⟩, ⟨2, ![m, k2]⟩] ⟨2, ![m, K]⟩ 1)

theorem join2_first (p : Fin m) (j : Fin k1) (hj : j.val < K) :
    concatenate ⟨2, ![m, K]⟩ 1 [⟨⟨2, ![m, k1]⟩, a1⟩, ⟨⟨2, ![m, k2]⟩, a2⟩] hcat (ix2 p ⟨j.val, hj⟩) = a1 (ix2 p j) :=
  concatenate_apply_piece (t := ⟨2, ![m, K]⟩) (1 : Fin 2) [⟨⟨2, ![m, k1]⟩, a1⟩, ⟨⟨2, ![m, k2]⟩, a2⟩] hcat _ 0 (by simp) ⟨2, ![m, k1]⟩ a1 rfl rfl 0 rfl (ix2 p j)
    (fun b hb => by match b with
      | ⟨0, _⟩ => rfl
      | ⟨1, _⟩ => exact absurd rfl hb)
    (by show 0 + j.val = j.val; omega)

theorem join2_second (p : Fin m) (j : Fin k2) (hj : k1 + j.val < K) :
    concatenate ⟨2, ![m, K]⟩ 1 [⟨⟨2, ![m, k1]⟩, a1⟩, ⟨⟨2, ![m, k2]⟩, a2⟩] hcat (ix2 p ⟨k1 + j.val, hj⟩) = a2 (ix2 p j) :=
  concatenate_apply_piece (t := ⟨2, ![m, K]⟩) (1 : Fin 2) [⟨⟨2, ![m, k1]⟩, a1⟩, ⟨⟨2, ![m, k2]⟩, a2⟩] hcat _ 1 (by simp) ⟨2, ![m, k2]⟩ a2 rfl rfl k1 (by simp) (ix2 p j)
    (fun b hb => by match b with
      | ⟨0, _⟩ => rfl
      | ⟨1, _⟩ => exact absurd rfl hb)
    rfl

end Two

/-! ## A row slab of the weight read at an entry -/

theorem slab_apply (w : (⟨2, ![K, n]⟩ : Shape).Idx → α) (o : Nat) {k : Nat}
    (hs : (⟨2, ![K, n]⟩ : Shape).Slices ![o, 0] ⟨2, ![k, n]⟩) (j : Fin k) (q : Fin n) (hj : o + j.val < K) :
    extractStridedSlice ⟨2, ![k, n]⟩ ![o, 0] w hs (ix2 j q) = w (ix2 ⟨o + j.val, hj⟩ q) :=
  extractStridedSlice_apply _ w hs (ix2 j q) (ix2 ⟨o + j.val, hj⟩ q) fun a => by
    match a with
    | ⟨0, _⟩ => rfl
    | ⟨1, _⟩ => show q.val = 0 + q.val; omega

/-! ## The product of a joined matrix -/

/-- Three pieces: the product with the weight is the sum of the pieces' products with its three row slabs. -/
theorem mm_join3 (o2 o3 : Nat) (hK : k1 + k2 + k3 = K) (ho2 : k1 = o2) (ho3 : k1 + k2 = o3)
    (a1 : Mat m k1) (a2 : Mat m k2) (a3 : Mat m k3) (w : Mat K n)
    (hcat : Shape.Concatenates [⟨2, ![m, k1]⟩, ⟨2, ![m, k2]⟩, ⟨2, ![m, k3]⟩] ⟨2, ![m, K]⟩ 1)
    (hs1 : (⟨2, ![K, n]⟩ : Shape).Slices ![0, 0] ⟨2, ![k1, n]⟩)
    (hs2 : (⟨2, ![K, n]⟩ : Shape).Slices ![o2, 0] ⟨2, ![k2, n]⟩)
    (hs3 : (⟨2, ![K, n]⟩ : Shape).Slices ![o3, 0] ⟨2, ![k3, n]⟩) :
    mm (concatenate ⟨2, ![m, K]⟩ 1 [⟨⟨2, ![m, k1]⟩, a1⟩, ⟨⟨2, ![m, k2]⟩, a2⟩, ⟨⟨2, ![m, k3]⟩, a3⟩] hcat) w
      = fun i => (mm a1 (extractStridedSlice ⟨2, ![k1, n]⟩ ![0, 0] w hs1) i
          + mm a2 (extractStridedSlice ⟨2, ![k2, n]⟩ ![o2, 0] w hs2) i)
          + mm a3 (extractStridedSlice ⟨2, ![k3, n]⟩ ![o3, 0] w hs3) i := by
  subst hK ho2 ho3
  funext i
  obtain ⟨p, q, rfl⟩ : ∃ (p : Fin m) (q : Fin n), i = ix2 p q := ⟨i 0, i 1, eq_ix2 i⟩
  simp only [mm_apply]
  rw [sum_three k1 k2 k3]
  refine congrArg₂ (· + ·) (congrArg₂ (· + ·) (Finset.sum_congr rfl fun j _ => ?_) (Finset.sum_congr rfl fun j _ => ?_))
    (Finset.sum_congr rfl fun j _ => ?_)
  · rw [join3_first a1 a2 a3 hcat p j, slab_apply w 0 hs1 j q (by omega)]
    exact congrArg (fun t => a1 (ix2 p j) * w (ix2 t q)) (Fin.ext (by simp))
  · rw [join3_second a1 a2 a3 hcat p j, slab_apply w k1 hs2 j q (by omega)]
  · rw [join3_third a1 a2 a3 hcat p j, slab_apply w (k1 + k2) hs3 j q (by omega)]

/-- Two pieces: the product with the weight is the sum of the pieces' products with its two row slabs. -/
theorem mm_join2 (o2 : Nat) (hK : k1 + k2 = K) (ho2 : k1 = o2)
    (a1 : Mat m k1) (a2 : Mat m k2) (w : Mat K n)
    (hcat : Shape.Concatenates [⟨2, ![m, k1]⟩, ⟨2, ![m, k2]⟩] ⟨2, ![m, K]⟩ 1)
    (hs1 : (⟨2, ![K, n]⟩ : Shape).Slices ![0, 0] ⟨2, ![k1, n]⟩)
    (hs2 : (⟨2, ![K, n]⟩ : Shape).Slices ![o2, 0] ⟨2, ![k2, n]⟩) :
    mm (concatenate ⟨2, ![m, K]⟩ 1 [⟨⟨2, ![m, k1]⟩, a1⟩, ⟨⟨2, ![m, k2]⟩, a2⟩] hcat) w
      = fun i => mm a1 (extractStridedSlice ⟨2, ![k1, n]⟩ ![0, 0] w hs1) i
          + mm a2 (extractStridedSlice ⟨2, ![k2, n]⟩ ![o2, 0] w hs2) i := by
  subst hK ho2
  funext i
  obtain ⟨p, q, rfl⟩ : ∃ (p : Fin m) (q : Fin n), i = ix2 p q := ⟨i 0, i 1, eq_ix2 i⟩
  simp only [mm_apply]
  rw [sum_two k1 k2]
  refine congrArg₂ (· + ·) (Finset.sum_congr rfl fun j _ => ?_) (Finset.sum_congr rfl fun j _ => ?_)
  · rw [join2_first a1 a2 hcat p j, slab_apply w 0 hs1 j q (by omega)]
    exact congrArg (fun t => a1 (ix2 p j) * w (ix2 t q)) (Fin.ext (by simp))
  · rw [join2_second a1 a2 hcat p j, slab_apply w k1 hs2 j q (by omega)]

end Cert.Layers

end
-- ==== Proof.ReferenceLayers.lean ====
/-
  The dense algebra of the reference program: its two embeddings and its two message-passing layers are the
  shared index formulas embed and layer.

  The reference spells an embedding as a general product of the concatenated table means with a weight, plus a bias
  vector repeated down the rows (broadcast first to one row, then down the rows), plus the identity embedding:
  (cat · w + b) + e.

  It spells a layer as follows. The summed neighbour features s [n, d] are divided, entry by entry, by the degree
  vector deg [n] repeated across the columns (broadcast first to a column [n, 1], then across the d columns); the
  quotient goes through a dense layer and the maximum with a zero constant repeated over the shape; the node's own
  features x and that result are joined side by side into [n, 2d] and multiplied by one weight [2d, d]; a bias is
  added. Three laws join this to the shared formula:
    * on the extended reals a quotient s / deg by a divisor deg ≠ 0 is the product s · (1 / deg), at EVERY extended
      real s, so dividing the rows by deg is scaling them by the column of reciprocals;
    * the product of two matrices joined side by side with a weight is the sum of the two products with the
      weight's upper and lower row slabs (a 2d-term sum split into its two d-term runs: addition is commutative
      and associative);
    * the degree is the maximum of a count and 1, entry by entry, so it is never 0.
-/
import proofs.«128228_j51565377356535_2_alg».proof.Proof.RefStages
import proofs.«128228_j51565377356535_2_alg».proof.Proof.GraphLayers
import proofs.«128228_j51565377356535_2_alg».proof.Proof.LibJoinedProduct

noncomputable section

namespace Cert.ReferenceIdeal.Layers

open Cert.ReferenceIdeal Cert.ReferenceIdeal.Stages Cert.Layers Cert.Net Cert.Graph Cert.LibMatmulPlain
  Idealize.ShloMosaic Idealize.ShloMosaic.ValueIdx

/-! ## For any extents -/

section General

variable {n k d D : Nat}

/-- The column [n, 1] of the reciprocals 1 / deg of a vector deg [n]: the 1.0 word repeated over [n], divided entry
    by entry by deg, laid out as a column. -/
def recipCol (deg : FVec Ideal ⟨1, ![n]⟩ .f32) (h0 : (⟨0, ![]⟩ : Shape).BroadcastsInDim ⟨1, ![n]⟩ ![])
    (h1 : (⟨1, ![n]⟩ : Shape).BroadcastsInDim ⟨2, ![n, 1]⟩ ![0]) : FVec Ideal ⟨2, ![n, 1]⟩ .f32 :=
  broadcastInDim ⟨2, ![n, 1]⟩ ![0] h1
    (Host.divf (broadcastInDim ⟨1, ![n]⟩ ![] h0 (constant (F := Ideal) ⟨0, ![]⟩ .f32 0x3F800000#32)) deg)

/-- A vector [n] laid out as a column [n, 1] reads, in row p, the vector's entry p. -/
theorem col_apply (v : FVec Ideal ⟨1, ![n]⟩ .f32) (h1 : (⟨1, ![n]⟩ : Shape).BroadcastsInDim ⟨2, ![n, 1]⟩ ![0])
    (p : Fin n) : broadcastInDim ⟨2, ![n, 1]⟩ ![0] h1 v (ix2 p (0 : Fin 1)) = v (ix1 p) :=
  broadcastInDim_apply _ h1 v (ix2 p (0 : Fin 1)) (ix1 p) fun ax => by
    match ax with
    | ⟨0, _⟩ => show p.val = if n = 1 then 0 else p.val; split_ifs with h <;> omega

/-- A column [n, 1] repeated across d columns reads, at (p, q), the column's row p. -/
theorem colBcast_apply (c : FVec Ideal ⟨2, ![n, 1]⟩ .f32)
    (h2 : (⟨2, ![n, 1]⟩ : Shape).BroadcastsInDim ⟨2, ![n, d]⟩ ![0, 1]) (p : Fin n) (q : Fin d) :
    broadcastInDim ⟨2, ![n, d]⟩ ![0, 1] h2 c (ix2 p q) = c (ix2 p (0 : Fin 1)) :=
  broadcastInDim_apply _ h2 c (ix2 p q) (ix2 p (0 : Fin 1)) fun ax => by
    match ax with
    | ⟨0, _⟩ => show p.val = if n = 1 then 0 else p.val; split_ifs with h <;> omega
    | ⟨1, _⟩ => show (0 : Nat) = if (1 : Nat) = 1 then 0 else q.val; rw [if_pos rfl]

/-- Row p of the column of reciprocals is (the value of the 1.0 word) / deg p. -/
theorem recipCol_apply (deg : FVec Ideal ⟨1, ![n]⟩ .f32) (h0 : (⟨0, ![]⟩ : Shape).BroadcastsInDim ⟨1, ![n]⟩ ![])
    (h1 : (⟨1, ![n]⟩ : Shape).BroadcastsInDim ⟨2, ![n, 1]⟩ ![0]) (p : Fin n) :
    recipCol deg h0 h1 (ix2 p (0 : Fin 1)) = Ideal.div (Ideal.ofBits .f32 0x3F800000#32) (deg (ix1 p)) := by
  unfold recipCol
  rw [col_apply]
  show Ideal.div (broadcastInDim ⟨1, ![n]⟩ ![] h0 (constant (F := Ideal) ⟨0, ![]⟩ .f32 0x3F800000#32) (ix1 p))
      (deg (ix1 p)) = _
  rw [broadcastInDim_apply _ h0 _ (ix1 p) ix0 fun ax => ax.elim0]
  rfl

/-- Dividing entry by entry by a vector laid out as a column and repeated across the columns divides every row
    by that row's entry of the vector. -/
theorem hostDivRow_eq (s : FVec Ideal ⟨2, ![n, d]⟩ .f32) (deg : FVec Ideal ⟨1, ![n]⟩ .f32)
    (h1 : (⟨1, ![n]⟩ : Shape).BroadcastsInDim ⟨2, ![n, 1]⟩ ![0])
    (h2 : (⟨2, ![n, 1]⟩ : Shape).BroadcastsInDim ⟨2, ![n, d]⟩ ![0, 1]) :
    Host.divf s (broadcastInDim ⟨2, ![n, d]⟩ ![0, 1] h2 (broadcastInDim ⟨2, ![n, 1]⟩ ![0] h1 deg)) = divRow s deg := by
  funext i
  obtain ⟨p, q, rfl⟩ : ∃ (p : Fin n) (q : Fin d), i = ix2 p q := ⟨i 0, i 1, eq_ix2 i⟩
  show Ideal.div (s (ix2 p q))
      (broadcastInDim ⟨2, ![n, d]⟩ ![0, 1] h2 (broadcastInDim ⟨2, ![n, 1]⟩ ![0] h1 deg) (ix2 p q))
    = Ideal.div (s (ix2 p q)) (deg (ix1 p))
  rw [colBcast_apply, col_apply]

/-- Dividing the rows by a nowhere-zero vector is scaling them by the column of its reciprocals. -/
theorem hostMean_eq (s : FVec Ideal ⟨2, ![n, d]⟩ .f32) (deg : FVec Ideal ⟨1, ![n]⟩ .f32)
    (h0 : (⟨0, ![]⟩ : Shape).BroadcastsInDim ⟨1, ![n]⟩ ![])
    (h1 : (⟨1, ![n]⟩ : Shape).BroadcastsInDim ⟨2, ![n, 1]⟩ ![0])
    (h2 : (⟨2, ![n, 1]⟩ : Shape).BroadcastsInDim ⟨2, ![n, d]⟩ ![0, 1]) (hdeg : ∀ p, deg (ix1 p) ≠ 0) :
    Host.divf s (broadcastInDim ⟨2, ![n, d]⟩ ![0, 1] h2 (broadcastInDim ⟨2, ![n, 1]⟩ ![0] h1 deg))
      = scaleCol s (recipCol deg h0 h1) :=
  (hostDivRow_eq s deg h1 h2).trans
    (scaleCol_eq_divRow s (recipCol deg h0 h1) deg (Ideal.ofBits .f32 0x3F800000#32) ofBits_one hdeg
      (recipCol_apply deg h0 h1)).symm

/-- The reference's spelling of an embedding: a general product, a bias broadcast in two steps, the identity
    embedding added. -/
theorem hostEmbed_eq (dd : DotDims ⟨2, ![n, k]⟩ ⟨2, ![k, d]⟩ ⟨2, ![n, d]⟩)
    (wf : DotDims.WF ⟨2, ![n, k]⟩ ⟨2, ![k, d]⟩ ⟨2, ![n, d]⟩ [1] [0] [0] [1] [] []) (hd : dd = plainDims n k d wf)
    (cat : FVec Ideal ⟨2, ![n, k]⟩ .f32) (w : FVec Ideal ⟨2, ![k, d]⟩ .f32) (b : FVec Ideal ⟨1, ![d]⟩ .f32)
    (e : FVec Ideal ⟨2, ![n, d]⟩ .f32)
    (h1 : (⟨1, ![d]⟩ : Shape).BroadcastsInDim ⟨2, ![1, d]⟩ ![1])
    (h2 : (⟨2, ![1, d]⟩ : Shape).BroadcastsInDim ⟨2, ![n, d]⟩ ![0, 1]) :
    addf (addf (Host.dotGeneral dd none cat w)
        (broadcastInDim ⟨2, ![n, d]⟩ ![0, 1] h2 (broadcastInDim ⟨2, ![1, d]⟩ ![1] h1 b))) e
      = embed cat w b e := by
  rw [hostMm_eq dd wf hd, hostBias_eq b h1 h2]
  rfl

/-- The reference's spelling of one layer, before its optional rectifier: the rows of s divided by the degree, a
    rectified dense layer, the join with x, one product with the [2d, d] weight, a bias. -/
theorem hostLayer_eq (o : Nat) (hD : d + d = D) (ho : d = o)
    (dv : DotDims ⟨2, ![n, d]⟩ ⟨2, ![d, d]⟩ ⟨2, ![n, d]⟩)
    (wfv : DotDims.WF ⟨2, ![n, d]⟩ ⟨2, ![d, d]⟩ ⟨2, ![n, d]⟩ [1] [0] [0] [1] [] []) (hdv : dv = plainDims n d d wfv)
    (dw : DotDims ⟨2, ![n, D]⟩ ⟨2, ![D, d]⟩ ⟨2, ![n, d]⟩)
    (wfw : DotDims.WF ⟨2, ![n, D]⟩ ⟨2, ![D, d]⟩ ⟨2, ![n, d]⟩ [1] [0] [0] [1] [] []) (hdw : dw = plainDims n D d wfw)
    (x s : FVec Ideal ⟨2, ![n, d]⟩ .f32) (deg : FVec Ideal ⟨1, ![n]⟩ .f32)
    (vw : FVec Ideal ⟨2, ![d, d]⟩ .f32) (vb : FVec Ideal ⟨1, ![d]⟩ .f32)
    (w : FVec Ideal ⟨2, ![D, d]⟩ .f32) (b : FVec Ideal ⟨1, ![d]⟩ .f32)
    (h0 : (⟨0, ![]⟩ : Shape).BroadcastsInDim ⟨1, ![n]⟩ ![])
    (hc1 : (⟨1, ![n]⟩ : Shape).BroadcastsInDim ⟨2, ![n, 1]⟩ ![0])
    (hc2 : (⟨2, ![n, 1]⟩ : Shape).BroadcastsInDim ⟨2, ![n, d]⟩ ![0, 1])
    (hb1 : (⟨1, ![d]⟩ : Shape).BroadcastsInDim ⟨2, ![1, d]⟩ ![1])
    (hb2 : (⟨2, ![1, d]⟩ : Shape).BroadcastsInDim ⟨2, ![n, d]⟩ ![0, 1])
    (hz : (⟨0, ![]⟩ : Shape).BroadcastsInDim ⟨2, ![n, d]⟩ ![])
    (hcat : Shape.Concatenates [⟨2, ![n, d]⟩, ⟨2, ![n, d]⟩] ⟨2, ![n, D]⟩ 1)
    (hs1 : (⟨2, ![D, d]⟩ : Shape).Slices ![0, 0] ⟨2, ![d, d]⟩)
    (hs2 : (⟨2, ![D, d]⟩ : Shape).Slices ![o, 0] ⟨2, ![d, d]⟩)
    (hdeg : ∀ p, deg (ix1 p) ≠ 0) :
    addf (Host.dotGeneral dw none
        (concatenate ⟨2, ![n, D]⟩ 1 [⟨⟨2, ![n, d]⟩, x⟩, ⟨⟨2, ![n, d]⟩,
          maximumf
            (addf (Host.dotGeneral dv none
                (Host.divf s (broadcastInDim ⟨2, ![n, d]⟩ ![0, 1] hc2 (broadcastInDim ⟨2, ![n, 1]⟩ ![0] hc1 deg))) vw)
              (broadcastInDim ⟨2, ![n, d]⟩ ![0, 1] hb2 (broadcastInDim ⟨2, ![1, d]⟩ ![1] hb1 vb)))
            (broadcastInDim ⟨2, ![n, d]⟩ ![] hz (constant (F := Ideal) ⟨0, ![]⟩ .f32 0x00000000#32))⟩] hcat) w)
      (broadcastInDim ⟨2, ![n, d]⟩ ![0, 1] hb2 (broadcastInDim ⟨2, ![1, d]⟩ ![1] hb1 b))
      = layer x s (recipCol deg h0 hc1) vw vb (extractStridedSlice ⟨2, ![d, d]⟩ ![0, 0] w hs1)
          (extractStridedSlice ⟨2, ![d, d]⟩ ![o, 0] w hs2) b := by
  rw [hostMean_eq s deg h0 hc1 hc2 hdeg, hostMm_eq dv wfv hdv, hostBias_eq vb hb1 hb2, hostRect_eq,
    hostMm_eq dw wfw hdw, hostBias_eq b hb1 hb2, mm_join2 o hD ho x _ w hcat hs1 hs2]
  rfl

end General

/-! ## The reference's stages -/

/-- The column [150000, 1] of the reciprocals 1 / d of a vector d, as the kernel program's host code spells it. -/
def invCol (d : FVec Ideal S150000 .f32) (h0 : S_.BroadcastsInDim S150000 ![])
    (h1 : S150000.BroadcastsInDim S150000x1 ![0]) : FVec Ideal S150000x1 .f32 :=
  broadcastInDim S150000x1 ![0] h1
    (Host.divf (broadcastInDim S150000 ![] h0 (constant (F := Ideal) S_ .f32 0x3F800000#32)) d)

theorem invCol_eq (d : FVec Ideal S150000 .f32) (h0 : S_.BroadcastsInDim S150000 ![])
    (h1 : S150000.BroadcastsInDim S150000x1 ![0]) : invCol d h0 h1 = recipCol d h0 h1 := rfl

/-- The degree is the maximum of a count and 1, entry by entry: never 0. -/
theorem degree_ne_zero (x0 : (⟨S2x1500000, .i32⟩ : BufTy).Contents (Elt Ideal)) (p : Fin 150000) :
    val_main_v64 (F := Ideal) x0 (ix1 p) ≠ 0 := by
  have hu : val_main_v63 (F := Ideal) (ix1 p) = 1 := by
    unfold val_main_v63 val_main_cst_16
    rw [broadcastInDim_apply _ _ _ (ix1 p) ix0 fun ax => ax.elim0, constant_apply]
    exact ofBits_one
  unfold val_main_v64
  generalize val_main_v62 (F := Ideal) x0 = c
  rw [maximumf_apply]
  generalize val_main_v63 (F := Ideal) (ix1 p) = u at hu ⊢
  exact max_one_ne_zero _ _ hu

/-- The users' embedding. -/
theorem users (x1 : (⟨S100000x10, .i32⟩ : BufTy).Contents (Elt Ideal)) (x3 : (⟨S100000x3x8, .i32⟩ : BufTy).Contents (Elt Ideal)) (x5 : (⟨S100000x128, .f32⟩ : BufTy).Contents (Elt Ideal)) (x7 : (⟨S5000x128, .f32⟩ : BufTy).Contents (Elt Ideal)) (x9 : (⟨S30000x64, .f32⟩ : BufTy).Contents (Elt Ideal)) (x10 : (⟨S320x128, .f32⟩ : BufTy).Contents (Elt Ideal)) (x11 : (⟨S128, .f32⟩ : BufTy).Contents (Elt Ideal)) :
    val_main_v52 (F := Ideal) x1 x3 x5 x7 x9 x10 x11 = embed (val_main_v42 (F := Ideal) x1 x3 x7 x9) x10 x11 x5 := by
  unfold val_main_v52 val_main_v46 val_main_v45 val_main_v44 val_main_v43
  generalize val_main_v42 (F := Ideal) x1 x3 x7 x9 = cat
  exact hostEmbed_eq _ dot_S100000x320_S320x128_S100000x128_1_0_0_1_n_n.wf rfl cat x10 x11 x5 _ _

/-- The items' embedding. -/
theorem items (x2 : (⟨S50000x10, .i32⟩ : BufTy).Contents (Elt Ideal)) (x4 : (⟨S50000x3x8, .i32⟩ : BufTy).Contents (Elt Ideal)) (x6 : (⟨S50000x128, .f32⟩ : BufTy).Contents (Elt Ideal)) (x8 : (⟨S8000x128, .f32⟩ : BufTy).Contents (Elt Ideal)) (x9 : (⟨S30000x64, .f32⟩ : BufTy).Contents (Elt Ideal)) (x12 : (⟨S320x128, .f32⟩ : BufTy).Contents (Elt Ideal)) (x13 : (⟨S128, .f32⟩ : BufTy).Contents (Elt Ideal)) :
    val_main_v53 (F := Ideal) x2 x4 x6 x8 x9 x12 x13 = embed (val_main_v47 (F := Ideal) x2 x4 x8 x9) x12 x13 x6 := by
  unfold val_main_v53 val_main_v51 val_main_v50 val_main_v49 val_main_v48
  generalize val_main_v47 (F := Ideal) x2 x4 x8 x9 = cat
  exact hostEmbed_eq _ dot_S50000x320_S320x128_S50000x128_1_0_0_1_n_n.wf rfl cat x12 x13 x6 _ _

/-- The first layer, with its rectifier. -/
theorem first_layer (x0 : (⟨S2x1500000, .i32⟩ : BufTy).Contents (Elt Ideal)) (x1 : (⟨S100000x10, .i32⟩ : BufTy).Contents (Elt Ideal)) (x2 : (⟨S50000x10, .i32⟩ : BufTy).Contents (Elt Ideal)) (x3 : (⟨S100000x3x8, .i32⟩ : BufTy).Contents (Elt Ideal)) (x4 : (⟨S50000x3x8, .i32⟩ : BufTy).Contents (Elt Ideal)) (x5 : (⟨S100000x128, .f32⟩ : BufTy).Contents (Elt Ideal)) (x6 : (⟨S50000x128, .f32⟩ : BufTy).Contents (Elt Ideal)) (x7 : (⟨S5000x128, .f32⟩ : BufTy).Contents (Elt Ideal)) (x8 : (⟨S8000x128, .f32⟩ : BufTy).Contents (Elt Ideal)) (x9 : (⟨S30000x64, .f32⟩ : BufTy).Contents (Elt Ideal)) (x10 : (⟨S320x128, .f32⟩ : BufTy).Contents (Elt Ideal)) (x11 : (⟨S128, .f32⟩ : BufTy).Contents (Elt Ideal)) (x12 : (⟨S320x128, .f32⟩ : BufTy).Contents (Elt Ideal)) (x13 : (⟨S128, .f32⟩ : BufTy).Contents (Elt Ideal)) (x14 : (⟨S256x128, .f32⟩ : BufTy).Contents (Elt Ideal)) (x15 : (⟨S128, .f32⟩ : BufTy).Contents (Elt Ideal)) (x18 : (⟨S128x128, .f32⟩ : BufTy).Contents (Elt Ideal)) (x19 : (⟨S128, .f32⟩ : BufTy).Contents (Elt Ideal))
    (h0 : S_.BroadcastsInDim S150000 ![]) (h1 : S150000.BroadcastsInDim S150000x1 ![0])
    (hs1 : S256x128.Slices ![0, 0] S128x128) (hs2 : S256x128.Slices ![128, 0] S128x128) :
    val_main_v88 (F := Ideal) x0 x1 x2 x3 x4 x5 x6 x7 x8 x9 x10 x11 x12 x13 x14 x15 x18 x19
      = rect (layer (val_main_v54 (F := Ideal) x1 x2 x3 x4 x5 x6 x7 x8 x9 x10 x11 x12 x13)
          (val_main_v74 (F := Ideal) x0 x1 x2 x3 x4 x5 x6 x7 x8 x9 x10 x11 x12 x13)
          (invCol (val_main_v64 (F := Ideal) x0) h0 h1) x18 x19
          (extractStridedSlice S128x128 ![0, 0] x14 hs1) (extractStridedSlice S128x128 ![128, 0] x14 hs2) x15) := by
  have hdeg := degree_ne_zero x0
  unfold val_main_v88 val_main_call1_v0 val_main_call1_cst val_main_v87 val_main_v86 val_main_v85 val_main_v84
    val_main_v83 val_main_v82 val_main_call0_v0 val_main_call0_cst val_main_v81 val_main_v80 val_main_v79
    val_main_v78 val_main_v77 val_main_v76 val_main_v75
  rw [invCol_eq]
  generalize val_main_v54 (F := Ideal) x1 x2 x3 x4 x5 x6 x7 x8 x9 x10 x11 x12 x13 = x
  generalize val_main_v74 (F := Ideal) x0 x1 x2 x3 x4 x5 x6 x7 x8 x9 x10 x11 x12 x13 = s
  generalize val_main_v64 (F := Ideal) x0 = deg at hdeg ⊢
  rw [hostRect_eq]
  exact congrArg rect
    (hostLayer_eq 128 rfl rfl _ dot_S150000x128_S128x128_S150000x128_1_0_0_1_n_n.wf rfl
      _ dot_S150000x256_S256x128_S150000x128_1_0_0_1_n_n.wf rfl x s deg x18 x19 x14 x15 h0 h1 _ _ _ _ _ hs1 hs2 hdeg)

/-- The second layer, which has no rectifier. -/
theorem second_layer (x0 : (⟨S2x1500000, .i32⟩ : BufTy).Contents (Elt Ideal)) (x1 : (⟨S100000x10, .i32⟩ : BufTy).Contents (Elt Ideal)) (x2 : (⟨S50000x10, .i32⟩ : BufTy).Contents (Elt Ideal)) (x3 : (⟨S100000x3x8, .i32⟩ : BufTy).Contents (Elt Ideal)) (x4 : (⟨S50000x3x8, .i32⟩ : BufTy).Contents (Elt Ideal)) (x5 : (⟨S100000x128, .f32⟩ : BufTy).Contents (Elt Ideal)) (x6 : (⟨S50000x128, .f32⟩ : BufTy).Contents (Elt Ideal)) (x7 : (⟨S5000x128, .f32⟩ : BufTy).Contents (Elt Ideal)) (x8 : (⟨S8000x128, .f32⟩ : BufTy).Contents (Elt Ideal)) (x9 : (⟨S30000x64, .f32⟩ : BufTy).Contents (Elt Ideal)) (x10 : (⟨S320x128, .f32⟩ : BufTy).Contents (Elt Ideal)) (x11 : (⟨S128, .f32⟩ : BufTy).Contents (Elt Ideal)) (x12 : (⟨S320x128, .f32⟩ : BufTy).Contents (Elt Ideal)) (x13 : (⟨S128, .f32⟩ : BufTy).Contents (Elt Ideal)) (x14 : (⟨S256x128, .f32⟩ : BufTy).Contents (Elt Ideal)) (x15 : (⟨S128, .f32⟩ : BufTy).Contents (Elt Ideal)) (x16 : (⟨S256x128, .f32⟩ : BufTy).Contents (Elt Ideal)) (x17 : (⟨S128, .f32⟩ : BufTy).Contents (Elt Ideal)) (x18 : (⟨S128x128, .f32⟩ : BufTy).Contents (Elt Ideal)) (x19 : (⟨S128, .f32⟩ : BufTy).Contents (Elt Ideal)) (x20 : (⟨S128x128, .f32⟩ : BufTy).Contents (Elt Ideal)) (x21 : (⟨S128, .f32⟩ : BufTy).Contents (Elt Ideal))
    (h0 : S_.BroadcastsInDim S150000 ![]) (h1 : S150000.BroadcastsInDim S150000x1 ![0])
    (hs1 : S256x128.Slices ![0, 0] S128x128) (hs2 : S256x128.Slices ![128, 0] S128x128) :
    val_main_v111 (F := Ideal) x0 x1 x2 x3 x4 x5 x6 x7 x8 x9 x10 x11 x12 x13 x14 x15 x16 x17 x18 x19 x20 x21
      = layer (val_main_v88 (F := Ideal) x0 x1 x2 x3 x4 x5 x6 x7 x8 x9 x10 x11 x12 x13 x14 x15 x18 x19)
          (val_main_v98 (F := Ideal) x0 x1 x2 x3 x4 x5 x6 x7 x8 x9 x10 x11 x12 x13 x14 x15 x18 x19)
          (invCol (val_main_v64 (F := Ideal) x0) h0 h1) x20 x21
          (extractStridedSlice S128x128 ![0, 0] x16 hs1) (extractStridedSlice S128x128 ![128, 0] x16 hs2) x17 := by
  have hdeg := degree_ne_zero x0
  unfold val_main_v111 val_main_v110 val_main_v109 val_main_v108 val_main_v107 val_main_v106 val_main_call2_v0
    val_main_call2_cst val_main_v105 val_main_v104 val_main_v103 val_main_v102 val_main_v101 val_main_v100
    val_main_v99
  rw [invCol_eq]
  generalize val_main_v88 (F := Ideal) x0 x1 x2 x3 x4 x5 x6 x7 x8 x9 x10 x11 x12 x13 x14 x15 x18 x19 = x
  generalize val_main_v98 (F := Ideal) x0 x1 x2 x3 x4 x5 x6 x7 x8 x9 x10 x11 x12 x13 x14 x15 x18 x19 = s
  generalize val_main_v64 (F := Ideal) x0 = deg at hdeg ⊢
  exact hostLayer_eq 128 rfl rfl _ dot_S150000x128_S128x128_S150000x128_1_0_0_1_n_n.wf rfl
    _ dot_S150000x256_S256x128_S150000x128_1_0_0_1_n_n.wf rfl x s deg x20 x21 x16 x17 h0 h1 _ _ _ _ _ hs1 hs2 hdeg

end Cert.ReferenceIdeal.Layers

end
-- ==== Proof.Boundaries.lean ====
/-
  What the kernel program's buffers hold at each boundary between its host code and its four regions, as the
  reference's stages of the launch contents of the arguments.

  The run of the kernel program is a fold: a stretch of host operations, a region, a stretch, a region, … Each
  boundary's contents are the previous boundary's, changed by the stretch (HostStretches) or, for a region, by the
  whole arrays its blocks write back (EmbedBlocks for the two embedding regions, LayerBlocks for the two layers);
  everything else is carried over. Walking the fold from the launch:
    after region 0 and 1   the users' and the items' embeddings are the reference's (its dot_general plus bias plus
                           identity embedding IS the formula embed: ReferenceLayers), in both float formats;
    before region 2        their join is the reference's node features x, the neighbour sums of the 16-bit copy are
                           the reference's neighbour sums of x (the copy IS x on the extended reals), and the column
                           of reciprocal degrees is 1 / max(count, 1) of the reference's own count;
    after region 2         the first layer's result is the reference's (layer on a reciprocal column is the reference's
                           division by the degree, since the degree is never 0; the joined product is the sum of the
                           two products with the weight's halves: ReferenceLayers);
    after region 3         the second layer's result, the program's result, is the reference's.
-/
import proofs.«128228_j51565377356535_2_alg».proof.Proof.HostStretches
import proofs.«128228_j51565377356535_2_alg».proof.Proof.GraphLayers
import proofs.«128228_j51565377356535_2_alg».proof.Proof.EmbedBlocks
import proofs.«128228_j51565377356535_2_alg».proof.Proof.LayerBlocks
import proofs.«128228_j51565377356535_2_alg».proof.Proof.ReferenceLayers

noncomputable section

namespace Cert.Bridge

open Idealize.ShloMosaic Idealize.ShloMosaic.TcCoe Idealize.ShloMosaic.StableHlo Idealize.SL.Sem
open Cert.KernelIdeal Cert.KernelIdeal.Gen Cert.Layers Cert.Net Cert.Graph

variable (m : (ℓ : Loc nD τ sig) → Buf (Elt Ideal) ℓ) (ρ : Dev nD → PrngReg) (c : Dev nD)

/-! ## The arguments are carried from the launch to wherever they are read -/

theorem w1_arg0 : W1 m ρ c (Proc.devRef .tc main_arg0) = W0 m ρ c (Proc.devRef .tc main_arg0) := s0_arg0 (W0 m ρ c)
theorem w2_arg0 : W2 m ρ c (Proc.devRef .tc main_arg0) = W0 m ρ c (Proc.devRef .tc main_arg0) := (W2_of_ne m ρ c main_arg0 (by decide)).trans (w1_arg0 m ρ c)
theorem w3_arg0 : W3 m ρ c (Proc.devRef .tc main_arg0) = W0 m ρ c (Proc.devRef .tc main_arg0) := (s1_arg0 (W2 m ρ c)).trans (w2_arg0 m ρ c)
theorem w4_arg0 : W4 m ρ c (Proc.devRef .tc main_arg0) = W0 m ρ c (Proc.devRef .tc main_arg0) := (W4_of_ne m ρ c main_arg0 (by decide)).trans (w3_arg0 m ρ c)
theorem w1_arg5 : W1 m ρ c (Proc.devRef .tc main_arg5) = W0 m ρ c (Proc.devRef .tc main_arg5) := s0_arg5 (W0 m ρ c)
theorem w1_arg6 : W1 m ρ c (Proc.devRef .tc main_arg6) = W0 m ρ c (Proc.devRef .tc main_arg6) := s0_arg6 (W0 m ρ c)
theorem w2_arg6 : W2 m ρ c (Proc.devRef .tc main_arg6) = W0 m ρ c (Proc.devRef .tc main_arg6) := (W2_of_ne m ρ c main_arg6 (by decide)).trans (w1_arg6 m ρ c)
theorem w3_arg6 : W3 m ρ c (Proc.devRef .tc main_arg6) = W0 m ρ c (Proc.devRef .tc main_arg6) := (s1_arg6 (W2 m ρ c)).trans (w2_arg6 m ρ c)
theorem w1_arg11 : W1 m ρ c (Proc.devRef .tc main_arg11) = W0 m ρ c (Proc.devRef .tc main_arg11) := s0_arg11 (W0 m ρ c)
theorem w1_arg12 : W1 m ρ c (Proc.devRef .tc main_arg12) = W0 m ρ c (Proc.devRef .tc main_arg12) := s0_arg12 (W0 m ρ c)
theorem w2_arg12 : W2 m ρ c (Proc.devRef .tc main_arg12) = W0 m ρ c (Proc.devRef .tc main_arg12) := (W2_of_ne m ρ c main_arg12 (by decide)).trans (w1_arg12 m ρ c)
theorem w1_arg13 : W1 m ρ c (Proc.devRef .tc main_arg13) = W0 m ρ c (Proc.devRef .tc main_arg13) := s0_arg13 (W0 m ρ c)
theorem w2_arg13 : W2 m ρ c (Proc.devRef .tc main_arg13) = W0 m ρ c (Proc.devRef .tc main_arg13) := (W2_of_ne m ρ c main_arg13 (by decide)).trans (w1_arg13 m ρ c)
theorem w3_arg13 : W3 m ρ c (Proc.devRef .tc main_arg13) = W0 m ρ c (Proc.devRef .tc main_arg13) := (s1_arg13 (W2 m ρ c)).trans (w2_arg13 m ρ c)
theorem w1_arg14 : W1 m ρ c (Proc.devRef .tc main_arg14) = W0 m ρ c (Proc.devRef .tc main_arg14) := s0_arg14 (W0 m ρ c)
theorem w2_arg14 : W2 m ρ c (Proc.devRef .tc main_arg14) = W0 m ρ c (Proc.devRef .tc main_arg14) := (W2_of_ne m ρ c main_arg14 (by decide)).trans (w1_arg14 m ρ c)
theorem w3_arg14 : W3 m ρ c (Proc.devRef .tc main_arg14) = W0 m ρ c (Proc.devRef .tc main_arg14) := (s1_arg14 (W2 m ρ c)).trans (w2_arg14 m ρ c)
theorem w4_arg14 : W4 m ρ c (Proc.devRef .tc main_arg14) = W0 m ρ c (Proc.devRef .tc main_arg14) := (W4_of_ne m ρ c main_arg14 (by decide)).trans (w3_arg14 m ρ c)
theorem w1_arg15 : W1 m ρ c (Proc.devRef .tc main_arg15) = W0 m ρ c (Proc.devRef .tc main_arg15) := s0_arg15 (W0 m ρ c)
theorem w2_arg15 : W2 m ρ c (Proc.devRef .tc main_arg15) = W0 m ρ c (Proc.devRef .tc main_arg15) := (W2_of_ne m ρ c main_arg15 (by decide)).trans (w1_arg15 m ρ c)
theorem w3_arg15 : W3 m ρ c (Proc.devRef .tc main_arg15) = W0 m ρ c (Proc.devRef .tc main_arg15) := (s1_arg15 (W2 m ρ c)).trans (w2_arg15 m ρ c)
theorem w4_arg15 : W4 m ρ c (Proc.devRef .tc main_arg15) = W0 m ρ c (Proc.devRef .tc main_arg15) := (W4_of_ne m ρ c main_arg15 (by decide)).trans (w3_arg15 m ρ c)
theorem w5_arg15 : W5 m ρ c (Proc.devRef .tc main_arg15) = W0 m ρ c (Proc.devRef .tc main_arg15) := (s2_arg15 (W4 m ρ c)).trans (w4_arg15 m ρ c)
theorem w1_arg16 : W1 m ρ c (Proc.devRef .tc main_arg16) = W0 m ρ c (Proc.devRef .tc main_arg16) := s0_arg16 (W0 m ρ c)
theorem w2_arg16 : W2 m ρ c (Proc.devRef .tc main_arg16) = W0 m ρ c (Proc.devRef .tc main_arg16) := (W2_of_ne m ρ c main_arg16 (by decide)).trans (w1_arg16 m ρ c)
theorem w3_arg16 : W3 m ρ c (Proc.devRef .tc main_arg16) = W0 m ρ c (Proc.devRef .tc main_arg16) := (s1_arg16 (W2 m ρ c)).trans (w2_arg16 m ρ c)
theorem w4_arg16 : W4 m ρ c (Proc.devRef .tc main_arg16) = W0 m ρ c (Proc.devRef .tc main_arg16) := (W4_of_ne m ρ c main_arg16 (by decide)).trans (w3_arg16 m ρ c)
theorem w5_arg16 : W5 m ρ c (Proc.devRef .tc main_arg16) = W0 m ρ c (Proc.devRef .tc main_arg16) := (s2_arg16 (W4 m ρ c)).trans (w4_arg16 m ρ c)
theorem w6_arg16 : W6 m ρ c (Proc.devRef .tc main_arg16) = W0 m ρ c (Proc.devRef .tc main_arg16) := (W6_of_ne m ρ c main_arg16 (by decide)).trans (w5_arg16 m ρ c)
theorem w1_arg17 : W1 m ρ c (Proc.devRef .tc main_arg17) = W0 m ρ c (Proc.devRef .tc main_arg17) := s0_arg17 (W0 m ρ c)
theorem w2_arg17 : W2 m ρ c (Proc.devRef .tc main_arg17) = W0 m ρ c (Proc.devRef .tc main_arg17) := (W2_of_ne m ρ c main_arg17 (by decide)).trans (w1_arg17 m ρ c)
theorem w3_arg17 : W3 m ρ c (Proc.devRef .tc main_arg17) = W0 m ρ c (Proc.devRef .tc main_arg17) := (s1_arg17 (W2 m ρ c)).trans (w2_arg17 m ρ c)
theorem w4_arg17 : W4 m ρ c (Proc.devRef .tc main_arg17) = W0 m ρ c (Proc.devRef .tc main_arg17) := (W4_of_ne m ρ c main_arg17 (by decide)).trans (w3_arg17 m ρ c)
theorem w5_arg17 : W5 m ρ c (Proc.devRef .tc main_arg17) = W0 m ρ c (Proc.devRef .tc main_arg17) := (s2_arg17 (W4 m ρ c)).trans (w4_arg17 m ρ c)
theorem w6_arg17 : W6 m ρ c (Proc.devRef .tc main_arg17) = W0 m ρ c (Proc.devRef .tc main_arg17) := (W6_of_ne m ρ c main_arg17 (by decide)).trans (w5_arg17 m ρ c)
theorem w7_arg17 : W7 m ρ c (Proc.devRef .tc main_arg17) = W0 m ρ c (Proc.devRef .tc main_arg17) := (s3_arg17 (W6 m ρ c)).trans (w6_arg17 m ρ c)
theorem w1_arg18 : W1 m ρ c (Proc.devRef .tc main_arg18) = W0 m ρ c (Proc.devRef .tc main_arg18) := s0_arg18 (W0 m ρ c)
theorem w2_arg18 : W2 m ρ c (Proc.devRef .tc main_arg18) = W0 m ρ c (Proc.devRef .tc main_arg18) := (W2_of_ne m ρ c main_arg18 (by decide)).trans (w1_arg18 m ρ c)
theorem w3_arg18 : W3 m ρ c (Proc.devRef .tc main_arg18) = W0 m ρ c (Proc.devRef .tc main_arg18) := (s1_arg18 (W2 m ρ c)).trans (w2_arg18 m ρ c)
theorem w4_arg18 : W4 m ρ c (Proc.devRef .tc main_arg18) = W0 m ρ c (Proc.devRef .tc main_arg18) := (W4_of_ne m ρ c main_arg18 (by decide)).trans (w3_arg18 m ρ c)
theorem w1_arg19 : W1 m ρ c (Proc.devRef .tc main_arg19) = W0 m ρ c (Proc.devRef .tc main_arg19) := s0_arg19 (W0 m ρ c)
theorem w2_arg19 : W2 m ρ c (Proc.devRef .tc main_arg19) = W0 m ρ c (Proc.devRef .tc main_arg19) := (W2_of_ne m ρ c main_arg19 (by decide)).trans (w1_arg19 m ρ c)
theorem w3_arg19 : W3 m ρ c (Proc.devRef .tc main_arg19) = W0 m ρ c (Proc.devRef .tc main_arg19) := (s1_arg19 (W2 m ρ c)).trans (w2_arg19 m ρ c)
theorem w4_arg19 : W4 m ρ c (Proc.devRef .tc main_arg19) = W0 m ρ c (Proc.devRef .tc main_arg19) := (W4_of_ne m ρ c main_arg19 (by decide)).trans (w3_arg19 m ρ c)
theorem w5_arg19 : W5 m ρ c (Proc.devRef .tc main_arg19) = W0 m ρ c (Proc.devRef .tc main_arg19) := (s2_arg19 (W4 m ρ c)).trans (w4_arg19 m ρ c)
theorem w1_arg20 : W1 m ρ c (Proc.devRef .tc main_arg20) = W0 m ρ c (Proc.devRef .tc main_arg20) := s0_arg20 (W0 m ρ c)
theorem w2_arg20 : W2 m ρ c (Proc.devRef .tc main_arg20) = W0 m ρ c (Proc.devRef .tc main_arg20) := (W2_of_ne m ρ c main_arg20 (by decide)).trans (w1_arg20 m ρ c)
theorem w3_arg20 : W3 m ρ c (Proc.devRef .tc main_arg20) = W0 m ρ c (Proc.devRef .tc main_arg20) := (s1_arg20 (W2 m ρ c)).trans (w2_arg20 m ρ c)
theorem w4_arg20 : W4 m ρ c (Proc.devRef .tc main_arg20) = W0 m ρ c (Proc.devRef .tc main_arg20) := (W4_of_ne m ρ c main_arg20 (by decide)).trans (w3_arg20 m ρ c)
theorem w5_arg20 : W5 m ρ c (Proc.devRef .tc main_arg20) = W0 m ρ c (Proc.devRef .tc main_arg20) := (s2_arg20 (W4 m ρ c)).trans (w4_arg20 m ρ c)
theorem w6_arg20 : W6 m ρ c (Proc.devRef .tc main_arg20) = W0 m ρ c (Proc.devRef .tc main_arg20) := (W6_of_ne m ρ c main_arg20 (by decide)).trans (w5_arg20 m ρ c)
theorem w1_arg21 : W1 m ρ c (Proc.devRef .tc main_arg21) = W0 m ρ c (Proc.devRef .tc main_arg21) := s0_arg21 (W0 m ρ c)
theorem w2_arg21 : W2 m ρ c (Proc.devRef .tc main_arg21) = W0 m ρ c (Proc.devRef .tc main_arg21) := (W2_of_ne m ρ c main_arg21 (by decide)).trans (w1_arg21 m ρ c)
theorem w3_arg21 : W3 m ρ c (Proc.devRef .tc main_arg21) = W0 m ρ c (Proc.devRef .tc main_arg21) := (s1_arg21 (W2 m ρ c)).trans (w2_arg21 m ρ c)
theorem w4_arg21 : W4 m ρ c (Proc.devRef .tc main_arg21) = W0 m ρ c (Proc.devRef .tc main_arg21) := (W4_of_ne m ρ c main_arg21 (by decide)).trans (w3_arg21 m ρ c)
theorem w5_arg21 : W5 m ρ c (Proc.devRef .tc main_arg21) = W0 m ρ c (Proc.devRef .tc main_arg21) := (s2_arg21 (W4 m ρ c)).trans (w4_arg21 m ρ c)
theorem w6_arg21 : W6 m ρ c (Proc.devRef .tc main_arg21) = W0 m ρ c (Proc.devRef .tc main_arg21) := (W6_of_ne m ρ c main_arg21 (by decide)).trans (w5_arg21 m ρ c)
theorem w7_arg21 : W7 m ρ c (Proc.devRef .tc main_arg21) = W0 m ρ c (Proc.devRef .tc main_arg21) := (s3_arg21 (W6 m ρ c)).trans (w6_arg21 m ρ c)

/-! ## Region 0: the users' embedding -/

theorem w2_v54_0 : W2 m ρ c (Proc.devRef .tc main_v54_0) = Cert.ReferenceIdeal.Stages.val_main_v52 (F := Ideal) (W0 m ρ c (Proc.devRef .tc main_arg1)) (W0 m ρ c (Proc.devRef .tc main_arg3)) (W0 m ρ c (Proc.devRef .tc main_arg5)) (W0 m ρ c (Proc.devRef .tc main_arg7)) (W0 m ρ c (Proc.devRef .tc main_arg9)) (W0 m ρ c (Proc.devRef .tc main_arg10)) (W0 m ρ c (Proc.devRef .tc main_arg11)) := by
  refine (W2_arr m ρ c 4).trans ((Cert.KernelIdeal.EmbedBlocks.users_f32 (V1 m ρ) c).trans ?_)
  rw [show V1 m ρ c main_v50 = _ from s0_v50 (W0 m ρ c), show V1 m ρ c main_v53 = _ from s0_v53 (W0 m ρ c),
    show V1 m ρ c main_arg11 = _ from w1_arg11 m ρ c, show V1 m ρ c main_arg5 = _ from w1_arg5 m ρ c]
  exact (Cert.ReferenceIdeal.Layers.users _ _ _ _ _ _ _).symm

theorem w2_v54_1 : W2 m ρ c (Proc.devRef .tc main_v54_1) = Cert.ReferenceIdeal.Stages.val_main_v52 (F := Ideal) (W0 m ρ c (Proc.devRef .tc main_arg1)) (W0 m ρ c (Proc.devRef .tc main_arg3)) (W0 m ρ c (Proc.devRef .tc main_arg5)) (W0 m ρ c (Proc.devRef .tc main_arg7)) (W0 m ρ c (Proc.devRef .tc main_arg9)) (W0 m ρ c (Proc.devRef .tc main_arg10)) (W0 m ρ c (Proc.devRef .tc main_arg11)) := by
  refine (W2_arr m ρ c 5).trans ((Cert.KernelIdeal.EmbedBlocks.users_bf16 (V1 m ρ) c).trans ?_)
  rw [show V1 m ρ c main_v50 = _ from s0_v50 (W0 m ρ c), show V1 m ρ c main_v53 = _ from s0_v53 (W0 m ρ c),
    show V1 m ρ c main_arg11 = _ from w1_arg11 m ρ c, show V1 m ρ c main_arg5 = _ from w1_arg5 m ρ c]
  exact (Cert.ReferenceIdeal.Layers.users _ _ _ _ _ _ _).symm

theorem w2_v52 : W2 m ρ c (Proc.devRef .tc main_v52) = Cert.ReferenceIdeal.Stages.val_main_v47 (F := Ideal) (W0 m ρ c (Proc.devRef .tc main_arg2)) (W0 m ρ c (Proc.devRef .tc main_arg4)) (W0 m ρ c (Proc.devRef .tc main_arg8)) (W0 m ρ c (Proc.devRef .tc main_arg9)) :=
  (W2_of_ne m ρ c main_v52 (by decide)).trans (s0_v52 (W0 m ρ c))

/-! ## Region 1: the items' embedding -/

theorem w3_v52 : W3 m ρ c (Proc.devRef .tc main_v52) = Cert.ReferenceIdeal.Stages.val_main_v47 (F := Ideal) (W0 m ρ c (Proc.devRef .tc main_arg2)) (W0 m ρ c (Proc.devRef .tc main_arg4)) (W0 m ρ c (Proc.devRef .tc main_arg8)) (W0 m ρ c (Proc.devRef .tc main_arg9)) :=
  (s1_v52 (W2 m ρ c)).trans (w2_v52 m ρ c)
theorem w3_v55 : W3 m ρ c (Proc.devRef .tc main_v55) = W0 m ρ c (Proc.devRef .tc main_arg12) :=
  (s1_v55 (W2 m ρ c)).trans (w2_arg12 m ρ c)
theorem w3_v54_0 : W3 m ρ c (Proc.devRef .tc main_v54_0) = Cert.ReferenceIdeal.Stages.val_main_v52 (F := Ideal) (W0 m ρ c (Proc.devRef .tc main_arg1)) (W0 m ρ c (Proc.devRef .tc main_arg3)) (W0 m ρ c (Proc.devRef .tc main_arg5)) (W0 m ρ c (Proc.devRef .tc main_arg7)) (W0 m ρ c (Proc.devRef .tc main_arg9)) (W0 m ρ c (Proc.devRef .tc main_arg10)) (W0 m ρ c (Proc.devRef .tc main_arg11)) :=
  (s1_v54_0 (W2 m ρ c)).trans (w2_v54_0 m ρ c)
theorem w3_v54_1 : W3 m ρ c (Proc.devRef .tc main_v54_1) = Cert.ReferenceIdeal.Stages.val_main_v52 (F := Ideal) (W0 m ρ c (Proc.devRef .tc main_arg1)) (W0 m ρ c (Proc.devRef .tc main_arg3)) (W0 m ρ c (Proc.devRef .tc main_arg5)) (W0 m ρ c (Proc.devRef .tc main_arg7)) (W0 m ρ c (Proc.devRef .tc main_arg9)) (W0 m ρ c (Proc.devRef .tc main_arg10)) (W0 m ρ c (Proc.devRef .tc main_arg11)) :=
  (s1_v54_1 (W2 m ρ c)).trans (w2_v54_1 m ρ c)

theorem w4_v56_0 : W4 m ρ c (Proc.devRef .tc main_v56_0) = Cert.ReferenceIdeal.Stages.val_main_v53 (F := Ideal) (W0 m ρ c (Proc.devRef .tc main_arg2)) (W0 m ρ c (Proc.devRef .tc main_arg4)) (W0 m ρ c (Proc.devRef .tc main_arg6)) (W0 m ρ c (Proc.devRef .tc main_arg8)) (W0 m ρ c (Proc.devRef .tc main_arg9)) (W0 m ρ c (Proc.devRef .tc main_arg12)) (W0 m ρ c (Proc.devRef .tc main_arg13)) := by
  refine (W4_arr m ρ c 4).trans ((Cert.KernelIdeal.EmbedBlocks.items_f32 (V3 m ρ) c).trans ?_)
  rw [show V3 m ρ c main_v52 = _ from w3_v52 m ρ c, show V3 m ρ c main_v55 = _ from w3_v55 m ρ c,
    show V3 m ρ c main_arg13 = _ from w3_arg13 m ρ c, show V3 m ρ c main_arg6 = _ from w3_arg6 m ρ c]
  exact (Cert.ReferenceIdeal.Layers.items _ _ _ _ _ _ _).symm

theorem w4_v56_1 : W4 m ρ c (Proc.devRef .tc main_v56_1) = Cert.ReferenceIdeal.Stages.val_main_v53 (F := Ideal) (W0 m ρ c (Proc.devRef .tc main_arg2)) (W0 m ρ c (Proc.devRef .tc main_arg4)) (W0 m ρ c (Proc.devRef .tc main_arg6)) (W0 m ρ c (Proc.devRef .tc main_arg8)) (W0 m ρ c (Proc.devRef .tc main_arg9)) (W0 m ρ c (Proc.devRef .tc main_arg12)) (W0 m ρ c (Proc.devRef .tc main_arg13)) := by
  refine (W4_arr m ρ c 5).trans ((Cert.KernelIdeal.EmbedBlocks.items_bf16 (V3 m ρ) c).trans ?_)
  rw [show V3 m ρ c main_v52 = _ from w3_v52 m ρ c, show V3 m ρ c main_v55 = _ from w3_v55 m ρ c,
    show V3 m ρ c main_arg13 = _ from w3_arg13 m ρ c, show V3 m ρ c main_arg6 = _ from w3_arg6 m ρ c]
  exact (Cert.ReferenceIdeal.Layers.items _ _ _ _ _ _ _).symm

theorem w4_v54_0 : W4 m ρ c (Proc.devRef .tc main_v54_0) = Cert.ReferenceIdeal.Stages.val_main_v52 (F := Ideal) (W0 m ρ c (Proc.devRef .tc main_arg1)) (W0 m ρ c (Proc.devRef .tc main_arg3)) (W0 m ρ c (Proc.devRef .tc main_arg5)) (W0 m ρ c (Proc.devRef .tc main_arg7)) (W0 m ρ c (Proc.devRef .tc main_arg9)) (W0 m ρ c (Proc.devRef .tc main_arg10)) (W0 m ρ c (Proc.devRef .tc main_arg11)) :=
  (W4_of_ne m ρ c main_v54_0 (by decide)).trans (w3_v54_0 m ρ c)
theorem w4_v54_1 : W4 m ρ c (Proc.devRef .tc main_v54_1) = Cert.ReferenceIdeal.Stages.val_main_v52 (F := Ideal) (W0 m ρ c (Proc.devRef .tc main_arg1)) (W0 m ρ c (Proc.devRef .tc main_arg3)) (W0 m ρ c (Proc.devRef .tc main_arg5)) (W0 m ρ c (Proc.devRef .tc main_arg7)) (W0 m ρ c (Proc.devRef .tc main_arg9)) (W0 m ρ c (Proc.devRef .tc main_arg10)) (W0 m ρ c (Proc.devRef .tc main_arg11)) :=
  (W4_of_ne m ρ c main_v54_1 (by decide)).trans (w3_v54_1 m ρ c)

/-! ## Before region 2: node features, edges, degrees, neighbour sums, weights -/

theorem w5_v57 : W5 m ρ c (Proc.devRef .tc main_v57) = Cert.ReferenceIdeal.Stages.val_main_v54 (F := Ideal) (W0 m ρ c (Proc.devRef .tc main_arg1)) (W0 m ρ c (Proc.devRef .tc main_arg2)) (W0 m ρ c (Proc.devRef .tc main_arg3)) (W0 m ρ c (Proc.devRef .tc main_arg4)) (W0 m ρ c (Proc.devRef .tc main_arg5)) (W0 m ρ c (Proc.devRef .tc main_arg6)) (W0 m ρ c (Proc.devRef .tc main_arg7)) (W0 m ρ c (Proc.devRef .tc main_arg8)) (W0 m ρ c (Proc.devRef .tc main_arg9)) (W0 m ρ c (Proc.devRef .tc main_arg10)) (W0 m ρ c (Proc.devRef .tc main_arg11)) (W0 m ρ c (Proc.devRef .tc main_arg12)) (W0 m ρ c (Proc.devRef .tc main_arg13)) := by
  refine (s2_v57 (W4 m ρ c)).trans ?_
  rw [w4_v54_0 m ρ c, w4_v56_0 m ρ c]
  exact (ref_join _ _ _ _ _ _ _ _ _ _ _ _ _).symm

theorem w5_v60 : W5 m ρ c (Proc.devRef .tc main_v60) = Cert.ReferenceIdeal.Stages.val_main_v56 (F := Ideal) (W0 m ρ c (Proc.devRef .tc main_arg0)) := by
  refine (s2_v60 (W4 m ρ c)).trans ?_
  rw [w4_arg0 m ρ c]
theorem w5_v62 : W5 m ρ c (Proc.devRef .tc main_v62) = Cert.ReferenceIdeal.Stages.val_main_v58 (F := Ideal) (W0 m ρ c (Proc.devRef .tc main_arg0)) := by
  refine (s2_v62 (W4 m ρ c)).trans ?_
  rw [w4_arg0 m ρ c]

theorem w5_v71 : W5 m ρ c (Proc.devRef .tc main_v71)
    = Cert.ReferenceIdeal.Layers.invCol (Cert.ReferenceIdeal.Stages.val_main_v64 (F := Ideal) (W0 m ρ c (Proc.devRef .tc main_arg0))) Cert.ReferenceIdeal.Gen.bcast_S_S150000 Cert.ReferenceIdeal.Gen.bcast_S150000_S150000x1_0 := by
  refine (s2_v71 (W4 m ρ c)).trans ?_
  rw [w4_arg0 m ρ c]
  rfl

theorem w5_v82 : W5 m ρ c (Proc.devRef .tc main_v82) = Cert.ReferenceIdeal.Stages.val_main_v74 (F := Ideal) (W0 m ρ c (Proc.devRef .tc main_arg0)) (W0 m ρ c (Proc.devRef .tc main_arg1)) (W0 m ρ c (Proc.devRef .tc main_arg2)) (W0 m ρ c (Proc.devRef .tc main_arg3)) (W0 m ρ c (Proc.devRef .tc main_arg4)) (W0 m ρ c (Proc.devRef .tc main_arg5)) (W0 m ρ c (Proc.devRef .tc main_arg6)) (W0 m ρ c (Proc.devRef .tc main_arg7)) (W0 m ρ c (Proc.devRef .tc main_arg8)) (W0 m ρ c (Proc.devRef .tc main_arg9)) (W0 m ρ c (Proc.devRef .tc main_arg10)) (W0 m ρ c (Proc.devRef .tc main_arg11)) (W0 m ρ c (Proc.devRef .tc main_arg12)) (W0 m ρ c (Proc.devRef .tc main_arg13)) := by
  refine (s2_v82 (W4 m ρ c)).trans ?_
  rw [w4_v54_1 m ρ c, w4_v56_1 m ρ c, w4_arg0 m ρ c, ← ref_join, ← ref_sum1]

theorem w5_v83 : W5 m ρ c (Proc.devRef .tc main_v83) = W0 m ρ c (Proc.devRef .tc main_arg18) :=
  (s2_v83 (W4 m ρ c)).trans (w4_arg18 m ρ c)
theorem w5_v85 : W5 m ρ c (Proc.devRef .tc main_v85)
    = extractStridedSlice S128x128 ![0, 0] (W0 m ρ c (Proc.devRef .tc main_arg14)) slices_S256x128_S128x128_0_0 := by
  refine (s2_v85 (W4 m ρ c)).trans ?_
  rw [w4_arg14 m ρ c]
theorem w5_v87 : W5 m ρ c (Proc.devRef .tc main_v87)
    = extractStridedSlice S128x128 ![128, 0] (W0 m ρ c (Proc.devRef .tc main_arg14)) slices_S256x128_S128x128_128_0 := by
  refine (s2_v87 (W4 m ρ c)).trans ?_
  rw [w4_arg14 m ρ c]

/-! ## Region 2: the first layer -/

theorem first_layer_is (x : Buf (Elt Ideal) ((c : Thread nD τ).loc main_v88_0))
    (hx : x = rect (layer (V5 m ρ c main_v57) (V5 m ρ c main_v82) (V5 m ρ c main_v71) (V5 m ρ c main_v83) (V5 m ρ c main_arg19)
      (V5 m ρ c main_v85) (V5 m ρ c main_v87) (V5 m ρ c main_arg15))) :
    x = Cert.ReferenceIdeal.Stages.val_main_v88 (F := Ideal) (W0 m ρ c (Proc.devRef .tc main_arg0)) (W0 m ρ c (Proc.devRef .tc main_arg1)) (W0 m ρ c (Proc.devRef .tc main_arg2)) (W0 m ρ c (Proc.devRef .tc main_arg3)) (W0 m ρ c (Proc.devRef .tc main_arg4)) (W0 m ρ c (Proc.devRef .tc main_arg5)) (W0 m ρ c (Proc.devRef .tc main_arg6)) (W0 m ρ c (Proc.devRef .tc main_arg7)) (W0 m ρ c (Proc.devRef .tc main_arg8)) (W0 m ρ c (Proc.devRef .tc main_arg9)) (W0 m ρ c (Proc.devRef .tc main_arg10)) (W0 m ρ c (Proc.devRef .tc main_arg11)) (W0 m ρ c (Proc.devRef .tc main_arg12)) (W0 m ρ c (Proc.devRef .tc main_arg13)) (W0 m ρ c (Proc.devRef .tc main_arg14)) (W0 m ρ c (Proc.devRef .tc main_arg15)) (W0 m ρ c (Proc.devRef .tc main_arg18)) (W0 m ρ c (Proc.devRef .tc main_arg19)) := by
  rw [hx, show V5 m ρ c main_v57 = _ from w5_v57 m ρ c, show V5 m ρ c main_v82 = _ from w5_v82 m ρ c,
    show V5 m ρ c main_v71 = _ from w5_v71 m ρ c, show V5 m ρ c main_v83 = _ from w5_v83 m ρ c,
    show V5 m ρ c main_arg19 = _ from w5_arg19 m ρ c, show V5 m ρ c main_v85 = _ from w5_v85 m ρ c,
    show V5 m ρ c main_v87 = _ from w5_v87 m ρ c, show V5 m ρ c main_arg15 = _ from w5_arg15 m ρ c]
  exact (Cert.ReferenceIdeal.Layers.first_layer _ _ _ _ _ _ _ _ _ _ _ _ _ _ _ _ _ _ _ _ _ _).symm

theorem w6_v88_0 : W6 m ρ c (Proc.devRef .tc main_v88_0) = Cert.ReferenceIdeal.Stages.val_main_v88 (F := Ideal) (W0 m ρ c (Proc.devRef .tc main_arg0)) (W0 m ρ c (Proc.devRef .tc main_arg1)) (W0 m ρ c (Proc.devRef .tc main_arg2)) (W0 m ρ c (Proc.devRef .tc main_arg3)) (W0 m ρ c (Proc.devRef .tc main_arg4)) (W0 m ρ c (Proc.devRef .tc main_arg5)) (W0 m ρ c (Proc.devRef .tc main_arg6)) (W0 m ρ c (Proc.devRef .tc main_arg7)) (W0 m ρ c (Proc.devRef .tc main_arg8)) (W0 m ρ c (Proc.devRef .tc main_arg9)) (W0 m ρ c (Proc.devRef .tc main_arg10)) (W0 m ρ c (Proc.devRef .tc main_arg11)) (W0 m ρ c (Proc.devRef .tc main_arg12)) (W0 m ρ c (Proc.devRef .tc main_arg13)) (W0 m ρ c (Proc.devRef .tc main_arg14)) (W0 m ρ c (Proc.devRef .tc main_arg15)) (W0 m ρ c (Proc.devRef .tc main_arg18)) (W0 m ρ c (Proc.devRef .tc main_arg19)) :=
  first_layer_is m ρ c _ ((W6_arr m ρ c 8).trans (Cert.KernelIdeal.LayerBlocks.first_f32 (V5 m ρ) c))
theorem w6_v88_1 : W6 m ρ c (Proc.devRef .tc main_v88_1) = Cert.ReferenceIdeal.Stages.val_main_v88 (F := Ideal) (W0 m ρ c (Proc.devRef .tc main_arg0)) (W0 m ρ c (Proc.devRef .tc main_arg1)) (W0 m ρ c (Proc.devRef .tc main_arg2)) (W0 m ρ c (Proc.devRef .tc main_arg3)) (W0 m ρ c (Proc.devRef .tc main_arg4)) (W0 m ρ c (Proc.devRef .tc main_arg5)) (W0 m ρ c (Proc.devRef .tc main_arg6)) (W0 m ρ c (Proc.devRef .tc main_arg7)) (W0 m ρ c (Proc.devRef .tc main_arg8)) (W0 m ρ c (Proc.devRef .tc main_arg9)) (W0 m ρ c (Proc.devRef .tc main_arg10)) (W0 m ρ c (Proc.devRef .tc main_arg11)) (W0 m ρ c (Proc.devRef .tc main_arg12)) (W0 m ρ c (Proc.devRef .tc main_arg13)) (W0 m ρ c (Proc.devRef .tc main_arg14)) (W0 m ρ c (Proc.devRef .tc main_arg15)) (W0 m ρ c (Proc.devRef .tc main_arg18)) (W0 m ρ c (Proc.devRef .tc main_arg19)) :=
  first_layer_is m ρ c _ ((W6_arr m ρ c 9).trans (Cert.KernelIdeal.LayerBlocks.first_bf16 (V5 m ρ) c))

theorem w6_v60 : W6 m ρ c (Proc.devRef .tc main_v60) = Cert.ReferenceIdeal.Stages.val_main_v56 (F := Ideal) (W0 m ρ c (Proc.devRef .tc main_arg0)) :=
  (W6_of_ne m ρ c main_v60 (by decide)).trans (w5_v60 m ρ c)
theorem w6_v62 : W6 m ρ c (Proc.devRef .tc main_v62) = Cert.ReferenceIdeal.Stages.val_main_v58 (F := Ideal) (W0 m ρ c (Proc.devRef .tc main_arg0)) :=
  (W6_of_ne m ρ c main_v62 (by decide)).trans (w5_v62 m ρ c)
theorem w6_v71 : W6 m ρ c (Proc.devRef .tc main_v71)
    = Cert.ReferenceIdeal.Layers.invCol (Cert.ReferenceIdeal.Stages.val_main_v64 (F := Ideal) (W0 m ρ c (Proc.devRef .tc main_arg0))) Cert.ReferenceIdeal.Gen.bcast_S_S150000 Cert.ReferenceIdeal.Gen.bcast_S150000_S150000x1_0 :=
  -- the column is one of region 2's own input windows: an input window's array leaves the region as it entered
  ((W6_arr m ρ c 2).trans (((dat2 (V5 m ρ) c).arrAt_in 2 rfl _).trans (A_eq2 (V5 m ρ) c 2))).trans (w5_v71 m ρ c)

/-! ## Before region 3 -/

theorem w7_v88_0 : W7 m ρ c (Proc.devRef .tc main_v88_0) = Cert.ReferenceIdeal.Stages.val_main_v88 (F := Ideal) (W0 m ρ c (Proc.devRef .tc main_arg0)) (W0 m ρ c (Proc.devRef .tc main_arg1)) (W0 m ρ c (Proc.devRef .tc main_arg2)) (W0 m ρ c (Proc.devRef .tc main_arg3)) (W0 m ρ c (Proc.devRef .tc main_arg4)) (W0 m ρ c (Proc.devRef .tc main_arg5)) (W0 m ρ c (Proc.devRef .tc main_arg6)) (W0 m ρ c (Proc.devRef .tc main_arg7)) (W0 m ρ c (Proc.devRef .tc main_arg8)) (W0 m ρ c (Proc.devRef .tc main_arg9)) (W0 m ρ c (Proc.devRef .tc main_arg10)) (W0 m ρ c (Proc.devRef .tc main_arg11)) (W0 m ρ c (Proc.devRef .tc main_arg12)) (W0 m ρ c (Proc.devRef .tc main_arg13)) (W0 m ρ c (Proc.devRef .tc main_arg14)) (W0 m ρ c (Proc.devRef .tc main_arg15)) (W0 m ρ c (Proc.devRef .tc main_arg18)) (W0 m ρ c (Proc.devRef .tc main_arg19)) :=
  (s3_v88_0 (W6 m ρ c)).trans (w6_v88_0 m ρ c)
theorem w7_v99 : W7 m ρ c (Proc.devRef .tc main_v99) = Cert.ReferenceIdeal.Stages.val_main_v98 (F := Ideal) (W0 m ρ c (Proc.devRef .tc main_arg0)) (W0 m ρ c (Proc.devRef .tc main_arg1)) (W0 m ρ c (Proc.devRef .tc main_arg2)) (W0 m ρ c (Proc.devRef .tc main_arg3)) (W0 m ρ c (Proc.devRef .tc main_arg4)) (W0 m ρ c (Proc.devRef .tc main_arg5)) (W0 m ρ c (Proc.devRef .tc main_arg6)) (W0 m ρ c (Proc.devRef .tc main_arg7)) (W0 m ρ c (Proc.devRef .tc main_arg8)) (W0 m ρ c (Proc.devRef .tc main_arg9)) (W0 m ρ c (Proc.devRef .tc main_arg10)) (W0 m ρ c (Proc.devRef .tc main_arg11)) (W0 m ρ c (Proc.devRef .tc main_arg12)) (W0 m ρ c (Proc.devRef .tc main_arg13)) (W0 m ρ c (Proc.devRef .tc main_arg14)) (W0 m ρ c (Proc.devRef .tc main_arg15)) (W0 m ρ c (Proc.devRef .tc main_arg18)) (W0 m ρ c (Proc.devRef .tc main_arg19)) := by
  refine (s3_v99 (W6 m ρ c) _ (w6_v60 m ρ c) (w6_v62 m ρ c)).trans ?_
  rw [w6_v88_1 m ρ c, ← ref_sum2]
theorem w7_v71 : W7 m ρ c (Proc.devRef .tc main_v71)
    = Cert.ReferenceIdeal.Layers.invCol (Cert.ReferenceIdeal.Stages.val_main_v64 (F := Ideal) (W0 m ρ c (Proc.devRef .tc main_arg0))) Cert.ReferenceIdeal.Gen.bcast_S_S150000 Cert.ReferenceIdeal.Gen.bcast_S150000_S150000x1_0 :=
  (s3_v71 (W6 m ρ c)).trans (w6_v71 m ρ c)
theorem w7_v100 : W7 m ρ c (Proc.devRef .tc main_v100) = W0 m ρ c (Proc.devRef .tc main_arg20) :=
  (s3_v100 (W6 m ρ c)).trans (w6_arg20 m ρ c)
theorem w7_v102 : W7 m ρ c (Proc.devRef .tc main_v102)
    = extractStridedSlice S128x128 ![0, 0] (W0 m ρ c (Proc.devRef .tc main_arg16)) slices_S256x128_S128x128_0_0 := by
  refine (s3_v102 (W6 m ρ c)).trans ?_
  rw [w6_arg16 m ρ c]
theorem w7_v104 : W7 m ρ c (Proc.devRef .tc main_v104)
    = extractStridedSlice S128x128 ![128, 0] (W0 m ρ c (Proc.devRef .tc main_arg16)) slices_S256x128_S128x128_128_0 := by
  refine (s3_v104 (W6 m ρ c)).trans ?_
  rw [w6_arg16 m ρ c]

/-! ## Region 3: the second layer, the program's result -/

theorem result_is : W8 m ρ c (Proc.devRef .tc main_v105_0) = Cert.ReferenceIdeal.Stages.val_main_v111 (F := Ideal) (W0 m ρ c (Proc.devRef .tc main_arg0)) (W0 m ρ c (Proc.devRef .tc main_arg1)) (W0 m ρ c (Proc.devRef .tc main_arg2)) (W0 m ρ c (Proc.devRef .tc main_arg3)) (W0 m ρ c (Proc.devRef .tc main_arg4)) (W0 m ρ c (Proc.devRef .tc main_arg5)) (W0 m ρ c (Proc.devRef .tc main_arg6)) (W0 m ρ c (Proc.devRef .tc main_arg7)) (W0 m ρ c (Proc.devRef .tc main_arg8)) (W0 m ρ c (Proc.devRef .tc main_arg9)) (W0 m ρ c (Proc.devRef .tc main_arg10)) (W0 m ρ c (Proc.devRef .tc main_arg11)) (W0 m ρ c (Proc.devRef .tc main_arg12)) (W0 m ρ c (Proc.devRef .tc main_arg13)) (W0 m ρ c (Proc.devRef .tc main_arg14)) (W0 m ρ c (Proc.devRef .tc main_arg15)) (W0 m ρ c (Proc.devRef .tc main_arg16)) (W0 m ρ c (Proc.devRef .tc main_arg17)) (W0 m ρ c (Proc.devRef .tc main_arg18)) (W0 m ρ c (Proc.devRef .tc main_arg19)) (W0 m ρ c (Proc.devRef .tc main_arg20)) (W0 m ρ c (Proc.devRef .tc main_arg21)) := by
  refine (W8_arr m ρ c 8).trans ((Cert.KernelIdeal.LayerBlocks.second_f32 (V7 m ρ) c).trans ?_)
  rw [show V7 m ρ c main_v88_0 = _ from w7_v88_0 m ρ c, show V7 m ρ c main_v99 = _ from w7_v99 m ρ c,
    show V7 m ρ c main_v71 = _ from w7_v71 m ρ c, show V7 m ρ c main_v100 = _ from w7_v100 m ρ c,
    show V7 m ρ c main_arg21 = _ from w7_arg21 m ρ c, show V7 m ρ c main_v102 = _ from w7_v102 m ρ c,
    show V7 m ρ c main_v104 = _ from w7_v104 m ρ c, show V7 m ρ c main_arg17 = _ from w7_arg17 m ρ c]
  exact (Cert.ReferenceIdeal.Layers.second_layer _ _ _ _ _ _ _ _ _ _ _ _ _ _ _ _ _ _ _ _ _ _ _ _ _ _).symm

end Cert.Bridge

end
-- ==== Proof.lean ====
/-
  The certificate of the text-and-graph embedding network: the kernel program (four row-blocked regions among host
  gathers, means and neighbour sums) against the plain array program.

  Both programs compute, for 100000 users and 50000 items,
      x⁰ = (cat · W + b) + e                      (cat: the means of looked-up feature and word embeddings, joined)
      xˡ⁺¹ = ( xˡ · Wt + max ((sˡ / deg) · V + v, 0) · Wb ) + w      (sˡ: for every node the sum of xˡ over the edges
                                                                        ending in it; deg = max (their number, 1))
  with a rectifier after the first of the two layers only. The kernel program differs in four ways, none of which
  changes a value on the extended reals: it rounds to a 16-bit float format before each lookup and matrix product
  (a change of format is the identity); it multiplies by the column 1 / deg instead of dividing by deg (equal at every
  extended real because deg ≥ 1 is never 0); it multiplies x and the rectified mean by the two halves of the weight
  separately instead of joining them first (a 256-term sum split into two 128-term sums: addition is commutative and
  associative); and it works in blocks of 5000 rows (each output row depends on the same row of the row-indexed
  operands only). No entry needs to be finite, so the precondition is never opened.

  The frames of the two kernel programs are the generated ones; the reference's frame is its run (RefRun: a straight
  line of operations, none of which writes an argument) with the result dropped. The kernel program's run with its result buffer named is KernelRun; what that buffer holds is
  Boundaries' result_is, the reference's last stage of the same arguments; RefResult reads the reference's own
  result buffer as that stage.
-/
import proofs.«128228_j51565377356535_2_alg».proof.Defs
import proofs.«128228_j51565377356535_2_alg».proof.Proof.Gen.Kernel
import proofs.«128228_j51565377356535_2_alg».proof.Proof.Gen.Kernel.Frame
import proofs.«128228_j51565377356535_2_alg».proof.Proof.Gen.KernelIdeal
import proofs.«128228_j51565377356535_2_alg».proof.Proof.Gen.KernelIdeal.Frame
import proofs.«128228_j51565377356535_2_alg».proof.Proof.Gen.ReferenceIdeal
import proofs.«128228_j51565377356535_2_alg».proof.Proof.Gen.Pre_finite_inputs
import proofs.«128228_j51565377356535_2_alg».proof.Proof.RefRun
import proofs.«128228_j51565377356535_2_alg».proof.Proof.RefResult
import proofs.«128228_j51565377356535_2_alg».proof.Proof.KernelRun
import proofs.«128228_j51565377356535_2_alg».proof.Proof.Boundaries
import Idealize.ShloMosaic.Adequacy
import Idealize.ShloMosaic.Init

noncomputable section

namespace Cert.Proof

open Idealize.ShloMosaic Idealize.ShloMosaic.TcCoe Idealize.SL.Sem

theorem frame_kernel : Cert.frame_Kernel (hKernel := Cert.Kernel.Gen.facts) (hPre_finite_inputs := Cert.Pre_finite_inputs.Gen.facts) :=
  fun m ρ _ => Cert.Kernel.Gen.frame m ρ

theorem frame_kernelIdeal : Cert.frame_KernelIdeal (hKernelIdeal := Cert.KernelIdeal.Gen.facts) (hPre_finite_inputs := Cert.Pre_finite_inputs.Gen.facts) :=
  fun m ρ _ => Cert.KernelIdeal.Gen.frame m ρ

theorem frame_reference : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Ops.run (F := Ideal) m ρ)

/-- The two idealized programs end with one result: the kernel program's result buffer holds the reference's last
    stage of the kernel program's arguments, and the reference's run ends at that stage of its own, equal, arguments. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.KernelIdeal.Gen.W8 m ρ c (Proc.devRef .tc Cert.KernelIdeal.main_v105_0),
    Cert.KernelIdeal.Result.run_result m ρ, ?_⟩
  refine (θ_run Cert.ReferenceIdeal.defs _ _).mono (fun _ h c => ⟨(h c).1.trans ?_, (h c).2⟩)
    (Cert.ReferenceIdeal.Ops.run (F := Ideal) m' ρ')
  refine (Cert.ReferenceIdeal.Result.result_after (StableHlo.launchContents m' c)).trans ?_
  obtain ⟨h0, h1, h2, h3, h4, h5, h6, h7, h8, h9, h10, h11, h12, h13, h14, h15, h16, h17, h18, h19, h20, h21⟩ := hagree c
  show Cert.ReferenceIdeal.Stages.val_main_v111 (F := Ideal)
      (m' ((c.tc : Thread Cert.ReferenceIdeal.nD Cert.ReferenceIdeal.τ).loc Cert.ReferenceIdeal.main_arg0))
      (m' ((c.tc : Thread Cert.ReferenceIdeal.nD Cert.ReferenceIdeal.τ).loc Cert.ReferenceIdeal.main_arg1))
      (m' ((c.tc : Thread Cert.ReferenceIdeal.nD Cert.ReferenceIdeal.τ).loc Cert.ReferenceIdeal.main_arg2))
      (m' ((c.tc : Thread Cert.ReferenceIdeal.nD Cert.ReferenceIdeal.τ).loc Cert.ReferenceIdeal.main_arg3))
      (m' ((c.tc : Thread Cert.ReferenceIdeal.nD Cert.ReferenceIdeal.τ).loc Cert.ReferenceIdeal.main_arg4))
      (m' ((c.tc : Thread Cert.ReferenceIdeal.nD Cert.ReferenceIdeal.τ).loc Cert.ReferenceIdeal.main_arg5))
      (m' ((c.tc : Thread Cert.ReferenceIdeal.nD Cert.ReferenceIdeal.τ).loc Cert.ReferenceIdeal.main_arg6))
      (m' ((c.tc : Thread Cert.ReferenceIdeal.nD Cert.ReferenceIdeal.τ).loc Cert.ReferenceIdeal.main_arg7))
      (m' ((c.tc : Thread Cert.ReferenceIdeal.nD Cert.ReferenceIdeal.τ).loc Cert.ReferenceIdeal.main_arg8))
      (m' ((c.tc : Thread Cert.ReferenceIdeal.nD Cert.ReferenceIdeal.τ).loc Cert.ReferenceIdeal.main_arg9))
      (m' ((c.tc : Thread Cert.ReferenceIdeal.nD Cert.ReferenceIdeal.τ).loc Cert.ReferenceIdeal.main_arg10))
      (m' ((c.tc : Thread Cert.ReferenceIdeal.nD Cert.ReferenceIdeal.τ).loc Cert.ReferenceIdeal.main_arg11))
      (m' ((c.tc : Thread Cert.ReferenceIdeal.nD Cert.ReferenceIdeal.τ).loc Cert.ReferenceIdeal.main_arg12))
      (m' ((c.tc : Thread Cert.ReferenceIdeal.nD Cert.ReferenceIdeal.τ).loc Cert.ReferenceIdeal.main_arg13))
      (m' ((c.tc : Thread Cert.ReferenceIdeal.nD Cert.ReferenceIdeal.τ).loc Cert.ReferenceIdeal.main_arg14))
      (m' ((c.tc : Thread Cert.ReferenceIdeal.nD Cert.ReferenceIdeal.τ).loc Cert.ReferenceIdeal.main_arg15))
      (m' ((c.tc : Thread Cert.ReferenceIdeal.nD Cert.ReferenceIdeal.τ).loc Cert.ReferenceIdeal.main_arg16))
      (m' ((c.tc : Thread Cert.ReferenceIdeal.nD Cert.ReferenceIdeal.τ).loc Cert.ReferenceIdeal.main_arg17))
      (m' ((c.tc : Thread Cert.ReferenceIdeal.nD Cert.ReferenceIdeal.τ).loc Cert.ReferenceIdeal.main_arg18))
      (m' ((c.tc : Thread Cert.ReferenceIdeal.nD Cert.ReferenceIdeal.τ).loc Cert.ReferenceIdeal.main_arg19))
      (m' ((c.tc : Thread Cert.ReferenceIdeal.nD Cert.ReferenceIdeal.τ).loc Cert.ReferenceIdeal.main_arg20))
      (m' ((c.tc : Thread Cert.ReferenceIdeal.nD Cert.ReferenceIdeal.τ).loc Cert.ReferenceIdeal.main_arg21)) = _
  rw [h0, h1, h2, h3, h4, h5, h6, h7, h8, h9, h10, h11, h12, h13, h14, h15, h16, h17, h18, h19, h20, h21]
  exact (Cert.Bridge.result_is m ρ c).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
